-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v120)) (v1 : (c : Dev Cert.KernelIdeal.nD) → Buf (Elt Ideal) ((c.tc : Thread Cert.KernelIdeal.nD Cert.KernelIdeal.τ).loc Cert.KernelIdeal.main_v124)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v120) = v0 c
          ∧ r.2.mem ((c.tc : Thread Cert.KernelIdeal.nD Cert.KernelIdeal.τ).loc Cert.KernelIdeal.main_v124) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v177) = v0 c
          ∧ r.2.mem ((c.tc : Thread Cert.ReferenceIdeal.nD Cert.ReferenceIdeal.τ).loc Cert.ReferenceIdeal.main_v181) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x512 : Shape := ⟨2, ![20000, 512]⟩
abbrev S2x160000 : Shape := ⟨2, ![2, 160000]⟩
abbrev S160000x512 : Shape := ⟨2, ![160000, 512]⟩
abbrev S20000 : Shape := ⟨1, ![20000]⟩
abbrev S3x512x512 : Shape := ⟨3, ![3, 512, 512]⟩
abbrev S3x512 : Shape := ⟨2, ![3, 512]⟩
abbrev S_ : Shape := ⟨0, ![]⟩

class Facts : Prop where
  bcast_S_S20000x512 : S_.BroadcastsInDim S20000x512 (![] : Fin 0 → Fin S20000x512.rank)
  reducesTo_S20000x512_S_d0_1 : S20000x512.ReducesTo [0, 1] S_
  h_S_ : 0 < S_.numel
  bcast_S_S160000x512 : S_.BroadcastsInDim S160000x512 (![] : Fin 0 → Fin S160000x512.rank)
  reducesTo_S160000x512_S_d0_1 : S160000x512.ReducesTo [0, 1] S_
  bcast_S_S3x512x512 : S_.BroadcastsInDim S3x512x512 (![] : Fin 0 → Fin S3x512x512.rank)
  reducesTo_S3x512x512_S_d0_1_2 : S3x512x512.ReducesTo [0, 1, 2] S_
  bcast_S_S3x512 : S_.BroadcastsInDim S3x512 (![] : Fin 0 → Fin S3x512.rank)
  reducesTo_S3x512_S_d0_1 : S3x512.ReducesTo [0, 1] S_

variable [Facts]

def fn_part2 {F : FTy → Type} [FloatOps F] (main_arg9 : FVec F S3x512 .f32) (main_v33 : IVec S_ 1) : IVec S_ 1 :=
  let main_v34 : FVec F S3x512 .f32 := Host.absf main_arg9
  let main_cst_12 : FVec F S_ .f32 := constant S_ .f32 0x7F800000#32
  let main_v35 : FVec F S3x512 .f32 := broadcastInDim S3x512 ![] bcast_S_S3x512 main_cst_12
  let main_v36 : IVec S3x512 1 := cmpf .olt main_v34 main_v35
  let main_c_13 : IVec S_ 1 := constantI S_ 1 1#1
  let main_v37 : IVec S_ 1 := (fun x v => Host.reduce IntOp.andi x v reducesTo_S3x512_S_d0_1 h_S_) main_v36 main_c_13
  let main_v38 : IVec S_ 1 := andi main_v33 main_v37
  main_v38

def fn_part1 {F : FTy → Type} [FloatOps F] (main_arg6 : FVec F S3x512 .f32) (main_arg7 : FVec F S3x512 .f32) (main_arg8 : FVec F S3x512x512 .f32) (main_arg9 : FVec F S3x512 .f32) (main_v13 : IVec S_ 1) (main_v16 : IVec S3x512 1) : IVec S_ 1 :=
  let main_c_5 : IVec S_ 1 := constantI S_ 1 1#1
  let main_v17 : IVec S_ 1 := (fun x v => Host.reduce IntOp.andi x v reducesTo_S3x512_S_d0_1 h_S_) main_v16 main_c_5
  let main_v18 : IVec S_ 1 := andi main_v13 main_v17
  let main_v19 : FVec F S3x512 .f32 := Host.absf main_arg6
  let main_cst_6 : FVec F S_ .f32 := constant S_ .f32 0x7F800000#32
  let main_v20 : FVec F S3x512 .f32 := broadcastInDim S3x512 ![] bcast_S_S3x512 main_cst_6
  let main_v21 : IVec S3x512 1 := cmpf .olt main_v19 main_v20
  let main_c_7 : IVec S_ 1 := constantI S_ 1 1#1
  let main_v22 : IVec S_ 1 := (fun x v => Host.reduce IntOp.andi x v reducesTo_S3x512_S_d0_1 h_S_) main_v21 main_c_7
  let main_v23 : IVec S_ 1 := andi main_v18 main_v22
  let main_v24 : FVec F S3x512 .f32 := Host.absf main_arg7
  let main_cst_8 : FVec F S_ .f32 := constant S_ .f32 0x7F800000#32
  let main_v25 : FVec F S3x512 .f32 := broadcastInDim S3x512 ![] bcast_S_S3x512 main_cst_8
  let main_v26 : IVec S3x512 1 := cmpf .olt main_v24 main_v25
  let main_c_9 : IVec S_ 1 := constantI S_ 1 1#1
  let main_v27 : IVec S_ 1 := (fun x v => Host.reduce IntOp.andi x v reducesTo_S3x512_S_d0_1 h_S_) main_v26 main_c_9
  let main_v28 : IVec S_ 1 := andi main_v23 main_v27
  let main_v29 : FVec F S3x512x512 .f32 := Host.absf main_arg8
  let main_cst_10 : FVec F S_ .f32 := constant S_ .f32 0x7F800000#32
  let main_v30 : FVec F S3x512x512 .f32 := broadcastInDim S3x512x512 ![] bcast_S_S3x512x512 main_cst_10
  let main_v31 : IVec S3x512x512 1 := cmpf .olt main_v29 main_v30
  let main_c_11 : IVec S_ 1 := constantI S_ 1 1#1
  let main_v32 : IVec S_ 1 := (fun x v => Host.reduce IntOp.andi x v reducesTo_S3x512x512_S_d0_1_2 h_S_) main_v31 main_c_11
  let main_v33 : IVec S_ 1 := andi main_v28 main_v32
  fn_part2 (F := F) main_arg9 main_v33

def fn {F : FTy → Type} [FloatOps F] (main_arg0 : FVec F S20000x512 .f32) (main_arg1 : IVec S2x160000 32) (main_arg2 : FVec F S160000x512 .f32) (main_arg3 : IVec S20000 32) (main_arg4 : FVec F S3x512x512 .f32) (main_arg5 : FVec F S3x512 .f32) (main_arg6 : FVec F S3x512 .f32) (main_arg7 : FVec F S3x512 .f32) (main_arg8 : FVec F S3x512x512 .f32) (main_arg9 : FVec F S3x512 .f32) : IVec S_ 1 :=
  let main_v0 : FVec F S20000x512 .f32 := Host.absf main_arg0
  let main_cst : FVec F S_ .f32 := constant S_ .f32 0x7F800000#32
  let main_v1 : FVec F S20000x512 .f32 := broadcastInDim S20000x512 ![] bcast_S_S20000x512 main_cst
  let main_v2 : IVec S20000x512 1 := cmpf .olt main_v0 main_v1
  let main_c : IVec S_ 1 := constantI S_ 1 1#1
  let main_v3 : IVec S_ 1 := (fun x v => Host.reduce IntOp.andi x v reducesTo_S20000x512_S_d0_1 h_S_) main_v2 main_c
  let main_v4 : FVec F S160000x512 .f32 := Host.absf main_arg2
  let main_cst_0 : FVec F S_ .f32 := constant S_ .f32 0x7F800000#32
  let main_v5 : FVec F S160000x512 .f32 := broadcastInDim S160000x512 ![] bcast_S_S160000x512 main_cst_0
  let main_v6 : IVec S160000x512 1 := cmpf .olt main_v4 main_v5
  let main_c_1 : IVec S_ 1 := constantI S_ 1 1#1
  let main_v7 : IVec S_ 1 := (fun x v => Host.reduce IntOp.andi x v reducesTo_S160000x512_S_d0_1 h_S_) main_v6 main_c_1
  let main_v8 : IVec S_ 1 := andi main_v3 main_v7
  let main_v9 : FVec F S3x512x512 .f32 := Host.absf main_arg4
  let main_cst_2 : FVec F S_ .f32 := constant S_ .f32 0x7F800000#32
  let main_v10 : FVec F S3x512x512 .f32 := broadcastInDim S3x512x512 ![] bcast_S_S3x512x512 main_cst_2
  let main_v11 : IVec S3x512x512 1 := cmpf .olt main_v9 main_v10
  let main_c_3 : IVec S_ 1 := constantI S_ 1 1#1
  let main_v12 : IVec S_ 1 := (fun x v => Host.reduce IntOp.andi x v reducesTo_S3x512x512_S_d0_1_2 h_S_) main_v11 main_c_3
  let main_v13 : IVec S_ 1 := andi main_v8 main_v12
  let main_v14 : FVec F S3x512 .f32 := Host.absf main_arg5
  let main_cst_4 : FVec F S_ .f32 := constant S_ .f32 0x7F800000#32
  let main_v15 : FVec F S3x512 .f32 := broadcastInDim S3x512 ![] bcast_S_S3x512 main_cst_4
  let main_v16 : IVec S3x512 1 := cmpf .olt main_v14 main_v15
  fn_part1 (F := F) main_arg6 main_arg7 main_arg8 main_arg9 main_v13 main_v16
-- ==== Kernel.lean ====
abbrev S20000x512 : Shape := ⟨2, ![20000, 512]⟩
abbrev S2x160000 : Shape := ⟨2, ![2, 160000]⟩
abbrev S160000x512 : Shape := ⟨2, ![160000, 512]⟩
abbrev S20000 : Shape := ⟨1, ![20000]⟩
abbrev S3x512x512 : Shape := ⟨3, ![3, 512, 512]⟩
abbrev S3x512 : Shape := ⟨2, ![3, 512]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S2000x512 : Shape := ⟨2, ![2000, 512]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩
abbrev S128x512 : Shape := ⟨2, ![128, 512]⟩
abbrev S20000x1 : Shape := ⟨2, ![20000, 1]⟩
abbrev S128x1536 : Shape := ⟨2, ![128, 1536]⟩

abbrev nBuf : Space → Nat
  | .hbm => 219
  | .vmem => 72
  | .smem => 0
  | _ => 0

abbrev hbmTy0_0 (i : Nat) : BufTy := match i % 128 with
  | 0 => ⟨S20000x512, .f32⟩
  | 1 => ⟨S2x160000, .i32⟩
  | 2 => ⟨S160000x512, .f32⟩
  | 3 => ⟨S20000, .i32⟩
  | 4 => ⟨S3x512x512, .f32⟩
  | 5 => ⟨S3x512, .f32⟩
  | 6 => ⟨S3x512, .f32⟩
  | 7 => ⟨S3x512, .f32⟩
  | 8 => ⟨S3x512x512, .f32⟩
  | 9 => ⟨S3x512, .f32⟩
  | 10 => ⟨S1x160000, .i32⟩
  | 11 => ⟨S160000, .i32⟩
  | 12 => ⟨S1x160000, .i32⟩
  | 13 => ⟨S160000, .i32⟩
  | 14 => ⟨S_, .i32⟩
  | 15 => ⟨S160000, .i32⟩
  | 16 => ⟨S160000, .i1⟩
  | 17 => ⟨S_, .i32⟩
  | 18 => ⟨S160000, .i32⟩
  | 19 => ⟨S160000, .i32⟩
  | 20 => ⟨S160000, .i32⟩
  | 21 => ⟨S160000x1, .i32⟩
  | 22 => ⟨S160000x512, .f32⟩
  | 23 => ⟨S160000x512, .f32⟩
  | 24 => ⟨S_, .f32⟩
  | 25 => ⟨S20000x512, .f32⟩
  | 26 => ⟨S160000x1, .i32⟩
  | 27 => ⟨S20000x512, .f32⟩
  | 28 => ⟨S1x512x512, .f32⟩
  | 29 => ⟨S512x512, .f32⟩
  | 30 => ⟨S512x512, .f32⟩
  | 31 => ⟨S1x512, .f32⟩
  | 32 => ⟨S512, .f32⟩
  | 33 => ⟨S1x512, .f32⟩
  | 34 => ⟨S20000x512, .f32⟩
  | 35 => ⟨S_, .f32⟩
  | 36 => ⟨S512, .f32⟩
  | 37 => ⟨S_, .f32⟩
  | 38 => ⟨S512, .f32⟩
  | 39 => ⟨S512, .f32⟩
  | 40 => ⟨S_, .i32⟩
  | 41 => ⟨S_, .f32⟩
  | 42 => ⟨S512, .f32⟩
  | 43 => ⟨S1x512, .f32⟩
  | 44 => ⟨S_, .f32⟩
  | 45 => ⟨S1x512, .f32⟩
  | 46 => ⟨S1x512, .f32⟩
  | 47 => ⟨S20000x512, .f32⟩
  | 48 => ⟨S20000x512, .f32⟩
  | 49 => ⟨S20000x512, .f32⟩
  | 50 => ⟨S_, .f32⟩
  | 51 => ⟨S_, .f32⟩
  | 52 => ⟨S_, .f32⟩
  | 53 => ⟨S_, .f32⟩
  | 54 => ⟨S512, .f32⟩
  | 55 => ⟨S512, .f32⟩
  | 56 => ⟨S512, .f32⟩
  | 57 => ⟨S_, .f32⟩
  | 58 => ⟨S_, .i1⟩
  | 59 => ⟨S_, .f32⟩
  | 60 => ⟨S_, .f32⟩
  | 61 => ⟨S512, .f32⟩
  | 62 => ⟨S512, .f32⟩
  | 63 => ⟨S1x512x512, .f32⟩
  | 64 => ⟨S512x512, .f32⟩
  | 65 => ⟨S512x512, .f32⟩
  | 66 => ⟨S1x512, .f32⟩
  | 67 => ⟨S512, .f32⟩
  | 68 => ⟨S1x512, .f32⟩
  | 69 => ⟨S512, .f32⟩
  | 70 => ⟨S1x512, .f32⟩
  | 71 => ⟨S512, .f32⟩
  | 72 => ⟨S1x512, .f32⟩
  | 73 => ⟨S1x512, .f32⟩
  | 74 => ⟨S1x512, .f32⟩
  | 75 => ⟨S1x512, .f32⟩
  | 76 => ⟨S1x512, .f32⟩
  | 77 => ⟨S20000x512, .f32⟩
  | 78 => ⟨S_, .f32⟩
  | 79 => ⟨S128x512, .f32⟩
  | 80 => ⟨S20000x1, .i32⟩
  | 81 => ⟨S128x512, .f32⟩
  | 82 => ⟨S_, .i32⟩
  | 83 => ⟨S160000, .i32⟩
  | 84 => ⟨S160000, .i1⟩
  | 85 => ⟨S_, .i32⟩
  | 86 => ⟨S160000, .i32⟩
  | 87 => ⟨S160000, .i32⟩
  | 88 => ⟨S160000, .i32⟩
  | 89 => ⟨S160000x1, .i32⟩
  | 90 => ⟨S160000x512, .f32⟩
  | 91 => ⟨S160000x512, .f32⟩
  | 92 => ⟨S_, .f32⟩
  | 93 => ⟨S20000x512, .f32⟩
  | 94 => ⟨S160000x1, .i32⟩
  | 95 => ⟨S20000x512, .f32⟩
  | 96 => ⟨S1x512x512, .f32⟩
  | 97 => ⟨S512x512, .f32⟩
  | 98 => ⟨S512x512, .f32⟩
  | 99 => ⟨S1x512, .f32⟩
  | 100 => ⟨S512, .f32⟩
  | 101 => ⟨S1x512, .f32⟩
  | 102 => ⟨S20000x512, .f32⟩
  | 103 => ⟨S_, .f32⟩
  | 104 => ⟨S512, .f32⟩
  | 105 => ⟨S_, .f32⟩
  | 106 => ⟨S512, .f32⟩
  | 107 => ⟨S512, .f32⟩
  | 108 => ⟨S_, .i32⟩
  | 109 => ⟨S_, .f32⟩
  | 110 => ⟨S512, .f32⟩
  | 111 => ⟨S1x512, .f32⟩
  | 112 => ⟨S_, .f32⟩
  | 113 => ⟨S1x512, .f32⟩
  | 114 => ⟨S1x512, .f32⟩
  | 115 => ⟨S20000x512, .f32⟩
  | 116 => ⟨S20000x512, .f32⟩
  | 117 => ⟨S20000x512, .f32⟩
  | 118 => ⟨S_, .f32⟩
  | 119 => ⟨S_, .f32⟩
  | 120 => ⟨S_, .f32⟩
  | 121 => ⟨S_, .f32⟩
  | 122 => ⟨S512, .f32⟩
  | 123 => ⟨S512, .f32⟩
  | 124 => ⟨S512, .f32⟩
  | 125 => ⟨S_, .f32⟩
  | 126 => ⟨S_, .i1⟩
  | 127 => ⟨S_, .f32⟩
  | _ => ⟨S20000x512, .f32⟩

abbrev hbmTy0_1 (i : Nat) : BufTy := match i % 128 with
  | 0 => ⟨S_, .f32⟩
  | 1 => ⟨S512, .f32⟩
  | 2 => ⟨S512, .f32⟩
  | 3 => ⟨S1x512x512, .f32⟩
  | 4 => ⟨S512x512, .f32⟩
  | 5 => ⟨S512x512, .f32⟩
  | 6 => ⟨S1x512, .f32⟩
  | 7 => ⟨S512, .f32⟩
  | 8 => ⟨S1x512, .f32⟩
  | 9 => ⟨S512, .f32⟩
  | 10 => ⟨S1x512, .f32⟩
  | 11 => ⟨S512, .f32⟩
  | 12 => ⟨S1x512, .f32⟩
  | 13 => ⟨S1x512, .f32⟩
  | 14 => ⟨S1x512, .f32⟩
  | 15 => ⟨S1x512, .f32⟩
  | 16 => ⟨S1x512, .f32⟩
  | 17 => ⟨S20000x512, .f32⟩
  | 18 => ⟨S_, .f32⟩
  | 19 => ⟨S128x512, .f32⟩
  | 20 => ⟨S20000x1, .i32⟩
  | 21 => ⟨S128x512, .f32⟩
  | 22 => ⟨S_, .i32⟩
  | 23 => ⟨S160000, .i32⟩
  | 24 => ⟨S160000, .i1⟩
  | 25 => ⟨S_, .i32⟩
  | 26 => ⟨S160000, .i32⟩
  | 27 => ⟨S160000, .i32⟩
  | 28 => ⟨S160000, .i32⟩
  | 29 => ⟨S160000x1, .i32⟩
  | 30 => ⟨S160000x512, .f32⟩
  | 31 => ⟨S160000x512, .f32⟩
  | 32 => ⟨S_, .f32⟩
  | 33 => ⟨S20000x512, .f32⟩
  | 34 => ⟨S160000x1, .i32⟩
  | 35 => ⟨S20000x512, .f32⟩
  | 36 => ⟨S1x512x512, .f32⟩
  | 37 => ⟨S512x512, .f32⟩
  | 38 => ⟨S512x512, .f32⟩
  | 39 => ⟨S1x512, .f32⟩
  | 40 => ⟨S512, .f32⟩
  | 41 => ⟨S1x512, .f32⟩
  | 42 => ⟨S20000x512, .f32⟩
  | 43 => ⟨S_, .f32⟩
  | 44 => ⟨S512, .f32⟩
  | 45 => ⟨S_, .f32⟩
  | 46 => ⟨S512, .f32⟩
  | 47 => ⟨S512, .f32⟩
  | 48 => ⟨S_, .i32⟩
  | 49 => ⟨S_, .f32⟩
  | 50 => ⟨S512, .f32⟩
  | 51 => ⟨S1x512, .f32⟩
  | 52 => ⟨S_, .f32⟩
  | 53 => ⟨S1x512, .f32⟩
  | 54 => ⟨S1x512, .f32⟩
  | 55 => ⟨S20000x512, .f32⟩
  | 56 => ⟨S20000x512, .f32⟩
  | 57 => ⟨S20000x512, .f32⟩
  | 58 => ⟨S_, .f32⟩
  | 59 => ⟨S_, .f32⟩
  | 60 => ⟨S_, .f32⟩
  | 61 => ⟨S_, .f32⟩
  | 62 => ⟨S512, .f32⟩
  | 63 => ⟨S512, .f32⟩
  | 64 => ⟨S512, .f32⟩
  | 65 => ⟨S_, .f32⟩
  | 66 => ⟨S_, .i1⟩
  | 67 => ⟨S_, .f32⟩
  | 68 => ⟨S_, .f32⟩
  | 69 => ⟨S512, .f32⟩
  | 70 => ⟨S512, .f32⟩
  | 71 => ⟨S1x512x512, .f32⟩
  | 72 => ⟨S512x512, .f32⟩
  | 73 => ⟨S512x512, .f32⟩
  | 74 => ⟨S1x512, .f32⟩
  | 75 => ⟨S512, .f32⟩
  | 76 => ⟨S1x512, .f32⟩
  | 77 => ⟨S512, .f32⟩
  | 78 => ⟨S1x512, .f32⟩
  | 79 => ⟨S512, .f32⟩
  | 80 => ⟨S1x512, .f32⟩
  | 81 => ⟨S1x512, .f32⟩
  | 82 => ⟨S1x512, .f32⟩
  | 83 => ⟨S1x512, .f32⟩
  | 84 => ⟨S1x512, .f32⟩
  | 85 => ⟨S20000x512, .f32⟩
  | 86 => ⟨S_, .f32⟩
  | 87 => ⟨S128x512, .f32⟩
  | 88 => ⟨S20000x1, .i32⟩
  | 89 => ⟨S128x512, .f32⟩
  | 90 => ⟨S128x1536, .f32⟩
  | _ => ⟨S20000x512, .f32⟩

abbrev hbmTy (i : Nat) : BufTy := match i / 128 with
  | 0 => hbmTy0_0 i
  | 1 => hbmTy0_1 i
  | _ => ⟨S20000x512, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S2000x512, .f32⟩
  | .local _ .vmem, ⟨3, _⟩ => ⟨S2000x512, .f32⟩
  | .local _ .vmem, ⟨4, _⟩ => ⟨S2000x512, .f32⟩
  | .local _ .vmem, ⟨5, _⟩ => ⟨S2000x512, .f32⟩
  | .local _ .vmem, ⟨6, _⟩ => ⟨S2000x512, .f32⟩
  | .local _ .vmem, ⟨7, _⟩ => ⟨S2000x512, .f32⟩
  | .local _ .vmem, ⟨8, _⟩ => ⟨S2000x512, .f32⟩
  | .local _ .vmem, ⟨9, _⟩ => ⟨S2000x512, .f32⟩
  | .local _ .vmem, ⟨10, _⟩ => ⟨S512x512, .f32⟩
  | .local _ .vmem, ⟨11, _⟩ => ⟨S1x512, .f32⟩
  | .local _ .vmem, ⟨12, _⟩ => ⟨S2000x512, .f32⟩
  | .local _ .vmem, ⟨13, _⟩ => ⟨S2000x512, .f32⟩
  | .local _ .vmem, ⟨14, _⟩ => ⟨S2000x512, .f32⟩
  | .local _ .vmem, ⟨15, _⟩ => ⟨S2000x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S512x512, .f32⟩
  | .local _ .vmem, ⟨21, _⟩ => ⟨S1x512, .f32⟩
  | .local _ .vmem, ⟨22, _⟩ => ⟨S2000x512, .f32⟩
  | .local _ .vmem, ⟨23, _⟩ => ⟨S2000x512, .f32⟩
  | .local _ .vmem, ⟨24, _⟩ => ⟨S2000x512, .f32⟩
  | .local _ .vmem, ⟨25, _⟩ => ⟨S2000x512, .f32⟩
  | .local _ .vmem, ⟨26, _⟩ => ⟨S2000x512, .f32⟩
  | .local _ .vmem, ⟨27, _⟩ => ⟨S2000x512, .f32⟩
  | .local _ .vmem, ⟨28, _⟩ => ⟨S2000x512, .f32⟩
  | .local _ .vmem, ⟨29, _⟩ => ⟨S2000x512, .f32⟩
  | .local _ .vmem, ⟨30, _⟩ => ⟨S2000x512, .f32⟩
  | .local _ .vmem, ⟨31, _⟩ => ⟨S2000x512, .f32⟩
  | .local _ .vmem, ⟨32, _⟩ => ⟨S2000x512, .f32⟩
  | .local _ .vmem, ⟨33, _⟩ => ⟨S2000x512, .f32⟩
  | .local _ .vmem, ⟨34, _⟩ => ⟨S512x512, .f32⟩
  | .local _ .vmem, ⟨35, _⟩ => ⟨S1x512, .f32⟩
  | .local _ .vmem, ⟨36, _⟩ => ⟨S2000x512, .f32⟩
  | .local _ .vmem, ⟨37, _⟩ => ⟨S2000x512, .f32⟩
  | .local _ .vmem, ⟨38, _⟩ => ⟨S2000x512, .f32⟩
  | .local _ .vmem, ⟨39, _⟩ => ⟨S2000x512, .f32⟩
  | .local _ .vmem, ⟨40, _⟩ => ⟨S1x512, .f32⟩
  | .local _ .vmem, ⟨41, _⟩ => ⟨S1x512, .f32⟩
  | .local _ .vmem, ⟨42, _⟩ => ⟨S1x512, .f32⟩
  | .local _ .vmem, ⟨43, _⟩ => ⟨S1x512, .f32⟩
  | .local _ .vmem, ⟨44, _⟩ => ⟨S512x512, .f32⟩
  | .local _ .vmem, ⟨45, _⟩ => ⟨S1x512, .f32⟩
  | .local _ .vmem, ⟨46, _⟩ => ⟨S2000x512, .f32⟩
  | .local _ .vmem, ⟨47, _⟩ => ⟨S2000x512, .f32⟩
  | .local _ .vmem, ⟨48, _⟩ => ⟨S2000x512, .f32⟩
  | .local _ .vmem, ⟨49, _⟩ => ⟨S2000x512, .f32⟩
  | .local _ .vmem, ⟨50, _⟩ => ⟨S2000x512, .f32⟩
  | .local _ .vmem, ⟨51, _⟩ => ⟨S2000x512, .f32⟩
  | .local _ .vmem, ⟨52, _⟩ => ⟨S2000x512, .f32⟩
  | .local _ .vmem, ⟨53, _⟩ => ⟨S2000x512, .f32⟩
  | .local _ .vmem, ⟨54, _⟩ => ⟨S2000x512, .f32⟩
  | .local _ .vmem, ⟨55, _⟩ => ⟨S2000x512, .f32⟩
  | .local _ .vmem, ⟨56, _⟩ => ⟨S2000x512, .f32⟩
  | .local _ .vmem, ⟨57, _⟩ => ⟨S2000x512, .f32⟩
  | .local _ .vmem, ⟨58, _⟩ => ⟨S512x512, .f32⟩
  | .local _ .vmem, ⟨59, _⟩ => ⟨S1x512, .f32⟩
  | .local _ .vmem, ⟨60, _⟩ => ⟨S2000x512, .f32⟩
  | .local _ .vmem, ⟨61, _⟩ => ⟨S2000x512, .f32⟩
  | .local _ .vmem, ⟨62, _⟩ => ⟨S2000x512, .f32⟩
  | .local _ .vmem, ⟨63, _⟩ => ⟨S2000x512, .f32⟩
  | .local _ .vmem, ⟨64, _⟩ => ⟨S1x512, .f32⟩
  | .local _ .vmem, ⟨65, _⟩ => ⟨S1x512, .f32⟩
  | .local _ .vmem, ⟨66, _⟩ => ⟨S1x512, .f32⟩
  | .local _ .vmem, ⟨67, _⟩ => ⟨S1x512, .f32⟩
  | .local _ .vmem, ⟨68, _⟩ => ⟨S512x512, .f32⟩
  | .local _ .vmem, ⟨69, _⟩ => ⟨S1x512, .f32⟩
  | .local _ .vmem, ⟨70, _⟩ => ⟨S2000x512, .f32⟩
  | .local _ .vmem, ⟨71, _⟩ => ⟨S2000x512, .f32⟩
  | _, _ => ⟨S20000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_c_3 : Ref sig .tc := ⟨.hbm, 40, rfl⟩
abbrev main_call0_cst : Ref sig .tc := ⟨.hbm, 41, rfl⟩
abbrev main_call0_v0 : Ref sig .tc := ⟨.hbm, 42, rfl⟩
abbrev main_call0_v1 : Ref sig .tc := ⟨.hbm, 43, rfl⟩
abbrev main_call0_cst_0 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_v6 : Ref sig .tc := ⟨.hbm, 49, rfl⟩
abbrev main_call0_v7 : Ref sig .tc := ⟨.hbm, 50, rfl⟩
abbrev main_call0_cst_1 : Ref sig .tc := ⟨.hbm, 51, rfl⟩
abbrev main_call0_v8 : Ref sig .tc := ⟨.hbm, 52, rfl⟩
abbrev main_call0_cst_2 : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_call0_cst_3 : Ref sig .tc := ⟨.hbm, 57, rfl⟩
abbrev main_call0_v12 : Ref sig .tc := ⟨.hbm, 58, rfl⟩
abbrev main_call0_cst_4 : Ref sig .tc := ⟨.hbm, 59, rfl⟩
abbrev main_call0_call0_v0 : Ref sig .tc := ⟨.hbm, 60, rfl⟩
abbrev main_call0_call0_v1 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_cst_4 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_c_5 : Ref sig .tc := ⟨.hbm, 82, rfl⟩
abbrev main_v44 : Ref sig .tc := ⟨.hbm, 83, rfl⟩
abbrev main_v45 : Ref sig .tc := ⟨.hbm, 84, rfl⟩
abbrev main_c_6 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_cst_7 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_cst_8 : Ref sig .tc := ⟨.hbm, 103, rfl⟩
abbrev main_v62 : Ref sig .tc := ⟨.hbm, 104, rfl⟩
abbrev main_cst_9 : Ref sig .tc := ⟨.hbm, 105, rfl⟩
abbrev main_v63 : Ref sig .tc := ⟨.hbm, 106, rfl⟩
abbrev main_v64 : Ref sig .tc := ⟨.hbm, 107, rfl⟩
abbrev main_c_10 : Ref sig .tc := ⟨.hbm, 108, rfl⟩
abbrev main_call1_cst : Ref sig .tc := ⟨.hbm, 109, rfl⟩
abbrev main_call1_v0 : Ref sig .tc := ⟨.hbm, 110, rfl⟩
abbrev main_call1_v1 : Ref sig .tc := ⟨.hbm, 111, rfl⟩
abbrev main_call1_cst_0 : Ref sig .tc := ⟨.hbm, 112, rfl⟩
abbrev main_call1_v2 : Ref sig .tc := ⟨.hbm, 113, rfl⟩
abbrev main_call1_v3 : Ref sig .tc := ⟨.hbm, 114, rfl⟩
abbrev main_call1_v4 : Ref sig .tc := ⟨.hbm, 115, rfl⟩
abbrev main_call1_v5 : Ref sig .tc := ⟨.hbm, 116, rfl⟩
abbrev main_call1_v6 : Ref sig .tc := ⟨.hbm, 117, rfl⟩
abbrev main_call1_v7 : Ref sig .tc := ⟨.hbm, 118, rfl⟩
abbrev main_call1_cst_1 : Ref sig .tc := ⟨.hbm, 119, rfl⟩
abbrev main_call1_v8 : Ref sig .tc := ⟨.hbm, 120, rfl⟩
abbrev main_call1_cst_2 : Ref sig .tc := ⟨.hbm, 121, rfl⟩
abbrev main_call1_v9 : Ref sig .tc := ⟨.hbm, 122, rfl⟩
abbrev main_call1_v10 : Ref sig .tc := ⟨.hbm, 123, rfl⟩
abbrev main_call1_v11 : Ref sig .tc := ⟨.hbm, 124, rfl⟩
abbrev main_call1_cst_3 : Ref sig .tc := ⟨.hbm, 125, rfl⟩
abbrev main_call1_v12 : Ref sig .tc := ⟨.hbm, 126, rfl⟩
abbrev main_call1_cst_4 : Ref sig .tc := ⟨.hbm, 127, rfl⟩
abbrev main_call1_call0_v0 : Ref sig .tc := ⟨.hbm, 128, rfl⟩
abbrev main_call1_call0_v1 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_v80 : Ref sig .tc := ⟨.hbm, 145, rfl⟩
abbrev main_cst_11 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_c_12 : Ref sig .tc := ⟨.hbm, 150, rfl⟩
abbrev main_v84 : Ref sig .tc := ⟨.hbm, 151, rfl⟩
abbrev main_v85 : Ref sig .tc := ⟨.hbm, 152, rfl⟩
abbrev main_c_13 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_v90 : Ref sig .tc := ⟨.hbm, 158, rfl⟩
abbrev main_v91 : Ref sig .tc := ⟨.hbm, 159, rfl⟩
abbrev main_cst_14 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_v99 : Ref sig .tc := ⟨.hbm, 168, rfl⟩
abbrev main_v100 : Ref sig .tc := ⟨.hbm, 169, rfl⟩
abbrev main_v101 : Ref sig .tc := ⟨.hbm, 170, rfl⟩
abbrev main_cst_15 : Ref sig .tc := ⟨.hbm, 171, rfl⟩
abbrev main_v102 : Ref sig .tc := ⟨.hbm, 172, rfl⟩
abbrev main_cst_16 : Ref sig .tc := ⟨.hbm, 173, rfl⟩
abbrev main_v103 : Ref sig .tc := ⟨.hbm, 174, rfl⟩
abbrev main_v104 : Ref sig .tc := ⟨.hbm, 175, rfl⟩
abbrev main_c_17 : Ref sig .tc := ⟨.hbm, 176, rfl⟩
abbrev main_call2_cst : Ref sig .tc := ⟨.hbm, 177, rfl⟩
abbrev main_call2_v0 : Ref sig .tc := ⟨.hbm, 178, rfl⟩
abbrev main_call2_v1 : Ref sig .tc := ⟨.hbm, 179, rfl⟩
abbrev main_call2_cst_0 : Ref sig .tc := ⟨.hbm, 180, rfl⟩
abbrev main_call2_v2 : Ref sig .tc := ⟨.hbm, 181, rfl⟩
abbrev main_call2_v3 : Ref sig .tc := ⟨.hbm, 182, rfl⟩
abbrev main_call2_v4 : Ref sig .tc := ⟨.hbm, 183, rfl⟩
abbrev main_call2_v5 : Ref sig .tc := ⟨.hbm, 184, rfl⟩
abbrev main_call2_v6 : Ref sig .tc := ⟨.hbm, 185, rfl⟩
abbrev main_call2_v7 : Ref sig .tc := ⟨.hbm, 186, rfl⟩
abbrev main_call2_cst_1 : Ref sig .tc := ⟨.hbm, 187, rfl⟩
abbrev main_call2_v8 : Ref sig .tc := ⟨.hbm, 188, rfl⟩
abbrev main_call2_cst_2 : Ref sig .tc := ⟨.hbm, 189, rfl⟩
abbrev main_call2_v9 : Ref sig .tc := ⟨.hbm, 190, rfl⟩
abbrev main_call2_v10 : Ref sig .tc := ⟨.hbm, 191, rfl⟩
abbrev main_call2_v11 : Ref sig .tc := ⟨.hbm, 192, rfl⟩
abbrev main_call2_cst_3 : Ref sig .tc := ⟨.hbm, 193, rfl⟩
abbrev main_call2_v12 : Ref sig .tc := ⟨.hbm, 194, rfl⟩
abbrev main_call2_cst_4 : Ref sig .tc := ⟨.hbm, 195, rfl⟩
abbrev main_call2_call0_v0 : Ref sig .tc := ⟨.hbm, 196, rfl⟩
abbrev main_call2_call0_v1 : Ref sig .tc := ⟨.hbm, 197, rfl⟩
abbrev main_v105 : Ref sig .tc := ⟨.hbm, 198, rfl⟩
abbrev main_v106 : Ref sig .tc := ⟨.hbm, 199, rfl⟩
abbrev main_v107 : Ref sig .tc := ⟨.hbm, 200, rfl⟩
abbrev main_v108 : Ref sig .tc := ⟨.hbm, 201, rfl⟩
abbrev main_v109 : Ref sig .tc := ⟨.hbm, 202, rfl⟩
abbrev main_v110 : Ref sig .tc := ⟨.hbm, 203, rfl⟩
abbrev main_v111 : Ref sig .tc := ⟨.hbm, 204, rfl⟩
abbrev main_v112 : Ref sig .tc := ⟨.hbm, 205, rfl⟩
abbrev main_v113 : Ref sig .tc := ⟨.hbm, 206, rfl⟩
abbrev main_v114 : Ref sig .tc := ⟨.hbm, 207, rfl⟩
abbrev main_v115 : Ref sig .tc := ⟨.hbm, 208, rfl⟩
abbrev main_v116 : Ref sig .tc := ⟨.hbm, 209, rfl⟩
abbrev main_v117 : Ref sig .tc := ⟨.hbm, 210, rfl⟩
abbrev main_v118 : Ref sig .tc := ⟨.hbm, 211, rfl⟩
abbrev main_v119 : Ref sig .tc := ⟨.hbm, 212, rfl⟩
abbrev main_v120 : Ref sig .tc := ⟨.hbm, 213, rfl⟩
abbrev main_cst_18 : Ref sig .tc := ⟨.hbm, 214, rfl⟩
abbrev main_v121 : Ref sig .tc := ⟨.hbm, 215, rfl⟩
abbrev main_v122 : Ref sig .tc := ⟨.hbm, 216, rfl⟩
abbrev main_v123 : Ref sig .tc := ⟨.hbm, 217, rfl⟩
abbrev main_v124 : Ref sig .tc := ⟨.hbm, 218, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg7_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg4_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg4_0 : Ref sig .tc := ⟨.vmem, 43, rfl⟩
abbrev cc5_stg5_0 : Ref sig .tc := ⟨.vmem, 44, rfl⟩
abbrev cc5_stg6_0 : Ref sig .tc := ⟨.vmem, 45, rfl⟩
abbrev cc5_stg7_0 : Ref sig .tc := ⟨.vmem, 46, rfl⟩
abbrev cc5_stg7_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc6_stg2_0 : Ref sig .tc := ⟨.vmem, 52, rfl⟩
abbrev cc6_stg2_1 : Ref sig .tc := ⟨.vmem, 53, rfl⟩
abbrev cc7_stg0_0 : Ref sig .tc := ⟨.vmem, 54, rfl⟩
abbrev cc7_stg0_1 : Ref sig .tc := ⟨.vmem, 55, rfl⟩
abbrev cc7_stg1_0 : Ref sig .tc := ⟨.vmem, 56, rfl⟩
abbrev cc7_stg1_1 : Ref sig .tc := ⟨.vmem, 57, rfl⟩
abbrev cc7_stg2_0 : Ref sig .tc := ⟨.vmem, 58, rfl⟩
abbrev cc7_stg3_0 : Ref sig .tc := ⟨.vmem, 59, rfl⟩
abbrev cc7_stg4_0 : Ref sig .tc := ⟨.vmem, 60, rfl⟩
abbrev cc7_stg4_1 : Ref sig .tc := ⟨.vmem, 61, rfl⟩
abbrev cc8_stg0_0 : Ref sig .tc := ⟨.vmem, 62, rfl⟩
abbrev cc8_stg0_1 : Ref sig .tc := ⟨.vmem, 63, rfl⟩
abbrev cc8_stg1_0 : Ref sig .tc := ⟨.vmem, 64, rfl⟩
abbrev cc8_stg2_0 : Ref sig .tc := ⟨.vmem, 65, rfl⟩
abbrev cc8_stg3_0 : Ref sig .tc := ⟨.vmem, 66, rfl⟩
abbrev cc8_stg4_0 : Ref sig .tc := ⟨.vmem, 67, rfl⟩
abbrev cc8_stg5_0 : Ref sig .tc := ⟨.vmem, 68, rfl⟩
abbrev cc8_stg6_0 : Ref sig .tc := ⟨.vmem, 69, rfl⟩
abbrev cc8_stg7_0 : Ref sig .tc := ⟨.vmem, 70, rfl⟩
abbrev cc8_stg7_1 : Ref sig .tc := ⟨.vmem, 71, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem7_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem3_0 : DmaSem sig := 35
abbrev cc4_sem4_0 : DmaSem sig := 36
abbrev cc4_sem4_1 : DmaSem sig := 37
abbrev cc5_sem0_0 : DmaSem sig := 38
abbrev cc5_sem0_1 : DmaSem sig := 39
abbrev cc5_sem1_0 : DmaSem sig := 40
abbrev cc5_sem2_0 : DmaSem sig := 41
abbrev cc5_sem3_0 : DmaSem sig := 42
abbrev cc5_sem4_0 : DmaSem sig := 43
abbrev cc5_sem5_0 : DmaSem sig := 44
abbrev cc5_sem6_0 : DmaSem sig := 45
abbrev cc5_sem7_0 : DmaSem sig := 46
abbrev cc5_sem7_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem2_1 : DmaSem sig := 53
abbrev cc7_sem0_0 : DmaSem sig := 54
abbrev cc7_sem0_1 : DmaSem sig := 55
abbrev cc7_sem1_0 : DmaSem sig := 56
abbrev cc7_sem1_1 : DmaSem sig := 57
abbrev cc7_sem2_0 : DmaSem sig := 58
abbrev cc7_sem3_0 : DmaSem sig := 59
abbrev cc7_sem4_0 : DmaSem sig := 60
abbrev cc7_sem4_1 : DmaSem sig := 61
abbrev cc8_sem0_0 : DmaSem sig := 62
abbrev cc8_sem0_1 : DmaSem sig := 63
abbrev cc8_sem1_0 : DmaSem sig := 64
abbrev cc8_sem2_0 : DmaSem sig := 65
abbrev cc8_sem3_0 : DmaSem sig := 66
abbrev cc8_sem4_0 : DmaSem sig := 67
abbrev cc8_sem5_0 : DmaSem sig := 68
abbrev cc8_sem6_0 : DmaSem sig := 69
abbrev cc8_sem7_0 : DmaSem sig := 70
abbrev cc8_sem7_1 : DmaSem sig := 71

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S512x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x512 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![80], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x512 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S512x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x512 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x512 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x512 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x512 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x512 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S512x512 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x512 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S2000x512 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![80], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x512 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x512 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x512 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x512 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x512 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S512x512 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x512 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S2000x512 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x512 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x512 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x512 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x512 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x512 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S512x512 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x512 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 2 → Memref sig .tc .vmem S2000x512 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  bcast_S_S20000x512 : S_.BroadcastsInDim S20000x512 (![] : Fin 0 → Fin S20000x512.rank)
  slices_S3x512x512_S1x512x512_0_0_0 : S3x512x512.Slices ![0, 0, 0] S1x512x512
  shapeCasts_S1x512x512_S512x512 : S1x512x512.ShapeCasts S512x512
  transposes_S512x512_S512x512_1_0 : S512x512.Transposes [1, 0] S512x512
  slices_S3x512_S1x512_0_0 : S3x512.Slices ![0, 0] S1x512
  shapeCasts_S1x512_S512 : S1x512.ShapeCasts S512
  shapeCasts_S512_S1x512 : S512.ShapeCasts S1x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  reducesTo_S20000x512_S512_d0 : S20000x512.ReducesTo [0] S512
  h_S_ : 0 < S_.numel
  bcast_S_S512 : S_.BroadcastsInDim S512 (![] : Fin 0 → Fin S512.rank)
  bcast_S512_S1x512_1 : S512.BroadcastsInDim S1x512 (![1] : Fin 1 → Fin S1x512.rank)
  bcast_S_S1x512 : S_.BroadcastsInDim S1x512 (![] : Fin 0 → Fin S1x512.rank)
  bcast_S1x512_S20000x512_0_1 : S1x512.BroadcastsInDim S20000x512 (![0, 1] : Fin 2 → Fin S20000x512.rank)
  bcast_S_S128x512 : S_.BroadcastsInDim S128x512 (![] : Fin 0 → Fin S128x512.rank)
  bcast_S20000_S20000x1_0 : S20000.BroadcastsInDim S20000x1 (![0] : Fin 1 → Fin S20000x1.rank)
  slices_S3x512x512_S1x512x512_1_0_0 : S3x512x512.Slices ![1, 0, 0] S1x512x512
  slices_S3x512_S1x512_1_0 : S3x512.Slices ![1, 0] S1x512
  slices_S3x512x512_S1x512x512_2_0_0 : S3x512x512.Slices ![2, 0, 0] S1x512x512
  slices_S3x512_S1x512_2_0 : S3x512.Slices ![2, 0] S1x512
  concatenates_S128x512_S128x512_S128x512_S128x1536_d1 : Shape.Concatenates [S128x512, S128x512, S128x512] S128x1536 1
  gather_S20000x512_S160000x1_S160000x512_1_0_n_n_0_1_1512_wf : GatherDims.WF S20000x512 S160000x1 S160000x512 [1] [0] [] [0] [] 1 ![1, 512]
  scatter_S20000x512_S160000x1_S160000x512_1_0_0_1_wf : ScatterDims.WF S20000x512 S160000x1 S160000x512 [1] [0] [0] 1
  dot_S2000x512_S512x512_S2000x512_1_0_0_1_n_n_wf : DotDims.WF S2000x512 S512x512 S2000x512 [1] [0] [0] [1] [] []
  scatter_S128x512_S20000x1_S20000x512_1_0_0_1_wf : ScatterDims.WF S128x512 S20000x1 S20000x512 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S160000x512.size a
  hwx0_0 : ∀ i : grid0.Coords, EltTy.bits .f32 = 32 ∨ (Rect.block (s := S160000x512) S2000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x512.size a ≤ S160000x512.size a
  hwx0_1 : ∀ i : grid0.Coords, EltTy.bits .f32 = 32 ∨ (Rect.block (s := S160000x512) S2000x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S160000x512.size a
  hwx0_2 : ∀ i : grid0.Coords, EltTy.bits .f32 = 32 ∨ (Rect.block (s := S160000x512) S2000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S20000x512.size a
  hwx1_0 : ∀ i : grid1.Coords, EltTy.bits .f32 = 32 ∨ (Rect.block (s := S20000x512) S2000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x512.size a ≤ S20000x512.size a
  hwx1_1 : ∀ i : grid1.Coords, EltTy.bits .f32 = 32 ∨ (Rect.block (s := S20000x512) S2000x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .f32 = 32 ∨ (Rect.block (s := S512x512) S512x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x512.size a ≤ S20000x512.size a
  hwx1_4 : ∀ i : grid1.Coords, EltTy.bits .f32 = 32 ∨ (Rect.block (s := S20000x512) S2000x512.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x512.size a ≤ S20000x512.size a
  hwx2_0 : ∀ i : grid2.Coords, EltTy.bits .f32 = 32 ∨ (Rect.block (s := S20000x512) S2000x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x512.size a ≤ S1x512.size a
  hwx2_1 : ∀ i : grid2.Coords, EltTy.bits .f32 = 32 ∨ (Rect.block (s := S1x512) S1x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x512.size a
  hwx2_3 : ∀ i : grid2.Coords, EltTy.bits .f32 = 32 ∨ (Rect.block (s := S1x512) S1x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S512x512.size a ≤ S512x512.size a
  hwx2_5 : ∀ i : grid2.Coords, EltTy.bits .f32 = 32 ∨ (Rect.block (s := S512x512) S512x512.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x512.size a ≤ S1x512.size a
  hwx2_6 : ∀ i : grid2.Coords, EltTy.bits .f32 = 32 ∨ (Rect.block (s := S1x512) S1x512.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x512.size a ≤ S20000x512.size a
  hwx2_7 : ∀ i : grid2.Coords, EltTy.bits .f32 = 32 ∨ (Rect.block (s := S20000x512) S2000x512.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x512.size a ≤ S160000x512.size a
  hwx3_0 : ∀ i : grid3.Coords, EltTy.bits .f32 = 32 ∨ (Rect.block (s := S160000x512) S2000x512.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x512.size a ≤ S160000x512.size a
  hwx3_1 : ∀ i : grid3.Coords, EltTy.bits .f32 = 32 ∨ (Rect.block (s := S160000x512) S2000x512.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x512.size a ≤ S160000x512.size a
  hwx3_2 : ∀ i : grid3.Coords, EltTy.bits .f32 = 32 ∨ (Rect.block (s := S160000x512) S2000x512.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x512.size a ≤ S20000x512.size a
  hwx4_0 : ∀ i : grid4.Coords, EltTy.bits .f32 = 32 ∨ (Rect.block (s := S20000x512) S2000x512.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x512.size a ≤ S20000x512.size a
  hwx4_1 : ∀ i : grid4.Coords, EltTy.bits .f32 = 32 ∨ (Rect.block (s := S20000x512) S2000x512.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S512x512.size a ≤ S512x512.size a
  hwx4_2 : ∀ i : grid4.Coords, EltTy.bits .f32 = 32 ∨ (Rect.block (s := S512x512) S512x512.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x512.size a ≤ S1x512.size a
  hwx4_3 : ∀ i : grid4.Coords, EltTy.bits .f32 = 32 ∨ (Rect.block (s := S1x512) S1x512.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x512.size a ≤ S20000x512.size a
  hwx4_4 : ∀ i : grid4.Coords, EltTy.bits .f32 = 32 ∨ (Rect.block (s := S20000x512) S2000x512.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x512.size a ≤ S20000x512.size a
  hwx5_0 : ∀ i : grid5.Coords, EltTy.bits .f32 = 32 ∨ (Rect.block (s := S20000x512) S2000x512.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x512.size a ≤ S1x512.size a
  hwx5_1 : ∀ i : grid5.Coords, EltTy.bits .f32 = 32 ∨ (Rect.block (s := S1x512) S1x512.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x512.size a ≤ S1x512.size a
  hwx5_2 : ∀ i : grid5.Coords, EltTy.bits .f32 = 32 ∨ (Rect.block (s := S1x512) S1x512.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x512.size a ≤ S1x512.size a
  hwx5_3 : ∀ i : grid5.Coords, EltTy.bits .f32 = 32 ∨ (Rect.block (s := S1x512) S1x512.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x512.size a ≤ S1x512.size a
  hwx5_4 : ∀ i : grid5.Coords, EltTy.bits .f32 = 32 ∨ (Rect.block (s := S1x512) S1x512.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S512x512.size a ≤ S512x512.size a
  hwx5_5 : ∀ i : grid5.Coords, EltTy.bits .f32 = 32 ∨ (Rect.block (s := S512x512) S512x512.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x512.size a ≤ S1x512.size a
  hwx5_6 : ∀ i : grid5.Coords, EltTy.bits .f32 = 32 ∨ (Rect.block (s := S1x512) S1x512.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S2000x512.size a ≤ S20000x512.size a
  hwx5_7 : ∀ i : grid5.Coords, EltTy.bits .f32 = 32 ∨ (Rect.block (s := S20000x512) S2000x512.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x512.size a ≤ S160000x512.size a
  hwx6_0 : ∀ i : grid6.Coords, EltTy.bits .f32 = 32 ∨ (Rect.block (s := S160000x512) S2000x512.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x512.size a ≤ S160000x512.size a
  hwx6_1 : ∀ i : grid6.Coords, EltTy.bits .f32 = 32 ∨ (Rect.block (s := S160000x512) S2000x512.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x512.size a ≤ S160000x512.size a
  hwx6_2 : ∀ i : grid6.Coords, EltTy.bits .f32 = 32 ∨ (Rect.block (s := S160000x512) S2000x512.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x512.size a ≤ S20000x512.size a
  hwx7_0 : ∀ i : grid7.Coords, EltTy.bits .f32 = 32 ∨ (Rect.block (s := S20000x512) S2000x512.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x512.size a ≤ S20000x512.size a
  hwx7_1 : ∀ i : grid7.Coords, EltTy.bits .f32 = 32 ∨ (Rect.block (s := S20000x512) S2000x512.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S512x512.size a ≤ S512x512.size a
  hwx7_2 : ∀ i : grid7.Coords, EltTy.bits .f32 = 32 ∨ (Rect.block (s := S512x512) S512x512.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x512.size a ≤ S1x512.size a
  hwx7_3 : ∀ i : grid7.Coords, EltTy.bits .f32 = 32 ∨ (Rect.block (s := S1x512) S1x512.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S2000x512.size a ≤ S20000x512.size a
  hwx7_4 : ∀ i : grid7.Coords, EltTy.bits .f32 = 32 ∨ (Rect.block (s := S20000x512) S2000x512.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x512.size a ≤ S20000x512.size a
  hwx8_0 : ∀ i : grid8.Coords, EltTy.bits .f32 = 32 ∨ (Rect.block (s := S20000x512) S2000x512.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x512.size a ≤ S1x512.size a
  hwx8_1 : ∀ i : grid8.Coords, EltTy.bits .f32 = 32 ∨ (Rect.block (s := S1x512) S1x512.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x512.size a ≤ S1x512.size a
  hwx8_2 : ∀ i : grid8.Coords, EltTy.bits .f32 = 32 ∨ (Rect.block (s := S1x512) S1x512.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x512.size a ≤ S1x512.size a
  hwx8_3 : ∀ i : grid8.Coords, EltTy.bits .f32 = 32 ∨ (Rect.block (s := S1x512) S1x512.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x512.size a ≤ S1x512.size a
  hwx8_4 : ∀ i : grid8.Coords, EltTy.bits .f32 = 32 ∨ (Rect.block (s := S1x512) S1x512.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S512x512.size a ≤ S512x512.size a
  hwx8_5 : ∀ i : grid8.Coords, EltTy.bits .f32 = 32 ∨ (Rect.block (s := S512x512) S512x512.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x512.size a ≤ S1x512.size a
  hwx8_6 : ∀ i : grid8.Coords, EltTy.bits .f32 = 32 ∨ (Rect.block (s := S1x512) S1x512.size (cc8_transform_6 i) (hinb8_6 i)).WholeWords (EltTy.packing .f32)
  hstage8_7 : ∀ j, (stage8_7 j).IsWhole
  nbuf8_7 : grid8.bufCount reads8_7 false = 2
  hreads8_7 : ∀ i i' : grid8.Coords, (∀ a, reads8_7 a = true → i a = i' a) → cc8_transform_7 i = cc8_transform_7 i'
  hinb8_7 : ∀ (i : grid8.Coords) a, (cc8_transform_7 i a + 1) * S2000x512.size a ≤ S20000x512.size a
  hwx8_7 : ∀ i : grid8.Coords, EltTy.bits .f32 = 32 ∨ (Rect.block (s := S20000x512) S2000x512.size (cc8_transform_7 i) (hinb8_7 i)).WholeWords (EltTy.packing .f32)

variable [Facts₀]

def gather_S20000x512_S160000x1_S160000x512_1_0_n_n_0_1_1512 : GatherDims S20000x512 S160000x1 S160000x512 where
  offsetDims := [1]
  collapsedSliceDims := [0]
  operandBatchingDims := []
  startIndicesBatchingDims := []
  startIndexMap := [0]
  indexVectorDim := 1
  sliceSizes := ![1, 512]
  wf := gather_S20000x512_S160000x1_S160000x512_1_0_n_n_0_1_1512_wf
def scatter_S20000x512_S160000x1_S160000x512_1_0_0_1 : ScatterDims S20000x512 S160000x1 S160000x512 where
  updateWindowDims := [1]
  insertedWindowDims := [0]
  scatterDimsToOperandDims := [0]
  indexVectorDim := 1
  wf := scatter_S20000x512_S160000x1_S160000x512_1_0_0_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def scatter_S128x512_S20000x1_S20000x512_1_0_0_1 : ScatterDims S128x512 S20000x1 S20000x512 where
  updateWindowDims := [1]
  insertedWindowDims := [0]
  scatterDimsToOperandDims := [0]
  indexVectorDim := 1
  wf := scatter_S128x512_S20000x1_S20000x512_1_0_0_1_wf

abbrev win0_0 : Pipeline.Window sig grid0 :=
  Pipeline.Window.ofSpec (Memref.whole main_v10) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S2000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S2000x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v21) S2000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S1x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v36) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S1x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v28) S512x512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v39) S1x512.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v40) S2000x512.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v50) S2000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg2) S2000x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v51) S2000x512.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v40) S2000x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v54) S2000x512.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v57) S512x512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v60) S1x512.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v61) S2000x512.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v61) S2000x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v75) S1x512.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v76) S1x512.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v77) S1x512.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v78) S1x512.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v68) S512x512.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v79) S1x512.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v80) S2000x512.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v90) S2000x512.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg2) S2000x512.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v91) S2000x512.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v80) S2000x512.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v94) S2000x512.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v97) S512x512.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v100) S1x512.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v101) S2000x512.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v101) S2000x512.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v115) S1x512.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v116) S1x512.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v117) S1x512.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v118) S1x512.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v108) S512x512.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v119) S1x512.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v120) S2000x512.size cc8_transform_7 reads8_7 true false 2 stage8_7 sem8_7
    hrank8 hreads8_7 hinb8_7 nbuf8_7 (Memref.isWhole_whole _) hwx8_7 hstage8_7

abbrev win8 : Fin 8 → Pipeline.Window sig grid8 := fun | 0 => win8_0 | 1 => win8_1 | 2 => win8_2 | 3 => win8_3 | 4 => win8_4 | 5 => win8_5 | 6 => win8_6 | 7 => win8_7 | ⟨_ + 8, h⟩ => absurd h (Nat.not_lt.2 (Nat.le_add_left _ _))
abbrev spec8 : Fin 8 → Pipeline.WinSpec sig grid8.rank := fun w => (win8 w).toWinSpec

class Facts : Prop extends Facts₀ where

variable [Facts]
-- ==== ReferenceIdeal.lean ====
abbrev S20000x512 : Shape := ⟨2, ![20000, 512]⟩
abbrev S2x160000 : Shape := ⟨2, ![2, 160000]⟩
abbrev S160000x512 : Shape := ⟨2, ![160000, 512]⟩
abbrev S20000 : Shape := ⟨1, ![20000]⟩
abbrev S3x512x512 : Shape := ⟨3, ![3, 512, 512]⟩
abbrev S3x512 : Shape := ⟨2, ![3, 512]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩
abbrev S128x512 : Shape := ⟨2, ![128, 512]⟩
abbrev S20000x1 : Shape := ⟨2, ![20000, 1]⟩
abbrev S128x1536 : Shape := ⟨2, ![128, 1536]⟩

abbrev nBuf : Space → Nat
  | .hbm => 297
  | .vmem => 0
  | .smem => 0
  | _ => 0

abbrev hbmTy0_0 (i : Nat) : BufTy := match i % 128 with
  | 0 => ⟨S20000x512, .f32⟩
  | 1 => ⟨S2x160000, .i32⟩
  | 2 => ⟨S160000x512, .f32⟩
  | 3 => ⟨S20000, .i32⟩
  | 4 => ⟨S3x512x512, .f32⟩
  | 5 => ⟨S3x512, .f32⟩
  | 6 => ⟨S3x512, .f32⟩
  | 7 => ⟨S3x512, .f32⟩
  | 8 => ⟨S3x512x512, .f32⟩
  | 9 => ⟨S3x512, .f32⟩
  | 10 => ⟨S1x160000, .i32⟩
  | 11 => ⟨S160000, .i32⟩
  | 12 => ⟨S1x160000, .i32⟩
  | 13 => ⟨S160000, .i32⟩
  | 14 => ⟨S_, .i32⟩
  | 15 => ⟨S160000, .i32⟩
  | 16 => ⟨S160000, .i1⟩
  | 17 => ⟨S_, .i32⟩
  | 18 => ⟨S160000, .i32⟩
  | 19 => ⟨S160000, .i32⟩
  | 20 => ⟨S160000, .i32⟩
  | 21 => ⟨S160000x1, .i32⟩
  | 22 => ⟨S160000x512, .f32⟩
  | 23 => ⟨S160000x512, .f32⟩
  | 24 => ⟨S_, .f32⟩
  | 25 => ⟨S160000x512, .f32⟩
  | 26 => ⟨S160000x512, .f32⟩
  | 27 => ⟨S_, .f32⟩
  | 28 => ⟨S20000x512, .f32⟩
  | 29 => ⟨S160000x1, .i32⟩
  | 30 => ⟨S20000x512, .f32⟩
  | 31 => ⟨S20000x512, .f32⟩
  | 32 => ⟨S1x512x512, .f32⟩
  | 33 => ⟨S512x512, .f32⟩
  | 34 => ⟨S512x512, .f32⟩
  | 35 => ⟨S20000x512, .f32⟩
  | 36 => ⟨S1x512, .f32⟩
  | 37 => ⟨S512, .f32⟩
  | 38 => ⟨S1x512, .f32⟩
  | 39 => ⟨S20000x512, .f32⟩
  | 40 => ⟨S20000x512, .f32⟩
  | 41 => ⟨S_, .f32⟩
  | 42 => ⟨S512, .f32⟩
  | 43 => ⟨S_, .f32⟩
  | 44 => ⟨S512, .f32⟩
  | 45 => ⟨S512, .f32⟩
  | 46 => ⟨S_, .i32⟩
  | 47 => ⟨S_, .f32⟩
  | 48 => ⟨S512, .f32⟩
  | 49 => ⟨S1x512, .f32⟩
  | 50 => ⟨S_, .f32⟩
  | 51 => ⟨S1x512, .f32⟩
  | 52 => ⟨S1x512, .f32⟩
  | 53 => ⟨S20000x512, .f32⟩
  | 54 => ⟨S20000x512, .f32⟩
  | 55 => ⟨S20000x512, .f32⟩
  | 56 => ⟨S_, .f32⟩
  | 57 => ⟨S_, .f32⟩
  | 58 => ⟨S_, .f32⟩
  | 59 => ⟨S_, .f32⟩
  | 60 => ⟨S512, .f32⟩
  | 61 => ⟨S512, .f32⟩
  | 62 => ⟨S512, .f32⟩
  | 63 => ⟨S_, .f32⟩
  | 64 => ⟨S_, .i1⟩
  | 65 => ⟨S_, .f32⟩
  | 66 => ⟨S_, .f32⟩
  | 67 => ⟨S512, .f32⟩
  | 68 => ⟨S512, .f32⟩
  | 69 => ⟨S1x512, .f32⟩
  | 70 => ⟨S20000x512, .f32⟩
  | 71 => ⟨S20000x512, .f32⟩
  | 72 => ⟨S_, .f32⟩
  | 73 => ⟨S512, .f32⟩
  | 74 => ⟨S512, .f32⟩
  | 75 => ⟨S512, .f32⟩
  | 76 => ⟨S1x512, .f32⟩
  | 77 => ⟨S20000x512, .f32⟩
  | 78 => ⟨S20000x512, .f32⟩
  | 79 => ⟨S1x512, .f32⟩
  | 80 => ⟨S512, .f32⟩
  | 81 => ⟨S1x512, .f32⟩
  | 82 => ⟨S20000x512, .f32⟩
  | 83 => ⟨S20000x512, .f32⟩
  | 84 => ⟨S1x512, .f32⟩
  | 85 => ⟨S512, .f32⟩
  | 86 => ⟨S1x512, .f32⟩
  | 87 => ⟨S20000x512, .f32⟩
  | 88 => ⟨S20000x512, .f32⟩
  | 89 => ⟨S_, .f32⟩
  | 90 => ⟨S20000x512, .f32⟩
  | 91 => ⟨S20000x512, .f32⟩
  | 92 => ⟨S1x512x512, .f32⟩
  | 93 => ⟨S512x512, .f32⟩
  | 94 => ⟨S512x512, .f32⟩
  | 95 => ⟨S20000x512, .f32⟩
  | 96 => ⟨S1x512, .f32⟩
  | 97 => ⟨S512, .f32⟩
  | 98 => ⟨S1x512, .f32⟩
  | 99 => ⟨S20000x512, .f32⟩
  | 100 => ⟨S20000x512, .f32⟩
  | 101 => ⟨S_, .f32⟩
  | 102 => ⟨S20000x512, .f32⟩
  | 103 => ⟨S20000x512, .f32⟩
  | 104 => ⟨S_, .f32⟩
  | 105 => ⟨S128x512, .f32⟩
  | 106 => ⟨S20000x1, .i32⟩
  | 107 => ⟨S128x512, .f32⟩
  | 108 => ⟨S_, .i32⟩
  | 109 => ⟨S160000, .i32⟩
  | 110 => ⟨S160000, .i1⟩
  | 111 => ⟨S_, .i32⟩
  | 112 => ⟨S160000, .i32⟩
  | 113 => ⟨S160000, .i32⟩
  | 114 => ⟨S160000, .i32⟩
  | 115 => ⟨S160000x1, .i32⟩
  | 116 => ⟨S160000x512, .f32⟩
  | 117 => ⟨S160000x512, .f32⟩
  | 118 => ⟨S_, .f32⟩
  | 119 => ⟨S160000x512, .f32⟩
  | 120 => ⟨S160000x512, .f32⟩
  | 121 => ⟨S_, .f32⟩
  | 122 => ⟨S20000x512, .f32⟩
  | 123 => ⟨S160000x1, .i32⟩
  | 124 => ⟨S20000x512, .f32⟩
  | 125 => ⟨S20000x512, .f32⟩
  | 126 => ⟨S1x512x512, .f32⟩
  | 127 => ⟨S512x512, .f32⟩
  | _ => ⟨S20000x512, .f32⟩

abbrev hbmTy0_1 (i : Nat) : BufTy := match i % 128 with
  | 0 => ⟨S512x512, .f32⟩
  | 1 => ⟨S20000x512, .f32⟩
  | 2 => ⟨S1x512, .f32⟩
  | 3 => ⟨S512, .f32⟩
  | 4 => ⟨S1x512, .f32⟩
  | 5 => ⟨S20000x512, .f32⟩
  | 6 => ⟨S20000x512, .f32⟩
  | 7 => ⟨S_, .f32⟩
  | 8 => ⟨S512, .f32⟩
  | 9 => ⟨S_, .f32⟩
  | 10 => ⟨S512, .f32⟩
  | 11 => ⟨S512, .f32⟩
  | 12 => ⟨S_, .i32⟩
  | 13 => ⟨S_, .f32⟩
  | 14 => ⟨S512, .f32⟩
  | 15 => ⟨S1x512, .f32⟩
  | 16 => ⟨S_, .f32⟩
  | 17 => ⟨S1x512, .f32⟩
  | 18 => ⟨S1x512, .f32⟩
  | 19 => ⟨S20000x512, .f32⟩
  | 20 => ⟨S20000x512, .f32⟩
  | 21 => ⟨S20000x512, .f32⟩
  | 22 => ⟨S_, .f32⟩
  | 23 => ⟨S_, .f32⟩
  | 24 => ⟨S_, .f32⟩
  | 25 => ⟨S_, .f32⟩
  | 26 => ⟨S512, .f32⟩
  | 27 => ⟨S512, .f32⟩
  | 28 => ⟨S512, .f32⟩
  | 29 => ⟨S_, .f32⟩
  | 30 => ⟨S_, .i1⟩
  | 31 => ⟨S_, .f32⟩
  | 32 => ⟨S_, .f32⟩
  | 33 => ⟨S512, .f32⟩
  | 34 => ⟨S512, .f32⟩
  | 35 => ⟨S1x512, .f32⟩
  | 36 => ⟨S20000x512, .f32⟩
  | 37 => ⟨S20000x512, .f32⟩
  | 38 => ⟨S_, .f32⟩
  | 39 => ⟨S512, .f32⟩
  | 40 => ⟨S512, .f32⟩
  | 41 => ⟨S512, .f32⟩
  | 42 => ⟨S1x512, .f32⟩
  | 43 => ⟨S20000x512, .f32⟩
  | 44 => ⟨S20000x512, .f32⟩
  | 45 => ⟨S1x512, .f32⟩
  | 46 => ⟨S512, .f32⟩
  | 47 => ⟨S1x512, .f32⟩
  | 48 => ⟨S20000x512, .f32⟩
  | 49 => ⟨S20000x512, .f32⟩
  | 50 => ⟨S1x512, .f32⟩
  | 51 => ⟨S512, .f32⟩
  | 52 => ⟨S1x512, .f32⟩
  | 53 => ⟨S20000x512, .f32⟩
  | 54 => ⟨S20000x512, .f32⟩
  | 55 => ⟨S_, .f32⟩
  | 56 => ⟨S20000x512, .f32⟩
  | 57 => ⟨S20000x512, .f32⟩
  | 58 => ⟨S1x512x512, .f32⟩
  | 59 => ⟨S512x512, .f32⟩
  | 60 => ⟨S512x512, .f32⟩
  | 61 => ⟨S20000x512, .f32⟩
  | 62 => ⟨S1x512, .f32⟩
  | 63 => ⟨S512, .f32⟩
  | 64 => ⟨S1x512, .f32⟩
  | 65 => ⟨S20000x512, .f32⟩
  | 66 => ⟨S20000x512, .f32⟩
  | 67 => ⟨S_, .f32⟩
  | 68 => ⟨S20000x512, .f32⟩
  | 69 => ⟨S20000x512, .f32⟩
  | 70 => ⟨S_, .f32⟩
  | 71 => ⟨S128x512, .f32⟩
  | 72 => ⟨S20000x1, .i32⟩
  | 73 => ⟨S128x512, .f32⟩
  | 74 => ⟨S_, .i32⟩
  | 75 => ⟨S160000, .i32⟩
  | 76 => ⟨S160000, .i1⟩
  | 77 => ⟨S_, .i32⟩
  | 78 => ⟨S160000, .i32⟩
  | 79 => ⟨S160000, .i32⟩
  | 80 => ⟨S160000, .i32⟩
  | 81 => ⟨S160000x1, .i32⟩
  | 82 => ⟨S160000x512, .f32⟩
  | 83 => ⟨S160000x512, .f32⟩
  | 84 => ⟨S_, .f32⟩
  | 85 => ⟨S160000x512, .f32⟩
  | 86 => ⟨S160000x512, .f32⟩
  | 87 => ⟨S_, .f32⟩
  | 88 => ⟨S20000x512, .f32⟩
  | 89 => ⟨S160000x1, .i32⟩
  | 90 => ⟨S20000x512, .f32⟩
  | 91 => ⟨S20000x512, .f32⟩
  | 92 => ⟨S1x512x512, .f32⟩
  | 93 => ⟨S512x512, .f32⟩
  | 94 => ⟨S512x512, .f32⟩
  | 95 => ⟨S20000x512, .f32⟩
  | 96 => ⟨S1x512, .f32⟩
  | 97 => ⟨S512, .f32⟩
  | 98 => ⟨S1x512, .f32⟩
  | 99 => ⟨S20000x512, .f32⟩
  | 100 => ⟨S20000x512, .f32⟩
  | 101 => ⟨S_, .f32⟩
  | 102 => ⟨S512, .f32⟩
  | 103 => ⟨S_, .f32⟩
  | 104 => ⟨S512, .f32⟩
  | 105 => ⟨S512, .f32⟩
  | 106 => ⟨S_, .i32⟩
  | 107 => ⟨S_, .f32⟩
  | 108 => ⟨S512, .f32⟩
  | 109 => ⟨S1x512, .f32⟩
  | 110 => ⟨S_, .f32⟩
  | 111 => ⟨S1x512, .f32⟩
  | 112 => ⟨S1x512, .f32⟩
  | 113 => ⟨S20000x512, .f32⟩
  | 114 => ⟨S20000x512, .f32⟩
  | 115 => ⟨S20000x512, .f32⟩
  | 116 => ⟨S_, .f32⟩
  | 117 => ⟨S_, .f32⟩
  | 118 => ⟨S_, .f32⟩
  | 119 => ⟨S_, .f32⟩
  | 120 => ⟨S512, .f32⟩
  | 121 => ⟨S512, .f32⟩
  | 122 => ⟨S512, .f32⟩
  | 123 => ⟨S_, .f32⟩
  | 124 => ⟨S_, .i1⟩
  | 125 => ⟨S_, .f32⟩
  | 126 => ⟨S_, .f32⟩
  | 127 => ⟨S512, .f32⟩
  | _ => ⟨S20000x512, .f32⟩

abbrev hbmTy0_2 (i : Nat) : BufTy := match i % 128 with
  | 0 => ⟨S512, .f32⟩
  | 1 => ⟨S1x512, .f32⟩
  | 2 => ⟨S20000x512, .f32⟩
  | 3 => ⟨S20000x512, .f32⟩
  | 4 => ⟨S_, .f32⟩
  | 5 => ⟨S512, .f32⟩
  | 6 => ⟨S512, .f32⟩
  | 7 => ⟨S512, .f32⟩
  | 8 => ⟨S1x512, .f32⟩
  | 9 => ⟨S20000x512, .f32⟩
  | 10 => ⟨S20000x512, .f32⟩
  | 11 => ⟨S1x512, .f32⟩
  | 12 => ⟨S512, .f32⟩
  | 13 => ⟨S1x512, .f32⟩
  | 14 => ⟨S20000x512, .f32⟩
  | 15 => ⟨S20000x512, .f32⟩
  | 16 => ⟨S1x512, .f32⟩
  | 17 => ⟨S512, .f32⟩
  | 18 => ⟨S1x512, .f32⟩
  | 19 => ⟨S20000x512, .f32⟩
  | 20 => ⟨S20000x512, .f32⟩
  | 21 => ⟨S_, .f32⟩
  | 22 => ⟨S20000x512, .f32⟩
  | 23 => ⟨S20000x512, .f32⟩
  | 24 => ⟨S1x512x512, .f32⟩
  | 25 => ⟨S512x512, .f32⟩
  | 26 => ⟨S512x512, .f32⟩
  | 27 => ⟨S20000x512, .f32⟩
  | 28 => ⟨S1x512, .f32⟩
  | 29 => ⟨S512, .f32⟩
  | 30 => ⟨S1x512, .f32⟩
  | 31 => ⟨S20000x512, .f32⟩
  | 32 => ⟨S20000x512, .f32⟩
  | 33 => ⟨S_, .f32⟩
  | 34 => ⟨S20000x512, .f32⟩
  | 35 => ⟨S20000x512, .f32⟩
  | 36 => ⟨S_, .f32⟩
  | 37 => ⟨S128x512, .f32⟩
  | 38 => ⟨S20000x1, .i32⟩
  | 39 => ⟨S128x512, .f32⟩
  | 40 => ⟨S128x1536, .f32⟩
  | _ => ⟨S20000x512, .f32⟩

abbrev hbmTy (i : Nat) : BufTy := match i / 128 with
  | 0 => hbmTy0_0 i
  | 1 => hbmTy0_1 i
  | 2 => hbmTy0_2 i
  | _ => ⟨S20000x512, .f32⟩

abbrev bufTy : (tb : Table) → Fin (tcTables nBuf tb) → BufTy
  | .hbm, ⟨i, _⟩ => hbmTy i
  | _, _ => ⟨S20000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_call0_cst : Ref sig .tc := ⟨.hbm, 24, rfl⟩
abbrev main_call0_v0 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_1 : Ref sig .tc := ⟨.hbm, 41, rfl⟩
abbrev main_v26 : Ref sig .tc := ⟨.hbm, 42, rfl⟩
abbrev main_cst_2 : Ref sig .tc := ⟨.hbm, 43, rfl⟩
abbrev main_v27 : Ref sig .tc := ⟨.hbm, 44, rfl⟩
abbrev main_v28 : Ref sig .tc := ⟨.hbm, 45, rfl⟩
abbrev main_c_3 : Ref sig .tc := ⟨.hbm, 46, rfl⟩
abbrev main_call1_cst : Ref sig .tc := ⟨.hbm, 47, rfl⟩
abbrev main_call1_v0 : Ref sig .tc := ⟨.hbm, 48, rfl⟩
abbrev main_call1_v1 : Ref sig .tc := ⟨.hbm, 49, rfl⟩
abbrev main_call1_cst_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_v6 : Ref sig .tc := ⟨.hbm, 55, rfl⟩
abbrev main_call1_v7 : Ref sig .tc := ⟨.hbm, 56, rfl⟩
abbrev main_call1_cst_1 : Ref sig .tc := ⟨.hbm, 57, rfl⟩
abbrev main_call1_v8 : Ref sig .tc := ⟨.hbm, 58, rfl⟩
abbrev main_call1_cst_2 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_cst_3 : Ref sig .tc := ⟨.hbm, 63, rfl⟩
abbrev main_call1_v12 : Ref sig .tc := ⟨.hbm, 64, rfl⟩
abbrev main_call1_cst_4 : Ref sig .tc := ⟨.hbm, 65, rfl⟩
abbrev main_call1_call0_v0 : Ref sig .tc := ⟨.hbm, 66, rfl⟩
abbrev main_call1_call0_v1 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_cst_4 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_call2_cst : Ref sig .tc := ⟨.hbm, 89, rfl⟩
abbrev main_call2_v0 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_call3_cst : Ref sig .tc := ⟨.hbm, 101, rfl⟩
abbrev main_call3_v0 : Ref sig .tc := ⟨.hbm, 102, rfl⟩
abbrev main_v59 : Ref sig .tc := ⟨.hbm, 103, rfl⟩
abbrev main_cst_5 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_c_6 : Ref sig .tc := ⟨.hbm, 108, rfl⟩
abbrev main_v63 : Ref sig .tc := ⟨.hbm, 109, rfl⟩
abbrev main_v64 : Ref sig .tc := ⟨.hbm, 110, rfl⟩
abbrev main_c_7 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_call4_cst : Ref sig .tc := ⟨.hbm, 118, rfl⟩
abbrev main_call4_v0 : Ref sig .tc := ⟨.hbm, 119, rfl⟩
abbrev main_v71 : Ref sig .tc := ⟨.hbm, 120, rfl⟩
abbrev main_cst_8 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_cst_9 : Ref sig .tc := ⟨.hbm, 135, rfl⟩
abbrev main_v85 : Ref sig .tc := ⟨.hbm, 136, rfl⟩
abbrev main_cst_10 : Ref sig .tc := ⟨.hbm, 137, rfl⟩
abbrev main_v86 : Ref sig .tc := ⟨.hbm, 138, rfl⟩
abbrev main_v87 : Ref sig .tc := ⟨.hbm, 139, rfl⟩
abbrev main_c_11 : Ref sig .tc := ⟨.hbm, 140, rfl⟩
abbrev main_call5_cst : Ref sig .tc := ⟨.hbm, 141, rfl⟩
abbrev main_call5_v0 : Ref sig .tc := ⟨.hbm, 142, rfl⟩
abbrev main_call5_v1 : Ref sig .tc := ⟨.hbm, 143, rfl⟩
abbrev main_call5_cst_0 : Ref sig .tc := ⟨.hbm, 144, rfl⟩
abbrev main_call5_v2 : Ref sig .tc := ⟨.hbm, 145, rfl⟩
abbrev main_call5_v3 : Ref sig .tc := ⟨.hbm, 146, rfl⟩
abbrev main_call5_v4 : Ref sig .tc := ⟨.hbm, 147, rfl⟩
abbrev main_call5_v5 : Ref sig .tc := ⟨.hbm, 148, rfl⟩
abbrev main_call5_v6 : Ref sig .tc := ⟨.hbm, 149, rfl⟩
abbrev main_call5_v7 : Ref sig .tc := ⟨.hbm, 150, rfl⟩
abbrev main_call5_cst_1 : Ref sig .tc := ⟨.hbm, 151, rfl⟩
abbrev main_call5_v8 : Ref sig .tc := ⟨.hbm, 152, rfl⟩
abbrev main_call5_cst_2 : Ref sig .tc := ⟨.hbm, 153, rfl⟩
abbrev main_call5_v9 : Ref sig .tc := ⟨.hbm, 154, rfl⟩
abbrev main_call5_v10 : Ref sig .tc := ⟨.hbm, 155, rfl⟩
abbrev main_call5_v11 : Ref sig .tc := ⟨.hbm, 156, rfl⟩
abbrev main_call5_cst_3 : Ref sig .tc := ⟨.hbm, 157, rfl⟩
abbrev main_call5_v12 : Ref sig .tc := ⟨.hbm, 158, rfl⟩
abbrev main_call5_cst_4 : Ref sig .tc := ⟨.hbm, 159, rfl⟩
abbrev main_call5_call0_v0 : Ref sig .tc := ⟨.hbm, 160, rfl⟩
abbrev main_call5_call0_v1 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_v91 : Ref sig .tc := ⟨.hbm, 165, rfl⟩
abbrev main_cst_12 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_v96 : Ref sig .tc := ⟨.hbm, 171, rfl⟩
abbrev main_v97 : Ref sig .tc := ⟨.hbm, 172, rfl⟩
abbrev main_v98 : Ref sig .tc := ⟨.hbm, 173, rfl⟩
abbrev main_v99 : Ref sig .tc := ⟨.hbm, 174, rfl⟩
abbrev main_v100 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_v107 : Ref sig .tc := ⟨.hbm, 182, rfl⟩
abbrev main_call6_cst : Ref sig .tc := ⟨.hbm, 183, rfl⟩
abbrev main_call6_v0 : Ref sig .tc := ⟨.hbm, 184, rfl⟩
abbrev main_v108 : Ref sig .tc := ⟨.hbm, 185, rfl⟩
abbrev main_v109 : Ref sig .tc := ⟨.hbm, 186, rfl⟩
abbrev main_v110 : Ref sig .tc := ⟨.hbm, 187, rfl⟩
abbrev main_v111 : Ref sig .tc := ⟨.hbm, 188, rfl⟩
abbrev main_v112 : Ref sig .tc := ⟨.hbm, 189, rfl⟩
abbrev main_v113 : Ref sig .tc := ⟨.hbm, 190, rfl⟩
abbrev main_v114 : Ref sig .tc := ⟨.hbm, 191, rfl⟩
abbrev main_v115 : Ref sig .tc := ⟨.hbm, 192, rfl⟩
abbrev main_v116 : Ref sig .tc := ⟨.hbm, 193, rfl⟩
abbrev main_v117 : Ref sig .tc := ⟨.hbm, 194, rfl⟩
abbrev main_call7_cst : Ref sig .tc := ⟨.hbm, 195, rfl⟩
abbrev main_call7_v0 : Ref sig .tc := ⟨.hbm, 196, rfl⟩
abbrev main_v118 : Ref sig .tc := ⟨.hbm, 197, rfl⟩
abbrev main_cst_13 : Ref sig .tc := ⟨.hbm, 198, rfl⟩
abbrev main_v119 : Ref sig .tc := ⟨.hbm, 199, rfl⟩
abbrev main_v120 : Ref sig .tc := ⟨.hbm, 200, rfl⟩
abbrev main_v121 : Ref sig .tc := ⟨.hbm, 201, rfl⟩
abbrev main_c_14 : Ref sig .tc := ⟨.hbm, 202, rfl⟩
abbrev main_v122 : Ref sig .tc := ⟨.hbm, 203, rfl⟩
abbrev main_v123 : Ref sig .tc := ⟨.hbm, 204, rfl⟩
abbrev main_c_15 : Ref sig .tc := ⟨.hbm, 205, rfl⟩
abbrev main_v124 : Ref sig .tc := ⟨.hbm, 206, rfl⟩
abbrev main_v125 : Ref sig .tc := ⟨.hbm, 207, rfl⟩
abbrev main_v126 : Ref sig .tc := ⟨.hbm, 208, rfl⟩
abbrev main_v127 : Ref sig .tc := ⟨.hbm, 209, rfl⟩
abbrev main_v128 : Ref sig .tc := ⟨.hbm, 210, rfl⟩
abbrev main_v129 : Ref sig .tc := ⟨.hbm, 211, rfl⟩
abbrev main_call8_cst : Ref sig .tc := ⟨.hbm, 212, rfl⟩
abbrev main_call8_v0 : Ref sig .tc := ⟨.hbm, 213, rfl⟩
abbrev main_v130 : Ref sig .tc := ⟨.hbm, 214, rfl⟩
abbrev main_cst_16 : Ref sig .tc := ⟨.hbm, 215, rfl⟩
abbrev main_v131 : Ref sig .tc := ⟨.hbm, 216, rfl⟩
abbrev main_v132 : Ref sig .tc := ⟨.hbm, 217, rfl⟩
abbrev main_v133 : Ref sig .tc := ⟨.hbm, 218, rfl⟩
abbrev main_v134 : Ref sig .tc := ⟨.hbm, 219, rfl⟩
abbrev main_v135 : Ref sig .tc := ⟨.hbm, 220, rfl⟩
abbrev main_v136 : Ref sig .tc := ⟨.hbm, 221, rfl⟩
abbrev main_v137 : Ref sig .tc := ⟨.hbm, 222, rfl⟩
abbrev main_v138 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_v142 : Ref sig .tc := ⟨.hbm, 227, rfl⟩
abbrev main_v143 : Ref sig .tc := ⟨.hbm, 228, rfl⟩
abbrev main_cst_17 : Ref sig .tc := ⟨.hbm, 229, rfl⟩
abbrev main_v144 : Ref sig .tc := ⟨.hbm, 230, rfl⟩
abbrev main_cst_18 : Ref sig .tc := ⟨.hbm, 231, rfl⟩
abbrev main_v145 : Ref sig .tc := ⟨.hbm, 232, rfl⟩
abbrev main_v146 : Ref sig .tc := ⟨.hbm, 233, rfl⟩
abbrev main_c_19 : Ref sig .tc := ⟨.hbm, 234, rfl⟩
abbrev main_call9_cst : Ref sig .tc := ⟨.hbm, 235, rfl⟩
abbrev main_call9_v0 : Ref sig .tc := ⟨.hbm, 236, rfl⟩
abbrev main_call9_v1 : Ref sig .tc := ⟨.hbm, 237, rfl⟩
abbrev main_call9_cst_0 : Ref sig .tc := ⟨.hbm, 238, rfl⟩
abbrev main_call9_v2 : Ref sig .tc := ⟨.hbm, 239, rfl⟩
abbrev main_call9_v3 : Ref sig .tc := ⟨.hbm, 240, rfl⟩
abbrev main_call9_v4 : Ref sig .tc := ⟨.hbm, 241, rfl⟩
abbrev main_call9_v5 : Ref sig .tc := ⟨.hbm, 242, rfl⟩
abbrev main_call9_v6 : Ref sig .tc := ⟨.hbm, 243, rfl⟩
abbrev main_call9_v7 : Ref sig .tc := ⟨.hbm, 244, rfl⟩
abbrev main_call9_cst_1 : Ref sig .tc := ⟨.hbm, 245, rfl⟩
abbrev main_call9_v8 : Ref sig .tc := ⟨.hbm, 246, rfl⟩
abbrev main_call9_cst_2 : Ref sig .tc := ⟨.hbm, 247, rfl⟩
abbrev main_call9_v9 : Ref sig .tc := ⟨.hbm, 248, rfl⟩
abbrev main_call9_v10 : Ref sig .tc := ⟨.hbm, 249, rfl⟩
abbrev main_call9_v11 : Ref sig .tc := ⟨.hbm, 250, rfl⟩
abbrev main_call9_cst_3 : Ref sig .tc := ⟨.hbm, 251, rfl⟩
abbrev main_call9_v12 : Ref sig .tc := ⟨.hbm, 252, rfl⟩
abbrev main_call9_cst_4 : Ref sig .tc := ⟨.hbm, 253, rfl⟩
abbrev main_call9_call0_v0 : Ref sig .tc := ⟨.hbm, 254, rfl⟩
abbrev main_call9_call0_v1 : Ref sig .tc := ⟨.hbm, 255, rfl⟩
abbrev main_v147 : Ref sig .tc := ⟨.hbm, 256, rfl⟩
abbrev main_v148 : Ref sig .tc := ⟨.hbm, 257, rfl⟩
abbrev main_v149 : Ref sig .tc := ⟨.hbm, 258, rfl⟩
abbrev main_v150 : Ref sig .tc := ⟨.hbm, 259, rfl⟩
abbrev main_cst_20 : Ref sig .tc := ⟨.hbm, 260, rfl⟩
abbrev main_v151 : Ref sig .tc := ⟨.hbm, 261, rfl⟩
abbrev main_v152 : Ref sig .tc := ⟨.hbm, 262, rfl⟩
abbrev main_v153 : Ref sig .tc := ⟨.hbm, 263, rfl⟩
abbrev main_v154 : Ref sig .tc := ⟨.hbm, 264, rfl⟩
abbrev main_v155 : Ref sig .tc := ⟨.hbm, 265, rfl⟩
abbrev main_v156 : Ref sig .tc := ⟨.hbm, 266, rfl⟩
abbrev main_v157 : Ref sig .tc := ⟨.hbm, 267, rfl⟩
abbrev main_v158 : Ref sig .tc := ⟨.hbm, 268, rfl⟩
abbrev main_v159 : Ref sig .tc := ⟨.hbm, 269, rfl⟩
abbrev main_v160 : Ref sig .tc := ⟨.hbm, 270, rfl⟩
abbrev main_v161 : Ref sig .tc := ⟨.hbm, 271, rfl⟩
abbrev main_v162 : Ref sig .tc := ⟨.hbm, 272, rfl⟩
abbrev main_v163 : Ref sig .tc := ⟨.hbm, 273, rfl⟩
abbrev main_v164 : Ref sig .tc := ⟨.hbm, 274, rfl⟩
abbrev main_v165 : Ref sig .tc := ⟨.hbm, 275, rfl⟩
abbrev main_v166 : Ref sig .tc := ⟨.hbm, 276, rfl⟩
abbrev main_call10_cst : Ref sig .tc := ⟨.hbm, 277, rfl⟩
abbrev main_call10_v0 : Ref sig .tc := ⟨.hbm, 278, rfl⟩
abbrev main_v167 : Ref sig .tc := ⟨.hbm, 279, rfl⟩
abbrev main_v168 : Ref sig .tc := ⟨.hbm, 280, rfl⟩
abbrev main_v169 : Ref sig .tc := ⟨.hbm, 281, rfl⟩
abbrev main_v170 : Ref sig .tc := ⟨.hbm, 282, rfl⟩
abbrev main_v171 : Ref sig .tc := ⟨.hbm, 283, rfl⟩
abbrev main_v172 : Ref sig .tc := ⟨.hbm, 284, rfl⟩
abbrev main_v173 : Ref sig .tc := ⟨.hbm, 285, rfl⟩
abbrev main_v174 : Ref sig .tc := ⟨.hbm, 286, rfl⟩
abbrev main_v175 : Ref sig .tc := ⟨.hbm, 287, rfl⟩
abbrev main_v176 : Ref sig .tc := ⟨.hbm, 288, rfl⟩
abbrev main_call11_cst : Ref sig .tc := ⟨.hbm, 289, rfl⟩
abbrev main_call11_v0 : Ref sig .tc := ⟨.hbm, 290, rfl⟩
abbrev main_v177 : Ref sig .tc := ⟨.hbm, 291, rfl⟩
abbrev main_cst_21 : Ref sig .tc := ⟨.hbm, 292, rfl⟩
abbrev main_v178 : Ref sig .tc := ⟨.hbm, 293, rfl⟩
abbrev main_v179 : Ref sig .tc := ⟨.hbm, 294, rfl⟩
abbrev main_v180 : Ref sig .tc := ⟨.hbm, 295, rfl⟩
abbrev main_v181 : Ref sig .tc := ⟨.hbm, 296, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S_S160000x512 : S_.BroadcastsInDim S160000x512 (![] : Fin 0 → Fin S160000x512.rank)
  bcast_S_S20000x512 : S_.BroadcastsInDim S20000x512 (![] : Fin 0 → Fin S20000x512.rank)
  slices_S3x512x512_S1x512x512_0_0_0 : S3x512x512.Slices ![0, 0, 0] S1x512x512
  shapeCasts_S1x512x512_S512x512 : S1x512x512.ShapeCasts S512x512
  transposes_S512x512_S512x512_1_0 : S512x512.Transposes [1, 0] S512x512
  slices_S3x512_S1x512_0_0 : S3x512.Slices ![0, 0] S1x512
  shapeCasts_S1x512_S512 : S1x512.ShapeCasts S512
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  reducesTo_S20000x512_S512_d0 : S20000x512.ReducesTo [0] S512
  h_S_ : 0 < S_.numel
  bcast_S_S512 : S_.BroadcastsInDim S512 (![] : Fin 0 → Fin S512.rank)
  bcast_S_S1x512 : S_.BroadcastsInDim S1x512 (![] : Fin 0 → Fin S1x512.rank)
  bcast_S_S128x512 : S_.BroadcastsInDim S128x512 (![] : Fin 0 → Fin S128x512.rank)
  bcast_S20000_S20000x1_0 : S20000.BroadcastsInDim S20000x1 (![0] : Fin 1 → Fin S20000x1.rank)
  slices_S3x512x512_S1x512x512_1_0_0 : S3x512x512.Slices ![1, 0, 0] S1x512x512
  slices_S3x512_S1x512_1_0 : S3x512.Slices ![1, 0] S1x512
  slices_S3x512x512_S1x512x512_2_0_0 : S3x512x512.Slices ![2, 0, 0] S1x512x512
  slices_S3x512_S1x512_2_0 : S3x512.Slices ![2, 0] S1x512
  concatenates_S128x512_S128x512_S128x512_S128x1536_d1 : Shape.Concatenates [S128x512, S128x512, S128x512] S128x1536 1
  gather_S20000x512_S160000x1_S160000x512_1_0_n_n_0_1_1512_wf : GatherDims.WF S20000x512 S160000x1 S160000x512 [1] [0] [] [0] [] 1 ![1, 512]
  scatter_S20000x512_S160000x1_S160000x512_1_0_0_1_wf : ScatterDims.WF S20000x512 S160000x1 S160000x512 [1] [0] [0] 1
  dot_S20000x512_S512x512_S20000x512_1_0_0_1_n_n_wf : DotDims.WF S20000x512 S512x512 S20000x512 [1] [0] [0] [1] [] []
  scatter_S128x512_S20000x1_S20000x512_1_0_0_1_wf : ScatterDims.WF S128x512 S20000x1 S20000x512 [1] [0] [0] 1

variable [Facts₀]

def gather_S20000x512_S160000x1_S160000x512_1_0_n_n_0_1_1512 : GatherDims S20000x512 S160000x1 S160000x512 where
  offsetDims := [1]
  collapsedSliceDims := [0]
  operandBatchingDims := []
  startIndicesBatchingDims := []
  startIndexMap := [0]
  indexVectorDim := 1
  sliceSizes := ![1, 512]
  wf := gather_S20000x512_S160000x1_S160000x512_1_0_n_n_0_1_1512_wf
def scatter_S20000x512_S160000x1_S160000x512_1_0_0_1 : ScatterDims S20000x512 S160000x1 S160000x512 where
  updateWindowDims := [1]
  insertedWindowDims := [0]
  scatterDimsToOperandDims := [0]
  indexVectorDim := 1
  wf := scatter_S20000x512_S160000x1_S160000x512_1_0_0_1_wf
def dot_S20000x512_S512x512_S20000x512_1_0_0_1_n_n : DotDims S20000x512 S512x512 S20000x512 where
  lhsContracting := [1]
  rhsContracting := [0]
  lhsNonContracting := [0]
  rhsNonContracting := [1]
  lhsBatch := []
  rhsBatch := []
  wf := dot_S20000x512_S512x512_S20000x512_1_0_0_1_n_n_wf
def scatter_S128x512_S20000x1_S20000x512_1_0_0_1 : ScatterDims S128x512 S20000x1 S20000x512 where
  updateWindowDims := [1]
  insertedWindowDims := [0]
  scatterDimsToOperandDims := [0]
  indexVectorDim := 1
  wf := scatter_S128x512_S20000x1_S20000x512_1_0_0_1_wf

class Facts : Prop extends Facts₀ where

variable [Facts]
-- ==== Proof.K.RunCond.lean ====
/-
  The conditional run of the program with its RESULTS named. @main is twenty-five items: host stretches and nine kernel
  regions. Between two items a core holds every unscoped buffer whole at a valuation (the launch memory, then each host
  stretch folded over it, then what a region leaves at the unknowns outs). Given, per region, a segment record entered
  from the valuation before it and left at the one after it, every weakly fair execution of @main terminates, each
  argument array ends as launched, and the two result arrays end at what the LAST valuation holds for them: the node
  features after the third layer and the concatenated per-graph sums. The statement and proof are those of the conditional
  frame with two more buffers read back at the end.
-/
import proofs.«157524_j37503654429443_1_alg».proof.Proof.Gen.Kernel.Regions

set_option maxRecDepth 1676

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

variable (m : (ℓ : Loc nD τ sig) → Buf (Elt F) ℓ) (outs : Outs (F := F))

-- the regions theorem's implicit arguments are found by unifying its conclusion with this one, which takes unfolding
-- plain definitions in a metavariable's type
set_option backward.isDefEq.respectTransparency.types false in
/-- Every weakly fair execution of @main from memory m terminates; the arguments end as launched and the two results at
    the last valuation's contents. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 9) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 10 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE9 : ∀ c : Dev nD, E 9 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V9 m outs c) ∗ E 3 c) ⊢ R3.pre c)
    (hpost3 : ∀ c : Dev nD, R3.post c ⊢ iprop(StableHlo.held (c : Thread nD τ) (Pipeline.ucRefs τ sig) (V10 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V11 m outs c) ∗ E 4 c) ⊢ R4.pre c)
    (hpost4 : ∀ c : Dev nD, R4.post c ⊢ iprop(StableHlo.held (c : Thread nD τ) (Pipeline.ucRefs τ sig) (V12 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V15 m outs c) ∗ E 5 c) ⊢ R5.pre c)
    (hpost5 : ∀ c : Dev nD, R5.post c ⊢ iprop(StableHlo.held (c : Thread nD τ) (Pipeline.ucRefs τ sig) (V16 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V17 m outs c) ∗ E 6 c) ⊢ R6.pre c)
    (hpost6 : ∀ c : Dev nD, R6.post c ⊢ iprop(StableHlo.held (c : Thread nD τ) (Pipeline.ucRefs τ sig) (V18 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V19 m outs c) ∗ E 7 c) ⊢ R7.pre c)
    (hpost7 : ∀ c : Dev nD, R7.post c ⊢ iprop(StableHlo.held (c : Thread nD τ) (Pipeline.ucRefs τ sig) (V20 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V23 m outs c) ∗ E 8 c) ⊢ R8.pre c)
    (hpost8 : ∀ c : Dev nD, R8.post c ⊢ iprop(StableHlo.held (c : Thread nD τ) (Pipeline.ucRefs τ sig) (V24 m outs c) ∗ E 9 c)) :
    θ_run defs (onTc (τ := τ) (main (F := F))) ⟨m, fun _ => 0, ρ⟩ (fun r => ∀ c : Dev nD,
      r.2.mem ((c.tc : Thread nD τ).loc main_v120) = V25 m outs c (Proc.devRef .tc main_v120)
      ∧ r.2.mem ((c.tc : Thread nD τ).loc main_v124) = V25 m outs c (Proc.devRef .tc main_v124)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8)
    (fun c Q => by
      rewrite [main_chain c, Seg.run_eq_chain,
        show (segs m outs 𝒱₀ L lv E ι pdats R0 R1 R2 R3 R4 R5 R6 R7 R8 c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          StableHlo.seq hostOps5_1,
          StableHlo.seq hostOps5_2,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          StableHlo.seq hostOps8_1,
          StableHlo.seq hostOps8_2,
          Prog.lift (.customCall (Pipeline.entry 8) ()),
          StableHlo.seq hostOps9 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V25 m outs c))
    (hch := fun c => ⟨.rfl, hpre0 c, hpost0 c, hpre1 c, hpost1 c, .rfl, .rfl, hpre2 c, hpost2 c, hpre3 c, hpost3 c, hpre4 c, hpost4 c, .rfl, .rfl, hpre5 c, hpost5 c, hpre6 c, hpost6 c, hpre7 c, hpost7 c, .rfl, .rfl, hpre8 c, hpost8 c, sep_mono .rfl (hE9 c)⟩)
    (hinit := ?_) (QY := fun c s => s.mem ((c.tc : Thread nD τ).loc main_v120) = V25 m outs c (Proc.devRef .tc main_v120) ∧ s.mem ((c.tc : Thread nD τ).loc main_v124) = V25 m outs c (Proc.devRef .tc main_v124) ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V25 m outs c) s') $$ [Hh HSI]
    · isplitl [Hh] <;> iassumption
    icases Hr with ⟨%h, HSI⟩
    imodintro
    isplitr
    · ipureintro
      exact ⟨h (Proc.devRef .tc main_v120) (Finset.mem_filter.mpr ⟨StableHlo.devRef_mem_tcRefs main_v120, by decide⟩),
        h (Proc.devRef .tc main_v124) (Finset.mem_filter.mpr ⟨StableHlo.devRef_mem_tcRefs main_v124, by decide⟩),
        (h (Proc.devRef .tc main_arg0) (Finset.mem_filter.mpr ⟨StableHlo.devRef_mem_tcRefs main_arg0, by decide⟩)).trans (V25_main_arg0 m outs c),
        (h (Proc.devRef .tc main_arg1) (Finset.mem_filter.mpr ⟨StableHlo.devRef_mem_tcRefs main_arg1, by decide⟩)).trans (V25_main_arg1 m outs c),
        (h (Proc.devRef .tc main_arg2) (Finset.mem_filter.mpr ⟨StableHlo.devRef_mem_tcRefs main_arg2, by decide⟩)).trans (V25_main_arg2 m outs c),
        (h (Proc.devRef .tc main_arg3) (Finset.mem_filter.mpr ⟨StableHlo.devRef_mem_tcRefs main_arg3, by decide⟩)).trans (V25_main_arg3 m outs c),
        (h (Proc.devRef .tc main_arg4) (Finset.mem_filter.mpr ⟨StableHlo.devRef_mem_tcRefs main_arg4, by decide⟩)).trans (V25_main_arg4 m outs c),
        (h (Proc.devRef .tc main_arg5) (Finset.mem_filter.mpr ⟨StableHlo.devRef_mem_tcRefs main_arg5, by decide⟩)).trans (V25_main_arg5 m outs c),
        (h (Proc.devRef .tc main_arg6) (Finset.mem_filter.mpr ⟨StableHlo.devRef_mem_tcRefs main_arg6, by decide⟩)).trans (V25_main_arg6 m outs c),
        (h (Proc.devRef .tc main_arg7) (Finset.mem_filter.mpr ⟨StableHlo.devRef_mem_tcRefs main_arg7, by decide⟩)).trans (V25_main_arg7 m outs c),
        (h (Proc.devRef .tc main_arg8) (Finset.mem_filter.mpr ⟨StableHlo.devRef_mem_tcRefs main_arg8, by decide⟩)).trans (V25_main_arg8 m outs c),
        (h (Proc.devRef .tc main_arg9) (Finset.mem_filter.mpr ⟨StableHlo.devRef_mem_tcRefs main_arg9, by decide⟩)).trans (V25_main_arg9 m outs c)⟩
    · iexact HSI

end Cert.Kernel.Hand

end
-- ==== Proof.K.RunInst.lean ====
/-
  The run of the program from its nine regions' records alone. The conditional run is instantiated at the library's own
  user algebra with no level assigned and nothing owed at launch; beside the unscoped buffers every item carries the same
  rest: the core's generator register at some state and the core owing nothing. What remains to be supplied is, per region,
  its segment record between the valuation it is entered from and the one it leaves.
-/
import proofs.«157524_j37503654429443_1_alg».proof.Proof.K.RunCond
import Idealize.ShloMosaic.Lib.Pipeline.Kit
import Idealize.ShloMosaic.Lib.Pipeline.RegionsLoop

set_option maxRecDepth 1676

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

local notation "𝕄" => MT nD τ sig Unit (Elt F) ℕ (UR sig nD τ) ℕ

/-- No variant, no level: no core owes another anything. -/
abbrev 𝒱₀ : Variants := Variants.none
abbrev L : GSem nD τ sig → Finset Unit := fun _ => ∅
abbrev lv : GSem nD τ sig → Unit → ℕ := fun _ _ => 0

/-- What rides beside the buffers through every item: the core's generator register at some state, and the core owing nothing. -/
abbrev R (c : Dev nD) : sProp 𝕄 := iprop((∃ r, prngReg c r) ∗ ∃ W, owes (c : Thread nD τ) (0 : CellTallies nD τ sig Unit) W)

variable (m : (ℓ : Loc nD τ sig) → Buf (Elt F) ℓ) (ρ : Dev nD → PrngReg)

set_option backward.isDefEq.respectTransparency.types false in
/-- Given the nine regions' records, @main runs to the end with the arguments as launched and the results at the last valuation. -/
theorem run_of_regions (outs : Outs (F := F))
    (pdats : (p : Fin 9) → (c : Dev nD) → Dat τ (Elt F) Unit ℕ (UR sig nD τ) ℕ (cfgs p) c)
    (R0 : RegionSeg (pcfgs (F := F)) adm pdats () defs₀ 𝒱₀ L lv 0)
    (hpre0 : ∀ c : Dev nD, iprop(StableHlo.held (c : Thread nD τ) (Pipeline.ucRefs τ sig) (V1 m c) ∗ R c) ⊢ R0.pre c)
    (hpost0 : ∀ c : Dev nD, R0.post c ⊢ iprop(StableHlo.held (c : Thread nD τ) (Pipeline.ucRefs τ sig) (V2 m outs c) ∗ R c))
    (R1 : RegionSeg (pcfgs (F := F)) adm pdats () defs₀ 𝒱₀ L lv 1)
    (hpre1 : ∀ c : Dev nD, iprop(StableHlo.held (c : Thread nD τ) (Pipeline.ucRefs τ sig) (V3 m outs c) ∗ R c) ⊢ R1.pre c)
    (hpost1 : ∀ c : Dev nD, R1.post c ⊢ iprop(StableHlo.held (c : Thread nD τ) (Pipeline.ucRefs τ sig) (V4 m outs c) ∗ R c))
    (R2 : RegionSeg (pcfgs (F := F)) adm pdats () defs₀ 𝒱₀ L lv 2)
    (hpre2 : ∀ c : Dev nD, iprop(StableHlo.held (c : Thread nD τ) (Pipeline.ucRefs τ sig) (V7 m outs c) ∗ R c) ⊢ R2.pre c)
    (hpost2 : ∀ c : Dev nD, R2.post c ⊢ iprop(StableHlo.held (c : Thread nD τ) (Pipeline.ucRefs τ sig) (V8 m outs c) ∗ R c))
    (R3 : RegionSeg (pcfgs (F := F)) adm pdats () defs₀ 𝒱₀ L lv 3)
    (hpre3 : ∀ c : Dev nD, iprop(StableHlo.held (c : Thread nD τ) (Pipeline.ucRefs τ sig) (V9 m outs c) ∗ R c) ⊢ R3.pre c)
    (hpost3 : ∀ c : Dev nD, R3.post c ⊢ iprop(StableHlo.held (c : Thread nD τ) (Pipeline.ucRefs τ sig) (V10 m outs c) ∗ R c))
    (R4 : RegionSeg (pcfgs (F := F)) adm pdats () defs₀ 𝒱₀ L lv 4)
    (hpre4 : ∀ c : Dev nD, iprop(StableHlo.held (c : Thread nD τ) (Pipeline.ucRefs τ sig) (V11 m outs c) ∗ R c) ⊢ R4.pre c)
    (hpost4 : ∀ c : Dev nD, R4.post c ⊢ iprop(StableHlo.held (c : Thread nD τ) (Pipeline.ucRefs τ sig) (V12 m outs c) ∗ R c))
    (R5 : RegionSeg (pcfgs (F := F)) adm pdats () defs₀ 𝒱₀ L lv 5)
    (hpre5 : ∀ c : Dev nD, iprop(StableHlo.held (c : Thread nD τ) (Pipeline.ucRefs τ sig) (V15 m outs c) ∗ R c) ⊢ R5.pre c)
    (hpost5 : ∀ c : Dev nD, R5.post c ⊢ iprop(StableHlo.held (c : Thread nD τ) (Pipeline.ucRefs τ sig) (V16 m outs c) ∗ R c))
    (R6 : RegionSeg (pcfgs (F := F)) adm pdats () defs₀ 𝒱₀ L lv 6)
    (hpre6 : ∀ c : Dev nD, iprop(StableHlo.held (c : Thread nD τ) (Pipeline.ucRefs τ sig) (V17 m outs c) ∗ R c) ⊢ R6.pre c)
    (hpost6 : ∀ c : Dev nD, R6.post c ⊢ iprop(StableHlo.held (c : Thread nD τ) (Pipeline.ucRefs τ sig) (V18 m outs c) ∗ R c))
    (R7 : RegionSeg (pcfgs (F := F)) adm pdats () defs₀ 𝒱₀ L lv 7)
    (hpre7 : ∀ c : Dev nD, iprop(StableHlo.held (c : Thread nD τ) (Pipeline.ucRefs τ sig) (V19 m outs c) ∗ R c) ⊢ R7.pre c)
    (hpost7 : ∀ c : Dev nD, R7.post c ⊢ iprop(StableHlo.held (c : Thread nD τ) (Pipeline.ucRefs τ sig) (V20 m outs c) ∗ R c))
    (R8 : RegionSeg (pcfgs (F := F)) adm pdats () defs₀ 𝒱₀ L lv 8)
    (hpre8 : ∀ c : Dev nD, iprop(StableHlo.held (c : Thread nD τ) (Pipeline.ucRefs τ sig) (V23 m outs c) ∗ R c) ⊢ R8.pre c)
    (hpost8 : ∀ c : Dev nD, R8.post c ⊢ iprop(StableHlo.held (c : Thread nD τ) (Pipeline.ucRefs τ sig) (V24 m outs c) ∗ R c)) :
    θ_run defs (onTc (τ := τ) (main (F := F))) ⟨m, fun _ => 0, ρ⟩ (fun r => ∀ c : Dev nD,
      r.2.mem ((c.tc : Thread nD τ).loc main_v120) = V25 m outs c (Proc.devRef .tc main_v120)
      ∧ r.2.mem ((c.tc : Thread nD τ).loc main_v124) = V25 m outs c (Proc.devRef .tc main_v124)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  run_cond (F := F) m emb₁ () 𝒱₀ L lv (fun _ _ => rfl) ρ outs pdats 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    R0 hpre0 hpost0 R1 hpre1 hpost1 R2 hpre2 hpost2 R3 hpre3 hpost3 R4 hpre4 hpost4 R5 hpre5 hpost5 R6 hpre6 hpost6 R7 hpre7 hpost7 R8 hpre8 hpost8

end Cert.Kernel.Hand

end
-- ==== Proof.K.Edge0.lean ====
/- The frame half of region 0 of @main: the pallas_call `cc0__edge_add_relu_kernel` (grid 80; every window a
   2000x512 block of a [160000,512] array; windows 0, 1 the two inputs, window 2 the output), at a PARAMETER `V`, the
   TensorCore's buffer contents when the region is entered. Stated for every float interpretation `F`:
   each window's block at a point, what the body leaves in the output's staging buffer, the body's triple, the
   pipeline's proof data and its body obligation. -/
import proofs.«157524_j37503654429443_1_alg».proof.Proof.Gen.Kernel.Launch
import proofs.«157524_j37503654429443_1_alg».proof.Proof.Gen.Kernel.Skeleton
import proofs.«157524_j37503654429443_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000x512 extents recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    `V`'s and whose body leaves the block in place: the window is fetched at every point, uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The one rectangle the body reads and writes: the whole 2000x512 block. -/
abbrev r0_0 : Rect S2000x512 := Rect.unit (s := S2000x512) ![0, 0] S2000x512.size inb_S2000x512_S2000x512_0_0

/-! ## What the body leaves in the output window's buffer -/

/-- Window 2's staging buffer after the body, from the two input blocks: its one store, of
    `max (x0 + x1) 0` elementwise (the payload `k0_pay1`), over the whole block. -/
def out0_2 (x0 x1 : Vec F S2000x512 .f32) : Vec F S2000x512 .f32 :=
  View.canon [⟨r0_0, k0_pay1 (View.ld x0 r0_0) (View.ld x1 r0_0)⟩]

/-- The store tiles the buffer, so it covers it. -/
theorem cover0_2 (p0 : Vec F S2000x512 .f32) (y : S2000x512.Idx) :
    ∃ pc ∈ ([⟨r0_0, p0⟩] : List (View.Piece (Elt F) S2000x512 .f32)), y ∈ pc.1.set :=
  View.cover_of_tiled [⟨r0_0, p0⟩] S2000x512.size (by rfl) y

/-! ## The body's triple -/

set_option maxHeartbeats 1000000 in
/-- The kernel body on whole staging memrefs, the inputs' at read contents `x0`, `x1` and the output's at anything, runs
    to the continuation holding the inputs' as they were and the output's at `out0_2 x0 x1`: two loads of the inputs, a
    load of the output whose value is not used, and the one store. -/
theorem sound_kernel0 (c : Dev nD) (E : Set ℕ) (i : grid0.Coords)
    (arg1 : Memref sig .tc .vmem S2000x512 .f32) (harg1 : arg1.IsWhole) (arg2 : Memref sig .tc .vmem S2000x512 .f32) (harg2 : arg2.IsWhole)
    (arg3 : Memref sig .tc .vmem S2000x512 .f32) (harg3 : arg3.IsWhole)
    (x0 x1 : Vec F S2000x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__edge_add_relu_kernel i arg1 harg1 arg2 harg2 arg3 harg3) K := by
  simp only [cc0__edge_add_relu_kernel_eq_skeleton]; unfold cc0__edge_add_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the pipeline on core `c`: the arrays as the region finds them (`V`); after the body at point `t`
    each input's buffer at its block and the output's at `out0_2` of the input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand
-- ==== Proof.K.Mlp1_1.lean ====
/- The frame half of region 1 of @main: the pipelined call of `cc1__mlp1_kernel`, at any float model `F`.
   At a parameter `V` (the core's buffer contents when the region is entered): each window's block at a grid
   point, what the body leaves in the output window's staging buffer as a function of the four input blocks,
   the body's triple, the pipeline's proof data and its body obligation. -/
import proofs.«157524_j37503654429443_1_alg».proof.Proof.Gen.Kernel.Launch
import proofs.«157524_j37503654429443_1_alg».proof.Proof.Gen.Kernel.Skeleton
import proofs.«157524_j37503654429443_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether or not the window is
    fetched there: where it is not fetched its block index has not moved, and the body left the block in place.
    Windows 0 and 1 (the row blocks of the two summands) are fetched at every point; windows 2 and 3 (the weight
    matrix and the bias row, at a constant index) only at the first. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each staging buffer whole -/

abbrev r1_x : Rect S2000x512 := Rect.unit (s := S2000x512) ![0, 0] S2000x512.size inb_S2000x512_S2000x512_0_0
abbrev r1_w : Rect S512x512 := Rect.unit (s := S512x512) ![0, 0] S512x512.size inb_S512x512_S512x512_0_0
abbrev r1_b : Rect S1x512 := Rect.unit (s := S1x512) ![0, 0] S1x512.size inb_S1x512_S1x512_0_0

/-! ## What the body leaves in the output window's buffer -/

/-- Window 4's staging buffer after the body, from the input windows' blocks: its one store, of the
    payload (the product of the rounded sum of the two row blocks with the rounded weight matrix, plus the bias
    row at every row). -/
def out1_4 (x0 x1 : Vec F S2000x512 .f32) (x2 : Vec F S512x512 .f32) (x3 : Vec F S1x512 .f32) : Vec F S2000x512 .f32 :=
  View.canon [⟨r1_x, k1_pay1 (View.ld x0 r1_x) (View.ld x1 r1_x) (View.ld x2 r1_w) (View.ld x3 r1_b)⟩]

/-- The one store is of the whole buffer, so it covers it. -/
theorem cover1_4 (p0 : Vec F S2000x512 .f32) (y : S2000x512.Idx) :
    ∃ pc ∈ ([⟨r1_x, p0⟩] : List (View.Piece (Elt F) S2000x512 .f32)), y ∈ pc.1.set :=
  View.cover_of_tiled [⟨r1_x, p0⟩] S2000x512.size (by rfl) y

/-! ## The body's triple -/

set_option maxHeartbeats 1000000 in
/-- The kernel body on whole staging memrefs, the four inputs' at read contents `x0 … x3` and the output's at
    anything, runs to the continuation holding the inputs' as they were and the output's at `out1_4` of the
    inputs'. The body also reads the output buffer before its store; that value is not used. -/
theorem sound_kernel1 (c : Dev nD) (E : Set ℕ) (i : grid1.Coords)
    (arg1 : Memref sig .tc .vmem S2000x512 .f32) (harg1 : arg1.IsWhole) (arg2 : Memref sig .tc .vmem S2000x512 .f32) (harg2 : arg2.IsWhole)
    (arg3 : Memref sig .tc .vmem S512x512 .f32) (harg3 : arg3.IsWhole) (arg4 : Memref sig .tc .vmem S1x512 .f32) (harg4 : arg4.IsWhole)
    (arg5 : Memref sig .tc .vmem S2000x512 .f32) (harg5 : arg5.IsWhole)
    (x0 x1 : Vec F S2000x512 .f32) (x2 : Vec F S512x512 .f32) (x3 : Vec F S1x512 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E (cc1__mlp1_kernel i arg1 harg1 arg2 harg2 arg3 harg3 arg4 harg4 arg5 harg5) K := by
  simp only [cc1__mlp1_kernel_eq_skeleton]; unfold cc1__mlp1_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of the pipeline on core `c`: the arrays as the region finds them; after the body at point
    `t` each input's buffer at its block and the output's at `out1_4` of the input blocks; the invariant
    "the scoped rest and the generator register, untouched"; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant
    and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Mlp2_2.lean ====
/- The frame half of region 2 of @main: the pipelined call of the second dense layer of a graph-network block,
   on a grid of 10 points. Window 0 is a 2000x512 block of the node features; windows 1..6 are whole small arrays
   read at a constant index (a row of means, a row of variances, a row of scales, a row of shifts, a 512x512 weight,
   a row of biases); window 7 is the 2000x512 output block. At a parameter `V`, the contents of the core's buffers
   when the region is entered, this file states each window's block at a point, what the body leaves in the output
   buffer as a function of the input blocks, the body's triple, and the pipeline's proof data with its body
   obligation. Everything is generic in the float interpretation `F`. -/
import proofs.«157524_j37503654429443_1_alg».proof.Proof.Gen.Kernel.Launch
import proofs.«157524_j37503654429443_1_alg».proof.Proof.Gen.Kernel.Skeleton
import proofs.«157524_j37503654429443_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of extent 2000 is decided by structural recursion on the coordinate
set_option maxRecDepth 16384

noncomputable section

open Cert.Kernel Cert.Kernel.Gen

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether the pipeline fetched it there or
    not (an unfetched window's block index has not moved), for any proof data whose array is `V`'s and whose body
    leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether the pipeline fetched it there or
    not (an unfetched window's block index has not moved), for any proof data whose array is `V`'s and whose body
    leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether the pipeline fetched it there or
    not (an unfetched window's block index has not moved), for any proof data whose array is `V`'s and whose body
    leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, whether the pipeline fetched it there or
    not (an unfetched window's block index has not moved), for any proof data whose array is `V`'s and whose body
    leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, whether the pipeline fetched it there or
    not (an unfetched window's block index has not moved), for any proof data whose array is `V`'s and whose body
    leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, whether the pipeline fetched it there or
    not (an unfetched window's block index has not moved), for any proof data whose array is `V`'s and whose body
    leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, whether the pipeline fetched it there or
    not (an unfetched window's block index has not moved), for any proof data whose array is `V`'s and whose body
    leaves the block in place. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer is read and written whole -/

abbrev r2_a : Rect S2000x512 := Rect.unit (s := S2000x512) ![0, 0] S2000x512.size inb_S2000x512_S2000x512_0_0
abbrev r2_b : Rect S1x512 := Rect.unit (s := S1x512) ![0, 0] S1x512.size inb_S1x512_S1x512_0_0
abbrev r2_c : Rect S512x512 := Rect.unit (s := S512x512) ![0, 0] S512x512.size inb_S512x512_S512x512_0_0

/-! ## What the body leaves in the output window's buffer -/

/-- Window 7's staging buffer after the body, from the input windows' blocks `x0 .. x6` (in window order): one store of
    the whole block, whose value is the layer's arithmetic on the blocks. The arithmetic takes the row of variances
    (window 2) before the row of means (window 1). -/
def out2_7 (x0 : Vec F S2000x512 .f32) (x1 x2 x3 x4 : Vec F S1x512 .f32) (x5 : Vec F S512x512 .f32) (x6 : Vec F S1x512 .f32) : Vec F S2000x512 .f32 :=
  View.canon [⟨r2_a, k2_pay1 (View.ld x0 r2_a) (View.ld x2 r2_b) (View.ld x1 r2_b) (View.ld x3 r2_b) (View.ld x4 r2_b) (View.ld x5 r2_c) (View.ld x6 r2_b)⟩]

/-- The one store is of the whole buffer, so it covers it. -/
theorem cover2_7 (p0 : Vec F S2000x512 .f32) (y : S2000x512.Idx) :
    ∃ pc ∈ ([⟨r2_a, p0⟩] : List (View.Piece (Elt F) S2000x512 .f32)), y ∈ pc.1.set :=
  View.cover_of_tiled [⟨r2_a, p0⟩] S2000x512.size (by rfl) y

/-! ## The body's triple -/

set_option maxHeartbeats 4000000 in
/-- The kernel body on whole staging memrefs, the inputs' at read contents `x0 .. x6` and the output's at anything, runs
    to the continuation holding the inputs' as they were and the output's at `out2_7` of the inputs'. The body also
    reads the output buffer before it stores to it; the value read is not used. -/
theorem sound_kernel2 (c : Dev nD) (E : Set ℕ) (i : grid2.Coords)
    (arg1 : Memref sig .tc .vmem S2000x512 .f32) (harg1 : arg1.IsWhole) (arg2 : Memref sig .tc .vmem S1x512 .f32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1x512 .f32) (harg5 : arg5.IsWhole) (arg6 : Memref sig .tc .vmem S512x512 .f32) (harg6 : arg6.IsWhole)
    (arg7 : Memref sig .tc .vmem S1x512 .f32) (harg7 : arg7.IsWhole) (arg8 : Memref sig .tc .vmem S2000x512 .f32) (harg8 : arg8.IsWhole)
    (x0 : Vec F S2000x512 .f32) (x1 x2 x3 x4 : Vec F S1x512 .f32) (x5 : Vec F S512x512 .f32) (x6 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out2_7 x0 x1 x2 x3 x4 x5 x6)) -∗ K ⟨⟩))
      ⊢ wp frame (wpE (defs₀ (F := F)) Variants.none c none) E (cc2__mlp2_kernel i arg1 harg1 arg2 harg2 arg3 harg3 arg4 harg4 arg5 harg5 arg6 harg6 arg7 harg7 arg8 harg8) K := by
  simp only [cc2__mlp2_kernel_eq_skeleton]; unfold cc2__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The pipeline's proof data -/

/-- The proof data of this pipeline on core `c`: the arrays as the region finds them; after the body at point `t` each
    input's buffer at its block and the output's at `out2_7` of the input blocks; the invariant that of a pipeline
    whose body touches nothing but its windows; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t =
    out2_7 (iblk2 V c 0 t) (iblk2 V c 1 t) (iblk2 V c 2 t) (iblk2 V c 3 t) (iblk2 V c 4 t) (iblk2 V c 5 t) (iblk2 V c 6 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 2000000 in
/-- The body at any point: the inputs' memrefs hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the pipeline, at every point. -/
theorem body_obligation2 (c : Dev nD) : BodyObligation (dat2 (F := F) V c) (defs₀ (F := F)) Variants.none () Set.univ := fun t => by
  rw [bigSep_W2, bigSep_W2]
  exact sound_body2 V c t

end Cert.Kernel.Hand
-- ==== Proof.K.Edge3.lean ====
/- The frame half of region 3 of @main: the pallas_call `cc3__edge_add_relu_kernel` (grid 80; every window a
   2000x512 block of a [160000,512] array; windows 0, 1 the two inputs, window 2 the output), at a PARAMETER `V`, the
   TensorCore's buffer contents when the region is entered. Stated for every float interpretation `F`:
   each window's block at a point, what the body leaves in the output's staging buffer, the body's triple, the
   pipeline's proof data and its body obligation. -/
import proofs.«157524_j37503654429443_1_alg».proof.Proof.Gen.Kernel.Launch
import proofs.«157524_j37503654429443_1_alg».proof.Proof.Gen.Kernel.Skeleton
import proofs.«157524_j37503654429443_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000x512 extents recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, for any proof data whose array is
    `V`'s and whose body leaves the block in place: the window is fetched at every point, uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The same for input window 1. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The one rectangle the body reads and writes: the whole 2000x512 block. -/
abbrev r3_0 : Rect S2000x512 := Rect.unit (s := S2000x512) ![0, 0] S2000x512.size inb_S2000x512_S2000x512_0_0

/-! ## What the body leaves in the output window's buffer -/

/-- Window 2's staging buffer after the body, from the two input blocks: its one store, of
    `max (x0 + x1) 0` elementwise (the payload `k3_pay1`), over the whole block. -/
def out3_2 (x0 x1 : Vec F S2000x512 .f32) : Vec F S2000x512 .f32 :=
  View.canon [⟨r3_0, k3_pay1 (View.ld x0 r3_0) (View.ld x1 r3_0)⟩]

/-- The store tiles the buffer, so it covers it. -/
theorem cover3_2 (p0 : Vec F S2000x512 .f32) (y : S2000x512.Idx) :
    ∃ pc ∈ ([⟨r3_0, p0⟩] : List (View.Piece (Elt F) S2000x512 .f32)), y ∈ pc.1.set :=
  View.cover_of_tiled [⟨r3_0, p0⟩] S2000x512.size (by rfl) y

/-! ## The body's triple -/

set_option maxHeartbeats 1000000 in
/-- The kernel body on whole staging memrefs, the inputs' at read contents `x0`, `x1` and the output's at anything, runs
    to the continuation holding the inputs' as they were and the output's at `out3_2 x0 x1`: two loads of the inputs, a
    load of the output whose value is not used, and the one store. -/
theorem sound_kernel3 (c : Dev nD) (E : Set ℕ) (i : grid3.Coords)
    (arg1 : Memref sig .tc .vmem S2000x512 .f32) (harg1 : arg1.IsWhole) (arg2 : Memref sig .tc .vmem S2000x512 .f32) (harg2 : arg2.IsWhole)
    (arg3 : Memref sig .tc .vmem S2000x512 .f32) (harg3 : arg3.IsWhole)
    (x0 x1 : Vec F S2000x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__edge_add_relu_kernel i arg1 harg1 arg2 harg2 arg3 harg3) K := by
  simp only [cc3__edge_add_relu_kernel_eq_skeleton]; unfold cc3__edge_add_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of the pipeline on core `c`: the arrays as the region finds them (`V`); after the body at point `t`
    each input's buffer at its block and the output's at `out3_2` of the input blocks; the invariant the scoped rest and
    the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so `sound_kernel3` applies; the invariant and the
    core's obligations pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand
-- ==== Proof.K.Mlp1_4.lean ====
/- The frame half of region 4 of @main: the pipelined call of `cc4__mlp1_kernel`, at any float model `F`.
   At a parameter `V` (the core's buffer contents when the region is entered): each window's block at a grid
   point, what the body leaves in the output window's staging buffer as a function of the four input blocks,
   the body's triple, the pipeline's proof data and its body obligation. -/
import proofs.«157524_j37503654429443_1_alg».proof.Proof.Gen.Kernel.Launch
import proofs.«157524_j37503654429443_1_alg».proof.Proof.Gen.Kernel.Skeleton
import proofs.«157524_j37503654429443_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, whether or not the window is
    fetched there: where it is not fetched its block index has not moved, and the body left the block in place.
    Windows 0 and 1 (the row blocks of the two summands) are fetched at every point; windows 2 and 3 (the weight
    matrix and the bias row, at a constant index) only at the first. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each staging buffer whole -/

abbrev r4_x : Rect S2000x512 := Rect.unit (s := S2000x512) ![0, 0] S2000x512.size inb_S2000x512_S2000x512_0_0
abbrev r4_w : Rect S512x512 := Rect.unit (s := S512x512) ![0, 0] S512x512.size inb_S512x512_S512x512_0_0
abbrev r4_b : Rect S1x512 := Rect.unit (s := S1x512) ![0, 0] S1x512.size inb_S1x512_S1x512_0_0

/-! ## What the body leaves in the output window's buffer -/

/-- Window 4's staging buffer after the body, from the input windows' blocks: its one store, of the
    payload (the product of the rounded sum of the two row blocks with the rounded weight matrix, plus the bias
    row at every row). -/
def out4_4 (x0 x1 : Vec F S2000x512 .f32) (x2 : Vec F S512x512 .f32) (x3 : Vec F S1x512 .f32) : Vec F S2000x512 .f32 :=
  View.canon [⟨r4_x, k4_pay1 (View.ld x0 r4_x) (View.ld x1 r4_x) (View.ld x2 r4_w) (View.ld x3 r4_b)⟩]

/-- The one store is of the whole buffer, so it covers it. -/
theorem cover4_4 (p0 : Vec F S2000x512 .f32) (y : S2000x512.Idx) :
    ∃ pc ∈ ([⟨r4_x, p0⟩] : List (View.Piece (Elt F) S2000x512 .f32)), y ∈ pc.1.set :=
  View.cover_of_tiled [⟨r4_x, p0⟩] S2000x512.size (by rfl) y

/-! ## The body's triple -/

set_option maxHeartbeats 1000000 in
/-- The kernel body on whole staging memrefs, the four inputs' at read contents `x0 … x3` and the output's at
    anything, runs to the continuation holding the inputs' as they were and the output's at `out4_4` of the
    inputs'. The body also reads the output buffer before its store; that value is not used. -/
theorem sound_kernel4 (c : Dev nD) (E : Set ℕ) (i : grid4.Coords)
    (arg1 : Memref sig .tc .vmem S2000x512 .f32) (harg1 : arg1.IsWhole) (arg2 : Memref sig .tc .vmem S2000x512 .f32) (harg2 : arg2.IsWhole)
    (arg3 : Memref sig .tc .vmem S512x512 .f32) (harg3 : arg3.IsWhole) (arg4 : Memref sig .tc .vmem S1x512 .f32) (harg4 : arg4.IsWhole)
    (arg5 : Memref sig .tc .vmem S2000x512 .f32) (harg5 : arg5.IsWhole)
    (x0 x1 : Vec F S2000x512 .f32) (x2 : Vec F S512x512 .f32) (x3 : Vec F S1x512 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out4_4 x0 x1 x2 x3)) -∗ K ⟨⟩))
      ⊢ wp frame (wpE (defs₀ (F := F)) Variants.none c none) E (cc4__mlp1_kernel i arg1 harg1 arg2 harg2 arg3 harg3 arg4 harg4 arg5 harg5) K := by
  simp only [cc4__mlp1_kernel_eq_skeleton]; unfold cc4__mlp1_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-! ## The pipeline's proof data -/

/-- The proof data of the pipeline on core `c`: the arrays as the region finds them; after the body at point
    `t` each input's buffer at its block and the output's at `out4_4` of the input blocks; the invariant
    "the scoped rest and the generator register, untouched"; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = out4_4 (iblk4 V c 0 t) (iblk4 V c 1 t) (iblk4 V c 2 t) (iblk4 V c 3 t) := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' memrefs hold their blocks, so the body's triple applies; the invariant
    and what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Mlp2_5.lean ====
/- The frame half of region 5 of @main: the pipelined call of the second dense layer of a graph-network block,
   on a grid of 10 points. Window 0 is a 2000x512 block of the node features; windows 1..6 are whole small arrays
   read at a constant index (a row of means, a row of variances, a row of scales, a row of shifts, a 512x512 weight,
   a row of biases); window 7 is the 2000x512 output block. At a parameter `V`, the contents of the core's buffers
   when the region is entered, this file states each window's block at a point, what the body leaves in the output
   buffer as a function of the input blocks, the body's triple, and the pipeline's proof data with its body
   obligation. Everything is generic in the float interpretation `F`. -/
import proofs.«157524_j37503654429443_1_alg».proof.Proof.Gen.Kernel.Launch
import proofs.«157524_j37503654429443_1_alg».proof.Proof.Gen.Kernel.Skeleton
import proofs.«157524_j37503654429443_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of extent 2000 is decided by structural recursion on the coordinate
set_option maxRecDepth 16384

noncomputable section

open Cert.Kernel Cert.Kernel.Gen

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, whether the pipeline fetched it there or
    not (an unfetched window's block index has not moved), for any proof data whose array is `V`'s and whose body
    leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, whether the pipeline fetched it there or
    not (an unfetched window's block index has not moved), for any proof data whose array is `V`'s and whose body
    leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, whether the pipeline fetched it there or
    not (an unfetched window's block index has not moved), for any proof data whose array is `V`'s and whose body
    leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, whether the pipeline fetched it there or
    not (an unfetched window's block index has not moved), for any proof data whose array is `V`'s and whose body
    leaves the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, whether the pipeline fetched it there or
    not (an unfetched window's block index has not moved), for any proof data whose array is `V`'s and whose body
    leaves the block in place. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, whether the pipeline fetched it there or
    not (an unfetched window's block index has not moved), for any proof data whose array is `V`'s and whose body
    leaves the block in place. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- Input window 6's current staging buffer holds its block at every point, whether the pipeline fetched it there or
    not (an unfetched window's block index has not moved), for any proof data whose array is `V`'s and whose body
    leaves the block in place. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer is read and written whole -/

abbrev r5_a : Rect S2000x512 := Rect.unit (s := S2000x512) ![0, 0] S2000x512.size inb_S2000x512_S2000x512_0_0
abbrev r5_b : Rect S1x512 := Rect.unit (s := S1x512) ![0, 0] S1x512.size inb_S1x512_S1x512_0_0
abbrev r5_c : Rect S512x512 := Rect.unit (s := S512x512) ![0, 0] S512x512.size inb_S512x512_S512x512_0_0

/-! ## What the body leaves in the output window's buffer -/

/-- Window 7's staging buffer after the body, from the input windows' blocks `x0 .. x6` (in window order): one store of
    the whole block, whose value is the layer's arithmetic on the blocks. The arithmetic takes the row of variances
    (window 2) before the row of means (window 1). -/
def out5_7 (x0 : Vec F S2000x512 .f32) (x1 x2 x3 x4 : Vec F S1x512 .f32) (x5 : Vec F S512x512 .f32) (x6 : Vec F S1x512 .f32) : Vec F S2000x512 .f32 :=
  View.canon [⟨r5_a, k5_pay1 (View.ld x0 r5_a) (View.ld x2 r5_b) (View.ld x1 r5_b) (View.ld x3 r5_b) (View.ld x4 r5_b) (View.ld x5 r5_c) (View.ld x6 r5_b)⟩]

/-- The one store is of the whole buffer, so it covers it. -/
theorem cover5_7 (p0 : Vec F S2000x512 .f32) (y : S2000x512.Idx) :
    ∃ pc ∈ ([⟨r5_a, p0⟩] : List (View.Piece (Elt F) S2000x512 .f32)), y ∈ pc.1.set :=
  View.cover_of_tiled [⟨r5_a, p0⟩] S2000x512.size (by rfl) y

/-! ## The body's triple -/

set_option maxHeartbeats 4000000 in
/-- The kernel body on whole staging memrefs, the inputs' at read contents `x0 .. x6` and the output's at anything, runs
    to the continuation holding the inputs' as they were and the output's at `out5_7` of the inputs'. The body also
    reads the output buffer before it stores to it; the value read is not used. -/
theorem sound_kernel5 (c : Dev nD) (E : Set ℕ) (i : grid5.Coords)
    (arg1 : Memref sig .tc .vmem S2000x512 .f32) (harg1 : arg1.IsWhole) (arg2 : Memref sig .tc .vmem S1x512 .f32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1x512 .f32) (harg5 : arg5.IsWhole) (arg6 : Memref sig .tc .vmem S512x512 .f32) (harg6 : arg6.IsWhole)
    (arg7 : Memref sig .tc .vmem S1x512 .f32) (harg7 : arg7.IsWhole) (arg8 : Memref sig .tc .vmem S2000x512 .f32) (harg8 : arg8.IsWhole)
    (x0 : Vec F S2000x512 .f32) (x1 x2 x3 x4 : Vec F S1x512 .f32) (x5 : Vec F S512x512 .f32) (x6 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out5_7 x0 x1 x2 x3 x4 x5 x6)) -∗ K ⟨⟩))
      ⊢ wp frame (wpE (defs₀ (F := F)) Variants.none c none) E (cc5__mlp2_kernel i arg1 harg1 arg2 harg2 arg3 harg3 arg4 harg4 arg5 harg5 arg6 harg6 arg7 harg7 arg8 harg8) K := by
  simp only [cc5__mlp2_kernel_eq_skeleton]; unfold cc5__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover5_7 _)

/-! ## The pipeline's proof data -/

/-- The proof data of this pipeline on core `c`: the arrays as the region finds them; after the body at point `t` each
    input's buffer at its block and the output's at `out5_7` of the input blocks; the invariant that of a pipeline
    whose body touches nothing but its windows; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t =
    out5_7 (iblk5 V c 0 t) (iblk5 V c 1 t) (iblk5 V c 2 t) (iblk5 V c 3 t) (iblk5 V c 4 t) (iblk5 V c 5 t) (iblk5 V c 6 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

set_option maxHeartbeats 2000000 in
/-- The body at any point: the inputs' memrefs hold their blocks, so the body's triple applies; the invariant and what
    the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel5 c Set.univ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the pipeline, at every point. -/
theorem body_obligation5 (c : Dev nD) : BodyObligation (dat5 (F := F) V c) (defs₀ (F := F)) Variants.none () Set.univ := fun t => by
  rw [bigSep_W5, bigSep_W5]
  exact sound_body5 V c t

end Cert.Kernel.Hand
-- ==== Proof.K.Edge6.lean ====
/- The frame half of region 6 of @main: the pallas_call `cc6__edge_add_relu_kernel` (grid 80; every window a
   2000x512 block of a [160000,512] array; windows 0, 1 the two inputs, window 2 the output), at a PARAMETER `V`, the
   TensorCore's buffer contents when the region is entered. Stated for every float interpretation `F`:
   each window's block at a point, what the body leaves in the output's staging buffer, the body's triple, the
   pipeline's proof data and its body obligation. -/
import proofs.«157524_j37503654429443_1_alg».proof.Proof.Gen.Kernel.Launch
import proofs.«157524_j37503654429443_1_alg».proof.Proof.Gen.Kernel.Skeleton
import proofs.«157524_j37503654429443_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000x512 extents recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, for any proof data whose array is
    `V`'s and whose body leaves the block in place: the window is fetched at every point, uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The same for input window 1. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

/-- The one rectangle the body reads and writes: the whole 2000x512 block. -/
abbrev r6_0 : Rect S2000x512 := Rect.unit (s := S2000x512) ![0, 0] S2000x512.size inb_S2000x512_S2000x512_0_0

/-! ## What the body leaves in the output window's buffer -/

/-- Window 2's staging buffer after the body, from the two input blocks: its one store, of
    `max (x0 + x1) 0` elementwise (the payload `k6_pay1`), over the whole block. -/
def out6_2 (x0 x1 : Vec F S2000x512 .f32) : Vec F S2000x512 .f32 :=
  View.canon [⟨r6_0, k6_pay1 (View.ld x0 r6_0) (View.ld x1 r6_0)⟩]

/-- The store tiles the buffer, so it covers it. -/
theorem cover6_2 (p0 : Vec F S2000x512 .f32) (y : S2000x512.Idx) :
    ∃ pc ∈ ([⟨r6_0, p0⟩] : List (View.Piece (Elt F) S2000x512 .f32)), y ∈ pc.1.set :=
  View.cover_of_tiled [⟨r6_0, p0⟩] S2000x512.size (by rfl) y

/-! ## The body's triple -/

set_option maxHeartbeats 1000000 in
/-- The kernel body on whole staging memrefs, the inputs' at read contents `x0`, `x1` and the output's at anything, runs
    to the continuation holding the inputs' as they were and the output's at `out6_2 x0 x1`: two loads of the inputs, a
    load of the output whose value is not used, and the one store. -/
theorem sound_kernel6 (c : Dev nD) (E : Set ℕ) (i : grid6.Coords)
    (arg1 : Memref sig .tc .vmem S2000x512 .f32) (harg1 : arg1.IsWhole) (arg2 : Memref sig .tc .vmem S2000x512 .f32) (harg2 : arg2.IsWhole)
    (arg3 : Memref sig .tc .vmem S2000x512 .f32) (harg3 : arg3.IsWhole)
    (x0 x1 : Vec F S2000x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out6_2 x0 x1)) -∗ K ⟨⟩))
      ⊢ wp frame (wpE (defs₀ (F := F)) Variants.none c none) E (cc6__edge_add_relu_kernel i arg1 harg1 arg2 harg2 arg3 harg3) K := by
  simp only [cc6__edge_add_relu_kernel_eq_skeleton]; unfold cc6__edge_add_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The pipeline's proof data -/

/-- The proof data of the pipeline on core `c`: the arrays as the region finds them (`V`); after the body at point `t`
    each input's buffer at its block and the output's at `out6_2` of the input blocks; the invariant the scoped rest and
    the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' memrefs hold their blocks, so `sound_kernel6` applies; the invariant and the
    core's obligations pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand
-- ==== Proof.K.Mlp1_7.lean ====
/- The frame half of region 7 of @main: the pipelined call of `cc7__mlp1_kernel`, at any float model `F`.
   At a parameter `V` (the core's buffer contents when the region is entered): each window's block at a grid
   point, what the body leaves in the output window's staging buffer as a function of the four input blocks,
   the body's triple, the pipeline's proof data and its body obligation. -/
import proofs.«157524_j37503654429443_1_alg».proof.Proof.Gen.Kernel.Launch
import proofs.«157524_j37503654429443_1_alg».proof.Proof.Gen.Kernel.Skeleton
import proofs.«157524_j37503654429443_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at grid point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current staging buffer holds its block at every point, whether or not the window is
    fetched there: where it is not fetched its block index has not moved, and the body left the block in place.
    Windows 0 and 1 (the row blocks of the two summands) are fetched at every point; windows 2 and 3 (the weight
    matrix and the bias row, at a constant index) only at the first. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: each staging buffer whole -/

abbrev r7_x : Rect S2000x512 := Rect.unit (s := S2000x512) ![0, 0] S2000x512.size inb_S2000x512_S2000x512_0_0
abbrev r7_w : Rect S512x512 := Rect.unit (s := S512x512) ![0, 0] S512x512.size inb_S512x512_S512x512_0_0
abbrev r7_b : Rect S1x512 := Rect.unit (s := S1x512) ![0, 0] S1x512.size inb_S1x512_S1x512_0_0

/-! ## What the body leaves in the output window's buffer -/

/-- Window 4's staging buffer after the body, from the input windows' blocks: its one store, of the
    payload (the product of the rounded sum of the two row blocks with the rounded weight matrix, plus the bias
    row at every row). -/
def out7_4 (x0 x1 : Vec F S2000x512 .f32) (x2 : Vec F S512x512 .f32) (x3 : Vec F S1x512 .f32) : Vec F S2000x512 .f32 :=
  View.canon [⟨r7_x, k7_pay1 (View.ld x0 r7_x) (View.ld x1 r7_x) (View.ld x2 r7_w) (View.ld x3 r7_b)⟩]

/-- The one store is of the whole buffer, so it covers it. -/
theorem cover7_4 (p0 : Vec F S2000x512 .f32) (y : S2000x512.Idx) :
    ∃ pc ∈ ([⟨r7_x, p0⟩] : List (View.Piece (Elt F) S2000x512 .f32)), y ∈ pc.1.set :=
  View.cover_of_tiled [⟨r7_x, p0⟩] S2000x512.size (by rfl) y

/-! ## The body's triple -/

set_option maxHeartbeats 1000000 in
/-- The kernel body on whole staging memrefs, the four inputs' at read contents `x0 … x3` and the output's at
    anything, runs to the continuation holding the inputs' as they were and the output's at `out7_4` of the
    inputs'. The body also reads the output buffer before its store; that value is not used. -/
theorem sound_kernel7 (c : Dev nD) (E : Set ℕ) (i : grid7.Coords)
    (arg1 : Memref sig .tc .vmem S2000x512 .f32) (harg1 : arg1.IsWhole) (arg2 : Memref sig .tc .vmem S2000x512 .f32) (harg2 : arg2.IsWhole)
    (arg3 : Memref sig .tc .vmem S512x512 .f32) (harg3 : arg3.IsWhole) (arg4 : Memref sig .tc .vmem S1x512 .f32) (harg4 : arg4.IsWhole)
    (arg5 : Memref sig .tc .vmem S2000x512 .f32) (harg5 : arg5.IsWhole)
    (x0 x1 : Vec F S2000x512 .f32) (x2 : Vec F S512x512 .f32) (x3 : Vec F S1x512 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out7_4 x0 x1 x2 x3)) -∗ K ⟨⟩))
      ⊢ wp frame (wpE (defs₀ (F := F)) Variants.none c none) E (cc7__mlp1_kernel i arg1 harg1 arg2 harg2 arg3 harg3 arg4 harg4 arg5 harg5) K := by
  simp only [cc7__mlp1_kernel_eq_skeleton]; unfold cc7__mlp1_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover7_4 _)

/-! ## The pipeline's proof data -/

/-- The proof data of the pipeline on core `c`: the arrays as the region finds them; after the body at point
    `t` each input's buffer at its block and the output's at `out7_4` of the input blocks; the invariant
    "the scoped rest and the generator register, untouched"; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => out7_4 (iblk7 V c 0 t) (iblk7 V c 1 t) (iblk7 V c 2 t) (iblk7 V c 3 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) :
    (dat7 V c).after 4 t = out7_4 (iblk7 V c 0 t) (iblk7 V c 1 t) (iblk7 V c 2 t) (iblk7 V c 3 t) := by dsimp only [dat7]

/-- Each input's current staging buffer holds its block at every point. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t))

/-- The body at any point: the inputs' memrefs hold their blocks, so the body's triple applies; the invariant
    and what the core owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).Φ t.succ = (dat7 V c).Φ t.castSucc from rfl,
    show (dat7 V c).owesAt () t.succ = (dat7 V c).owesAt () t.castSucc from rfl,
    after7_0, after7_1, after7_2, after7_3, after7_4]
  iintro ⟨HΦ, Ho, ⟨%d0, H0⟩, ⟨%d1, H1⟩, ⟨%d2, H2⟩, ⟨%d3, H3⟩, ⟨%d4, H4⟩⟩
  iapply (sound_kernel7 c Set.univ _ _ _ _ _ _ _ _ _ _ _ (iblk7 V c 0 t) (iblk7 V c 1 t) (iblk7 V c 2 t) (iblk7 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.K.Mlp2_8.lean ====
/- The frame half of region 8 of @main: the pipelined call of the second dense layer of a graph-network block,
   on a grid of 10 points. Window 0 is a 2000x512 block of the node features; windows 1..6 are whole small arrays
   read at a constant index (a row of means, a row of variances, a row of scales, a row of shifts, a 512x512 weight,
   a row of biases); window 7 is the 2000x512 output block. At a parameter `V`, the contents of the core's buffers
   when the region is entered, this file states each window's block at a point, what the body leaves in the output
   buffer as a function of the input blocks, the body's triple, and the pipeline's proof data with its body
   obligation. Everything is generic in the float interpretation `F`. -/
import proofs.«157524_j37503654429443_1_alg».proof.Proof.Gen.Kernel.Launch
import proofs.«157524_j37503654429443_1_alg».proof.Proof.Gen.Kernel.Skeleton
import proofs.«157524_j37503654429443_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of extent 2000 is decided by structural recursion on the coordinate
set_option maxRecDepth 16384

noncomputable section

open Cert.Kernel Cert.Kernel.Gen

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, whether the pipeline fetched it there or
    not (an unfetched window's block index has not moved), for any proof data whose array is `V`'s and whose body
    leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, whether the pipeline fetched it there or
    not (an unfetched window's block index has not moved), for any proof data whose array is `V`'s and whose body
    leaves the block in place. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, whether the pipeline fetched it there or
    not (an unfetched window's block index has not moved), for any proof data whose array is `V`'s and whose body
    leaves the block in place. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's current staging buffer holds its block at every point, whether the pipeline fetched it there or
    not (an unfetched window's block index has not moved), for any proof data whose array is `V`'s and whose body
    leaves the block in place. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's current staging buffer holds its block at every point, whether the pipeline fetched it there or
    not (an unfetched window's block index has not moved), for any proof data whose array is `V`'s and whose body
    leaves the block in place. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-- Input window 5's current staging buffer holds its block at every point, whether the pipeline fetched it there or
    not (an unfetched window's block index has not moved), for any proof data whose array is `V`'s and whose body
    leaves the block in place. -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

/-- Input window 6's current staging buffer holds its block at every point, whether the pipeline fetched it there or
    not (an unfetched window's block index has not moved), for any proof data whose array is `V`'s and whose body
    leaves the block in place. -/
theorem before8_6_of {c : Dev nD} (dat : Dat τ (Elt F) Unit ℕ (UR sig nD τ) ℕ cfg8 c) (hA : dat.A 6 = V c (Pipeline.arrRef spec8 6))
    (hafter : ∀ t, dat.after 6 t = iblk8 V c 6 t) (t : Fin cfg8.N) (d) : dat.before 6 t d = iblk8 V c 6 t :=
  (dat.before_in_eq_fetched 6 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each buffer is read and written whole -/

abbrev r8_a : Rect S2000x512 := Rect.unit (s := S2000x512) ![0, 0] S2000x512.size inb_S2000x512_S2000x512_0_0
abbrev r8_b : Rect S1x512 := Rect.unit (s := S1x512) ![0, 0] S1x512.size inb_S1x512_S1x512_0_0
abbrev r8_c : Rect S512x512 := Rect.unit (s := S512x512) ![0, 0] S512x512.size inb_S512x512_S512x512_0_0

/-! ## What the body leaves in the output window's buffer -/

/-- Window 7's staging buffer after the body, from the input windows' blocks `x0 .. x6` (in window order): one store of
    the whole block, whose value is the layer's arithmetic on the blocks. The arithmetic takes the row of variances
    (window 2) before the row of means (window 1). -/
def out8_7 (x0 : Vec F S2000x512 .f32) (x1 x2 x3 x4 : Vec F S1x512 .f32) (x5 : Vec F S512x512 .f32) (x6 : Vec F S1x512 .f32) : Vec F S2000x512 .f32 :=
  View.canon [⟨r8_a, k8_pay1 (View.ld x0 r8_a) (View.ld x2 r8_b) (View.ld x1 r8_b) (View.ld x3 r8_b) (View.ld x4 r8_b) (View.ld x5 r8_c) (View.ld x6 r8_b)⟩]

/-- The one store is of the whole buffer, so it covers it. -/
theorem cover8_7 (p0 : Vec F S2000x512 .f32) (y : S2000x512.Idx) :
    ∃ pc ∈ ([⟨r8_a, p0⟩] : List (View.Piece (Elt F) S2000x512 .f32)), y ∈ pc.1.set :=
  View.cover_of_tiled [⟨r8_a, p0⟩] S2000x512.size (by rfl) y

/-! ## The body's triple -/

set_option maxHeartbeats 4000000 in
/-- The kernel body on whole staging memrefs, the inputs' at read contents `x0 .. x6` and the output's at anything, runs
    to the continuation holding the inputs' as they were and the output's at `out8_7` of the inputs'. The body also
    reads the output buffer before it stores to it; the value read is not used. -/
theorem sound_kernel8 (c : Dev nD) (E : Set ℕ) (i : grid8.Coords)
    (arg1 : Memref sig .tc .vmem S2000x512 .f32) (harg1 : arg1.IsWhole) (arg2 : Memref sig .tc .vmem S1x512 .f32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1x512 .f32) (harg5 : arg5.IsWhole) (arg6 : Memref sig .tc .vmem S512x512 .f32) (harg6 : arg6.IsWhole)
    (arg7 : Memref sig .tc .vmem S1x512 .f32) (harg7 : arg7.IsWhole) (arg8 : Memref sig .tc .vmem S2000x512 .f32) (harg8 : arg8.IsWhole)
    (x0 : Vec F S2000x512 .f32) (x1 x2 x3 x4 : Vec F S1x512 .f32) (x5 : Vec F S512x512 .f32) (x6 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out8_7 x0 x1 x2 x3 x4 x5 x6)) -∗ K ⟨⟩))
      ⊢ wp frame (wpE (defs₀ (F := F)) Variants.none c none) E (cc8__mlp2_kernel i arg1 harg1 arg2 harg2 arg3 harg3 arg4 harg4 arg5 harg5 arg6 harg6 arg7 harg7 arg8 harg8) K := by
  simp only [cc8__mlp2_kernel_eq_skeleton]; unfold cc8__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover8_7 _)

/-! ## The pipeline's proof data -/

/-- The proof data of this pipeline on core `c`: the arrays as the region finds them; after the body at point `t` each
    input's buffer at its block and the output's at `out8_7` of the input blocks; the invariant that of a pipeline
    whose body touches nothing but its windows; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => out8_7 (iblk8 V c 0 t) (iblk8 V c 1 t) (iblk8 V c 2 t) (iblk8 V c 3 t) (iblk8 V c 4 t) (iblk8 V c 5 t) (iblk8 V c 6 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = iblk8 V c 6 t := by dsimp only [dat8]
theorem after8_7 (c : Dev nD) (t : Fin cfg8.N) : (dat8 V c).after 7 t =
    out8_7 (iblk8 V c 0 t) (iblk8 V c 1 t) (iblk8 V c 2 t) (iblk8 V c 3 t) (iblk8 V c 4 t) (iblk8 V c 5 t) (iblk8 V c 6 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d
theorem before8_6 (c : Dev nD) (t : Fin cfg8.N) (d) : (dat8 V c).before 6 t d = iblk8 V c 6 t :=
  before8_6_of V (dat8 V c) (A_eq8 V c 6) (after8_6 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t)
    ∗ owns (c : Thread nD τ) (st8_7 t) fullShare ((dat8 V c).after 7 t))

set_option maxHeartbeats 2000000 in
/-- The body at any point: the inputs' memrefs hold their blocks, so the body's triple applies; the invariant and what
    the core owes pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5, before8_6]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, after8_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel8 c Set.univ _ _ _ _ _ _ _ _ _ _ _ _ _ _ _ _ _ (iblk8 V c 0 t) (iblk8 V c 1 t) (iblk8 V c 2 t) (iblk8 V c 3 t) (iblk8 V c 4 t) (iblk8 V c 5 t) (iblk8 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the pipeline, at every point. -/
theorem body_obligation8 (c : Dev nD) : BodyObligation (dat8 (F := F) V c) (defs₀ (F := F)) Variants.none () Set.univ := fun t => by
  rw [bigSep_W8, bigSep_W8]
  exact sound_body8 V c t

end Cert.Kernel.Hand
-- ==== Proof.K.Stage.lean ====
/-
  The contents of the TensorCore's unscoped buffers at every boundary between two items of @main, as one fold from the
  launch memory: a host stretch applies its operations; a region replaces its output array by what its write-backs leave
  (its proof data's last array, taken at the contents the region was entered with) and touches nothing else. The unknowns
  of the conditional run are then chosen as these outputs, which makes its valuations this fold, and every pipeline's proof
  data is taken at its region's entry contents.
-/
import proofs.«157524_j37503654429443_1_alg».proof.Proof.K.RunInst
import proofs.«157524_j37503654429443_1_alg».proof.Proof.K.Edge0
import proofs.«157524_j37503654429443_1_alg».proof.Proof.K.Mlp1_1
import proofs.«157524_j37503654429443_1_alg».proof.Proof.K.Mlp2_2
import proofs.«157524_j37503654429443_1_alg».proof.Proof.K.Edge3
import proofs.«157524_j37503654429443_1_alg».proof.Proof.K.Mlp1_4
import proofs.«157524_j37503654429443_1_alg».proof.Proof.K.Mlp2_5
import proofs.«157524_j37503654429443_1_alg».proof.Proof.K.Edge6
import proofs.«157524_j37503654429443_1_alg».proof.Proof.K.Mlp1_7
import proofs.«157524_j37503654429443_1_alg».proof.Proof.K.Mlp2_8

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

/-- A valuation read at the TensorCore's references: the form a region's proof data take their entry contents in. -/
abbrev rd (W : Dev nD → Valuation τ sig (Elt F)) : (c : Dev nD) → (b : Ref sig .tc) → Buf (Elt F) ((c : Thread nD τ).loc b) :=
  fun c b => W c b

variable (m : (ℓ : Loc nD τ sig) → Buf (Elt F) ℓ)

/-! ## The fold -/

/-- Core c's unscoped buffers at launch. -/
abbrev W0 (c : Dev nD) : Valuation τ sig (Elt F) := fun b => m (c, b)
/-- After the host stretch hostOps0. -/
def W1 (c : Dev nD) : Valuation τ sig (Elt F) := StableHlo.after hostOps0 (W0 m c)
theorem W1_def (c : Dev nD) : W1 m c = StableHlo.after hostOps0 (W0 m c) := rfl
/-- What region 0 leaves in its output array main_v11: its write-backs folded over the contents it was entered with. -/
def O0 (c : Dev nD) : Buf (Elt F) ((c : Thread nD τ).loc main_v11) := (dat0 (rd (W1 m)) c).arrAt 2 cfg0.N
/-- After region 0: its output array at what the region leaves, every other buffer as entered. -/
def W2 (c : Dev nD) : Valuation τ sig (Elt F) := Function.update (W1 m c) main_v11 (O0 m c)
theorem W2_def (c : Dev nD) : W2 m c = Function.update (W1 m c) main_v11 (O0 m c) := rfl
/-- After the host stretch hostOps1. -/
def W3 (c : Dev nD) : Valuation τ sig (Elt F) := StableHlo.after hostOps1 (W2 m c)
theorem W3_def (c : Dev nD) : W3 m c = StableHlo.after hostOps1 (W2 m c) := rfl
/-- What region 1 leaves in its output array main_v21: its write-backs folded over the contents it was entered with. -/
def O1 (c : Dev nD) : Buf (Elt F) ((c : Thread nD τ).loc main_v21) := (dat1 (rd (W3 m)) c).arrAt 4 cfg1.N
/-- After region 1: its output array at what the region leaves, every other buffer as entered. -/
def W4 (c : Dev nD) : Valuation τ sig (Elt F) := Function.update (W3 m c) main_v21 (O1 m c)
theorem W4_def (c : Dev nD) : W4 m c = Function.update (W3 m c) main_v21 (O1 m c) := rfl
/-- After the host stretch hostOps2. -/
def W5 (c : Dev nD) : Valuation τ sig (Elt F) := StableHlo.after hostOps2 (W4 m c)
theorem W5_def (c : Dev nD) : W5 m c = StableHlo.after hostOps2 (W4 m c) := rfl
/-- After the host stretch hostOps2_1. -/
def W6 (c : Dev nD) : Valuation τ sig (Elt F) := StableHlo.after hostOps2_1 (W5 m c)
theorem W6_def (c : Dev nD) : W6 m c = StableHlo.after hostOps2_1 (W5 m c) := rfl
/-- After the host stretch hostOps2_2. -/
def W7 (c : Dev nD) : Valuation τ sig (Elt F) := StableHlo.after hostOps2_2 (W6 m c)
theorem W7_def (c : Dev nD) : W7 m c = StableHlo.after hostOps2_2 (W6 m c) := rfl
/-- What region 2 leaves in its output array main_v40: its write-backs folded over the contents it was entered with. -/
def O2 (c : Dev nD) : Buf (Elt F) ((c : Thread nD τ).loc main_v40) := (dat2 (rd (W7 m)) c).arrAt 7 cfg2.N
/-- After region 2: its output array at what the region leaves, every other buffer as entered. -/
def W8 (c : Dev nD) : Valuation τ sig (Elt F) := Function.update (W7 m c) main_v40 (O2 m c)
theorem W8_def (c : Dev nD) : W8 m c = Function.update (W7 m c) main_v40 (O2 m c) := rfl
/-- After the host stretch hostOps3. -/
def W9 (c : Dev nD) : Valuation τ sig (Elt F) := StableHlo.after hostOps3 (W8 m c)
theorem W9_def (c : Dev nD) : W9 m c = StableHlo.after hostOps3 (W8 m c) := rfl
/-- What region 3 leaves in its output array main_v51: its write-backs folded over the contents it was entered with. -/
def O3 (c : Dev nD) : Buf (Elt F) ((c : Thread nD τ).loc main_v51) := (dat3 (rd (W9 m)) c).arrAt 2 cfg3.N
/-- After region 3: its output array at what the region leaves, every other buffer as entered. -/
def W10 (c : Dev nD) : Valuation τ sig (Elt F) := Function.update (W9 m c) main_v51 (O3 m c)
theorem W10_def (c : Dev nD) : W10 m c = Function.update (W9 m c) main_v51 (O3 m c) := rfl
/-- After the host stretch hostOps4. -/
def W11 (c : Dev nD) : Valuation τ sig (Elt F) := StableHlo.after hostOps4 (W10 m c)
theorem W11_def (c : Dev nD) : W11 m c = StableHlo.after hostOps4 (W10 m c) := rfl
/-- What region 4 leaves in its output array main_v61: its write-backs folded over the contents it was entered with. -/
def O4 (c : Dev nD) : Buf (Elt F) ((c : Thread nD τ).loc main_v61) := (dat4 (rd (W11 m)) c).arrAt 4 cfg4.N
/-- After region 4: its output array at what the region leaves, every other buffer as entered. -/
def W12 (c : Dev nD) : Valuation τ sig (Elt F) := Function.update (W11 m c) main_v61 (O4 m c)
theorem W12_def (c : Dev nD) : W12 m c = Function.update (W11 m c) main_v61 (O4 m c) := rfl
/-- After the host stretch hostOps5. -/
def W13 (c : Dev nD) : Valuation τ sig (Elt F) := StableHlo.after hostOps5 (W12 m c)
theorem W13_def (c : Dev nD) : W13 m c = StableHlo.after hostOps5 (W12 m c) := rfl
/-- After the host stretch hostOps5_1. -/
def W14 (c : Dev nD) : Valuation τ sig (Elt F) := StableHlo.after hostOps5_1 (W13 m c)
theorem W14_def (c : Dev nD) : W14 m c = StableHlo.after hostOps5_1 (W13 m c) := rfl
/-- After the host stretch hostOps5_2. -/
def W15 (c : Dev nD) : Valuation τ sig (Elt F) := StableHlo.after hostOps5_2 (W14 m c)
theorem W15_def (c : Dev nD) : W15 m c = StableHlo.after hostOps5_2 (W14 m c) := rfl
/-- What region 5 leaves in its output array main_v80: its write-backs folded over the contents it was entered with. -/
def O5 (c : Dev nD) : Buf (Elt F) ((c : Thread nD τ).loc main_v80) := (dat5 (rd (W15 m)) c).arrAt 7 cfg5.N
/-- After region 5: its output array at what the region leaves, every other buffer as entered. -/
def W16 (c : Dev nD) : Valuation τ sig (Elt F) := Function.update (W15 m c) main_v80 (O5 m c)
theorem W16_def (c : Dev nD) : W16 m c = Function.update (W15 m c) main_v80 (O5 m c) := rfl
/-- After the host stretch hostOps6. -/
def W17 (c : Dev nD) : Valuation τ sig (Elt F) := StableHlo.after hostOps6 (W16 m c)
theorem W17_def (c : Dev nD) : W17 m c = StableHlo.after hostOps6 (W16 m c) := rfl
/-- What region 6 leaves in its output array main_v91: its write-backs folded over the contents it was entered with. -/
def O6 (c : Dev nD) : Buf (Elt F) ((c : Thread nD τ).loc main_v91) := (dat6 (rd (W17 m)) c).arrAt 2 cfg6.N
/-- After region 6: its output array at what the region leaves, every other buffer as entered. -/
def W18 (c : Dev nD) : Valuation τ sig (Elt F) := Function.update (W17 m c) main_v91 (O6 m c)
theorem W18_def (c : Dev nD) : W18 m c = Function.update (W17 m c) main_v91 (O6 m c) := rfl
/-- After the host stretch hostOps7. -/
def W19 (c : Dev nD) : Valuation τ sig (Elt F) := StableHlo.after hostOps7 (W18 m c)
theorem W19_def (c : Dev nD) : W19 m c = StableHlo.after hostOps7 (W18 m c) := rfl
/-- What region 7 leaves in its output array main_v101: its write-backs folded over the contents it was entered with. -/
def O7 (c : Dev nD) : Buf (Elt F) ((c : Thread nD τ).loc main_v101) := (dat7 (rd (W19 m)) c).arrAt 4 cfg7.N
/-- After region 7: its output array at what the region leaves, every other buffer as entered. -/
def W20 (c : Dev nD) : Valuation τ sig (Elt F) := Function.update (W19 m c) main_v101 (O7 m c)
theorem W20_def (c : Dev nD) : W20 m c = Function.update (W19 m c) main_v101 (O7 m c) := rfl
/-- After the host stretch hostOps8. -/
def W21 (c : Dev nD) : Valuation τ sig (Elt F) := StableHlo.after hostOps8 (W20 m c)
theorem W21_def (c : Dev nD) : W21 m c = StableHlo.after hostOps8 (W20 m c) := rfl
/-- After the host stretch hostOps8_1. -/
def W22 (c : Dev nD) : Valuation τ sig (Elt F) := StableHlo.after hostOps8_1 (W21 m c)
theorem W22_def (c : Dev nD) : W22 m c = StableHlo.after hostOps8_1 (W21 m c) := rfl
/-- After the host stretch hostOps8_2. -/
def W23 (c : Dev nD) : Valuation τ sig (Elt F) := StableHlo.after hostOps8_2 (W22 m c)
theorem W23_def (c : Dev nD) : W23 m c = StableHlo.after hostOps8_2 (W22 m c) := rfl
/-- What region 8 leaves in its output array main_v120: its write-backs folded over the contents it was entered with. -/
def O8 (c : Dev nD) : Buf (Elt F) ((c : Thread nD τ).loc main_v120) := (dat8 (rd (W23 m)) c).arrAt 7 cfg8.N
/-- After region 8: its output array at what the region leaves, every other buffer as entered. -/
def W24 (c : Dev nD) : Valuation τ sig (Elt F) := Function.update (W23 m c) main_v120 (O8 m c)
theorem W24_def (c : Dev nD) : W24 m c = Function.update (W23 m c) main_v120 (O8 m c) := rfl
/-- After the host stretch hostOps9. -/
def W25 (c : Dev nD) : Valuation τ sig (Elt F) := StableHlo.after hostOps9 (W24 m c)
theorem W25_def (c : Dev nD) : W25 m c = StableHlo.after hostOps9 (W24 m c) := rfl

/-! ## The regions' outputs as the conditional run's unknowns -/

/-- At a region's output array, what that region leaves; anywhere else (never read) the launch contents. -/
def outs : Outs (F := F) := fun _ r c =>
  if h : main_v11 = r then h ▸ O0 m c else
  if h : main_v21 = r then h ▸ O1 m c else
  if h : main_v40 = r then h ▸ O2 m c else
  if h : main_v51 = r then h ▸ O3 m c else
  if h : main_v61 = r then h ▸ O4 m c else
  if h : main_v80 = r then h ▸ O5 m c else
  if h : main_v91 = r then h ▸ O6 m c else
  if h : main_v101 = r then h ▸ O7 m c else
  if h : main_v120 = r then h ▸ O8 m c else
  m ((c : Thread nD τ).loc r)

theorem outs_main_v11 (J : ℕ) (c : Dev nD) : outs m J main_v11 c = O0 m c := by
  unfold outs; rw [dif_pos rfl]
theorem outs_main_v21 (J : ℕ) (c : Dev nD) : outs m J main_v21 c = O1 m c := by
  unfold outs; rw [dif_neg (by decide : ¬ main_v11 = main_v21), dif_pos rfl]
theorem outs_main_v40 (J : ℕ) (c : Dev nD) : outs m J main_v40 c = O2 m c := by
  unfold outs; rw [dif_neg (by decide : ¬ main_v11 = main_v40), dif_neg (by decide : ¬ main_v21 = main_v40), dif_pos rfl]
theorem outs_main_v51 (J : ℕ) (c : Dev nD) : outs m J main_v51 c = O3 m c := by
  unfold outs; rw [dif_neg (by decide : ¬ main_v11 = main_v51), dif_neg (by decide : ¬ main_v21 = main_v51), dif_neg (by decide : ¬ main_v40 = main_v51), dif_pos rfl]
theorem outs_main_v61 (J : ℕ) (c : Dev nD) : outs m J main_v61 c = O4 m c := by
  unfold outs; rw [dif_neg (by decide : ¬ main_v11 = main_v61), dif_neg (by decide : ¬ main_v21 = main_v61), dif_neg (by decide : ¬ main_v40 = main_v61), dif_neg (by decide : ¬ main_v51 = main_v61), dif_pos rfl]
theorem outs_main_v80 (J : ℕ) (c : Dev nD) : outs m J main_v80 c = O5 m c := by
  unfold outs; rw [dif_neg (by decide : ¬ main_v11 = main_v80), dif_neg (by decide : ¬ main_v21 = main_v80), dif_neg (by decide : ¬ main_v40 = main_v80), dif_neg (by decide : ¬ main_v51 = main_v80), dif_neg (by decide : ¬ main_v61 = main_v80), dif_pos rfl]
theorem outs_main_v91 (J : ℕ) (c : Dev nD) : outs m J main_v91 c = O6 m c := by
  unfold outs; rw [dif_neg (by decide : ¬ main_v11 = main_v91), dif_neg (by decide : ¬ main_v21 = main_v91), dif_neg (by decide : ¬ main_v40 = main_v91), dif_neg (by decide : ¬ main_v51 = main_v91), dif_neg (by decide : ¬ main_v61 = main_v91), dif_neg (by decide : ¬ main_v80 = main_v91), dif_pos rfl]
theorem outs_main_v101 (J : ℕ) (c : Dev nD) : outs m J main_v101 c = O7 m c := by
  unfold outs; rw [dif_neg (by decide : ¬ main_v11 = main_v101), dif_neg (by decide : ¬ main_v21 = main_v101), dif_neg (by decide : ¬ main_v40 = main_v101), dif_neg (by decide : ¬ main_v51 = main_v101), dif_neg (by decide : ¬ main_v61 = main_v101), dif_neg (by decide : ¬ main_v80 = main_v101), dif_neg (by decide : ¬ main_v91 = main_v101), dif_pos rfl]
theorem outs_main_v120 (J : ℕ) (c : Dev nD) : outs m J main_v120 c = O8 m c := by
  unfold outs; rw [dif_neg (by decide : ¬ main_v11 = main_v120), dif_neg (by decide : ¬ main_v21 = main_v120), dif_neg (by decide : ¬ main_v40 = main_v120), dif_neg (by decide : ¬ main_v51 = main_v120), dif_neg (by decide : ¬ main_v61 = main_v120), dif_neg (by decide : ¬ main_v80 = main_v120), dif_neg (by decide : ¬ main_v91 = main_v120), dif_neg (by decide : ¬ main_v101 = main_v120), dif_pos rfl]

/-! ## The conditional run's valuations are the fold -/

theorem V1_eq (c : Dev nD) : V1 m c = W1 m c := rfl
theorem V2_eq (c : Dev nD) : V2 m (outs m) c = W2 m c := by
  show Function.update (V1 m c) main_v11 (outs m 2 main_v11 c) = _; rw [V1_eq, outs_main_v11]; exact (W2_def m c).symm
theorem V3_eq (c : Dev nD) : V3 m (outs m) c = W3 m c := by
  show StableHlo.after hostOps1 (V2 m (outs m) c) = _; rw [V2_eq]; exact (W3_def m c).symm
theorem V4_eq (c : Dev nD) : V4 m (outs m) c = W4 m c := by
  show Function.update (V3 m (outs m) c) main_v21 (outs m 4 main_v21 c) = _; rw [V3_eq, outs_main_v21]; exact (W4_def m c).symm
theorem V5_eq (c : Dev nD) : V5 m (outs m) c = W5 m c := by
  show StableHlo.after hostOps2 (V4 m (outs m) c) = _; rw [V4_eq]; exact (W5_def m c).symm
theorem V6_eq (c : Dev nD) : V6 m (outs m) c = W6 m c := by
  show StableHlo.after hostOps2_1 (V5 m (outs m) c) = _; rw [V5_eq]; exact (W6_def m c).symm
theorem V7_eq (c : Dev nD) : V7 m (outs m) c = W7 m c := by
  show StableHlo.after hostOps2_2 (V6 m (outs m) c) = _; rw [V6_eq]; exact (W7_def m c).symm
theorem V8_eq (c : Dev nD) : V8 m (outs m) c = W8 m c := by
  show Function.update (V7 m (outs m) c) main_v40 (outs m 8 main_v40 c) = _; rw [V7_eq, outs_main_v40]; exact (W8_def m c).symm
theorem V9_eq (c : Dev nD) : V9 m (outs m) c = W9 m c := by
  show StableHlo.after hostOps3 (V8 m (outs m) c) = _; rw [V8_eq]; exact (W9_def m c).symm
theorem V10_eq (c : Dev nD) : V10 m (outs m) c = W10 m c := by
  show Function.update (V9 m (outs m) c) main_v51 (outs m 10 main_v51 c) = _; rw [V9_eq, outs_main_v51]; exact (W10_def m c).symm
theorem V11_eq (c : Dev nD) : V11 m (outs m) c = W11 m c := by
  show StableHlo.after hostOps4 (V10 m (outs m) c) = _; rw [V10_eq]; exact (W11_def m c).symm
theorem V12_eq (c : Dev nD) : V12 m (outs m) c = W12 m c := by
  show Function.update (V11 m (outs m) c) main_v61 (outs m 12 main_v61 c) = _; rw [V11_eq, outs_main_v61]; exact (W12_def m c).symm
theorem V13_eq (c : Dev nD) : V13 m (outs m) c = W13 m c := by
  show StableHlo.after hostOps5 (V12 m (outs m) c) = _; rw [V12_eq]; exact (W13_def m c).symm
theorem V14_eq (c : Dev nD) : V14 m (outs m) c = W14 m c := by
  show StableHlo.after hostOps5_1 (V13 m (outs m) c) = _; rw [V13_eq]; exact (W14_def m c).symm
theorem V15_eq (c : Dev nD) : V15 m (outs m) c = W15 m c := by
  show StableHlo.after hostOps5_2 (V14 m (outs m) c) = _; rw [V14_eq]; exact (W15_def m c).symm
theorem V16_eq (c : Dev nD) : V16 m (outs m) c = W16 m c := by
  show Function.update (V15 m (outs m) c) main_v80 (outs m 16 main_v80 c) = _; rw [V15_eq, outs_main_v80]; exact (W16_def m c).symm
theorem V17_eq (c : Dev nD) : V17 m (outs m) c = W17 m c := by
  show StableHlo.after hostOps6 (V16 m (outs m) c) = _; rw [V16_eq]; exact (W17_def m c).symm
theorem V18_eq (c : Dev nD) : V18 m (outs m) c = W18 m c := by
  show Function.update (V17 m (outs m) c) main_v91 (outs m 18 main_v91 c) = _; rw [V17_eq, outs_main_v91]; exact (W18_def m c).symm
theorem V19_eq (c : Dev nD) : V19 m (outs m) c = W19 m c := by
  show StableHlo.after hostOps7 (V18 m (outs m) c) = _; rw [V18_eq]; exact (W19_def m c).symm
theorem V20_eq (c : Dev nD) : V20 m (outs m) c = W20 m c := by
  show Function.update (V19 m (outs m) c) main_v101 (outs m 20 main_v101 c) = _; rw [V19_eq, outs_main_v101]; exact (W20_def m c).symm
theorem V21_eq (c : Dev nD) : V21 m (outs m) c = W21 m c := by
  show StableHlo.after hostOps8 (V20 m (outs m) c) = _; rw [V20_eq]; exact (W21_def m c).symm
theorem V22_eq (c : Dev nD) : V22 m (outs m) c = W22 m c := by
  show StableHlo.after hostOps8_1 (V21 m (outs m) c) = _; rw [V21_eq]; exact (W22_def m c).symm
theorem V23_eq (c : Dev nD) : V23 m (outs m) c = W23 m c := by
  show StableHlo.after hostOps8_2 (V22 m (outs m) c) = _; rw [V22_eq]; exact (W23_def m c).symm
theorem V24_eq (c : Dev nD) : V24 m (outs m) c = W24 m c := by
  show Function.update (V23 m (outs m) c) main_v120 (outs m 24 main_v120 c) = _; rw [V23_eq, outs_main_v120]; exact (W24_def m c).symm
theorem V25_eq (c : Dev nD) : V25 m (outs m) c = W25 m c := by
  show StableHlo.after hostOps9 (V24 m (outs m) c) = _; rw [V24_eq]; exact (W25_def m c).symm

/-! ## What an item leaves unchanged, and what a region leaves in its output array -/

theorem W1_of (c : Dev nD) (r : Ref sig .tc) (h : r ∉ hostOps0_W) : W1 m c r = W0 m c r := by
  rw [W1_def]; exact StableHlo.after_of_writes_sub hostOps0 _ hostOps0_writes h
theorem W2_of (c : Dev nD) (r : Ref sig .tc) (h : r ≠ main_v11) : W2 m c r = W1 m c r := by
  rw [W2_def]; exact Function.update_of_ne (StableHlo.devRef_ne_of_ne h) _ _
theorem W2_self (c : Dev nD) : W2 m c main_v11 = O0 m c := by
  rw [W2_def]; exact Function.update_self (β := fun b : DevRef τ sig => Buf (Elt F) ((c : Thread nD τ).1, b)) (Proc.devRef .tc main_v11) (O0 m c) (W1 m c)
theorem W3_of (c : Dev nD) (r : Ref sig .tc) (h : r ∉ hostOps1_W) : W3 m c r = W2 m c r := by
  rw [W3_def]; exact StableHlo.after_of_writes_sub hostOps1 _ hostOps1_writes h
theorem W4_of (c : Dev nD) (r : Ref sig .tc) (h : r ≠ main_v21) : W4 m c r = W3 m c r := by
  rw [W4_def]; exact Function.update_of_ne (StableHlo.devRef_ne_of_ne h) _ _
theorem W4_self (c : Dev nD) : W4 m c main_v21 = O1 m c := by
  rw [W4_def]; exact Function.update_self (β := fun b : DevRef τ sig => Buf (Elt F) ((c : Thread nD τ).1, b)) (Proc.devRef .tc main_v21) (O1 m c) (W3 m c)
theorem W5_of (c : Dev nD) (r : Ref sig .tc) (h : r ∉ hostOps2_W) : W5 m c r = W4 m c r := by
  rw [W5_def]; exact StableHlo.after_of_writes_sub hostOps2 _ hostOps2_writes h
theorem W6_of (c : Dev nD) (r : Ref sig .tc) (h : r ∉ hostOps2_1_W) : W6 m c r = W5 m c r := by
  rw [W6_def]; exact StableHlo.after_of_writes_sub hostOps2_1 _ hostOps2_1_writes h
theorem W7_of (c : Dev nD) (r : Ref sig .tc) (h : r ∉ hostOps2_2_W) : W7 m c r = W6 m c r := by
  rw [W7_def]; exact StableHlo.after_of_writes_sub hostOps2_2 _ hostOps2_2_writes h
theorem W8_of (c : Dev nD) (r : Ref sig .tc) (h : r ≠ main_v40) : W8 m c r = W7 m c r := by
  rw [W8_def]; exact Function.update_of_ne (StableHlo.devRef_ne_of_ne h) _ _
theorem W8_self (c : Dev nD) : W8 m c main_v40 = O2 m c := by
  rw [W8_def]; exact Function.update_self (β := fun b : DevRef τ sig => Buf (Elt F) ((c : Thread nD τ).1, b)) (Proc.devRef .tc main_v40) (O2 m c) (W7 m c)
theorem W9_of (c : Dev nD) (r : Ref sig .tc) (h : r ∉ hostOps3_W) : W9 m c r = W8 m c r := by
  rw [W9_def]; exact StableHlo.after_of_writes_sub hostOps3 _ hostOps3_writes h
theorem W10_of (c : Dev nD) (r : Ref sig .tc) (h : r ≠ main_v51) : W10 m c r = W9 m c r := by
  rw [W10_def]; exact Function.update_of_ne (StableHlo.devRef_ne_of_ne h) _ _
theorem W10_self (c : Dev nD) : W10 m c main_v51 = O3 m c := by
  rw [W10_def]; exact Function.update_self (β := fun b : DevRef τ sig => Buf (Elt F) ((c : Thread nD τ).1, b)) (Proc.devRef .tc main_v51) (O3 m c) (W9 m c)
theorem W11_of (c : Dev nD) (r : Ref sig .tc) (h : r ∉ hostOps4_W) : W11 m c r = W10 m c r := by
  rw [W11_def]; exact StableHlo.after_of_writes_sub hostOps4 _ hostOps4_writes h
theorem W12_of (c : Dev nD) (r : Ref sig .tc) (h : r ≠ main_v61) : W12 m c r = W11 m c r := by
  rw [W12_def]; exact Function.update_of_ne (StableHlo.devRef_ne_of_ne h) _ _
theorem W12_self (c : Dev nD) : W12 m c main_v61 = O4 m c := by
  rw [W12_def]; exact Function.update_self (β := fun b : DevRef τ sig => Buf (Elt F) ((c : Thread nD τ).1, b)) (Proc.devRef .tc main_v61) (O4 m c) (W11 m c)
theorem W13_of (c : Dev nD) (r : Ref sig .tc) (h : r ∉ hostOps5_W) : W13 m c r = W12 m c r := by
  rw [W13_def]; exact StableHlo.after_of_writes_sub hostOps5 _ hostOps5_writes h
theorem W14_of (c : Dev nD) (r : Ref sig .tc) (h : r ∉ hostOps5_1_W) : W14 m c r = W13 m c r := by
  rw [W14_def]; exact StableHlo.after_of_writes_sub hostOps5_1 _ hostOps5_1_writes h
theorem W15_of (c : Dev nD) (r : Ref sig .tc) (h : r ∉ hostOps5_2_W) : W15 m c r = W14 m c r := by
  rw [W15_def]; exact StableHlo.after_of_writes_sub hostOps5_2 _ hostOps5_2_writes h
theorem W16_of (c : Dev nD) (r : Ref sig .tc) (h : r ≠ main_v80) : W16 m c r = W15 m c r := by
  rw [W16_def]; exact Function.update_of_ne (StableHlo.devRef_ne_of_ne h) _ _
theorem W16_self (c : Dev nD) : W16 m c main_v80 = O5 m c := by
  rw [W16_def]; exact Function.update_self (β := fun b : DevRef τ sig => Buf (Elt F) ((c : Thread nD τ).1, b)) (Proc.devRef .tc main_v80) (O5 m c) (W15 m c)
theorem W17_of (c : Dev nD) (r : Ref sig .tc) (h : r ∉ hostOps6_W) : W17 m c r = W16 m c r := by
  rw [W17_def]; exact StableHlo.after_of_writes_sub hostOps6 _ hostOps6_writes h
theorem W18_of (c : Dev nD) (r : Ref sig .tc) (h : r ≠ main_v91) : W18 m c r = W17 m c r := by
  rw [W18_def]; exact Function.update_of_ne (StableHlo.devRef_ne_of_ne h) _ _
theorem W18_self (c : Dev nD) : W18 m c main_v91 = O6 m c := by
  rw [W18_def]; exact Function.update_self (β := fun b : DevRef τ sig => Buf (Elt F) ((c : Thread nD τ).1, b)) (Proc.devRef .tc main_v91) (O6 m c) (W17 m c)
theorem W19_of (c : Dev nD) (r : Ref sig .tc) (h : r ∉ hostOps7_W) : W19 m c r = W18 m c r := by
  rw [W19_def]; exact StableHlo.after_of_writes_sub hostOps7 _ hostOps7_writes h
theorem W20_of (c : Dev nD) (r : Ref sig .tc) (h : r ≠ main_v101) : W20 m c r = W19 m c r := by
  rw [W20_def]; exact Function.update_of_ne (StableHlo.devRef_ne_of_ne h) _ _
theorem W20_self (c : Dev nD) : W20 m c main_v101 = O7 m c := by
  rw [W20_def]; exact Function.update_self (β := fun b : DevRef τ sig => Buf (Elt F) ((c : Thread nD τ).1, b)) (Proc.devRef .tc main_v101) (O7 m c) (W19 m c)
theorem W21_of (c : Dev nD) (r : Ref sig .tc) (h : r ∉ hostOps8_W) : W21 m c r = W20 m c r := by
  rw [W21_def]; exact StableHlo.after_of_writes_sub hostOps8 _ hostOps8_writes h
theorem W22_of (c : Dev nD) (r : Ref sig .tc) (h : r ∉ hostOps8_1_W) : W22 m c r = W21 m c r := by
  rw [W22_def]; exact StableHlo.after_of_writes_sub hostOps8_1 _ hostOps8_1_writes h
theorem W23_of (c : Dev nD) (r : Ref sig .tc) (h : r ∉ hostOps8_2_W) : W23 m c r = W22 m c r := by
  rw [W23_def]; exact StableHlo.after_of_writes_sub hostOps8_2 _ hostOps8_2_writes h
theorem W24_of (c : Dev nD) (r : Ref sig .tc) (h : r ≠ main_v120) : W24 m c r = W23 m c r := by
  rw [W24_def]; exact Function.update_of_ne (StableHlo.devRef_ne_of_ne h) _ _
theorem W24_self (c : Dev nD) : W24 m c main_v120 = O8 m c := by
  rw [W24_def]; exact Function.update_self (β := fun b : DevRef τ sig => Buf (Elt F) ((c : Thread nD τ).1, b)) (Proc.devRef .tc main_v120) (O8 m c) (W23 m c)
theorem W25_of (c : Dev nD) (r : Ref sig .tc) (h : r ∉ hostOps9_W) : W25 m c r = W24 m c r := by
  rw [W25_def]; exact StableHlo.after_of_writes_sub hostOps9 _ hostOps9_writes h

/-! ## Every pipeline's proof data, at its region's entry contents -/

/-- A literal match on the pipeline's number, so that the family at a numeral reduces to that region's proof data. -/
def pdats : (p : Fin 9) → (c : Dev nD) → Dat τ (Elt F) Unit ℕ (UR sig nD τ) ℕ (cfgs p) c
  | ⟨0, _⟩ => fun c => dat0 (rd (W1 m)) c
  | ⟨1, _⟩ => fun c => dat1 (rd (W3 m)) c
  | ⟨2, _⟩ => fun c => dat2 (rd (W7 m)) c
  | ⟨3, _⟩ => fun c => dat3 (rd (W9 m)) c
  | ⟨4, _⟩ => fun c => dat4 (rd (W11 m)) c
  | ⟨5, _⟩ => fun c => dat5 (rd (W15 m)) c
  | ⟨6, _⟩ => fun c => dat6 (rd (W17 m)) c
  | ⟨7, _⟩ => fun c => dat7 (rd (W19 m)) c
  | ⟨8, _⟩ => fun c => dat8 (rd (W23 m)) c

/-! ## The fold is used through its equations only: reducing through it would evaluate every host stretch -/

theorem O0_def (c : Dev nD) : O0 m c = (pdats m 0 c).arrAt 2 cfg0.N := rfl
theorem O1_def (c : Dev nD) : O1 m c = (pdats m 1 c).arrAt 4 cfg1.N := rfl
theorem O2_def (c : Dev nD) : O2 m c = (pdats m 2 c).arrAt 7 cfg2.N := rfl
theorem O3_def (c : Dev nD) : O3 m c = (pdats m 3 c).arrAt 2 cfg3.N := rfl
theorem O4_def (c : Dev nD) : O4 m c = (pdats m 4 c).arrAt 4 cfg4.N := rfl
theorem O5_def (c : Dev nD) : O5 m c = (pdats m 5 c).arrAt 7 cfg5.N := rfl
theorem O6_def (c : Dev nD) : O6 m c = (pdats m 6 c).arrAt 2 cfg6.N := rfl
theorem O7_def (c : Dev nD) : O7 m c = (pdats m 7 c).arrAt 4 cfg7.N := rfl
theorem O8_def (c : Dev nD) : O8 m c = (pdats m 8 c).arrAt 7 cfg8.N := rfl

attribute [irreducible] W1 W2 W3 W4 W5 W6 W7 W8 W9 W10 W11 W12 W13 W14 W15 W16 W17 W18 W19 W20 W21 W22 W23 W24 W25 O0 O1 O2 O3 O4 O5 O6 O7 O8

end Cert.Kernel.Hand

end
-- ==== Proof.K.Reg0.lean ====
/-
  Region 0 of @main as a segment between two boundaries of the fold: entered from every unscoped buffer at the
  contents before it, left at the contents after it. Its arrays are split out of the unscoped buffers and put back at what
  the pipeline leaves: the input arrays as entered, the output array at its folded write-backs, every other buffer
  untouched. The generator register goes into the pipeline's invariant and comes back; nothing is owed; the kernel has no
  semaphore of its own.
-/
import proofs.«157524_j37503654429443_1_alg».proof.Proof.K.Stage
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At the region's exit each of its arrays holds what the pipeline leaves: an input array its entry contents, the output
    array its folded write-backs. -/
theorem hF0 (c : Dev nD) : ∀ w : Fin cfg0.W, (pdats m 0 c).arrAt w cfg0.N = rd (W2 m) c (Pipeline.arrRef spec0 w)
  | ⟨0, _⟩ => (((dat0 (rd (W1 m)) c).arrAt_in 0 rfl _).trans (A_eq0 _ c 0)).trans (W2_of m c _ (by decide : Pipeline.arrRef spec0 0 ≠ main_v11)).symm
  | ⟨1, _⟩ => (((dat0 (rd (W1 m)) c).arrAt_in 1 rfl _).trans (A_eq0 _ c 1)).trans (W2_of m c _ (by decide : Pipeline.arrRef spec0 1 ≠ main_v11)).symm
  | ⟨2, _⟩ => (O0_def m c).symm.trans (W2_self m c).symm

/-- Every buffer that is none of the region's arrays holds at the exit what it held at the entry. -/
theorem hrest0 (c : Dev nD) : ∀ b, b ∉ Finset.univ.image (Pipeline.arrRef spec0) → rd (W2 m) c b = rd (W1 m) c b :=
  fun b hb => W2_of m c b fun e => hb (Finset.mem_image.mpr ⟨2, Finset.mem_univ _, by subst e; first | rfl | decide⟩)

set_option maxHeartbeats 4000000 in
set_option backward.isDefEq.respectTransparency.types false in
/-- The region's segment record. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (rd (W1 m)) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (rd (W1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (rd (W1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (rd (W1 m) c) (rd (W2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The record is entered from the conditional run's valuation before the region and left at the one after it. -/
theorem hpre0 (c : Dev nD) : iprop(StableHlo.held (c : Thread nD τ) (Pipeline.ucRefs τ sig) (V1 m c) ∗ R c) ⊢ (reg0 m).pre c := by
  rw [V1_eq]; exact .rfl
theorem hpost0 (c : Dev nD) : (reg0 m).post c ⊢ iprop(StableHlo.held (c : Thread nD τ) (Pipeline.ucRefs τ sig) (V2 m (outs m) c) ∗ R c) := by
  rw [V2_eq]; exact .rfl

end Cert.Kernel.Hand

end
-- ==== Proof.K.Reg1.lean ====
/-
  Region 1 of @main as a segment between two boundaries of the fold: entered from every unscoped buffer at the
  contents before it, left at the contents after it. Its arrays are split out of the unscoped buffers and put back at what
  the pipeline leaves: the input arrays as entered, the output array at its folded write-backs, every other buffer
  untouched. The generator register goes into the pipeline's invariant and comes back; nothing is owed; the kernel has no
  semaphore of its own.
-/
import proofs.«157524_j37503654429443_1_alg».proof.Proof.K.Stage
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At the region's exit each of its arrays holds what the pipeline leaves: an input array its entry contents, the output
    array its folded write-backs. -/
theorem hF1 (c : Dev nD) : ∀ w : Fin cfg1.W, (pdats m 1 c).arrAt w cfg1.N = rd (W4 m) c (Pipeline.arrRef spec1 w)
  | ⟨0, _⟩ => (((dat1 (rd (W3 m)) c).arrAt_in 0 rfl _).trans (A_eq1 _ c 0)).trans (W4_of m c _ (by decide : Pipeline.arrRef spec1 0 ≠ main_v21)).symm
  | ⟨1, _⟩ => (((dat1 (rd (W3 m)) c).arrAt_in 1 rfl _).trans (A_eq1 _ c 1)).trans (W4_of m c _ (by decide : Pipeline.arrRef spec1 1 ≠ main_v21)).symm
  | ⟨2, _⟩ => (((dat1 (rd (W3 m)) c).arrAt_in 2 rfl _).trans (A_eq1 _ c 2)).trans (W4_of m c _ (by decide : Pipeline.arrRef spec1 2 ≠ main_v21)).symm
  | ⟨3, _⟩ => (((dat1 (rd (W3 m)) c).arrAt_in 3 rfl _).trans (A_eq1 _ c 3)).trans (W4_of m c _ (by decide : Pipeline.arrRef spec1 3 ≠ main_v21)).symm
  | ⟨4, _⟩ => (O1_def m c).symm.trans (W4_self m c).symm

/-- Every buffer that is none of the region's arrays holds at the exit what it held at the entry. -/
theorem hrest1 (c : Dev nD) : ∀ b, b ∉ Finset.univ.image (Pipeline.arrRef spec1) → rd (W4 m) c b = rd (W3 m) c b :=
  fun b hb => W4_of m c b fun e => hb (Finset.mem_image.mpr ⟨4, Finset.mem_univ _, by subst e; first | rfl | decide⟩)

set_option maxHeartbeats 4000000 in
set_option backward.isDefEq.respectTransparency.types false in
/-- The region's segment record. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (rd (W3 m)) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (rd (W3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (rd (W3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (rd (W3 m) c) (rd (W4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The record is entered from the conditional run's valuation before the region and left at the one after it. -/
theorem hpre1 (c : Dev nD) : iprop(StableHlo.held (c : Thread nD τ) (Pipeline.ucRefs τ sig) (V3 m (outs m) c) ∗ R c) ⊢ (reg1 m).pre c := by
  rw [V3_eq]; exact .rfl
theorem hpost1 (c : Dev nD) : (reg1 m).post c ⊢ iprop(StableHlo.held (c : Thread nD τ) (Pipeline.ucRefs τ sig) (V4 m (outs m) c) ∗ R c) := by
  rw [V4_eq]; exact .rfl

end Cert.Kernel.Hand

end
-- ==== Proof.K.Reg2.lean ====
/-
  Region 2 of @main as a segment between two boundaries of the fold: entered from every unscoped buffer at the
  contents before it, left at the contents after it. Its arrays are split out of the unscoped buffers and put back at what
  the pipeline leaves: the input arrays as entered, the output array at its folded write-backs, every other buffer
  untouched. The generator register goes into the pipeline's invariant and comes back; nothing is owed; the kernel has no
  semaphore of its own.
-/
import proofs.«157524_j37503654429443_1_alg».proof.Proof.K.Stage
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At the region's exit each of its arrays holds what the pipeline leaves: an input array its entry contents, the output
    array its folded write-backs. -/
theorem hF2 (c : Dev nD) : ∀ w : Fin cfg2.W, (pdats m 2 c).arrAt w cfg2.N = rd (W8 m) c (Pipeline.arrRef spec2 w)
  | ⟨0, _⟩ => (((dat2 (rd (W7 m)) c).arrAt_in 0 rfl _).trans (A_eq2 _ c 0)).trans (W8_of m c _ (by decide : Pipeline.arrRef spec2 0 ≠ main_v40)).symm
  | ⟨1, _⟩ => (((dat2 (rd (W7 m)) c).arrAt_in 1 rfl _).trans (A_eq2 _ c 1)).trans (W8_of m c _ (by decide : Pipeline.arrRef spec2 1 ≠ main_v40)).symm
  | ⟨2, _⟩ => (((dat2 (rd (W7 m)) c).arrAt_in 2 rfl _).trans (A_eq2 _ c 2)).trans (W8_of m c _ (by decide : Pipeline.arrRef spec2 2 ≠ main_v40)).symm
  | ⟨3, _⟩ => (((dat2 (rd (W7 m)) c).arrAt_in 3 rfl _).trans (A_eq2 _ c 3)).trans (W8_of m c _ (by decide : Pipeline.arrRef spec2 3 ≠ main_v40)).symm
  | ⟨4, _⟩ => (((dat2 (rd (W7 m)) c).arrAt_in 4 rfl _).trans (A_eq2 _ c 4)).trans (W8_of m c _ (by decide : Pipeline.arrRef spec2 4 ≠ main_v40)).symm
  | ⟨5, _⟩ => (((dat2 (rd (W7 m)) c).arrAt_in 5 rfl _).trans (A_eq2 _ c 5)).trans (W8_of m c _ (by decide : Pipeline.arrRef spec2 5 ≠ main_v40)).symm
  | ⟨6, _⟩ => (((dat2 (rd (W7 m)) c).arrAt_in 6 rfl _).trans (A_eq2 _ c 6)).trans (W8_of m c _ (by decide : Pipeline.arrRef spec2 6 ≠ main_v40)).symm
  | ⟨7, _⟩ => (O2_def m c).symm.trans (W8_self m c).symm

/-- Every buffer that is none of the region's arrays holds at the exit what it held at the entry. -/
theorem hrest2 (c : Dev nD) : ∀ b, b ∉ Finset.univ.image (Pipeline.arrRef spec2) → rd (W8 m) c b = rd (W7 m) c b :=
  fun b hb => W8_of m c b fun e => hb (Finset.mem_image.mpr ⟨7, Finset.mem_univ _, by subst e; first | rfl | decide⟩)

set_option maxHeartbeats 4000000 in
set_option backward.isDefEq.respectTransparency.types false in
/-- The region's segment record. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (rd (W7 m)) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (rd (W7 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (rd (W7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (rd (W7 m) c) (rd (W8 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The record is entered from the conditional run's valuation before the region and left at the one after it. -/
theorem hpre2 (c : Dev nD) : iprop(StableHlo.held (c : Thread nD τ) (Pipeline.ucRefs τ sig) (V7 m (outs m) c) ∗ R c) ⊢ (reg2 m).pre c := by
  rw [V7_eq]; exact .rfl
theorem hpost2 (c : Dev nD) : (reg2 m).post c ⊢ iprop(StableHlo.held (c : Thread nD τ) (Pipeline.ucRefs τ sig) (V8 m (outs m) c) ∗ R c) := by
  rw [V8_eq]; exact .rfl

end Cert.Kernel.Hand

end
-- ==== Proof.K.Reg3.lean ====
/-
  Region 3 of @main as a segment between two boundaries of the fold: entered from every unscoped buffer at the
  contents before it, left at the contents after it. Its arrays are split out of the unscoped buffers and put back at what
  the pipeline leaves: the input arrays as entered, the output array at its folded write-backs, every other buffer
  untouched. The generator register goes into the pipeline's invariant and comes back; nothing is owed; the kernel has no
  semaphore of its own.
-/
import proofs.«157524_j37503654429443_1_alg».proof.Proof.K.Stage
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At the region's exit each of its arrays holds what the pipeline leaves: an input array its entry contents, the output
    array its folded write-backs. -/
theorem hF3 (c : Dev nD) : ∀ w : Fin cfg3.W, (pdats m 3 c).arrAt w cfg3.N = rd (W10 m) c (Pipeline.arrRef spec3 w)
  | ⟨0, _⟩ => (((dat3 (rd (W9 m)) c).arrAt_in 0 rfl _).trans (A_eq3 _ c 0)).trans (W10_of m c _ (by decide : Pipeline.arrRef spec3 0 ≠ main_v51)).symm
  | ⟨1, _⟩ => (((dat3 (rd (W9 m)) c).arrAt_in 1 rfl _).trans (A_eq3 _ c 1)).trans (W10_of m c _ (by decide : Pipeline.arrRef spec3 1 ≠ main_v51)).symm
  | ⟨2, _⟩ => (O3_def m c).symm.trans (W10_self m c).symm

/-- Every buffer that is none of the region's arrays holds at the exit what it held at the entry. -/
theorem hrest3 (c : Dev nD) : ∀ b, b ∉ Finset.univ.image (Pipeline.arrRef spec3) → rd (W10 m) c b = rd (W9 m) c b :=
  fun b hb => W10_of m c b fun e => hb (Finset.mem_image.mpr ⟨2, Finset.mem_univ _, by subst e; first | rfl | decide⟩)

set_option maxHeartbeats 4000000 in
set_option backward.isDefEq.respectTransparency.types false in
/-- The region's segment record. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (rd (W9 m)) c).loose
  hwaits := Pipeline.hwaits_of_owed_zero _ _ _ _ L lv 3 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec3 c (rd (W9 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (rd (W9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (rd (W9 m) c) (rd (W10 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The record is entered from the conditional run's valuation before the region and left at the one after it. -/
theorem hpre3 (c : Dev nD) : iprop(StableHlo.held (c : Thread nD τ) (Pipeline.ucRefs τ sig) (V9 m (outs m) c) ∗ R c) ⊢ (reg3 m).pre c := by
  rw [V9_eq]; exact .rfl
theorem hpost3 (c : Dev nD) : (reg3 m).post c ⊢ iprop(StableHlo.held (c : Thread nD τ) (Pipeline.ucRefs τ sig) (V10 m (outs m) c) ∗ R c) := by
  rw [V10_eq]; exact .rfl

end Cert.Kernel.Hand

end
-- ==== Proof.K.Reg4.lean ====
/-
  Region 4 of @main as a segment between two boundaries of the fold: entered from every unscoped buffer at the
  contents before it, left at the contents after it. Its arrays are split out of the unscoped buffers and put back at what
  the pipeline leaves: the input arrays as entered, the output array at its folded write-backs, every other buffer
  untouched. The generator register goes into the pipeline's invariant and comes back; nothing is owed; the kernel has no
  semaphore of its own.
-/
import proofs.«157524_j37503654429443_1_alg».proof.Proof.K.Stage
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At the region's exit each of its arrays holds what the pipeline leaves: an input array its entry contents, the output
    array its folded write-backs. -/
theorem hF4 (c : Dev nD) : ∀ w : Fin cfg4.W, (pdats m 4 c).arrAt w cfg4.N = rd (W12 m) c (Pipeline.arrRef spec4 w)
  | ⟨0, _⟩ => (((dat4 (rd (W11 m)) c).arrAt_in 0 rfl _).trans (A_eq4 _ c 0)).trans (W12_of m c _ (by decide : Pipeline.arrRef spec4 0 ≠ main_v61)).symm
  | ⟨1, _⟩ => (((dat4 (rd (W11 m)) c).arrAt_in 1 rfl _).trans (A_eq4 _ c 1)).trans (W12_of m c _ (by decide : Pipeline.arrRef spec4 1 ≠ main_v61)).symm
  | ⟨2, _⟩ => (((dat4 (rd (W11 m)) c).arrAt_in 2 rfl _).trans (A_eq4 _ c 2)).trans (W12_of m c _ (by decide : Pipeline.arrRef spec4 2 ≠ main_v61)).symm
  | ⟨3, _⟩ => (((dat4 (rd (W11 m)) c).arrAt_in 3 rfl _).trans (A_eq4 _ c 3)).trans (W12_of m c _ (by decide : Pipeline.arrRef spec4 3 ≠ main_v61)).symm
  | ⟨4, _⟩ => (O4_def m c).symm.trans (W12_self m c).symm

/-- Every buffer that is none of the region's arrays holds at the exit what it held at the entry. -/
theorem hrest4 (c : Dev nD) : ∀ b, b ∉ Finset.univ.image (Pipeline.arrRef spec4) → rd (W12 m) c b = rd (W11 m) c b :=
  fun b hb => W12_of m c b fun e => hb (Finset.mem_image.mpr ⟨4, Finset.mem_univ _, by subst e; first | rfl | decide⟩)

set_option maxHeartbeats 4000000 in
set_option backward.isDefEq.respectTransparency.types false in
/-- The region's segment record. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (rd (W11 m)) c).loose
  hwaits := Pipeline.hwaits_of_owed_zero _ _ _ _ L lv 4 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec4 c (rd (W11 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (rd (W11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (rd (W11 m) c) (rd (W12 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The record is entered from the conditional run's valuation before the region and left at the one after it. -/
theorem hpre4 (c : Dev nD) : iprop(StableHlo.held (c : Thread nD τ) (Pipeline.ucRefs τ sig) (V11 m (outs m) c) ∗ R c) ⊢ (reg4 m).pre c := by
  rw [V11_eq]; exact .rfl
theorem hpost4 (c : Dev nD) : (reg4 m).post c ⊢ iprop(StableHlo.held (c : Thread nD τ) (Pipeline.ucRefs τ sig) (V12 m (outs m) c) ∗ R c) := by
  rw [V12_eq]; exact .rfl

end Cert.Kernel.Hand

end
-- ==== Proof.K.Reg5.lean ====
/-
  Region 5 of @main as a segment between two boundaries of the fold: entered from every unscoped buffer at the
  contents before it, left at the contents after it. Its arrays are split out of the unscoped buffers and put back at what
  the pipeline leaves: the input arrays as entered, the output array at its folded write-backs, every other buffer
  untouched. The generator register goes into the pipeline's invariant and comes back; nothing is owed; the kernel has no
  semaphore of its own.
-/
import proofs.«157524_j37503654429443_1_alg».proof.Proof.K.Stage
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At the region's exit each of its arrays holds what the pipeline leaves: an input array its entry contents, the output
    array its folded write-backs. -/
theorem hF5 (c : Dev nD) : ∀ w : Fin cfg5.W, (pdats m 5 c).arrAt w cfg5.N = rd (W16 m) c (Pipeline.arrRef spec5 w)
  | ⟨0, _⟩ => (((dat5 (rd (W15 m)) c).arrAt_in 0 rfl _).trans (A_eq5 _ c 0)).trans (W16_of m c _ (by decide : Pipeline.arrRef spec5 0 ≠ main_v80)).symm
  | ⟨1, _⟩ => (((dat5 (rd (W15 m)) c).arrAt_in 1 rfl _).trans (A_eq5 _ c 1)).trans (W16_of m c _ (by decide : Pipeline.arrRef spec5 1 ≠ main_v80)).symm
  | ⟨2, _⟩ => (((dat5 (rd (W15 m)) c).arrAt_in 2 rfl _).trans (A_eq5 _ c 2)).trans (W16_of m c _ (by decide : Pipeline.arrRef spec5 2 ≠ main_v80)).symm
  | ⟨3, _⟩ => (((dat5 (rd (W15 m)) c).arrAt_in 3 rfl _).trans (A_eq5 _ c 3)).trans (W16_of m c _ (by decide : Pipeline.arrRef spec5 3 ≠ main_v80)).symm
  | ⟨4, _⟩ => (((dat5 (rd (W15 m)) c).arrAt_in 4 rfl _).trans (A_eq5 _ c 4)).trans (W16_of m c _ (by decide : Pipeline.arrRef spec5 4 ≠ main_v80)).symm
  | ⟨5, _⟩ => (((dat5 (rd (W15 m)) c).arrAt_in 5 rfl _).trans (A_eq5 _ c 5)).trans (W16_of m c _ (by decide : Pipeline.arrRef spec5 5 ≠ main_v80)).symm
  | ⟨6, _⟩ => (((dat5 (rd (W15 m)) c).arrAt_in 6 rfl _).trans (A_eq5 _ c 6)).trans (W16_of m c _ (by decide : Pipeline.arrRef spec5 6 ≠ main_v80)).symm
  | ⟨7, _⟩ => (O5_def m c).symm.trans (W16_self m c).symm

/-- Every buffer that is none of the region's arrays holds at the exit what it held at the entry. -/
theorem hrest5 (c : Dev nD) : ∀ b, b ∉ Finset.univ.image (Pipeline.arrRef spec5) → rd (W16 m) c b = rd (W15 m) c b :=
  fun b hb => W16_of m c b fun e => hb (Finset.mem_image.mpr ⟨7, Finset.mem_univ _, by subst e; first | rfl | decide⟩)

set_option maxHeartbeats 4000000 in
set_option backward.isDefEq.respectTransparency.types false in
/-- The region's segment record. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (rd (W15 m)) c).loose
  hwaits := Pipeline.hwaits_of_owed_zero _ _ _ _ L lv 5 fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec5 c (rd (W15 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (rd (W15 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (rd (W15 m) c) (rd (W16 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The record is entered from the conditional run's valuation before the region and left at the one after it. -/
theorem hpre5 (c : Dev nD) : iprop(StableHlo.held (c : Thread nD τ) (Pipeline.ucRefs τ sig) (V15 m (outs m) c) ∗ R c) ⊢ (reg5 m).pre c := by
  rw [V15_eq]; exact .rfl
theorem hpost5 (c : Dev nD) : (reg5 m).post c ⊢ iprop(StableHlo.held (c : Thread nD τ) (Pipeline.ucRefs τ sig) (V16 m (outs m) c) ∗ R c) := by
  rw [V16_eq]; exact .rfl

end Cert.Kernel.Hand

end
-- ==== Proof.K.Reg6.lean ====
/-
  Region 6 of @main as a segment between two boundaries of the fold: entered from every unscoped buffer at the
  contents before it, left at the contents after it. Its arrays are split out of the unscoped buffers and put back at what
  the pipeline leaves: the input arrays as entered, the output array at its folded write-backs, every other buffer
  untouched. The generator register goes into the pipeline's invariant and comes back; nothing is owed; the kernel has no
  semaphore of its own.
-/
import proofs.«157524_j37503654429443_1_alg».proof.Proof.K.Stage
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At the region's exit each of its arrays holds what the pipeline leaves: an input array its entry contents, the output
    array its folded write-backs. -/
theorem hF6 (c : Dev nD) : ∀ w : Fin cfg6.W, (pdats m 6 c).arrAt w cfg6.N = rd (W18 m) c (Pipeline.arrRef spec6 w)
  | ⟨0, _⟩ => (((dat6 (rd (W17 m)) c).arrAt_in 0 rfl _).trans (A_eq6 _ c 0)).trans (W18_of m c _ (by decide : Pipeline.arrRef spec6 0 ≠ main_v91)).symm
  | ⟨1, _⟩ => (((dat6 (rd (W17 m)) c).arrAt_in 1 rfl _).trans (A_eq6 _ c 1)).trans (W18_of m c _ (by decide : Pipeline.arrRef spec6 1 ≠ main_v91)).symm
  | ⟨2, _⟩ => (O6_def m c).symm.trans (W18_self m c).symm

/-- Every buffer that is none of the region's arrays holds at the exit what it held at the entry. -/
theorem hrest6 (c : Dev nD) : ∀ b, b ∉ Finset.univ.image (Pipeline.arrRef spec6) → rd (W18 m) c b = rd (W17 m) c b :=
  fun b hb => W18_of m c b fun e => hb (Finset.mem_image.mpr ⟨2, Finset.mem_univ _, by subst e; first | rfl | decide⟩)

set_option maxHeartbeats 4000000 in
set_option backward.isDefEq.respectTransparency.types false in
/-- The region's segment record. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (rd (W17 m)) c).loose
  hwaits := Pipeline.hwaits_of_owed_zero _ _ _ _ L lv 6 fun _ _ => rfl
  pre c := iprop(StableHlo.held (c : Thread nD τ) (Pipeline.ucRefs τ sig) (W17 m c) ∗ R c)
  post c := iprop(StableHlo.held (c : Thread nD τ) (Pipeline.ucRefs τ sig) (W18 m c) ∗ R c)
  X c := iprop(∃ r, prngReg c r)
  Y c := iprop(∃ r, prngReg c r)
  Z c := Pipeline.unscopedRest (Ix := Unit) (Name := ℕ) (U := UR sig nD τ) (Lvl := ℕ) spec6 c (rd (W17 m) c)
  hentry c := by
    rw [Pipeline.ownSems0_none]
    have hsplit := Pipeline.arrays_of_unscopedBufs (p := 6) (pcfgs (F := F)) adm (pdats m) launch6.win launch6.arr_whole c
      ((pdats m 6 c).share_full fun _ => rfl) (rd (W17 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (rd (W17 m) c) (rd (W18 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The record is entered from the conditional run's valuation before the region and left at the one after it. -/
theorem hpre6 (c : Dev nD) : iprop(StableHlo.held (c : Thread nD τ) (Pipeline.ucRefs τ sig) (V17 m (outs m) c) ∗ R c) ⊢ (reg6 m).pre c := by
  rw [V17_eq]; exact .rfl
theorem hpost6 (c : Dev nD) : (reg6 m).post c ⊢ iprop(StableHlo.held (c : Thread nD τ) (Pipeline.ucRefs τ sig) (V18 m (outs m) c) ∗ R c) := by
  rw [V18_eq]; exact .rfl

end Cert.Kernel.Hand

end
-- ==== Proof.K.Reg7.lean ====
/-
  Region 7 of @main as a segment between two boundaries of the fold: entered from every unscoped buffer at the
  contents before it, left at the contents after it. Its arrays are split out of the unscoped buffers and put back at what
  the pipeline leaves: the input arrays as entered, the output array at its folded write-backs, every other buffer
  untouched. The generator register goes into the pipeline's invariant and comes back; nothing is owed; the kernel has no
  semaphore of its own.
-/
import proofs.«157524_j37503654429443_1_alg».proof.Proof.K.Stage
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At the region's exit each of its arrays holds what the pipeline leaves: an input array its entry contents, the output
    array its folded write-backs. -/
theorem hF7 (c : Dev nD) : ∀ w : Fin cfg7.W, (pdats m 7 c).arrAt w cfg7.N = rd (W20 m) c (Pipeline.arrRef spec7 w)
  | ⟨0, _⟩ => (((dat7 (rd (W19 m)) c).arrAt_in 0 rfl _).trans (A_eq7 _ c 0)).trans (W20_of m c _ (by decide : Pipeline.arrRef spec7 0 ≠ main_v101)).symm
  | ⟨1, _⟩ => (((dat7 (rd (W19 m)) c).arrAt_in 1 rfl _).trans (A_eq7 _ c 1)).trans (W20_of m c _ (by decide : Pipeline.arrRef spec7 1 ≠ main_v101)).symm
  | ⟨2, _⟩ => (((dat7 (rd (W19 m)) c).arrAt_in 2 rfl _).trans (A_eq7 _ c 2)).trans (W20_of m c _ (by decide : Pipeline.arrRef spec7 2 ≠ main_v101)).symm
  | ⟨3, _⟩ => (((dat7 (rd (W19 m)) c).arrAt_in 3 rfl _).trans (A_eq7 _ c 3)).trans (W20_of m c _ (by decide : Pipeline.arrRef spec7 3 ≠ main_v101)).symm
  | ⟨4, _⟩ => (O7_def m c).symm.trans (W20_self m c).symm

/-- Every buffer that is none of the region's arrays holds at the exit what it held at the entry. -/
theorem hrest7 (c : Dev nD) : ∀ b, b ∉ Finset.univ.image (Pipeline.arrRef spec7) → rd (W20 m) c b = rd (W19 m) c b :=
  fun b hb => W20_of m c b fun e => hb (Finset.mem_image.mpr ⟨4, Finset.mem_univ _, by subst e; first | rfl | decide⟩)

set_option maxHeartbeats 4000000 in
set_option backward.isDefEq.respectTransparency.types false in
/-- The region's segment record. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (rd (W19 m)) c).loose
  hwaits := Pipeline.hwaits_of_owed_zero _ _ _ _ L lv 7 fun _ _ => rfl
  pre c := iprop(StableHlo.held (c : Thread nD τ) (Pipeline.ucRefs τ sig) (W19 m c) ∗ R c)
  post c := iprop(StableHlo.held (c : Thread nD τ) (Pipeline.ucRefs τ sig) (W20 m c) ∗ R c)
  X c := iprop(∃ r, prngReg c r)
  Y c := iprop(∃ r, prngReg c r)
  Z c := Pipeline.unscopedRest (Ix := Unit) (Name := ℕ) (U := UR sig nD τ) (Lvl := ℕ) spec7 c (rd (W19 m) c)
  hentry c := by
    rw [Pipeline.ownSems0_none]
    have hsplit := Pipeline.arrays_of_unscopedBufs (p := 7) (pcfgs (F := F)) adm (pdats m) launch7.win launch7.arr_whole c
      ((pdats m 7 c).share_full fun _ => rfl) (rd (W19 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (rd (W19 m) c) (rd (W20 m) c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The record is entered from the conditional run's valuation before the region and left at the one after it. -/
theorem hpre7 (c : Dev nD) : iprop(StableHlo.held (c : Thread nD τ) (Pipeline.ucRefs τ sig) (V19 m (outs m) c) ∗ R c) ⊢ (reg7 m).pre c := by
  rw [V19_eq]; exact .rfl
theorem hpost7 (c : Dev nD) : (reg7 m).post c ⊢ iprop(StableHlo.held (c : Thread nD τ) (Pipeline.ucRefs τ sig) (V20 m (outs m) c) ∗ R c) := by
  rw [V20_eq]; exact .rfl

end Cert.Kernel.Hand

end
-- ==== Proof.K.Reg8.lean ====
/-
  Region 8 of @main as a segment between two boundaries of the fold: entered from every unscoped buffer at the
  contents before it, left at the contents after it. Its arrays are split out of the unscoped buffers and put back at what
  the pipeline leaves: the input arrays as entered, the output array at its folded write-backs, every other buffer
  untouched. The generator register goes into the pipeline's invariant and comes back; nothing is owed; the kernel has no
  semaphore of its own.
-/
import proofs.«157524_j37503654429443_1_alg».proof.Proof.K.Stage
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At the region's exit each of its arrays holds what the pipeline leaves: an input array its entry contents, the output
    array its folded write-backs. -/
theorem hF8 (c : Dev nD) : ∀ w : Fin cfg8.W, (pdats m 8 c).arrAt w cfg8.N = rd (W24 m) c (Pipeline.arrRef spec8 w)
  | ⟨0, _⟩ => (((dat8 (rd (W23 m)) c).arrAt_in 0 rfl _).trans (A_eq8 _ c 0)).trans (W24_of m c _ (by decide : Pipeline.arrRef spec8 0 ≠ main_v120)).symm
  | ⟨1, _⟩ => (((dat8 (rd (W23 m)) c).arrAt_in 1 rfl _).trans (A_eq8 _ c 1)).trans (W24_of m c _ (by decide : Pipeline.arrRef spec8 1 ≠ main_v120)).symm
  | ⟨2, _⟩ => (((dat8 (rd (W23 m)) c).arrAt_in 2 rfl _).trans (A_eq8 _ c 2)).trans (W24_of m c _ (by decide : Pipeline.arrRef spec8 2 ≠ main_v120)).symm
  | ⟨3, _⟩ => (((dat8 (rd (W23 m)) c).arrAt_in 3 rfl _).trans (A_eq8 _ c 3)).trans (W24_of m c _ (by decide : Pipeline.arrRef spec8 3 ≠ main_v120)).symm
  | ⟨4, _⟩ => (((dat8 (rd (W23 m)) c).arrAt_in 4 rfl _).trans (A_eq8 _ c 4)).trans (W24_of m c _ (by decide : Pipeline.arrRef spec8 4 ≠ main_v120)).symm
  | ⟨5, _⟩ => (((dat8 (rd (W23 m)) c).arrAt_in 5 rfl _).trans (A_eq8 _ c 5)).trans (W24_of m c _ (by decide : Pipeline.arrRef spec8 5 ≠ main_v120)).symm
  | ⟨6, _⟩ => (((dat8 (rd (W23 m)) c).arrAt_in 6 rfl _).trans (A_eq8 _ c 6)).trans (W24_of m c _ (by decide : Pipeline.arrRef spec8 6 ≠ main_v120)).symm
  | ⟨7, _⟩ => (O8_def m c).symm.trans (W24_self m c).symm

/-- Every buffer that is none of the region's arrays holds at the exit what it held at the entry. -/
theorem hrest8 (c : Dev nD) : ∀ b, b ∉ Finset.univ.image (Pipeline.arrRef spec8) → rd (W24 m) c b = rd (W23 m) c b :=
  fun b hb => W24_of m c b fun e => hb (Finset.mem_image.mpr ⟨7, Finset.mem_univ _, by subst e; first | rfl | decide⟩)

set_option maxHeartbeats 4000000 in
set_option backward.isDefEq.respectTransparency.types false in
/-- The region's segment record. -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (rd (W23 m)) c).loose
  hwaits := Pipeline.hwaits_of_owed_zero _ _ _ _ L lv 8 fun _ _ => rfl
  pre c := iprop(StableHlo.held (c : Thread nD τ) (Pipeline.ucRefs τ sig) (W23 m c) ∗ R c)
  post c := iprop(StableHlo.held (c : Thread nD τ) (Pipeline.ucRefs τ sig) (W24 m c) ∗ R c)
  X c := iprop(∃ r, prngReg c r)
  Y c := iprop(∃ r, prngReg c r)
  Z c := Pipeline.unscopedRest (Ix := Unit) (Name := ℕ) (U := UR sig nD τ) (Lvl := ℕ) spec8 c (rd (W23 m) c)
  hentry c := by
    rw [Pipeline.ownSems0_none]
    have hsplit := Pipeline.arrays_of_unscopedBufs (p := 8) (pcfgs (F := F)) adm (pdats m) launch8.win launch8.arr_whole c
      ((pdats m 8 c).share_full fun _ => rfl) (rd (W23 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (rd (W23 m) c) (rd (W24 m) c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The record is entered from the conditional run's valuation before the region and left at the one after it. -/
theorem hpre8 (c : Dev nD) : iprop(StableHlo.held (c : Thread nD τ) (Pipeline.ucRefs τ sig) (V23 m (outs m) c) ∗ R c) ⊢ (reg8 m).pre c := by
  rw [V23_eq]; exact .rfl
theorem hpost8 (c : Dev nD) : (reg8 m).post c ⊢ iprop(StableHlo.held (c : Thread nD τ) (Pipeline.ucRefs τ sig) (V24 m (outs m) c) ∗ R c) := by
  rw [V24_eq]; exact .rfl

end Cert.Kernel.Hand

end
-- ==== Proof.K.RunMain.lean ====
/-
  The run of the whole program: every weakly fair execution of @main terminates, nothing faulting; the ten argument arrays
  end as launched; the node features after the third layer end at what the last boundary of the fold holds for them, and
  so do the concatenated per-graph sums.
-/
import proofs.«157524_j37503654429443_1_alg».proof.Proof.K.Reg0
import proofs.«157524_j37503654429443_1_alg».proof.Proof.K.Reg1
import proofs.«157524_j37503654429443_1_alg».proof.Proof.K.Reg2
import proofs.«157524_j37503654429443_1_alg».proof.Proof.K.Reg3
import proofs.«157524_j37503654429443_1_alg».proof.Proof.K.Reg4
import proofs.«157524_j37503654429443_1_alg».proof.Proof.K.Reg5
import proofs.«157524_j37503654429443_1_alg».proof.Proof.K.Reg6
import proofs.«157524_j37503654429443_1_alg».proof.Proof.K.Reg7
import proofs.«157524_j37503654429443_1_alg».proof.Proof.K.Reg8

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

variable (m : (ℓ : Loc nD τ sig) → Buf (Elt F) ℓ) (ρ : Dev nD → PrngReg)

theorem run_main : θ_run defs (onTc (τ := τ) (main (F := F))) ⟨m, fun _ => 0, ρ⟩ (fun r => ∀ c : Dev nD,
      r.2.mem ((c.tc : Thread nD τ).loc main_v120) = W25 m c (Proc.devRef .tc main_v120)
      ∧ r.2.mem ((c.tc : Thread nD τ).loc main_v124) = W25 m c (Proc.devRef .tc main_v124)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine (θ_run defs _ _).mono (fun r h c => ?_) (run_of_regions m ρ (outs m) (pdats m) (reg0 m) (hpre0 m) (hpost0 m) (reg1 m) (hpre1 m) (hpost1 m) (reg2 m) (hpre2 m) (hpost2 m) (reg3 m) (hpre3 m) (hpost3 m) (reg4 m) (hpre4 m) (hpost4 m) (reg5 m) (hpre5 m) (hpost5 m) (reg6 m) (hpre6 m) (hpost6 m) (reg7 m) (hpre7 m) (hpost7 m) (reg8 m) (hpre8 m) (hpost8 m))
  have hc := h c
  rw [V25_eq] at hc
  exact hc

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => (h c).2.2) (run_main m ρ)

end Cert.Kernel.Hand

end
-- ==== Proof.KI.RunCond.lean ====
/-
  The conditional run of the program with its RESULTS named. @main is twenty-five items: host stretches and nine kernel
  regions. Between two items a core holds every unscoped buffer whole at a valuation (the launch memory, then each host
  stretch folded over it, then what a region leaves at the unknowns outs). Given, per region, a segment record entered
  from the valuation before it and left at the one after it, every weakly fair execution of @main terminates, each
  argument array ends as launched, and the two result arrays end at what the LAST valuation holds for them: the node
  features after the third layer and the concatenated per-graph sums. The statement and proof are those of the conditional
  frame with two more buffers read back at the end.
-/
import proofs.«157524_j37503654429443_1_alg».proof.Proof.Gen.KernelIdeal.Regions

set_option maxRecDepth 1676

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

variable (m : (ℓ : Loc nD τ sig) → Buf (Elt F) ℓ) (outs : Outs (F := F))

-- the regions theorem's implicit arguments are found by unifying its conclusion with this one, which takes unfolding
-- plain definitions in a metavariable's type
set_option backward.isDefEq.respectTransparency.types false in
/-- Every weakly fair execution of @main from memory m terminates; the arguments end as launched and the two results at
    the last valuation's contents. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 9) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 10 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE9 : ∀ c : Dev nD, E 9 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V9 m outs c) ∗ E 3 c) ⊢ R3.pre c)
    (hpost3 : ∀ c : Dev nD, R3.post c ⊢ iprop(StableHlo.held (c : Thread nD τ) (Pipeline.ucRefs τ sig) (V10 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V11 m outs c) ∗ E 4 c) ⊢ R4.pre c)
    (hpost4 : ∀ c : Dev nD, R4.post c ⊢ iprop(StableHlo.held (c : Thread nD τ) (Pipeline.ucRefs τ sig) (V12 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V15 m outs c) ∗ E 5 c) ⊢ R5.pre c)
    (hpost5 : ∀ c : Dev nD, R5.post c ⊢ iprop(StableHlo.held (c : Thread nD τ) (Pipeline.ucRefs τ sig) (V16 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V17 m outs c) ∗ E 6 c) ⊢ R6.pre c)
    (hpost6 : ∀ c : Dev nD, R6.post c ⊢ iprop(StableHlo.held (c : Thread nD τ) (Pipeline.ucRefs τ sig) (V18 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V19 m outs c) ∗ E 7 c) ⊢ R7.pre c)
    (hpost7 : ∀ c : Dev nD, R7.post c ⊢ iprop(StableHlo.held (c : Thread nD τ) (Pipeline.ucRefs τ sig) (V20 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V23 m outs c) ∗ E 8 c) ⊢ R8.pre c)
    (hpost8 : ∀ c : Dev nD, R8.post c ⊢ iprop(StableHlo.held (c : Thread nD τ) (Pipeline.ucRefs τ sig) (V24 m outs c) ∗ E 9 c)) :
    θ_run defs (onTc (τ := τ) (main (F := F))) ⟨m, fun _ => 0, ρ⟩ (fun r => ∀ c : Dev nD,
      r.2.mem ((c.tc : Thread nD τ).loc main_v120) = V25 m outs c (Proc.devRef .tc main_v120)
      ∧ r.2.mem ((c.tc : Thread nD τ).loc main_v124) = V25 m outs c (Proc.devRef .tc main_v124)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8)
    (fun c Q => by
      rewrite [main_chain c, Seg.run_eq_chain,
        show (segs m outs 𝒱₀ L lv E ι pdats R0 R1 R2 R3 R4 R5 R6 R7 R8 c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          StableHlo.seq hostOps5_1,
          StableHlo.seq hostOps5_2,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          StableHlo.seq hostOps8_1,
          StableHlo.seq hostOps8_2,
          Prog.lift (.customCall (Pipeline.entry 8) ()),
          StableHlo.seq hostOps9 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V25 m outs c))
    (hch := fun c => ⟨.rfl, hpre0 c, hpost0 c, hpre1 c, hpost1 c, .rfl, .rfl, hpre2 c, hpost2 c, hpre3 c, hpost3 c, hpre4 c, hpost4 c, .rfl, .rfl, hpre5 c, hpost5 c, hpre6 c, hpost6 c, hpre7 c, hpost7 c, .rfl, .rfl, hpre8 c, hpost8 c, sep_mono .rfl (hE9 c)⟩)
    (hinit := ?_) (QY := fun c s => s.mem ((c.tc : Thread nD τ).loc main_v120) = V25 m outs c (Proc.devRef .tc main_v120) ∧ s.mem ((c.tc : Thread nD τ).loc main_v124) = V25 m outs c (Proc.devRef .tc main_v124) ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V25 m outs c) s') $$ [Hh HSI]
    · isplitl [Hh] <;> iassumption
    icases Hr with ⟨%h, HSI⟩
    imodintro
    isplitr
    · ipureintro
      exact ⟨h (Proc.devRef .tc main_v120) (Finset.mem_filter.mpr ⟨StableHlo.devRef_mem_tcRefs main_v120, by decide⟩),
        h (Proc.devRef .tc main_v124) (Finset.mem_filter.mpr ⟨StableHlo.devRef_mem_tcRefs main_v124, by decide⟩),
        (h (Proc.devRef .tc main_arg0) (Finset.mem_filter.mpr ⟨StableHlo.devRef_mem_tcRefs main_arg0, by decide⟩)).trans (V25_main_arg0 m outs c),
        (h (Proc.devRef .tc main_arg1) (Finset.mem_filter.mpr ⟨StableHlo.devRef_mem_tcRefs main_arg1, by decide⟩)).trans (V25_main_arg1 m outs c),
        (h (Proc.devRef .tc main_arg2) (Finset.mem_filter.mpr ⟨StableHlo.devRef_mem_tcRefs main_arg2, by decide⟩)).trans (V25_main_arg2 m outs c),
        (h (Proc.devRef .tc main_arg3) (Finset.mem_filter.mpr ⟨StableHlo.devRef_mem_tcRefs main_arg3, by decide⟩)).trans (V25_main_arg3 m outs c),
        (h (Proc.devRef .tc main_arg4) (Finset.mem_filter.mpr ⟨StableHlo.devRef_mem_tcRefs main_arg4, by decide⟩)).trans (V25_main_arg4 m outs c),
        (h (Proc.devRef .tc main_arg5) (Finset.mem_filter.mpr ⟨StableHlo.devRef_mem_tcRefs main_arg5, by decide⟩)).trans (V25_main_arg5 m outs c),
        (h (Proc.devRef .tc main_arg6) (Finset.mem_filter.mpr ⟨StableHlo.devRef_mem_tcRefs main_arg6, by decide⟩)).trans (V25_main_arg6 m outs c),
        (h (Proc.devRef .tc main_arg7) (Finset.mem_filter.mpr ⟨StableHlo.devRef_mem_tcRefs main_arg7, by decide⟩)).trans (V25_main_arg7 m outs c),
        (h (Proc.devRef .tc main_arg8) (Finset.mem_filter.mpr ⟨StableHlo.devRef_mem_tcRefs main_arg8, by decide⟩)).trans (V25_main_arg8 m outs c),
        (h (Proc.devRef .tc main_arg9) (Finset.mem_filter.mpr ⟨StableHlo.devRef_mem_tcRefs main_arg9, by decide⟩)).trans (V25_main_arg9 m outs c)⟩
    · iexact HSI

end Cert.KernelIdeal.Hand

end
-- ==== Proof.KI.RunInst.lean ====
/-
  The run of the program from its nine regions' records alone. The conditional run is instantiated at the library's own
  user algebra with no level assigned and nothing owed at launch; beside the unscoped buffers every item carries the same
  rest: the core's generator register at some state and the core owing nothing. What remains to be supplied is, per region,
  its segment record between the valuation it is entered from and the one it leaves.
-/
import proofs.«157524_j37503654429443_1_alg».proof.Proof.KI.RunCond
import Idealize.ShloMosaic.Lib.Pipeline.Kit
import Idealize.ShloMosaic.Lib.Pipeline.RegionsLoop

set_option maxRecDepth 1676

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ (UR sig nD τ) ℕ

/-- No variant, no level: no core owes another anything. -/
abbrev 𝒱₀ : Variants := Variants.none
abbrev L : GSem nD τ sig → Finset Unit := fun _ => ∅
abbrev lv : GSem nD τ sig → Unit → ℕ := fun _ _ => 0

/-- What rides beside the buffers through every item: the core's generator register at some state, and the core owing nothing. -/
abbrev R (c : Dev nD) : sProp 𝕄 := iprop((∃ r, prngReg c r) ∗ ∃ W, owes (c : Thread nD τ) (0 : CellTallies nD τ sig Unit) W)

variable (m : (ℓ : Loc nD τ sig) → Buf (Elt F) ℓ) (ρ : Dev nD → PrngReg)

set_option backward.isDefEq.respectTransparency.types false in
/-- Given the nine regions' records, @main runs to the end with the arguments as launched and the results at the last valuation. -/
theorem run_of_regions (outs : Outs (F := F))
    (pdats : (p : Fin 9) → (c : Dev nD) → Dat τ (Elt F) Unit ℕ (UR sig nD τ) ℕ (cfgs p) c)
    (R0 : RegionSeg (pcfgs (F := F)) adm pdats () defs₀ 𝒱₀ L lv 0)
    (hpre0 : ∀ c : Dev nD, iprop(StableHlo.held (c : Thread nD τ) (Pipeline.ucRefs τ sig) (V1 m c) ∗ R c) ⊢ R0.pre c)
    (hpost0 : ∀ c : Dev nD, R0.post c ⊢ iprop(StableHlo.held (c : Thread nD τ) (Pipeline.ucRefs τ sig) (V2 m outs c) ∗ R c))
    (R1 : RegionSeg (pcfgs (F := F)) adm pdats () defs₀ 𝒱₀ L lv 1)
    (hpre1 : ∀ c : Dev nD, iprop(StableHlo.held (c : Thread nD τ) (Pipeline.ucRefs τ sig) (V3 m outs c) ∗ R c) ⊢ R1.pre c)
    (hpost1 : ∀ c : Dev nD, R1.post c ⊢ iprop(StableHlo.held (c : Thread nD τ) (Pipeline.ucRefs τ sig) (V4 m outs c) ∗ R c))
    (R2 : RegionSeg (pcfgs (F := F)) adm pdats () defs₀ 𝒱₀ L lv 2)
    (hpre2 : ∀ c : Dev nD, iprop(StableHlo.held (c : Thread nD τ) (Pipeline.ucRefs τ sig) (V7 m outs c) ∗ R c) ⊢ R2.pre c)
    (hpost2 : ∀ c : Dev nD, R2.post c ⊢ iprop(StableHlo.held (c : Thread nD τ) (Pipeline.ucRefs τ sig) (V8 m outs c) ∗ R c))
    (R3 : RegionSeg (pcfgs (F := F)) adm pdats () defs₀ 𝒱₀ L lv 3)
    (hpre3 : ∀ c : Dev nD, iprop(StableHlo.held (c : Thread nD τ) (Pipeline.ucRefs τ sig) (V9 m outs c) ∗ R c) ⊢ R3.pre c)
    (hpost3 : ∀ c : Dev nD, R3.post c ⊢ iprop(StableHlo.held (c : Thread nD τ) (Pipeline.ucRefs τ sig) (V10 m outs c) ∗ R c))
    (R4 : RegionSeg (pcfgs (F := F)) adm pdats () defs₀ 𝒱₀ L lv 4)
    (hpre4 : ∀ c : Dev nD, iprop(StableHlo.held (c : Thread nD τ) (Pipeline.ucRefs τ sig) (V11 m outs c) ∗ R c) ⊢ R4.pre c)
    (hpost4 : ∀ c : Dev nD, R4.post c ⊢ iprop(StableHlo.held (c : Thread nD τ) (Pipeline.ucRefs τ sig) (V12 m outs c) ∗ R c))
    (R5 : RegionSeg (pcfgs (F := F)) adm pdats () defs₀ 𝒱₀ L lv 5)
    (hpre5 : ∀ c : Dev nD, iprop(StableHlo.held (c : Thread nD τ) (Pipeline.ucRefs τ sig) (V15 m outs c) ∗ R c) ⊢ R5.pre c)
    (hpost5 : ∀ c : Dev nD, R5.post c ⊢ iprop(StableHlo.held (c : Thread nD τ) (Pipeline.ucRefs τ sig) (V16 m outs c) ∗ R c))
    (R6 : RegionSeg (pcfgs (F := F)) adm pdats () defs₀ 𝒱₀ L lv 6)
    (hpre6 : ∀ c : Dev nD, iprop(StableHlo.held (c : Thread nD τ) (Pipeline.ucRefs τ sig) (V17 m outs c) ∗ R c) ⊢ R6.pre c)
    (hpost6 : ∀ c : Dev nD, R6.post c ⊢ iprop(StableHlo.held (c : Thread nD τ) (Pipeline.ucRefs τ sig) (V18 m outs c) ∗ R c))
    (R7 : RegionSeg (pcfgs (F := F)) adm pdats () defs₀ 𝒱₀ L lv 7)
    (hpre7 : ∀ c : Dev nD, iprop(StableHlo.held (c : Thread nD τ) (Pipeline.ucRefs τ sig) (V19 m outs c) ∗ R c) ⊢ R7.pre c)
    (hpost7 : ∀ c : Dev nD, R7.post c ⊢ iprop(StableHlo.held (c : Thread nD τ) (Pipeline.ucRefs τ sig) (V20 m outs c) ∗ R c))
    (R8 : RegionSeg (pcfgs (F := F)) adm pdats () defs₀ 𝒱₀ L lv 8)
    (hpre8 : ∀ c : Dev nD, iprop(StableHlo.held (c : Thread nD τ) (Pipeline.ucRefs τ sig) (V23 m outs c) ∗ R c) ⊢ R8.pre c)
    (hpost8 : ∀ c : Dev nD, R8.post c ⊢ iprop(StableHlo.held (c : Thread nD τ) (Pipeline.ucRefs τ sig) (V24 m outs c) ∗ R c)) :
    θ_run defs (onTc (τ := τ) (main (F := F))) ⟨m, fun _ => 0, ρ⟩ (fun r => ∀ c : Dev nD,
      r.2.mem ((c.tc : Thread nD τ).loc main_v120) = V25 m outs c (Proc.devRef .tc main_v120)
      ∧ r.2.mem ((c.tc : Thread nD τ).loc main_v124) = V25 m outs c (Proc.devRef .tc main_v124)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  run_cond (F := F) m emb₁ () 𝒱₀ L lv (fun _ _ => rfl) ρ outs pdats 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    R0 hpre0 hpost0 R1 hpre1 hpost1 R2 hpre2 hpost2 R3 hpre3 hpost3 R4 hpre4 hpost4 R5 hpre5 hpost5 R6 hpre6 hpost6 R7 hpre7 hpost7 R8 hpre8 hpost8

end Cert.KernelIdeal.Hand

end
-- ==== Proof.KI.Edge0.lean ====
/- The frame half of region 0 of @main: the pallas_call `cc0__edge_add_relu_kernel` (grid 80; every window a
   2000x512 block of a [160000,512] array; windows 0, 1 the two inputs, window 2 the output), at a PARAMETER `V`, the
   TensorCore's buffer contents when the region is entered. Stated for every float interpretation `F`:
   each window's block at a point, what the body leaves in the output's staging buffer, the body's triple, the
   pipeline's proof data and its body obligation. -/
import proofs.«157524_j37503654429443_1_alg».proof.Proof.Gen.KernelIdeal.Launch
import proofs.«157524_j37503654429443_1_alg».proof.Proof.Gen.KernelIdeal.Skeleton
import proofs.«157524_j37503654429443_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000x512 extents recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    `V`'s and whose body leaves the block in place: the window is fetched at every point, uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The one rectangle the body reads and writes: the whole 2000x512 block. -/
abbrev r0_0 : Rect S2000x512 := Rect.unit (s := S2000x512) ![0, 0] S2000x512.size inb_S2000x512_S2000x512_0_0

/-! ## What the body leaves in the output window's buffer -/

/-- Window 2's staging buffer after the body, from the two input blocks: its one store, of
    `max (x0 + x1) 0` elementwise (the payload `k0_pay1`), over the whole block. -/
def out0_2 (x0 x1 : Vec F S2000x512 .f32) : Vec F S2000x512 .f32 :=
  View.canon [⟨r0_0, k0_pay1 (View.ld x0 r0_0) (View.ld x1 r0_0)⟩]

/-- The store tiles the buffer, so it covers it. -/
theorem cover0_2 (p0 : Vec F S2000x512 .f32) (y : S2000x512.Idx) :
    ∃ pc ∈ ([⟨r0_0, p0⟩] : List (View.Piece (Elt F) S2000x512 .f32)), y ∈ pc.1.set :=
  View.cover_of_tiled [⟨r0_0, p0⟩] S2000x512.size (by rfl) y

/-! ## The body's triple -/

set_option maxHeartbeats 1000000 in
/-- The kernel body on whole staging memrefs, the inputs' at read contents `x0`, `x1` and the output's at anything, runs
    to the continuation holding the inputs' as they were and the output's at `out0_2 x0 x1`: two loads of the inputs, a
    load of the output whose value is not used, and the one store. -/
theorem sound_kernel0 (c : Dev nD) (E : Set ℕ) (i : grid0.Coords)
    (arg1 : Memref sig .tc .vmem S2000x512 .f32) (harg1 : arg1.IsWhole) (arg2 : Memref sig .tc .vmem S2000x512 .f32) (harg2 : arg2.IsWhole)
    (arg3 : Memref sig .tc .vmem S2000x512 .f32) (harg3 : arg3.IsWhole)
    (x0 x1 : Vec F S2000x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__edge_add_relu_kernel i arg1 harg1 arg2 harg2 arg3 harg3) K := by
  simp only [cc0__edge_add_relu_kernel_eq_skeleton]; unfold cc0__edge_add_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the pipeline on core `c`: the arrays as the region finds them (`V`); after the body at point `t`
    each input's buffer at its block and the output's at `out0_2` of the input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand
-- ==== Proof.KI.Mlp1_1.lean ====
/- The frame half of region 1 of @main: the pipelined call of `cc1__mlp1_kernel`, at any float model `F`.
   At a parameter `V` (the core's buffer contents when the region is entered): each window's block at a grid
   point, what the body leaves in the output window's staging buffer as a function of the four input blocks,
   the body's triple, the pipeline's proof data and its body obligation. -/
import proofs.«157524_j37503654429443_1_alg».proof.Proof.Gen.KernelIdeal.Launch
import proofs.«157524_j37503654429443_1_alg».proof.Proof.Gen.KernelIdeal.Skeleton
import proofs.«157524_j37503654429443_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether or not the window is
    fetched there: where it is not fetched its block index has not moved, and the body left the block in place.
    Windows 0 and 1 (the row blocks of the two summands) are fetched at every point; windows 2 and 3 (the weight
    matrix and the bias row, at a constant index) only at the first. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each staging buffer whole -/

abbrev r1_x : Rect S2000x512 := Rect.unit (s := S2000x512) ![0, 0] S2000x512.size inb_S2000x512_S2000x512_0_0
abbrev r1_w : Rect S512x512 := Rect.unit (s := S512x512) ![0, 0] S512x512.size inb_S512x512_S512x512_0_0
abbrev r1_b : Rect S1x512 := Rect.unit (s := S1x512) ![0, 0] S1x512.size inb_S1x512_S1x512_0_0

/-! ## What the body leaves in the output window's buffer -/

/-- Window 4's staging buffer after the body, from the input windows' blocks: its one store, of the
    payload (the product of the rounded sum of the two row blocks with the rounded weight matrix, plus the bias
    row at every row). -/
def out1_4 (x0 x1 : Vec F S2000x512 .f32) (x2 : Vec F S512x512 .f32) (x3 : Vec F S1x512 .f32) : Vec F S2000x512 .f32 :=
  View.canon [⟨r1_x, k1_pay1 (View.ld x0 r1_x) (View.ld x1 r1_x) (View.ld x2 r1_w) (View.ld x3 r1_b)⟩]

/-- The one store is of the whole buffer, so it covers it. -/
theorem cover1_4 (p0 : Vec F S2000x512 .f32) (y : S2000x512.Idx) :
    ∃ pc ∈ ([⟨r1_x, p0⟩] : List (View.Piece (Elt F) S2000x512 .f32)), y ∈ pc.1.set :=
  View.cover_of_tiled [⟨r1_x, p0⟩] S2000x512.size (by rfl) y

/-! ## The body's triple -/

set_option maxHeartbeats 1000000 in
/-- The kernel body on whole staging memrefs, the four inputs' at read contents `x0 … x3` and the output's at
    anything, runs to the continuation holding the inputs' as they were and the output's at `out1_4` of the
    inputs'. The body also reads the output buffer before its store; that value is not used. -/
theorem sound_kernel1 (c : Dev nD) (E : Set ℕ) (i : grid1.Coords)
    (arg1 : Memref sig .tc .vmem S2000x512 .f32) (harg1 : arg1.IsWhole) (arg2 : Memref sig .tc .vmem S2000x512 .f32) (harg2 : arg2.IsWhole)
    (arg3 : Memref sig .tc .vmem S512x512 .f32) (harg3 : arg3.IsWhole) (arg4 : Memref sig .tc .vmem S1x512 .f32) (harg4 : arg4.IsWhole)
    (arg5 : Memref sig .tc .vmem S2000x512 .f32) (harg5 : arg5.IsWhole)
    (x0 x1 : Vec F S2000x512 .f32) (x2 : Vec F S512x512 .f32) (x3 : Vec F S1x512 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E (cc1__mlp1_kernel i arg1 harg1 arg2 harg2 arg3 harg3 arg4 harg4 arg5 harg5) K := by
  simp only [cc1__mlp1_kernel_eq_skeleton]; unfold cc1__mlp1_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of the pipeline on core `c`: the arrays as the region finds them; after the body at point
    `t` each input's buffer at its block and the output's at `out1_4` of the input blocks; the invariant
    "the scoped rest and the generator register, untouched"; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant
    and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Mlp2_2.lean ====
/- The frame half of region 2 of @main: the pipelined call of the second dense layer of a graph-network block,
   on a grid of 10 points. Window 0 is a 2000x512 block of the node features; windows 1..6 are whole small arrays
   read at a constant index (a row of means, a row of variances, a row of scales, a row of shifts, a 512x512 weight,
   a row of biases); window 7 is the 2000x512 output block. At a parameter `V`, the contents of the core's buffers
   when the region is entered, this file states each window's block at a point, what the body leaves in the output
   buffer as a function of the input blocks, the body's triple, and the pipeline's proof data with its body
   obligation. Everything is generic in the float interpretation `F`. -/
import proofs.«157524_j37503654429443_1_alg».proof.Proof.Gen.KernelIdeal.Launch
import proofs.«157524_j37503654429443_1_alg».proof.Proof.Gen.KernelIdeal.Skeleton
import proofs.«157524_j37503654429443_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of extent 2000 is decided by structural recursion on the coordinate
set_option maxRecDepth 16384

noncomputable section

open Cert.KernelIdeal Cert.KernelIdeal.Gen

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether the pipeline fetched it there or
    not (an unfetched window's block index has not moved), for any proof data whose array is `V`'s and whose body
    leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether the pipeline fetched it there or
    not (an unfetched window's block index has not moved), for any proof data whose array is `V`'s and whose body
    leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether the pipeline fetched it there or
    not (an unfetched window's block index has not moved), for any proof data whose array is `V`'s and whose body
    leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, whether the pipeline fetched it there or
    not (an unfetched window's block index has not moved), for any proof data whose array is `V`'s and whose body
    leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, whether the pipeline fetched it there or
    not (an unfetched window's block index has not moved), for any proof data whose array is `V`'s and whose body
    leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, whether the pipeline fetched it there or
    not (an unfetched window's block index has not moved), for any proof data whose array is `V`'s and whose body
    leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, whether the pipeline fetched it there or
    not (an unfetched window's block index has not moved), for any proof data whose array is `V`'s and whose body
    leaves the block in place. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer is read and written whole -/

abbrev r2_a : Rect S2000x512 := Rect.unit (s := S2000x512) ![0, 0] S2000x512.size inb_S2000x512_S2000x512_0_0
abbrev r2_b : Rect S1x512 := Rect.unit (s := S1x512) ![0, 0] S1x512.size inb_S1x512_S1x512_0_0
abbrev r2_c : Rect S512x512 := Rect.unit (s := S512x512) ![0, 0] S512x512.size inb_S512x512_S512x512_0_0

/-! ## What the body leaves in the output window's buffer -/

/-- Window 7's staging buffer after the body, from the input windows' blocks `x0 .. x6` (in window order): one store of
    the whole block, whose value is the layer's arithmetic on the blocks. The arithmetic takes the row of variances
    (window 2) before the row of means (window 1). -/
def out2_7 (x0 : Vec F S2000x512 .f32) (x1 x2 x3 x4 : Vec F S1x512 .f32) (x5 : Vec F S512x512 .f32) (x6 : Vec F S1x512 .f32) : Vec F S2000x512 .f32 :=
  View.canon [⟨r2_a, k2_pay1 (View.ld x0 r2_a) (View.ld x2 r2_b) (View.ld x1 r2_b) (View.ld x3 r2_b) (View.ld x4 r2_b) (View.ld x5 r2_c) (View.ld x6 r2_b)⟩]

/-- The one store is of the whole buffer, so it covers it. -/
theorem cover2_7 (p0 : Vec F S2000x512 .f32) (y : S2000x512.Idx) :
    ∃ pc ∈ ([⟨r2_a, p0⟩] : List (View.Piece (Elt F) S2000x512 .f32)), y ∈ pc.1.set :=
  View.cover_of_tiled [⟨r2_a, p0⟩] S2000x512.size (by rfl) y

/-! ## The body's triple -/

set_option maxHeartbeats 4000000 in
/-- The kernel body on whole staging memrefs, the inputs' at read contents `x0 .. x6` and the output's at anything, runs
    to the continuation holding the inputs' as they were and the output's at `out2_7` of the inputs'. The body also
    reads the output buffer before it stores to it; the value read is not used. -/
theorem sound_kernel2 (c : Dev nD) (E : Set ℕ) (i : grid2.Coords)
    (arg1 : Memref sig .tc .vmem S2000x512 .f32) (harg1 : arg1.IsWhole) (arg2 : Memref sig .tc .vmem S1x512 .f32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1x512 .f32) (harg5 : arg5.IsWhole) (arg6 : Memref sig .tc .vmem S512x512 .f32) (harg6 : arg6.IsWhole)
    (arg7 : Memref sig .tc .vmem S1x512 .f32) (harg7 : arg7.IsWhole) (arg8 : Memref sig .tc .vmem S2000x512 .f32) (harg8 : arg8.IsWhole)
    (x0 : Vec F S2000x512 .f32) (x1 x2 x3 x4 : Vec F S1x512 .f32) (x5 : Vec F S512x512 .f32) (x6 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out2_7 x0 x1 x2 x3 x4 x5 x6)) -∗ K ⟨⟩))
      ⊢ wp frame (wpE (defs₀ (F := F)) Variants.none c none) E (cc2__mlp2_kernel i arg1 harg1 arg2 harg2 arg3 harg3 arg4 harg4 arg5 harg5 arg6 harg6 arg7 harg7 arg8 harg8) K := by
  simp only [cc2__mlp2_kernel_eq_skeleton]; unfold cc2__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The pipeline's proof data -/

/-- The proof data of this pipeline on core `c`: the arrays as the region finds them; after the body at point `t` each
    input's buffer at its block and the output's at `out2_7` of the input blocks; the invariant that of a pipeline
    whose body touches nothing but its windows; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t =
    out2_7 (iblk2 V c 0 t) (iblk2 V c 1 t) (iblk2 V c 2 t) (iblk2 V c 3 t) (iblk2 V c 4 t) (iblk2 V c 5 t) (iblk2 V c 6 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 2000000 in
/-- The body at any point: the inputs' memrefs hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the pipeline, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand
-- ==== Proof.KI.Edge3.lean ====
/- The frame half of region 3 of @main: the pallas_call `cc3__edge_add_relu_kernel` (grid 80; every window a
   2000x512 block of a [160000,512] array; windows 0, 1 the two inputs, window 2 the output), at a PARAMETER `V`, the
   TensorCore's buffer contents when the region is entered. Stated for every float interpretation `F`:
   each window's block at a point, what the body leaves in the output's staging buffer, the body's triple, the
   pipeline's proof data and its body obligation. -/
import proofs.«157524_j37503654429443_1_alg».proof.Proof.Gen.KernelIdeal.Launch
import proofs.«157524_j37503654429443_1_alg».proof.Proof.Gen.KernelIdeal.Skeleton
import proofs.«157524_j37503654429443_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000x512 extents recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, for any proof data whose array is
    `V`'s and whose body leaves the block in place: the window is fetched at every point, uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The same for input window 1. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The one rectangle the body reads and writes: the whole 2000x512 block. -/
abbrev r3_0 : Rect S2000x512 := Rect.unit (s := S2000x512) ![0, 0] S2000x512.size inb_S2000x512_S2000x512_0_0

/-! ## What the body leaves in the output window's buffer -/

/-- Window 2's staging buffer after the body, from the two input blocks: its one store, of
    `max (x0 + x1) 0` elementwise (the payload `k3_pay1`), over the whole block. -/
def out3_2 (x0 x1 : Vec F S2000x512 .f32) : Vec F S2000x512 .f32 :=
  View.canon [⟨r3_0, k3_pay1 (View.ld x0 r3_0) (View.ld x1 r3_0)⟩]

/-- The store tiles the buffer, so it covers it. -/
theorem cover3_2 (p0 : Vec F S2000x512 .f32) (y : S2000x512.Idx) :
    ∃ pc ∈ ([⟨r3_0, p0⟩] : List (View.Piece (Elt F) S2000x512 .f32)), y ∈ pc.1.set :=
  View.cover_of_tiled [⟨r3_0, p0⟩] S2000x512.size (by rfl) y

/-! ## The body's triple -/

set_option maxHeartbeats 1000000 in
/-- The kernel body on whole staging memrefs, the inputs' at read contents `x0`, `x1` and the output's at anything, runs
    to the continuation holding the inputs' as they were and the output's at `out3_2 x0 x1`: two loads of the inputs, a
    load of the output whose value is not used, and the one store. -/
theorem sound_kernel3 (c : Dev nD) (E : Set ℕ) (i : grid3.Coords)
    (arg1 : Memref sig .tc .vmem S2000x512 .f32) (harg1 : arg1.IsWhole) (arg2 : Memref sig .tc .vmem S2000x512 .f32) (harg2 : arg2.IsWhole)
    (arg3 : Memref sig .tc .vmem S2000x512 .f32) (harg3 : arg3.IsWhole)
    (x0 x1 : Vec F S2000x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__edge_add_relu_kernel i arg1 harg1 arg2 harg2 arg3 harg3) K := by
  simp only [cc3__edge_add_relu_kernel_eq_skeleton]; unfold cc3__edge_add_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of the pipeline on core `c`: the arrays as the region finds them (`V`); after the body at point `t`
    each input's buffer at its block and the output's at `out3_2` of the input blocks; the invariant the scoped rest and
    the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so `sound_kernel3` applies; the invariant and the
    core's obligations pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand
-- ==== Proof.KI.Mlp1_4.lean ====
/- The frame half of region 4 of @main: the pipelined call of `cc4__mlp1_kernel`, at any float model `F`.
   At a parameter `V` (the core's buffer contents when the region is entered): each window's block at a grid
   point, what the body leaves in the output window's staging buffer as a function of the four input blocks,
   the body's triple, the pipeline's proof data and its body obligation. -/
import proofs.«157524_j37503654429443_1_alg».proof.Proof.Gen.KernelIdeal.Launch
import proofs.«157524_j37503654429443_1_alg».proof.Proof.Gen.KernelIdeal.Skeleton
import proofs.«157524_j37503654429443_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, whether or not the window is
    fetched there: where it is not fetched its block index has not moved, and the body left the block in place.
    Windows 0 and 1 (the row blocks of the two summands) are fetched at every point; windows 2 and 3 (the weight
    matrix and the bias row, at a constant index) only at the first. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each staging buffer whole -/

abbrev r4_x : Rect S2000x512 := Rect.unit (s := S2000x512) ![0, 0] S2000x512.size inb_S2000x512_S2000x512_0_0
abbrev r4_w : Rect S512x512 := Rect.unit (s := S512x512) ![0, 0] S512x512.size inb_S512x512_S512x512_0_0
abbrev r4_b : Rect S1x512 := Rect.unit (s := S1x512) ![0, 0] S1x512.size inb_S1x512_S1x512_0_0

/-! ## What the body leaves in the output window's buffer -/

/-- Window 4's staging buffer after the body, from the input windows' blocks: its one store, of the
    payload (the product of the rounded sum of the two row blocks with the rounded weight matrix, plus the bias
    row at every row). -/
def out4_4 (x0 x1 : Vec F S2000x512 .f32) (x2 : Vec F S512x512 .f32) (x3 : Vec F S1x512 .f32) : Vec F S2000x512 .f32 :=
  View.canon [⟨r4_x, k4_pay1 (View.ld x0 r4_x) (View.ld x1 r4_x) (View.ld x2 r4_w) (View.ld x3 r4_b)⟩]

/-- The one store is of the whole buffer, so it covers it. -/
theorem cover4_4 (p0 : Vec F S2000x512 .f32) (y : S2000x512.Idx) :
    ∃ pc ∈ ([⟨r4_x, p0⟩] : List (View.Piece (Elt F) S2000x512 .f32)), y ∈ pc.1.set :=
  View.cover_of_tiled [⟨r4_x, p0⟩] S2000x512.size (by rfl) y

/-! ## The body's triple -/

set_option maxHeartbeats 1000000 in
/-- The kernel body on whole staging memrefs, the four inputs' at read contents `x0 … x3` and the output's at
    anything, runs to the continuation holding the inputs' as they were and the output's at `out4_4` of the
    inputs'. The body also reads the output buffer before its store; that value is not used. -/
theorem sound_kernel4 (c : Dev nD) (E : Set ℕ) (i : grid4.Coords)
    (arg1 : Memref sig .tc .vmem S2000x512 .f32) (harg1 : arg1.IsWhole) (arg2 : Memref sig .tc .vmem S2000x512 .f32) (harg2 : arg2.IsWhole)
    (arg3 : Memref sig .tc .vmem S512x512 .f32) (harg3 : arg3.IsWhole) (arg4 : Memref sig .tc .vmem S1x512 .f32) (harg4 : arg4.IsWhole)
    (arg5 : Memref sig .tc .vmem S2000x512 .f32) (harg5 : arg5.IsWhole)
    (x0 x1 : Vec F S2000x512 .f32) (x2 : Vec F S512x512 .f32) (x3 : Vec F S1x512 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out4_4 x0 x1 x2 x3)) -∗ K ⟨⟩))
      ⊢ wp frame (wpE (defs₀ (F := F)) Variants.none c none) E (cc4__mlp1_kernel i arg1 harg1 arg2 harg2 arg3 harg3 arg4 harg4 arg5 harg5) K := by
  simp only [cc4__mlp1_kernel_eq_skeleton]; unfold cc4__mlp1_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-! ## The pipeline's proof data -/

/-- The proof data of the pipeline on core `c`: the arrays as the region finds them; after the body at point
    `t` each input's buffer at its block and the output's at `out4_4` of the input blocks; the invariant
    "the scoped rest and the generator register, untouched"; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = out4_4 (iblk4 V c 0 t) (iblk4 V c 1 t) (iblk4 V c 2 t) (iblk4 V c 3 t) := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' memrefs hold their blocks, so the body's triple applies; the invariant
    and what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Mlp2_5.lean ====
/- The frame half of region 5 of @main: the pipelined call of the second dense layer of a graph-network block,
   on a grid of 10 points. Window 0 is a 2000x512 block of the node features; windows 1..6 are whole small arrays
   read at a constant index (a row of means, a row of variances, a row of scales, a row of shifts, a 512x512 weight,
   a row of biases); window 7 is the 2000x512 output block. At a parameter `V`, the contents of the core's buffers
   when the region is entered, this file states each window's block at a point, what the body leaves in the output
   buffer as a function of the input blocks, the body's triple, and the pipeline's proof data with its body
   obligation. Everything is generic in the float interpretation `F`. -/
import proofs.«157524_j37503654429443_1_alg».proof.Proof.Gen.KernelIdeal.Launch
import proofs.«157524_j37503654429443_1_alg».proof.Proof.Gen.KernelIdeal.Skeleton
import proofs.«157524_j37503654429443_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of extent 2000 is decided by structural recursion on the coordinate
set_option maxRecDepth 16384

noncomputable section

open Cert.KernelIdeal Cert.KernelIdeal.Gen

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, whether the pipeline fetched it there or
    not (an unfetched window's block index has not moved), for any proof data whose array is `V`'s and whose body
    leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, whether the pipeline fetched it there or
    not (an unfetched window's block index has not moved), for any proof data whose array is `V`'s and whose body
    leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, whether the pipeline fetched it there or
    not (an unfetched window's block index has not moved), for any proof data whose array is `V`'s and whose body
    leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, whether the pipeline fetched it there or
    not (an unfetched window's block index has not moved), for any proof data whose array is `V`'s and whose body
    leaves the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, whether the pipeline fetched it there or
    not (an unfetched window's block index has not moved), for any proof data whose array is `V`'s and whose body
    leaves the block in place. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, whether the pipeline fetched it there or
    not (an unfetched window's block index has not moved), for any proof data whose array is `V`'s and whose body
    leaves the block in place. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- Input window 6's current staging buffer holds its block at every point, whether the pipeline fetched it there or
    not (an unfetched window's block index has not moved), for any proof data whose array is `V`'s and whose body
    leaves the block in place. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer is read and written whole -/

abbrev r5_a : Rect S2000x512 := Rect.unit (s := S2000x512) ![0, 0] S2000x512.size inb_S2000x512_S2000x512_0_0
abbrev r5_b : Rect S1x512 := Rect.unit (s := S1x512) ![0, 0] S1x512.size inb_S1x512_S1x512_0_0
abbrev r5_c : Rect S512x512 := Rect.unit (s := S512x512) ![0, 0] S512x512.size inb_S512x512_S512x512_0_0

/-! ## What the body leaves in the output window's buffer -/

/-- Window 7's staging buffer after the body, from the input windows' blocks `x0 .. x6` (in window order): one store of
    the whole block, whose value is the layer's arithmetic on the blocks. The arithmetic takes the row of variances
    (window 2) before the row of means (window 1). -/
def out5_7 (x0 : Vec F S2000x512 .f32) (x1 x2 x3 x4 : Vec F S1x512 .f32) (x5 : Vec F S512x512 .f32) (x6 : Vec F S1x512 .f32) : Vec F S2000x512 .f32 :=
  View.canon [⟨r5_a, k5_pay1 (View.ld x0 r5_a) (View.ld x2 r5_b) (View.ld x1 r5_b) (View.ld x3 r5_b) (View.ld x4 r5_b) (View.ld x5 r5_c) (View.ld x6 r5_b)⟩]

/-- The one store is of the whole buffer, so it covers it. -/
theorem cover5_7 (p0 : Vec F S2000x512 .f32) (y : S2000x512.Idx) :
    ∃ pc ∈ ([⟨r5_a, p0⟩] : List (View.Piece (Elt F) S2000x512 .f32)), y ∈ pc.1.set :=
  View.cover_of_tiled [⟨r5_a, p0⟩] S2000x512.size (by rfl) y

/-! ## The body's triple -/

set_option maxHeartbeats 4000000 in
/-- The kernel body on whole staging memrefs, the inputs' at read contents `x0 .. x6` and the output's at anything, runs
    to the continuation holding the inputs' as they were and the output's at `out5_7` of the inputs'. The body also
    reads the output buffer before it stores to it; the value read is not used. -/
theorem sound_kernel5 (c : Dev nD) (E : Set ℕ) (i : grid5.Coords)
    (arg1 : Memref sig .tc .vmem S2000x512 .f32) (harg1 : arg1.IsWhole) (arg2 : Memref sig .tc .vmem S1x512 .f32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1x512 .f32) (harg5 : arg5.IsWhole) (arg6 : Memref sig .tc .vmem S512x512 .f32) (harg6 : arg6.IsWhole)
    (arg7 : Memref sig .tc .vmem S1x512 .f32) (harg7 : arg7.IsWhole) (arg8 : Memref sig .tc .vmem S2000x512 .f32) (harg8 : arg8.IsWhole)
    (x0 : Vec F S2000x512 .f32) (x1 x2 x3 x4 : Vec F S1x512 .f32) (x5 : Vec F S512x512 .f32) (x6 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out5_7 x0 x1 x2 x3 x4 x5 x6)) -∗ K ⟨⟩))
      ⊢ wp frame (wpE (defs₀ (F := F)) Variants.none c none) E (cc5__mlp2_kernel i arg1 harg1 arg2 harg2 arg3 harg3 arg4 harg4 arg5 harg5 arg6 harg6 arg7 harg7 arg8 harg8) K := by
  simp only [cc5__mlp2_kernel_eq_skeleton]; unfold cc5__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover5_7 _)

/-! ## The pipeline's proof data -/

/-- The proof data of this pipeline on core `c`: the arrays as the region finds them; after the body at point `t` each
    input's buffer at its block and the output's at `out5_7` of the input blocks; the invariant that of a pipeline
    whose body touches nothing but its windows; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t =
    out5_7 (iblk5 V c 0 t) (iblk5 V c 1 t) (iblk5 V c 2 t) (iblk5 V c 3 t) (iblk5 V c 4 t) (iblk5 V c 5 t) (iblk5 V c 6 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

set_option maxHeartbeats 2000000 in
/-- The body at any point: the inputs' memrefs hold their blocks, so the body's triple applies; the invariant and what
    the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel5 c Set.univ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the pipeline, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand
-- ==== Proof.KI.Edge6.lean ====
/- The frame half of region 6 of @main: the pallas_call `cc6__edge_add_relu_kernel` (grid 80; every window a
   2000x512 block of a [160000,512] array; windows 0, 1 the two inputs, window 2 the output), at a PARAMETER `V`, the
   TensorCore's buffer contents when the region is entered. Stated for every float interpretation `F`:
   each window's block at a point, what the body leaves in the output's staging buffer, the body's triple, the
   pipeline's proof data and its body obligation. -/
import proofs.«157524_j37503654429443_1_alg».proof.Proof.Gen.KernelIdeal.Launch
import proofs.«157524_j37503654429443_1_alg».proof.Proof.Gen.KernelIdeal.Skeleton
import proofs.«157524_j37503654429443_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000x512 extents recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, for any proof data whose array is
    `V`'s and whose body leaves the block in place: the window is fetched at every point, uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The same for input window 1. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

/-- The one rectangle the body reads and writes: the whole 2000x512 block. -/
abbrev r6_0 : Rect S2000x512 := Rect.unit (s := S2000x512) ![0, 0] S2000x512.size inb_S2000x512_S2000x512_0_0

/-! ## What the body leaves in the output window's buffer -/

/-- Window 2's staging buffer after the body, from the two input blocks: its one store, of
    `max (x0 + x1) 0` elementwise (the payload `k6_pay1`), over the whole block. -/
def out6_2 (x0 x1 : Vec F S2000x512 .f32) : Vec F S2000x512 .f32 :=
  View.canon [⟨r6_0, k6_pay1 (View.ld x0 r6_0) (View.ld x1 r6_0)⟩]

/-- The store tiles the buffer, so it covers it. -/
theorem cover6_2 (p0 : Vec F S2000x512 .f32) (y : S2000x512.Idx) :
    ∃ pc ∈ ([⟨r6_0, p0⟩] : List (View.Piece (Elt F) S2000x512 .f32)), y ∈ pc.1.set :=
  View.cover_of_tiled [⟨r6_0, p0⟩] S2000x512.size (by rfl) y

/-! ## The body's triple -/

set_option maxHeartbeats 1000000 in
/-- The kernel body on whole staging memrefs, the inputs' at read contents `x0`, `x1` and the output's at anything, runs
    to the continuation holding the inputs' as they were and the output's at `out6_2 x0 x1`: two loads of the inputs, a
    load of the output whose value is not used, and the one store. -/
theorem sound_kernel6 (c : Dev nD) (E : Set ℕ) (i : grid6.Coords)
    (arg1 : Memref sig .tc .vmem S2000x512 .f32) (harg1 : arg1.IsWhole) (arg2 : Memref sig .tc .vmem S2000x512 .f32) (harg2 : arg2.IsWhole)
    (arg3 : Memref sig .tc .vmem S2000x512 .f32) (harg3 : arg3.IsWhole)
    (x0 x1 : Vec F S2000x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out6_2 x0 x1)) -∗ K ⟨⟩))
      ⊢ wp frame (wpE (defs₀ (F := F)) Variants.none c none) E (cc6__edge_add_relu_kernel i arg1 harg1 arg2 harg2 arg3 harg3) K := by
  simp only [cc6__edge_add_relu_kernel_eq_skeleton]; unfold cc6__edge_add_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The pipeline's proof data -/

/-- The proof data of the pipeline on core `c`: the arrays as the region finds them (`V`); after the body at point `t`
    each input's buffer at its block and the output's at `out6_2` of the input blocks; the invariant the scoped rest and
    the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' memrefs hold their blocks, so `sound_kernel6` applies; the invariant and the
    core's obligations pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand
-- ==== Proof.KI.Mlp1_7.lean ====
/- The frame half of region 7 of @main: the pipelined call of `cc7__mlp1_kernel`, at any float model `F`.
   At a parameter `V` (the core's buffer contents when the region is entered): each window's block at a grid
   point, what the body leaves in the output window's staging buffer as a function of the four input blocks,
   the body's triple, the pipeline's proof data and its body obligation. -/
import proofs.«157524_j37503654429443_1_alg».proof.Proof.Gen.KernelIdeal.Launch
import proofs.«157524_j37503654429443_1_alg».proof.Proof.Gen.KernelIdeal.Skeleton
import proofs.«157524_j37503654429443_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at grid point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current staging buffer holds its block at every point, whether or not the window is
    fetched there: where it is not fetched its block index has not moved, and the body left the block in place.
    Windows 0 and 1 (the row blocks of the two summands) are fetched at every point; windows 2 and 3 (the weight
    matrix and the bias row, at a constant index) only at the first. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: each staging buffer whole -/

abbrev r7_x : Rect S2000x512 := Rect.unit (s := S2000x512) ![0, 0] S2000x512.size inb_S2000x512_S2000x512_0_0
abbrev r7_w : Rect S512x512 := Rect.unit (s := S512x512) ![0, 0] S512x512.size inb_S512x512_S512x512_0_0
abbrev r7_b : Rect S1x512 := Rect.unit (s := S1x512) ![0, 0] S1x512.size inb_S1x512_S1x512_0_0

/-! ## What the body leaves in the output window's buffer -/

/-- Window 4's staging buffer after the body, from the input windows' blocks: its one store, of the
    payload (the product of the rounded sum of the two row blocks with the rounded weight matrix, plus the bias
    row at every row). -/
def out7_4 (x0 x1 : Vec F S2000x512 .f32) (x2 : Vec F S512x512 .f32) (x3 : Vec F S1x512 .f32) : Vec F S2000x512 .f32 :=
  View.canon [⟨r7_x, k7_pay1 (View.ld x0 r7_x) (View.ld x1 r7_x) (View.ld x2 r7_w) (View.ld x3 r7_b)⟩]

/-- The one store is of the whole buffer, so it covers it. -/
theorem cover7_4 (p0 : Vec F S2000x512 .f32) (y : S2000x512.Idx) :
    ∃ pc ∈ ([⟨r7_x, p0⟩] : List (View.Piece (Elt F) S2000x512 .f32)), y ∈ pc.1.set :=
  View.cover_of_tiled [⟨r7_x, p0⟩] S2000x512.size (by rfl) y

/-! ## The body's triple -/

set_option maxHeartbeats 1000000 in
/-- The kernel body on whole staging memrefs, the four inputs' at read contents `x0 … x3` and the output's at
    anything, runs to the continuation holding the inputs' as they were and the output's at `out7_4` of the
    inputs'. The body also reads the output buffer before its store; that value is not used. -/
theorem sound_kernel7 (c : Dev nD) (E : Set ℕ) (i : grid7.Coords)
    (arg1 : Memref sig .tc .vmem S2000x512 .f32) (harg1 : arg1.IsWhole) (arg2 : Memref sig .tc .vmem S2000x512 .f32) (harg2 : arg2.IsWhole)
    (arg3 : Memref sig .tc .vmem S512x512 .f32) (harg3 : arg3.IsWhole) (arg4 : Memref sig .tc .vmem S1x512 .f32) (harg4 : arg4.IsWhole)
    (arg5 : Memref sig .tc .vmem S2000x512 .f32) (harg5 : arg5.IsWhole)
    (x0 x1 : Vec F S2000x512 .f32) (x2 : Vec F S512x512 .f32) (x3 : Vec F S1x512 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out7_4 x0 x1 x2 x3)) -∗ K ⟨⟩))
      ⊢ wp frame (wpE (defs₀ (F := F)) Variants.none c none) E (cc7__mlp1_kernel i arg1 harg1 arg2 harg2 arg3 harg3 arg4 harg4 arg5 harg5) K := by
  simp only [cc7__mlp1_kernel_eq_skeleton]; unfold cc7__mlp1_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover7_4 _)

/-! ## The pipeline's proof data -/

/-- The proof data of the pipeline on core `c`: the arrays as the region finds them; after the body at point
    `t` each input's buffer at its block and the output's at `out7_4` of the input blocks; the invariant
    "the scoped rest and the generator register, untouched"; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => out7_4 (iblk7 V c 0 t) (iblk7 V c 1 t) (iblk7 V c 2 t) (iblk7 V c 3 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) :
    (dat7 V c).after 4 t = out7_4 (iblk7 V c 0 t) (iblk7 V c 1 t) (iblk7 V c 2 t) (iblk7 V c 3 t) := by dsimp only [dat7]

/-- Each input's current staging buffer holds its block at every point. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t))

/-- The body at any point: the inputs' memrefs hold their blocks, so the body's triple applies; the invariant
    and what the core owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).Φ t.succ = (dat7 V c).Φ t.castSucc from rfl,
    show (dat7 V c).owesAt () t.succ = (dat7 V c).owesAt () t.castSucc from rfl,
    after7_0, after7_1, after7_2, after7_3, after7_4]
  iintro ⟨HΦ, Ho, ⟨%d0, H0⟩, ⟨%d1, H1⟩, ⟨%d2, H2⟩, ⟨%d3, H3⟩, ⟨%d4, H4⟩⟩
  iapply (sound_kernel7 c Set.univ _ _ _ _ _ _ _ _ _ _ _ (iblk7 V c 0 t) (iblk7 V c 1 t) (iblk7 V c 2 t) (iblk7 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI.Mlp2_8.lean ====
/- The frame half of region 8 of @main: the pipelined call of the second dense layer of a graph-network block,
   on a grid of 10 points. Window 0 is a 2000x512 block of the node features; windows 1..6 are whole small arrays
   read at a constant index (a row of means, a row of variances, a row of scales, a row of shifts, a 512x512 weight,
   a row of biases); window 7 is the 2000x512 output block. At a parameter `V`, the contents of the core's buffers
   when the region is entered, this file states each window's block at a point, what the body leaves in the output
   buffer as a function of the input blocks, the body's triple, and the pipeline's proof data with its body
   obligation. Everything is generic in the float interpretation `F`. -/
import proofs.«157524_j37503654429443_1_alg».proof.Proof.Gen.KernelIdeal.Launch
import proofs.«157524_j37503654429443_1_alg».proof.Proof.Gen.KernelIdeal.Skeleton
import proofs.«157524_j37503654429443_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of extent 2000 is decided by structural recursion on the coordinate
set_option maxRecDepth 16384

noncomputable section

open Cert.KernelIdeal Cert.KernelIdeal.Gen

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, whether the pipeline fetched it there or
    not (an unfetched window's block index has not moved), for any proof data whose array is `V`'s and whose body
    leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, whether the pipeline fetched it there or
    not (an unfetched window's block index has not moved), for any proof data whose array is `V`'s and whose body
    leaves the block in place. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, whether the pipeline fetched it there or
    not (an unfetched window's block index has not moved), for any proof data whose array is `V`'s and whose body
    leaves the block in place. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's current staging buffer holds its block at every point, whether the pipeline fetched it there or
    not (an unfetched window's block index has not moved), for any proof data whose array is `V`'s and whose body
    leaves the block in place. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's current staging buffer holds its block at every point, whether the pipeline fetched it there or
    not (an unfetched window's block index has not moved), for any proof data whose array is `V`'s and whose body
    leaves the block in place. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-- Input window 5's current staging buffer holds its block at every point, whether the pipeline fetched it there or
    not (an unfetched window's block index has not moved), for any proof data whose array is `V`'s and whose body
    leaves the block in place. -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

/-- Input window 6's current staging buffer holds its block at every point, whether the pipeline fetched it there or
    not (an unfetched window's block index has not moved), for any proof data whose array is `V`'s and whose body
    leaves the block in place. -/
theorem before8_6_of {c : Dev nD} (dat : Dat τ (Elt F) Unit ℕ (UR sig nD τ) ℕ cfg8 c) (hA : dat.A 6 = V c (Pipeline.arrRef spec8 6))
    (hafter : ∀ t, dat.after 6 t = iblk8 V c 6 t) (t : Fin cfg8.N) (d) : dat.before 6 t d = iblk8 V c 6 t :=
  (dat.before_in_eq_fetched 6 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each buffer is read and written whole -/

abbrev r8_a : Rect S2000x512 := Rect.unit (s := S2000x512) ![0, 0] S2000x512.size inb_S2000x512_S2000x512_0_0
abbrev r8_b : Rect S1x512 := Rect.unit (s := S1x512) ![0, 0] S1x512.size inb_S1x512_S1x512_0_0
abbrev r8_c : Rect S512x512 := Rect.unit (s := S512x512) ![0, 0] S512x512.size inb_S512x512_S512x512_0_0

/-! ## What the body leaves in the output window's buffer -/

/-- Window 7's staging buffer after the body, from the input windows' blocks `x0 .. x6` (in window order): one store of
    the whole block, whose value is the layer's arithmetic on the blocks. The arithmetic takes the row of variances
    (window 2) before the row of means (window 1). -/
def out8_7 (x0 : Vec F S2000x512 .f32) (x1 x2 x3 x4 : Vec F S1x512 .f32) (x5 : Vec F S512x512 .f32) (x6 : Vec F S1x512 .f32) : Vec F S2000x512 .f32 :=
  View.canon [⟨r8_a, k8_pay1 (View.ld x0 r8_a) (View.ld x2 r8_b) (View.ld x1 r8_b) (View.ld x3 r8_b) (View.ld x4 r8_b) (View.ld x5 r8_c) (View.ld x6 r8_b)⟩]

/-- The one store is of the whole buffer, so it covers it. -/
theorem cover8_7 (p0 : Vec F S2000x512 .f32) (y : S2000x512.Idx) :
    ∃ pc ∈ ([⟨r8_a, p0⟩] : List (View.Piece (Elt F) S2000x512 .f32)), y ∈ pc.1.set :=
  View.cover_of_tiled [⟨r8_a, p0⟩] S2000x512.size (by rfl) y

/-! ## The body's triple -/

set_option maxHeartbeats 4000000 in
/-- The kernel body on whole staging memrefs, the inputs' at read contents `x0 .. x6` and the output's at anything, runs
    to the continuation holding the inputs' as they were and the output's at `out8_7` of the inputs'. The body also
    reads the output buffer before it stores to it; the value read is not used. -/
theorem sound_kernel8 (c : Dev nD) (E : Set ℕ) (i : grid8.Coords)
    (arg1 : Memref sig .tc .vmem S2000x512 .f32) (harg1 : arg1.IsWhole) (arg2 : Memref sig .tc .vmem S1x512 .f32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1x512 .f32) (harg5 : arg5.IsWhole) (arg6 : Memref sig .tc .vmem S512x512 .f32) (harg6 : arg6.IsWhole)
    (arg7 : Memref sig .tc .vmem S1x512 .f32) (harg7 : arg7.IsWhole) (arg8 : Memref sig .tc .vmem S2000x512 .f32) (harg8 : arg8.IsWhole)
    (x0 : Vec F S2000x512 .f32) (x1 x2 x3 x4 : Vec F S1x512 .f32) (x5 : Vec F S512x512 .f32) (x6 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out8_7 x0 x1 x2 x3 x4 x5 x6)) -∗ K ⟨⟩))
      ⊢ wp frame (wpE (defs₀ (F := F)) Variants.none c none) E (cc8__mlp2_kernel i arg1 harg1 arg2 harg2 arg3 harg3 arg4 harg4 arg5 harg5 arg6 harg6 arg7 harg7 arg8 harg8) K := by
  simp only [cc8__mlp2_kernel_eq_skeleton]; unfold cc8__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover8_7 _)

/-! ## The pipeline's proof data -/

/-- The proof data of this pipeline on core `c`: the arrays as the region finds them; after the body at point `t` each
    input's buffer at its block and the output's at `out8_7` of the input blocks; the invariant that of a pipeline
    whose body touches nothing but its windows; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => out8_7 (iblk8 V c 0 t) (iblk8 V c 1 t) (iblk8 V c 2 t) (iblk8 V c 3 t) (iblk8 V c 4 t) (iblk8 V c 5 t) (iblk8 V c 6 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = iblk8 V c 6 t := by dsimp only [dat8]
theorem after8_7 (c : Dev nD) (t : Fin cfg8.N) : (dat8 V c).after 7 t =
    out8_7 (iblk8 V c 0 t) (iblk8 V c 1 t) (iblk8 V c 2 t) (iblk8 V c 3 t) (iblk8 V c 4 t) (iblk8 V c 5 t) (iblk8 V c 6 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d
theorem before8_6 (c : Dev nD) (t : Fin cfg8.N) (d) : (dat8 V c).before 6 t d = iblk8 V c 6 t :=
  before8_6_of V (dat8 V c) (A_eq8 V c 6) (after8_6 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t)
    ∗ owns (c : Thread nD τ) (st8_7 t) fullShare ((dat8 V c).after 7 t))

set_option maxHeartbeats 2000000 in
/-- The body at any point: the inputs' memrefs hold their blocks, so the body's triple applies; the invariant and what
    the core owes pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5, before8_6]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, after8_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel8 c Set.univ _ _ _ _ _ _ _ _ _ _ _ _ _ _ _ _ _ (iblk8 V c 0 t) (iblk8 V c 1 t) (iblk8 V c 2 t) (iblk8 V c 3 t) (iblk8 V c 4 t) (iblk8 V c 5 t) (iblk8 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the pipeline, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand
-- ==== Proof.KI.Stage.lean ====
/-
  The contents of the TensorCore's unscoped buffers at every boundary between two items of @main, as one fold from the
  launch memory: a host stretch applies its operations; a region replaces its output array by what its write-backs leave
  (its proof data's last array, taken at the contents the region was entered with) and touches nothing else. The unknowns
  of the conditional run are then chosen as these outputs, which makes its valuations this fold, and every pipeline's proof
  data is taken at its region's entry contents.
-/
import proofs.«157524_j37503654429443_1_alg».proof.Proof.KI.RunInst
import proofs.«157524_j37503654429443_1_alg».proof.Proof.KI.Edge0
import proofs.«157524_j37503654429443_1_alg».proof.Proof.KI.Mlp1_1
import proofs.«157524_j37503654429443_1_alg».proof.Proof.KI.Mlp2_2
import proofs.«157524_j37503654429443_1_alg».proof.Proof.KI.Edge3
import proofs.«157524_j37503654429443_1_alg».proof.Proof.KI.Mlp1_4
import proofs.«157524_j37503654429443_1_alg».proof.Proof.KI.Mlp2_5
import proofs.«157524_j37503654429443_1_alg».proof.Proof.KI.Edge6
import proofs.«157524_j37503654429443_1_alg».proof.Proof.KI.Mlp1_7
import proofs.«157524_j37503654429443_1_alg».proof.Proof.KI.Mlp2_8

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

/-- A valuation read at the TensorCore's references: the form a region's proof data take their entry contents in. -/
abbrev rd (W : Dev nD → Valuation τ sig (Elt F)) : (c : Dev nD) → (b : Ref sig .tc) → Buf (Elt F) ((c : Thread nD τ).loc b) :=
  fun c b => W c b

variable (m : (ℓ : Loc nD τ sig) → Buf (Elt F) ℓ)

/-! ## The fold -/

/-- Core c's unscoped buffers at launch. -/
abbrev W0 (c : Dev nD) : Valuation τ sig (Elt F) := fun b => m (c, b)
/-- After the host stretch hostOps0. -/
def W1 (c : Dev nD) : Valuation τ sig (Elt F) := StableHlo.after hostOps0 (W0 m c)
theorem W1_def (c : Dev nD) : W1 m c = StableHlo.after hostOps0 (W0 m c) := rfl
/-- What region 0 leaves in its output array main_v11: its write-backs folded over the contents it was entered with. -/
def O0 (c : Dev nD) : Buf (Elt F) ((c : Thread nD τ).loc main_v11) := (dat0 (rd (W1 m)) c).arrAt 2 cfg0.N
/-- After region 0: its output array at what the region leaves, every other buffer as entered. -/
def W2 (c : Dev nD) : Valuation τ sig (Elt F) := Function.update (W1 m c) main_v11 (O0 m c)
theorem W2_def (c : Dev nD) : W2 m c = Function.update (W1 m c) main_v11 (O0 m c) := rfl
/-- After the host stretch hostOps1. -/
def W3 (c : Dev nD) : Valuation τ sig (Elt F) := StableHlo.after hostOps1 (W2 m c)
theorem W3_def (c : Dev nD) : W3 m c = StableHlo.after hostOps1 (W2 m c) := rfl
/-- What region 1 leaves in its output array main_v21: its write-backs folded over the contents it was entered with. -/
def O1 (c : Dev nD) : Buf (Elt F) ((c : Thread nD τ).loc main_v21) := (dat1 (rd (W3 m)) c).arrAt 4 cfg1.N
/-- After region 1: its output array at what the region leaves, every other buffer as entered. -/
def W4 (c : Dev nD) : Valuation τ sig (Elt F) := Function.update (W3 m c) main_v21 (O1 m c)
theorem W4_def (c : Dev nD) : W4 m c = Function.update (W3 m c) main_v21 (O1 m c) := rfl
/-- After the host stretch hostOps2. -/
def W5 (c : Dev nD) : Valuation τ sig (Elt F) := StableHlo.after hostOps2 (W4 m c)
theorem W5_def (c : Dev nD) : W5 m c = StableHlo.after hostOps2 (W4 m c) := rfl
/-- After the host stretch hostOps2_1. -/
def W6 (c : Dev nD) : Valuation τ sig (Elt F) := StableHlo.after hostOps2_1 (W5 m c)
theorem W6_def (c : Dev nD) : W6 m c = StableHlo.after hostOps2_1 (W5 m c) := rfl
/-- After the host stretch hostOps2_2. -/
def W7 (c : Dev nD) : Valuation τ sig (Elt F) := StableHlo.after hostOps2_2 (W6 m c)
theorem W7_def (c : Dev nD) : W7 m c = StableHlo.after hostOps2_2 (W6 m c) := rfl
/-- What region 2 leaves in its output array main_v40: its write-backs folded over the contents it was entered with. -/
def O2 (c : Dev nD) : Buf (Elt F) ((c : Thread nD τ).loc main_v40) := (dat2 (rd (W7 m)) c).arrAt 7 cfg2.N
/-- After region 2: its output array at what the region leaves, every other buffer as entered. -/
def W8 (c : Dev nD) : Valuation τ sig (Elt F) := Function.update (W7 m c) main_v40 (O2 m c)
theorem W8_def (c : Dev nD) : W8 m c = Function.update (W7 m c) main_v40 (O2 m c) := rfl
/-- After the host stretch hostOps3. -/
def W9 (c : Dev nD) : Valuation τ sig (Elt F) := StableHlo.after hostOps3 (W8 m c)
theorem W9_def (c : Dev nD) : W9 m c = StableHlo.after hostOps3 (W8 m c) := rfl
/-- What region 3 leaves in its output array main_v51: its write-backs folded over the contents it was entered with. -/
def O3 (c : Dev nD) : Buf (Elt F) ((c : Thread nD τ).loc main_v51) := (dat3 (rd (W9 m)) c).arrAt 2 cfg3.N
/-- After region 3: its output array at what the region leaves, every other buffer as entered. -/
def W10 (c : Dev nD) : Valuation τ sig (Elt F) := Function.update (W9 m c) main_v51 (O3 m c)
theorem W10_def (c : Dev nD) : W10 m c = Function.update (W9 m c) main_v51 (O3 m c) := rfl
/-- After the host stretch hostOps4. -/
def W11 (c : Dev nD) : Valuation τ sig (Elt F) := StableHlo.after hostOps4 (W10 m c)
theorem W11_def (c : Dev nD) : W11 m c = StableHlo.after hostOps4 (W10 m c) := rfl
/-- What region 4 leaves in its output array main_v61: its write-backs folded over the contents it was entered with. -/
def O4 (c : Dev nD) : Buf (Elt F) ((c : Thread nD τ).loc main_v61) := (dat4 (rd (W11 m)) c).arrAt 4 cfg4.N
/-- After region 4: its output array at what the region leaves, every other buffer as entered. -/
def W12 (c : Dev nD) : Valuation τ sig (Elt F) := Function.update (W11 m c) main_v61 (O4 m c)
theorem W12_def (c : Dev nD) : W12 m c = Function.update (W11 m c) main_v61 (O4 m c) := rfl
/-- After the host stretch hostOps5. -/
def W13 (c : Dev nD) : Valuation τ sig (Elt F) := StableHlo.after hostOps5 (W12 m c)
theorem W13_def (c : Dev nD) : W13 m c = StableHlo.after hostOps5 (W12 m c) := rfl
/-- After the host stretch hostOps5_1. -/
def W14 (c : Dev nD) : Valuation τ sig (Elt F) := StableHlo.after hostOps5_1 (W13 m c)
theorem W14_def (c : Dev nD) : W14 m c = StableHlo.after hostOps5_1 (W13 m c) := rfl
/-- After the host stretch hostOps5_2. -/
def W15 (c : Dev nD) : Valuation τ sig (Elt F) := StableHlo.after hostOps5_2 (W14 m c)
theorem W15_def (c : Dev nD) : W15 m c = StableHlo.after hostOps5_2 (W14 m c) := rfl
/-- What region 5 leaves in its output array main_v80: its write-backs folded over the contents it was entered with. -/
def O5 (c : Dev nD) : Buf (Elt F) ((c : Thread nD τ).loc main_v80) := (dat5 (rd (W15 m)) c).arrAt 7 cfg5.N
/-- After region 5: its output array at what the region leaves, every other buffer as entered. -/
def W16 (c : Dev nD) : Valuation τ sig (Elt F) := Function.update (W15 m c) main_v80 (O5 m c)
theorem W16_def (c : Dev nD) : W16 m c = Function.update (W15 m c) main_v80 (O5 m c) := rfl
/-- After the host stretch hostOps6. -/
def W17 (c : Dev nD) : Valuation τ sig (Elt F) := StableHlo.after hostOps6 (W16 m c)
theorem W17_def (c : Dev nD) : W17 m c = StableHlo.after hostOps6 (W16 m c) := rfl
/-- What region 6 leaves in its output array main_v91: its write-backs folded over the contents it was entered with. -/
def O6 (c : Dev nD) : Buf (Elt F) ((c : Thread nD τ).loc main_v91) := (dat6 (rd (W17 m)) c).arrAt 2 cfg6.N
/-- After region 6: its output array at what the region leaves, every other buffer as entered. -/
def W18 (c : Dev nD) : Valuation τ sig (Elt F) := Function.update (W17 m c) main_v91 (O6 m c)
theorem W18_def (c : Dev nD) : W18 m c = Function.update (W17 m c) main_v91 (O6 m c) := rfl
/-- After the host stretch hostOps7. -/
def W19 (c : Dev nD) : Valuation τ sig (Elt F) := StableHlo.after hostOps7 (W18 m c)
theorem W19_def (c : Dev nD) : W19 m c = StableHlo.after hostOps7 (W18 m c) := rfl
/-- What region 7 leaves in its output array main_v101: its write-backs folded over the contents it was entered with. -/
def O7 (c : Dev nD) : Buf (Elt F) ((c : Thread nD τ).loc main_v101) := (dat7 (rd (W19 m)) c).arrAt 4 cfg7.N
/-- After region 7: its output array at what the region leaves, every other buffer as entered. -/
def W20 (c : Dev nD) : Valuation τ sig (Elt F) := Function.update (W19 m c) main_v101 (O7 m c)
theorem W20_def (c : Dev nD) : W20 m c = Function.update (W19 m c) main_v101 (O7 m c) := rfl
/-- After the host stretch hostOps8. -/
def W21 (c : Dev nD) : Valuation τ sig (Elt F) := StableHlo.after hostOps8 (W20 m c)
theorem W21_def (c : Dev nD) : W21 m c = StableHlo.after hostOps8 (W20 m c) := rfl
/-- After the host stretch hostOps8_1. -/
def W22 (c : Dev nD) : Valuation τ sig (Elt F) := StableHlo.after hostOps8_1 (W21 m c)
theorem W22_def (c : Dev nD) : W22 m c = StableHlo.after hostOps8_1 (W21 m c) := rfl
/-- After the host stretch hostOps8_2. -/
def W23 (c : Dev nD) : Valuation τ sig (Elt F) := StableHlo.after hostOps8_2 (W22 m c)
theorem W23_def (c : Dev nD) : W23 m c = StableHlo.after hostOps8_2 (W22 m c) := rfl
/-- What region 8 leaves in its output array main_v120: its write-backs folded over the contents it was entered with. -/
def O8 (c : Dev nD) : Buf (Elt F) ((c : Thread nD τ).loc main_v120) := (dat8 (rd (W23 m)) c).arrAt 7 cfg8.N
/-- After region 8: its output array at what the region leaves, every other buffer as entered. -/
def W24 (c : Dev nD) : Valuation τ sig (Elt F) := Function.update (W23 m c) main_v120 (O8 m c)
theorem W24_def (c : Dev nD) : W24 m c = Function.update (W23 m c) main_v120 (O8 m c) := rfl
/-- After the host stretch hostOps9. -/
def W25 (c : Dev nD) : Valuation τ sig (Elt F) := StableHlo.after hostOps9 (W24 m c)
theorem W25_def (c : Dev nD) : W25 m c = StableHlo.after hostOps9 (W24 m c) := rfl

/-! ## The regions' outputs as the conditional run's unknowns -/

/-- At a region's output array, what that region leaves; anywhere else (never read) the launch contents. -/
def outs : Outs (F := F) := fun _ r c =>
  if h : main_v11 = r then h ▸ O0 m c else
  if h : main_v21 = r then h ▸ O1 m c else
  if h : main_v40 = r then h ▸ O2 m c else
  if h : main_v51 = r then h ▸ O3 m c else
  if h : main_v61 = r then h ▸ O4 m c else
  if h : main_v80 = r then h ▸ O5 m c else
  if h : main_v91 = r then h ▸ O6 m c else
  if h : main_v101 = r then h ▸ O7 m c else
  if h : main_v120 = r then h ▸ O8 m c else
  m ((c : Thread nD τ).loc r)

theorem outs_main_v11 (J : ℕ) (c : Dev nD) : outs m J main_v11 c = O0 m c := by
  unfold outs; rw [dif_pos rfl]
theorem outs_main_v21 (J : ℕ) (c : Dev nD) : outs m J main_v21 c = O1 m c := by
  unfold outs; rw [dif_neg (by decide : ¬ main_v11 = main_v21), dif_pos rfl]
theorem outs_main_v40 (J : ℕ) (c : Dev nD) : outs m J main_v40 c = O2 m c := by
  unfold outs; rw [dif_neg (by decide : ¬ main_v11 = main_v40), dif_neg (by decide : ¬ main_v21 = main_v40), dif_pos rfl]
theorem outs_main_v51 (J : ℕ) (c : Dev nD) : outs m J main_v51 c = O3 m c := by
  unfold outs; rw [dif_neg (by decide : ¬ main_v11 = main_v51), dif_neg (by decide : ¬ main_v21 = main_v51), dif_neg (by decide : ¬ main_v40 = main_v51), dif_pos rfl]
theorem outs_main_v61 (J : ℕ) (c : Dev nD) : outs m J main_v61 c = O4 m c := by
  unfold outs; rw [dif_neg (by decide : ¬ main_v11 = main_v61), dif_neg (by decide : ¬ main_v21 = main_v61), dif_neg (by decide : ¬ main_v40 = main_v61), dif_neg (by decide : ¬ main_v51 = main_v61), dif_pos rfl]
theorem outs_main_v80 (J : ℕ) (c : Dev nD) : outs m J main_v80 c = O5 m c := by
  unfold outs; rw [dif_neg (by decide : ¬ main_v11 = main_v80), dif_neg (by decide : ¬ main_v21 = main_v80), dif_neg (by decide : ¬ main_v40 = main_v80), dif_neg (by decide : ¬ main_v51 = main_v80), dif_neg (by decide : ¬ main_v61 = main_v80), dif_pos rfl]
theorem outs_main_v91 (J : ℕ) (c : Dev nD) : outs m J main_v91 c = O6 m c := by
  unfold outs; rw [dif_neg (by decide : ¬ main_v11 = main_v91), dif_neg (by decide : ¬ main_v21 = main_v91), dif_neg (by decide : ¬ main_v40 = main_v91), dif_neg (by decide : ¬ main_v51 = main_v91), dif_neg (by decide : ¬ main_v61 = main_v91), dif_neg (by decide : ¬ main_v80 = main_v91), dif_pos rfl]
theorem outs_main_v101 (J : ℕ) (c : Dev nD) : outs m J main_v101 c = O7 m c := by
  unfold outs; rw [dif_neg (by decide : ¬ main_v11 = main_v101), dif_neg (by decide : ¬ main_v21 = main_v101), dif_neg (by decide : ¬ main_v40 = main_v101), dif_neg (by decide : ¬ main_v51 = main_v101), dif_neg (by decide : ¬ main_v61 = main_v101), dif_neg (by decide : ¬ main_v80 = main_v101), dif_neg (by decide : ¬ main_v91 = main_v101), dif_pos rfl]
theorem outs_main_v120 (J : ℕ) (c : Dev nD) : outs m J main_v120 c = O8 m c := by
  unfold outs; rw [dif_neg (by decide : ¬ main_v11 = main_v120), dif_neg (by decide : ¬ main_v21 = main_v120), dif_neg (by decide : ¬ main_v40 = main_v120), dif_neg (by decide : ¬ main_v51 = main_v120), dif_neg (by decide : ¬ main_v61 = main_v120), dif_neg (by decide : ¬ main_v80 = main_v120), dif_neg (by decide : ¬ main_v91 = main_v120), dif_neg (by decide : ¬ main_v101 = main_v120), dif_pos rfl]

/-! ## The conditional run's valuations are the fold -/

theorem V1_eq (c : Dev nD) : V1 m c = W1 m c := rfl
theorem V2_eq (c : Dev nD) : V2 m (outs m) c = W2 m c := by
  show Function.update (V1 m c) main_v11 (outs m 2 main_v11 c) = _; rw [V1_eq, outs_main_v11]; exact (W2_def m c).symm
theorem V3_eq (c : Dev nD) : V3 m (outs m) c = W3 m c := by
  show StableHlo.after hostOps1 (V2 m (outs m) c) = _; rw [V2_eq]; exact (W3_def m c).symm
theorem V4_eq (c : Dev nD) : V4 m (outs m) c = W4 m c := by
  show Function.update (V3 m (outs m) c) main_v21 (outs m 4 main_v21 c) = _; rw [V3_eq, outs_main_v21]; exact (W4_def m c).symm
theorem V5_eq (c : Dev nD) : V5 m (outs m) c = W5 m c := by
  show StableHlo.after hostOps2 (V4 m (outs m) c) = _; rw [V4_eq]; exact (W5_def m c).symm
theorem V6_eq (c : Dev nD) : V6 m (outs m) c = W6 m c := by
  show StableHlo.after hostOps2_1 (V5 m (outs m) c) = _; rw [V5_eq]; exact (W6_def m c).symm
theorem V7_eq (c : Dev nD) : V7 m (outs m) c = W7 m c := by
  show StableHlo.after hostOps2_2 (V6 m (outs m) c) = _; rw [V6_eq]; exact (W7_def m c).symm
theorem V8_eq (c : Dev nD) : V8 m (outs m) c = W8 m c := by
  show Function.update (V7 m (outs m) c) main_v40 (outs m 8 main_v40 c) = _; rw [V7_eq, outs_main_v40]; exact (W8_def m c).symm
theorem V9_eq (c : Dev nD) : V9 m (outs m) c = W9 m c := by
  show StableHlo.after hostOps3 (V8 m (outs m) c) = _; rw [V8_eq]; exact (W9_def m c).symm
theorem V10_eq (c : Dev nD) : V10 m (outs m) c = W10 m c := by
  show Function.update (V9 m (outs m) c) main_v51 (outs m 10 main_v51 c) = _; rw [V9_eq, outs_main_v51]; exact (W10_def m c).symm
theorem V11_eq (c : Dev nD) : V11 m (outs m) c = W11 m c := by
  show StableHlo.after hostOps4 (V10 m (outs m) c) = _; rw [V10_eq]; exact (W11_def m c).symm
theorem V12_eq (c : Dev nD) : V12 m (outs m) c = W12 m c := by
  show Function.update (V11 m (outs m) c) main_v61 (outs m 12 main_v61 c) = _; rw [V11_eq, outs_main_v61]; exact (W12_def m c).symm
theorem V13_eq (c : Dev nD) : V13 m (outs m) c = W13 m c := by
  show StableHlo.after hostOps5 (V12 m (outs m) c) = _; rw [V12_eq]; exact (W13_def m c).symm
theorem V14_eq (c : Dev nD) : V14 m (outs m) c = W14 m c := by
  show StableHlo.after hostOps5_1 (V13 m (outs m) c) = _; rw [V13_eq]; exact (W14_def m c).symm
theorem V15_eq (c : Dev nD) : V15 m (outs m) c = W15 m c := by
  show StableHlo.after hostOps5_2 (V14 m (outs m) c) = _; rw [V14_eq]; exact (W15_def m c).symm
theorem V16_eq (c : Dev nD) : V16 m (outs m) c = W16 m c := by
  show Function.update (V15 m (outs m) c) main_v80 (outs m 16 main_v80 c) = _; rw [V15_eq, outs_main_v80]; exact (W16_def m c).symm
theorem V17_eq (c : Dev nD) : V17 m (outs m) c = W17 m c := by
  show StableHlo.after hostOps6 (V16 m (outs m) c) = _; rw [V16_eq]; exact (W17_def m c).symm
theorem V18_eq (c : Dev nD) : V18 m (outs m) c = W18 m c := by
  show Function.update (V17 m (outs m) c) main_v91 (outs m 18 main_v91 c) = _; rw [V17_eq, outs_main_v91]; exact (W18_def m c).symm
theorem V19_eq (c : Dev nD) : V19 m (outs m) c = W19 m c := by
  show StableHlo.after hostOps7 (V18 m (outs m) c) = _; rw [V18_eq]; exact (W19_def m c).symm
theorem V20_eq (c : Dev nD) : V20 m (outs m) c = W20 m c := by
  show Function.update (V19 m (outs m) c) main_v101 (outs m 20 main_v101 c) = _; rw [V19_eq, outs_main_v101]; exact (W20_def m c).symm
theorem V21_eq (c : Dev nD) : V21 m (outs m) c = W21 m c := by
  show StableHlo.after hostOps8 (V20 m (outs m) c) = _; rw [V20_eq]; exact (W21_def m c).symm
theorem V22_eq (c : Dev nD) : V22 m (outs m) c = W22 m c := by
  show StableHlo.after hostOps8_1 (V21 m (outs m) c) = _; rw [V21_eq]; exact (W22_def m c).symm
theorem V23_eq (c : Dev nD) : V23 m (outs m) c = W23 m c := by
  show StableHlo.after hostOps8_2 (V22 m (outs m) c) = _; rw [V22_eq]; exact (W23_def m c).symm
theorem V24_eq (c : Dev nD) : V24 m (outs m) c = W24 m c := by
  show Function.update (V23 m (outs m) c) main_v120 (outs m 24 main_v120 c) = _; rw [V23_eq, outs_main_v120]; exact (W24_def m c).symm
theorem V25_eq (c : Dev nD) : V25 m (outs m) c = W25 m c := by
  show StableHlo.after hostOps9 (V24 m (outs m) c) = _; rw [V24_eq]; exact (W25_def m c).symm

/-! ## What an item leaves unchanged, and what a region leaves in its output array -/

theorem W1_of (c : Dev nD) (r : Ref sig .tc) (h : r ∉ hostOps0_W) : W1 m c r = W0 m c r := by
  rw [W1_def]; exact StableHlo.after_of_writes_sub hostOps0 _ hostOps0_writes h
theorem W2_of (c : Dev nD) (r : Ref sig .tc) (h : r ≠ main_v11) : W2 m c r = W1 m c r := by
  rw [W2_def]; exact Function.update_of_ne (StableHlo.devRef_ne_of_ne h) _ _
theorem W2_self (c : Dev nD) : W2 m c main_v11 = O0 m c := by
  rw [W2_def]; exact Function.update_self (β := fun b : DevRef τ sig => Buf (Elt F) ((c : Thread nD τ).1, b)) (Proc.devRef .tc main_v11) (O0 m c) (W1 m c)
theorem W3_of (c : Dev nD) (r : Ref sig .tc) (h : r ∉ hostOps1_W) : W3 m c r = W2 m c r := by
  rw [W3_def]; exact StableHlo.after_of_writes_sub hostOps1 _ hostOps1_writes h
theorem W4_of (c : Dev nD) (r : Ref sig .tc) (h : r ≠ main_v21) : W4 m c r = W3 m c r := by
  rw [W4_def]; exact Function.update_of_ne (StableHlo.devRef_ne_of_ne h) _ _
theorem W4_self (c : Dev nD) : W4 m c main_v21 = O1 m c := by
  rw [W4_def]; exact Function.update_self (β := fun b : DevRef τ sig => Buf (Elt F) ((c : Thread nD τ).1, b)) (Proc.devRef .tc main_v21) (O1 m c) (W3 m c)
theorem W5_of (c : Dev nD) (r : Ref sig .tc) (h : r ∉ hostOps2_W) : W5 m c r = W4 m c r := by
  rw [W5_def]; exact StableHlo.after_of_writes_sub hostOps2 _ hostOps2_writes h
theorem W6_of (c : Dev nD) (r : Ref sig .tc) (h : r ∉ hostOps2_1_W) : W6 m c r = W5 m c r := by
  rw [W6_def]; exact StableHlo.after_of_writes_sub hostOps2_1 _ hostOps2_1_writes h
theorem W7_of (c : Dev nD) (r : Ref sig .tc) (h : r ∉ hostOps2_2_W) : W7 m c r = W6 m c r := by
  rw [W7_def]; exact StableHlo.after_of_writes_sub hostOps2_2 _ hostOps2_2_writes h
theorem W8_of (c : Dev nD) (r : Ref sig .tc) (h : r ≠ main_v40) : W8 m c r = W7 m c r := by
  rw [W8_def]; exact Function.update_of_ne (StableHlo.devRef_ne_of_ne h) _ _
theorem W8_self (c : Dev nD) : W8 m c main_v40 = O2 m c := by
  rw [W8_def]; exact Function.update_self (β := fun b : DevRef τ sig => Buf (Elt F) ((c : Thread nD τ).1, b)) (Proc.devRef .tc main_v40) (O2 m c) (W7 m c)
theorem W9_of (c : Dev nD) (r : Ref sig .tc) (h : r ∉ hostOps3_W) : W9 m c r = W8 m c r := by
  rw [W9_def]; exact StableHlo.after_of_writes_sub hostOps3 _ hostOps3_writes h
theorem W10_of (c : Dev nD) (r : Ref sig .tc) (h : r ≠ main_v51) : W10 m c r = W9 m c r := by
  rw [W10_def]; exact Function.update_of_ne (StableHlo.devRef_ne_of_ne h) _ _
theorem W10_self (c : Dev nD) : W10 m c main_v51 = O3 m c := by
  rw [W10_def]; exact Function.update_self (β := fun b : DevRef τ sig => Buf (Elt F) ((c : Thread nD τ).1, b)) (Proc.devRef .tc main_v51) (O3 m c) (W9 m c)
theorem W11_of (c : Dev nD) (r : Ref sig .tc) (h : r ∉ hostOps4_W) : W11 m c r = W10 m c r := by
  rw [W11_def]; exact StableHlo.after_of_writes_sub hostOps4 _ hostOps4_writes h
theorem W12_of (c : Dev nD) (r : Ref sig .tc) (h : r ≠ main_v61) : W12 m c r = W11 m c r := by
  rw [W12_def]; exact Function.update_of_ne (StableHlo.devRef_ne_of_ne h) _ _
theorem W12_self (c : Dev nD) : W12 m c main_v61 = O4 m c := by
  rw [W12_def]; exact Function.update_self (β := fun b : DevRef τ sig => Buf (Elt F) ((c : Thread nD τ).1, b)) (Proc.devRef .tc main_v61) (O4 m c) (W11 m c)
theorem W13_of (c : Dev nD) (r : Ref sig .tc) (h : r ∉ hostOps5_W) : W13 m c r = W12 m c r := by
  rw [W13_def]; exact StableHlo.after_of_writes_sub hostOps5 _ hostOps5_writes h
theorem W14_of (c : Dev nD) (r : Ref sig .tc) (h : r ∉ hostOps5_1_W) : W14 m c r = W13 m c r := by
  rw [W14_def]; exact StableHlo.after_of_writes_sub hostOps5_1 _ hostOps5_1_writes h
theorem W15_of (c : Dev nD) (r : Ref sig .tc) (h : r ∉ hostOps5_2_W) : W15 m c r = W14 m c r := by
  rw [W15_def]; exact StableHlo.after_of_writes_sub hostOps5_2 _ hostOps5_2_writes h
theorem W16_of (c : Dev nD) (r : Ref sig .tc) (h : r ≠ main_v80) : W16 m c r = W15 m c r := by
  rw [W16_def]; exact Function.update_of_ne (StableHlo.devRef_ne_of_ne h) _ _
theorem W16_self (c : Dev nD) : W16 m c main_v80 = O5 m c := by
  rw [W16_def]; exact Function.update_self (β := fun b : DevRef τ sig => Buf (Elt F) ((c : Thread nD τ).1, b)) (Proc.devRef .tc main_v80) (O5 m c) (W15 m c)
theorem W17_of (c : Dev nD) (r : Ref sig .tc) (h : r ∉ hostOps6_W) : W17 m c r = W16 m c r := by
  rw [W17_def]; exact StableHlo.after_of_writes_sub hostOps6 _ hostOps6_writes h
theorem W18_of (c : Dev nD) (r : Ref sig .tc) (h : r ≠ main_v91) : W18 m c r = W17 m c r := by
  rw [W18_def]; exact Function.update_of_ne (StableHlo.devRef_ne_of_ne h) _ _
theorem W18_self (c : Dev nD) : W18 m c main_v91 = O6 m c := by
  rw [W18_def]; exact Function.update_self (β := fun b : DevRef τ sig => Buf (Elt F) ((c : Thread nD τ).1, b)) (Proc.devRef .tc main_v91) (O6 m c) (W17 m c)
theorem W19_of (c : Dev nD) (r : Ref sig .tc) (h : r ∉ hostOps7_W) : W19 m c r = W18 m c r := by
  rw [W19_def]; exact StableHlo.after_of_writes_sub hostOps7 _ hostOps7_writes h
theorem W20_of (c : Dev nD) (r : Ref sig .tc) (h : r ≠ main_v101) : W20 m c r = W19 m c r := by
  rw [W20_def]; exact Function.update_of_ne (StableHlo.devRef_ne_of_ne h) _ _
theorem W20_self (c : Dev nD) : W20 m c main_v101 = O7 m c := by
  rw [W20_def]; exact Function.update_self (β := fun b : DevRef τ sig => Buf (Elt F) ((c : Thread nD τ).1, b)) (Proc.devRef .tc main_v101) (O7 m c) (W19 m c)
theorem W21_of (c : Dev nD) (r : Ref sig .tc) (h : r ∉ hostOps8_W) : W21 m c r = W20 m c r := by
  rw [W21_def]; exact StableHlo.after_of_writes_sub hostOps8 _ hostOps8_writes h
theorem W22_of (c : Dev nD) (r : Ref sig .tc) (h : r ∉ hostOps8_1_W) : W22 m c r = W21 m c r := by
  rw [W22_def]; exact StableHlo.after_of_writes_sub hostOps8_1 _ hostOps8_1_writes h
theorem W23_of (c : Dev nD) (r : Ref sig .tc) (h : r ∉ hostOps8_2_W) : W23 m c r = W22 m c r := by
  rw [W23_def]; exact StableHlo.after_of_writes_sub hostOps8_2 _ hostOps8_2_writes h
theorem W24_of (c : Dev nD) (r : Ref sig .tc) (h : r ≠ main_v120) : W24 m c r = W23 m c r := by
  rw [W24_def]; exact Function.update_of_ne (StableHlo.devRef_ne_of_ne h) _ _
theorem W24_self (c : Dev nD) : W24 m c main_v120 = O8 m c := by
  rw [W24_def]; exact Function.update_self (β := fun b : DevRef τ sig => Buf (Elt F) ((c : Thread nD τ).1, b)) (Proc.devRef .tc main_v120) (O8 m c) (W23 m c)
theorem W25_of (c : Dev nD) (r : Ref sig .tc) (h : r ∉ hostOps9_W) : W25 m c r = W24 m c r := by
  rw [W25_def]; exact StableHlo.after_of_writes_sub hostOps9 _ hostOps9_writes h

/-! ## Every pipeline's proof data, at its region's entry contents -/

/-- A literal match on the pipeline's number, so that the family at a numeral reduces to that region's proof data. -/
def pdats : (p : Fin 9) → (c : Dev nD) → Dat τ (Elt F) Unit ℕ (UR sig nD τ) ℕ (cfgs p) c
  | ⟨0, _⟩ => fun c => dat0 (rd (W1 m)) c
  | ⟨1, _⟩ => fun c => dat1 (rd (W3 m)) c
  | ⟨2, _⟩ => fun c => dat2 (rd (W7 m)) c
  | ⟨3, _⟩ => fun c => dat3 (rd (W9 m)) c
  | ⟨4, _⟩ => fun c => dat4 (rd (W11 m)) c
  | ⟨5, _⟩ => fun c => dat5 (rd (W15 m)) c
  | ⟨6, _⟩ => fun c => dat6 (rd (W17 m)) c
  | ⟨7, _⟩ => fun c => dat7 (rd (W19 m)) c
  | ⟨8, _⟩ => fun c => dat8 (rd (W23 m)) c

/-! ## The fold is used through its equations only: reducing through it would evaluate every host stretch -/

theorem O0_def (c : Dev nD) : O0 m c = (pdats m 0 c).arrAt 2 cfg0.N := rfl
theorem O1_def (c : Dev nD) : O1 m c = (pdats m 1 c).arrAt 4 cfg1.N := rfl
theorem O2_def (c : Dev nD) : O2 m c = (pdats m 2 c).arrAt 7 cfg2.N := rfl
theorem O3_def (c : Dev nD) : O3 m c = (pdats m 3 c).arrAt 2 cfg3.N := rfl
theorem O4_def (c : Dev nD) : O4 m c = (pdats m 4 c).arrAt 4 cfg4.N := rfl
theorem O5_def (c : Dev nD) : O5 m c = (pdats m 5 c).arrAt 7 cfg5.N := rfl
theorem O6_def (c : Dev nD) : O6 m c = (pdats m 6 c).arrAt 2 cfg6.N := rfl
theorem O7_def (c : Dev nD) : O7 m c = (pdats m 7 c).arrAt 4 cfg7.N := rfl
theorem O8_def (c : Dev nD) : O8 m c = (pdats m 8 c).arrAt 7 cfg8.N := rfl

attribute [irreducible] W1 W2 W3 W4 W5 W6 W7 W8 W9 W10 W11 W12 W13 W14 W15 W16 W17 W18 W19 W20 W21 W22 W23 W24 W25 O0 O1 O2 O3 O4 O5 O6 O7 O8

end Cert.KernelIdeal.Hand

end
-- ==== Proof.KI.Reg0.lean ====
/-
  Region 0 of @main as a segment between two boundaries of the fold: entered from every unscoped buffer at the
  contents before it, left at the contents after it. Its arrays are split out of the unscoped buffers and put back at what
  the pipeline leaves: the input arrays as entered, the output array at its folded write-backs, every other buffer
  untouched. The generator register goes into the pipeline's invariant and comes back; nothing is owed; the kernel has no
  semaphore of its own.
-/
import proofs.«157524_j37503654429443_1_alg».proof.Proof.KI.Stage
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At the region's exit each of its arrays holds what the pipeline leaves: an input array its entry contents, the output
    array its folded write-backs. -/
theorem hF0 (c : Dev nD) : ∀ w : Fin cfg0.W, (pdats m 0 c).arrAt w cfg0.N = rd (W2 m) c (Pipeline.arrRef spec0 w)
  | ⟨0, _⟩ => (((dat0 (rd (W1 m)) c).arrAt_in 0 rfl _).trans (A_eq0 _ c 0)).trans (W2_of m c _ (by decide : Pipeline.arrRef spec0 0 ≠ main_v11)).symm
  | ⟨1, _⟩ => (((dat0 (rd (W1 m)) c).arrAt_in 1 rfl _).trans (A_eq0 _ c 1)).trans (W2_of m c _ (by decide : Pipeline.arrRef spec0 1 ≠ main_v11)).symm
  | ⟨2, _⟩ => (O0_def m c).symm.trans (W2_self m c).symm

/-- Every buffer that is none of the region's arrays holds at the exit what it held at the entry. -/
theorem hrest0 (c : Dev nD) : ∀ b, b ∉ Finset.univ.image (Pipeline.arrRef spec0) → rd (W2 m) c b = rd (W1 m) c b :=
  fun b hb => W2_of m c b fun e => hb (Finset.mem_image.mpr ⟨2, Finset.mem_univ _, by subst e; first | rfl | decide⟩)

set_option maxHeartbeats 4000000 in
set_option backward.isDefEq.respectTransparency.types false in
/-- The region's segment record. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (rd (W1 m)) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (rd (W1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (rd (W1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (rd (W1 m) c) (rd (W2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The record is entered from the conditional run's valuation before the region and left at the one after it. -/
theorem hpre0 (c : Dev nD) : iprop(StableHlo.held (c : Thread nD τ) (Pipeline.ucRefs τ sig) (V1 m c) ∗ R c) ⊢ (reg0 m).pre c := by
  rw [V1_eq]; exact .rfl
theorem hpost0 (c : Dev nD) : (reg0 m).post c ⊢ iprop(StableHlo.held (c : Thread nD τ) (Pipeline.ucRefs τ sig) (V2 m (outs m) c) ∗ R c) := by
  rw [V2_eq]; exact .rfl

end Cert.KernelIdeal.Hand

end
-- ==== Proof.KI.Reg1.lean ====
/-
  Region 1 of @main as a segment between two boundaries of the fold: entered from every unscoped buffer at the
  contents before it, left at the contents after it. Its arrays are split out of the unscoped buffers and put back at what
  the pipeline leaves: the input arrays as entered, the output array at its folded write-backs, every other buffer
  untouched. The generator register goes into the pipeline's invariant and comes back; nothing is owed; the kernel has no
  semaphore of its own.
-/
import proofs.«157524_j37503654429443_1_alg».proof.Proof.KI.Stage
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At the region's exit each of its arrays holds what the pipeline leaves: an input array its entry contents, the output
    array its folded write-backs. -/
theorem hF1 (c : Dev nD) : ∀ w : Fin cfg1.W, (pdats m 1 c).arrAt w cfg1.N = rd (W4 m) c (Pipeline.arrRef spec1 w)
  | ⟨0, _⟩ => (((dat1 (rd (W3 m)) c).arrAt_in 0 rfl _).trans (A_eq1 _ c 0)).trans (W4_of m c _ (by decide : Pipeline.arrRef spec1 0 ≠ main_v21)).symm
  | ⟨1, _⟩ => (((dat1 (rd (W3 m)) c).arrAt_in 1 rfl _).trans (A_eq1 _ c 1)).trans (W4_of m c _ (by decide : Pipeline.arrRef spec1 1 ≠ main_v21)).symm
  | ⟨2, _⟩ => (((dat1 (rd (W3 m)) c).arrAt_in 2 rfl _).trans (A_eq1 _ c 2)).trans (W4_of m c _ (by decide : Pipeline.arrRef spec1 2 ≠ main_v21)).symm
  | ⟨3, _⟩ => (((dat1 (rd (W3 m)) c).arrAt_in 3 rfl _).trans (A_eq1 _ c 3)).trans (W4_of m c _ (by decide : Pipeline.arrRef spec1 3 ≠ main_v21)).symm
  | ⟨4, _⟩ => (O1_def m c).symm.trans (W4_self m c).symm

/-- Every buffer that is none of the region's arrays holds at the exit what it held at the entry. -/
theorem hrest1 (c : Dev nD) : ∀ b, b ∉ Finset.univ.image (Pipeline.arrRef spec1) → rd (W4 m) c b = rd (W3 m) c b :=
  fun b hb => W4_of m c b fun e => hb (Finset.mem_image.mpr ⟨4, Finset.mem_univ _, by subst e; first | rfl | decide⟩)

set_option maxHeartbeats 4000000 in
set_option backward.isDefEq.respectTransparency.types false in
/-- The region's segment record. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (rd (W3 m)) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (rd (W3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (rd (W3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (rd (W3 m) c) (rd (W4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The record is entered from the conditional run's valuation before the region and left at the one after it. -/
theorem hpre1 (c : Dev nD) : iprop(StableHlo.held (c : Thread nD τ) (Pipeline.ucRefs τ sig) (V3 m (outs m) c) ∗ R c) ⊢ (reg1 m).pre c := by
  rw [V3_eq]; exact .rfl
theorem hpost1 (c : Dev nD) : (reg1 m).post c ⊢ iprop(StableHlo.held (c : Thread nD τ) (Pipeline.ucRefs τ sig) (V4 m (outs m) c) ∗ R c) := by
  rw [V4_eq]; exact .rfl

end Cert.KernelIdeal.Hand

end
-- ==== Proof.KI.Reg2.lean ====
/-
  Region 2 of @main as a segment between two boundaries of the fold: entered from every unscoped buffer at the
  contents before it, left at the contents after it. Its arrays are split out of the unscoped buffers and put back at what
  the pipeline leaves: the input arrays as entered, the output array at its folded write-backs, every other buffer
  untouched. The generator register goes into the pipeline's invariant and comes back; nothing is owed; the kernel has no
  semaphore of its own.
-/
import proofs.«157524_j37503654429443_1_alg».proof.Proof.KI.Stage
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At the region's exit each of its arrays holds what the pipeline leaves: an input array its entry contents, the output
    array its folded write-backs. -/
theorem hF2 (c : Dev nD) : ∀ w : Fin cfg2.W, (pdats m 2 c).arrAt w cfg2.N = rd (W8 m) c (Pipeline.arrRef spec2 w)
  | ⟨0, _⟩ => (((dat2 (rd (W7 m)) c).arrAt_in 0 rfl _).trans (A_eq2 _ c 0)).trans (W8_of m c _ (by decide : Pipeline.arrRef spec2 0 ≠ main_v40)).symm
  | ⟨1, _⟩ => (((dat2 (rd (W7 m)) c).arrAt_in 1 rfl _).trans (A_eq2 _ c 1)).trans (W8_of m c _ (by decide : Pipeline.arrRef spec2 1 ≠ main_v40)).symm
  | ⟨2, _⟩ => (((dat2 (rd (W7 m)) c).arrAt_in 2 rfl _).trans (A_eq2 _ c 2)).trans (W8_of m c _ (by decide : Pipeline.arrRef spec2 2 ≠ main_v40)).symm
  | ⟨3, _⟩ => (((dat2 (rd (W7 m)) c).arrAt_in 3 rfl _).trans (A_eq2 _ c 3)).trans (W8_of m c _ (by decide : Pipeline.arrRef spec2 3 ≠ main_v40)).symm
  | ⟨4, _⟩ => (((dat2 (rd (W7 m)) c).arrAt_in 4 rfl _).trans (A_eq2 _ c 4)).trans (W8_of m c _ (by decide : Pipeline.arrRef spec2 4 ≠ main_v40)).symm
  | ⟨5, _⟩ => (((dat2 (rd (W7 m)) c).arrAt_in 5 rfl _).trans (A_eq2 _ c 5)).trans (W8_of m c _ (by decide : Pipeline.arrRef spec2 5 ≠ main_v40)).symm
  | ⟨6, _⟩ => (((dat2 (rd (W7 m)) c).arrAt_in 6 rfl _).trans (A_eq2 _ c 6)).trans (W8_of m c _ (by decide : Pipeline.arrRef spec2 6 ≠ main_v40)).symm
  | ⟨7, _⟩ => (O2_def m c).symm.trans (W8_self m c).symm

/-- Every buffer that is none of the region's arrays holds at the exit what it held at the entry. -/
theorem hrest2 (c : Dev nD) : ∀ b, b ∉ Finset.univ.image (Pipeline.arrRef spec2) → rd (W8 m) c b = rd (W7 m) c b :=
  fun b hb => W8_of m c b fun e => hb (Finset.mem_image.mpr ⟨7, Finset.mem_univ _, by subst e; first | rfl | decide⟩)

set_option maxHeartbeats 4000000 in
set_option backward.isDefEq.respectTransparency.types false in
/-- The region's segment record. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (rd (W7 m)) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (rd (W7 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (rd (W7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (rd (W7 m) c) (rd (W8 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The record is entered from the conditional run's valuation before the region and left at the one after it. -/
theorem hpre2 (c : Dev nD) : iprop(StableHlo.held (c : Thread nD τ) (Pipeline.ucRefs τ sig) (V7 m (outs m) c) ∗ R c) ⊢ (reg2 m).pre c := by
  rw [V7_eq]; exact .rfl
theorem hpost2 (c : Dev nD) : (reg2 m).post c ⊢ iprop(StableHlo.held (c : Thread nD τ) (Pipeline.ucRefs τ sig) (V8 m (outs m) c) ∗ R c) := by
  rw [V8_eq]; exact .rfl

end Cert.KernelIdeal.Hand

end
-- ==== Proof.KI.Reg3.lean ====
/-
  Region 3 of @main as a segment between two boundaries of the fold: entered from every unscoped buffer at the
  contents before it, left at the contents after it. Its arrays are split out of the unscoped buffers and put back at what
  the pipeline leaves: the input arrays as entered, the output array at its folded write-backs, every other buffer
  untouched. The generator register goes into the pipeline's invariant and comes back; nothing is owed; the kernel has no
  semaphore of its own.
-/
import proofs.«157524_j37503654429443_1_alg».proof.Proof.KI.Stage
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At the region's exit each of its arrays holds what the pipeline leaves: an input array its entry contents, the output
    array its folded write-backs. -/
theorem hF3 (c : Dev nD) : ∀ w : Fin cfg3.W, (pdats m 3 c).arrAt w cfg3.N = rd (W10 m) c (Pipeline.arrRef spec3 w)
  | ⟨0, _⟩ => (((dat3 (rd (W9 m)) c).arrAt_in 0 rfl _).trans (A_eq3 _ c 0)).trans (W10_of m c _ (by decide : Pipeline.arrRef spec3 0 ≠ main_v51)).symm
  | ⟨1, _⟩ => (((dat3 (rd (W9 m)) c).arrAt_in 1 rfl _).trans (A_eq3 _ c 1)).trans (W10_of m c _ (by decide : Pipeline.arrRef spec3 1 ≠ main_v51)).symm
  | ⟨2, _⟩ => (O3_def m c).symm.trans (W10_self m c).symm

/-- Every buffer that is none of the region's arrays holds at the exit what it held at the entry. -/
theorem hrest3 (c : Dev nD) : ∀ b, b ∉ Finset.univ.image (Pipeline.arrRef spec3) → rd (W10 m) c b = rd (W9 m) c b :=
  fun b hb => W10_of m c b fun e => hb (Finset.mem_image.mpr ⟨2, Finset.mem_univ _, by subst e; first | rfl | decide⟩)

set_option maxHeartbeats 4000000 in
set_option backward.isDefEq.respectTransparency.types false in
/-- The region's segment record. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (rd (W9 m)) c).loose
  hwaits := Pipeline.hwaits_of_owed_zero _ _ _ _ L lv 3 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec3 c (rd (W9 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (rd (W9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (rd (W9 m) c) (rd (W10 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The record is entered from the conditional run's valuation before the region and left at the one after it. -/
theorem hpre3 (c : Dev nD) : iprop(StableHlo.held (c : Thread nD τ) (Pipeline.ucRefs τ sig) (V9 m (outs m) c) ∗ R c) ⊢ (reg3 m).pre c := by
  rw [V9_eq]; exact .rfl
theorem hpost3 (c : Dev nD) : (reg3 m).post c ⊢ iprop(StableHlo.held (c : Thread nD τ) (Pipeline.ucRefs τ sig) (V10 m (outs m) c) ∗ R c) := by
  rw [V10_eq]; exact .rfl

end Cert.KernelIdeal.Hand

end
-- ==== Proof.KI.Reg4.lean ====
/-
  Region 4 of @main as a segment between two boundaries of the fold: entered from every unscoped buffer at the
  contents before it, left at the contents after it. Its arrays are split out of the unscoped buffers and put back at what
  the pipeline leaves: the input arrays as entered, the output array at its folded write-backs, every other buffer
  untouched. The generator register goes into the pipeline's invariant and comes back; nothing is owed; the kernel has no
  semaphore of its own.
-/
import proofs.«157524_j37503654429443_1_alg».proof.Proof.KI.Stage
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At the region's exit each of its arrays holds what the pipeline leaves: an input array its entry contents, the output
    array its folded write-backs. -/
theorem hF4 (c : Dev nD) : ∀ w : Fin cfg4.W, (pdats m 4 c).arrAt w cfg4.N = rd (W12 m) c (Pipeline.arrRef spec4 w)
  | ⟨0, _⟩ => (((dat4 (rd (W11 m)) c).arrAt_in 0 rfl _).trans (A_eq4 _ c 0)).trans (W12_of m c _ (by decide : Pipeline.arrRef spec4 0 ≠ main_v61)).symm
  | ⟨1, _⟩ => (((dat4 (rd (W11 m)) c).arrAt_in 1 rfl _).trans (A_eq4 _ c 1)).trans (W12_of m c _ (by decide : Pipeline.arrRef spec4 1 ≠ main_v61)).symm
  | ⟨2, _⟩ => (((dat4 (rd (W11 m)) c).arrAt_in 2 rfl _).trans (A_eq4 _ c 2)).trans (W12_of m c _ (by decide : Pipeline.arrRef spec4 2 ≠ main_v61)).symm
  | ⟨3, _⟩ => (((dat4 (rd (W11 m)) c).arrAt_in 3 rfl _).trans (A_eq4 _ c 3)).trans (W12_of m c _ (by decide : Pipeline.arrRef spec4 3 ≠ main_v61)).symm
  | ⟨4, _⟩ => (O4_def m c).symm.trans (W12_self m c).symm

/-- Every buffer that is none of the region's arrays holds at the exit what it held at the entry. -/
theorem hrest4 (c : Dev nD) : ∀ b, b ∉ Finset.univ.image (Pipeline.arrRef spec4) → rd (W12 m) c b = rd (W11 m) c b :=
  fun b hb => W12_of m c b fun e => hb (Finset.mem_image.mpr ⟨4, Finset.mem_univ _, by subst e; first | rfl | decide⟩)

set_option maxHeartbeats 4000000 in
set_option backward.isDefEq.respectTransparency.types false in
/-- The region's segment record. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (rd (W11 m)) c).loose
  hwaits := Pipeline.hwaits_of_owed_zero _ _ _ _ L lv 4 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec4 c (rd (W11 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (rd (W11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (rd (W11 m) c) (rd (W12 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The record is entered from the conditional run's valuation before the region and left at the one after it. -/
theorem hpre4 (c : Dev nD) : iprop(StableHlo.held (c : Thread nD τ) (Pipeline.ucRefs τ sig) (V11 m (outs m) c) ∗ R c) ⊢ (reg4 m).pre c := by
  rw [V11_eq]; exact .rfl
theorem hpost4 (c : Dev nD) : (reg4 m).post c ⊢ iprop(StableHlo.held (c : Thread nD τ) (Pipeline.ucRefs τ sig) (V12 m (outs m) c) ∗ R c) := by
  rw [V12_eq]; exact .rfl

end Cert.KernelIdeal.Hand

end
-- ==== Proof.KI.Reg5.lean ====
/-
  Region 5 of @main as a segment between two boundaries of the fold: entered from every unscoped buffer at the
  contents before it, left at the contents after it. Its arrays are split out of the unscoped buffers and put back at what
  the pipeline leaves: the input arrays as entered, the output array at its folded write-backs, every other buffer
  untouched. The generator register goes into the pipeline's invariant and comes back; nothing is owed; the kernel has no
  semaphore of its own.
-/
import proofs.«157524_j37503654429443_1_alg».proof.Proof.KI.Stage
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At the region's exit each of its arrays holds what the pipeline leaves: an input array its entry contents, the output
    array its folded write-backs. -/
theorem hF5 (c : Dev nD) : ∀ w : Fin cfg5.W, (pdats m 5 c).arrAt w cfg5.N = rd (W16 m) c (Pipeline.arrRef spec5 w)
  | ⟨0, _⟩ => (((dat5 (rd (W15 m)) c).arrAt_in 0 rfl _).trans (A_eq5 _ c 0)).trans (W16_of m c _ (by decide : Pipeline.arrRef spec5 0 ≠ main_v80)).symm
  | ⟨1, _⟩ => (((dat5 (rd (W15 m)) c).arrAt_in 1 rfl _).trans (A_eq5 _ c 1)).trans (W16_of m c _ (by decide : Pipeline.arrRef spec5 1 ≠ main_v80)).symm
  | ⟨2, _⟩ => (((dat5 (rd (W15 m)) c).arrAt_in 2 rfl _).trans (A_eq5 _ c 2)).trans (W16_of m c _ (by decide : Pipeline.arrRef spec5 2 ≠ main_v80)).symm
  | ⟨3, _⟩ => (((dat5 (rd (W15 m)) c).arrAt_in 3 rfl _).trans (A_eq5 _ c 3)).trans (W16_of m c _ (by decide : Pipeline.arrRef spec5 3 ≠ main_v80)).symm
  | ⟨4, _⟩ => (((dat5 (rd (W15 m)) c).arrAt_in 4 rfl _).trans (A_eq5 _ c 4)).trans (W16_of m c _ (by decide : Pipeline.arrRef spec5 4 ≠ main_v80)).symm
  | ⟨5, _⟩ => (((dat5 (rd (W15 m)) c).arrAt_in 5 rfl _).trans (A_eq5 _ c 5)).trans (W16_of m c _ (by decide : Pipeline.arrRef spec5 5 ≠ main_v80)).symm
  | ⟨6, _⟩ => (((dat5 (rd (W15 m)) c).arrAt_in 6 rfl _).trans (A_eq5 _ c 6)).trans (W16_of m c _ (by decide : Pipeline.arrRef spec5 6 ≠ main_v80)).symm
  | ⟨7, _⟩ => (O5_def m c).symm.trans (W16_self m c).symm

/-- Every buffer that is none of the region's arrays holds at the exit what it held at the entry. -/
theorem hrest5 (c : Dev nD) : ∀ b, b ∉ Finset.univ.image (Pipeline.arrRef spec5) → rd (W16 m) c b = rd (W15 m) c b :=
  fun b hb => W16_of m c b fun e => hb (Finset.mem_image.mpr ⟨7, Finset.mem_univ _, by subst e; first | rfl | decide⟩)

set_option maxHeartbeats 4000000 in
set_option backward.isDefEq.respectTransparency.types false in
/-- The region's segment record. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (rd (W15 m)) c).loose
  hwaits := Pipeline.hwaits_of_owed_zero _ _ _ _ L lv 5 fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec5 c (rd (W15 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (rd (W15 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (rd (W15 m) c) (rd (W16 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The record is entered from the conditional run's valuation before the region and left at the one after it. -/
theorem hpre5 (c : Dev nD) : iprop(StableHlo.held (c : Thread nD τ) (Pipeline.ucRefs τ sig) (V15 m (outs m) c) ∗ R c) ⊢ (reg5 m).pre c := by
  rw [V15_eq]; exact .rfl
theorem hpost5 (c : Dev nD) : (reg5 m).post c ⊢ iprop(StableHlo.held (c : Thread nD τ) (Pipeline.ucRefs τ sig) (V16 m (outs m) c) ∗ R c) := by
  rw [V16_eq]; exact .rfl

end Cert.KernelIdeal.Hand

end
-- ==== Proof.KI.Reg6.lean ====
/-
  Region 6 of @main as a segment between two boundaries of the fold: entered from every unscoped buffer at the
  contents before it, left at the contents after it. Its arrays are split out of the unscoped buffers and put back at what
  the pipeline leaves: the input arrays as entered, the output array at its folded write-backs, every other buffer
  untouched. The generator register goes into the pipeline's invariant and comes back; nothing is owed; the kernel has no
  semaphore of its own.
-/
import proofs.«157524_j37503654429443_1_alg».proof.Proof.KI.Stage
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At the region's exit each of its arrays holds what the pipeline leaves: an input array its entry contents, the output
    array its folded write-backs. -/
theorem hF6 (c : Dev nD) : ∀ w : Fin cfg6.W, (pdats m 6 c).arrAt w cfg6.N = rd (W18 m) c (Pipeline.arrRef spec6 w)
  | ⟨0, _⟩ => (((dat6 (rd (W17 m)) c).arrAt_in 0 rfl _).trans (A_eq6 _ c 0)).trans (W18_of m c _ (by decide : Pipeline.arrRef spec6 0 ≠ main_v91)).symm
  | ⟨1, _⟩ => (((dat6 (rd (W17 m)) c).arrAt_in 1 rfl _).trans (A_eq6 _ c 1)).trans (W18_of m c _ (by decide : Pipeline.arrRef spec6 1 ≠ main_v91)).symm
  | ⟨2, _⟩ => (O6_def m c).symm.trans (W18_self m c).symm

/-- Every buffer that is none of the region's arrays holds at the exit what it held at the entry. -/
theorem hrest6 (c : Dev nD) : ∀ b, b ∉ Finset.univ.image (Pipeline.arrRef spec6) → rd (W18 m) c b = rd (W17 m) c b :=
  fun b hb => W18_of m c b fun e => hb (Finset.mem_image.mpr ⟨2, Finset.mem_univ _, by subst e; first | rfl | decide⟩)

set_option maxHeartbeats 4000000 in
set_option backward.isDefEq.respectTransparency.types false in
/-- The region's segment record. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (rd (W17 m)) c).loose
  hwaits := Pipeline.hwaits_of_owed_zero _ _ _ _ L lv 6 fun _ _ => rfl
  pre c := iprop(StableHlo.held (c : Thread nD τ) (Pipeline.ucRefs τ sig) (W17 m c) ∗ R c)
  post c := iprop(StableHlo.held (c : Thread nD τ) (Pipeline.ucRefs τ sig) (W18 m c) ∗ R c)
  X c := iprop(∃ r, prngReg c r)
  Y c := iprop(∃ r, prngReg c r)
  Z c := Pipeline.unscopedRest (Ix := Unit) (Name := ℕ) (U := UR sig nD τ) (Lvl := ℕ) spec6 c (rd (W17 m) c)
  hentry c := by
    rw [Pipeline.ownSems0_none]
    have hsplit := Pipeline.arrays_of_unscopedBufs (p := 6) (pcfgs (F := F)) adm (pdats m) launch6.win launch6.arr_whole c
      ((pdats m 6 c).share_full fun _ => rfl) (rd (W17 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (rd (W17 m) c) (rd (W18 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The record is entered from the conditional run's valuation before the region and left at the one after it. -/
theorem hpre6 (c : Dev nD) : iprop(StableHlo.held (c : Thread nD τ) (Pipeline.ucRefs τ sig) (V17 m (outs m) c) ∗ R c) ⊢ (reg6 m).pre c := by
  rw [V17_eq]; exact .rfl
theorem hpost6 (c : Dev nD) : (reg6 m).post c ⊢ iprop(StableHlo.held (c : Thread nD τ) (Pipeline.ucRefs τ sig) (V18 m (outs m) c) ∗ R c) := by
  rw [V18_eq]; exact .rfl

end Cert.KernelIdeal.Hand

end
-- ==== Proof.KI.Reg7.lean ====
/-
  Region 7 of @main as a segment between two boundaries of the fold: entered from every unscoped buffer at the
  contents before it, left at the contents after it. Its arrays are split out of the unscoped buffers and put back at what
  the pipeline leaves: the input arrays as entered, the output array at its folded write-backs, every other buffer
  untouched. The generator register goes into the pipeline's invariant and comes back; nothing is owed; the kernel has no
  semaphore of its own.
-/
import proofs.«157524_j37503654429443_1_alg».proof.Proof.KI.Stage
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At the region's exit each of its arrays holds what the pipeline leaves: an input array its entry contents, the output
    array its folded write-backs. -/
theorem hF7 (c : Dev nD) : ∀ w : Fin cfg7.W, (pdats m 7 c).arrAt w cfg7.N = rd (W20 m) c (Pipeline.arrRef spec7 w)
  | ⟨0, _⟩ => (((dat7 (rd (W19 m)) c).arrAt_in 0 rfl _).trans (A_eq7 _ c 0)).trans (W20_of m c _ (by decide : Pipeline.arrRef spec7 0 ≠ main_v101)).symm
  | ⟨1, _⟩ => (((dat7 (rd (W19 m)) c).arrAt_in 1 rfl _).trans (A_eq7 _ c 1)).trans (W20_of m c _ (by decide : Pipeline.arrRef spec7 1 ≠ main_v101)).symm
  | ⟨2, _⟩ => (((dat7 (rd (W19 m)) c).arrAt_in 2 rfl _).trans (A_eq7 _ c 2)).trans (W20_of m c _ (by decide : Pipeline.arrRef spec7 2 ≠ main_v101)).symm
  | ⟨3, _⟩ => (((dat7 (rd (W19 m)) c).arrAt_in 3 rfl _).trans (A_eq7 _ c 3)).trans (W20_of m c _ (by decide : Pipeline.arrRef spec7 3 ≠ main_v101)).symm
  | ⟨4, _⟩ => (O7_def m c).symm.trans (W20_self m c).symm

/-- Every buffer that is none of the region's arrays holds at the exit what it held at the entry. -/
theorem hrest7 (c : Dev nD) : ∀ b, b ∉ Finset.univ.image (Pipeline.arrRef spec7) → rd (W20 m) c b = rd (W19 m) c b :=
  fun b hb => W20_of m c b fun e => hb (Finset.mem_image.mpr ⟨4, Finset.mem_univ _, by subst e; first | rfl | decide⟩)

set_option maxHeartbeats 4000000 in
set_option backward.isDefEq.respectTransparency.types false in
/-- The region's segment record. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (rd (W19 m)) c).loose
  hwaits := Pipeline.hwaits_of_owed_zero _ _ _ _ L lv 7 fun _ _ => rfl
  pre c := iprop(StableHlo.held (c : Thread nD τ) (Pipeline.ucRefs τ sig) (W19 m c) ∗ R c)
  post c := iprop(StableHlo.held (c : Thread nD τ) (Pipeline.ucRefs τ sig) (W20 m c) ∗ R c)
  X c := iprop(∃ r, prngReg c r)
  Y c := iprop(∃ r, prngReg c r)
  Z c := Pipeline.unscopedRest (Ix := Unit) (Name := ℕ) (U := UR sig nD τ) (Lvl := ℕ) spec7 c (rd (W19 m) c)
  hentry c := by
    rw [Pipeline.ownSems0_none]
    have hsplit := Pipeline.arrays_of_unscopedBufs (p := 7) (pcfgs (F := F)) adm (pdats m) launch7.win launch7.arr_whole c
      ((pdats m 7 c).share_full fun _ => rfl) (rd (W19 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (rd (W19 m) c) (rd (W20 m) c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The record is entered from the conditional run's valuation before the region and left at the one after it. -/
theorem hpre7 (c : Dev nD) : iprop(StableHlo.held (c : Thread nD τ) (Pipeline.ucRefs τ sig) (V19 m (outs m) c) ∗ R c) ⊢ (reg7 m).pre c := by
  rw [V19_eq]; exact .rfl
theorem hpost7 (c : Dev nD) : (reg7 m).post c ⊢ iprop(StableHlo.held (c : Thread nD τ) (Pipeline.ucRefs τ sig) (V20 m (outs m) c) ∗ R c) := by
  rw [V20_eq]; exact .rfl

end Cert.KernelIdeal.Hand

end
-- ==== Proof.KI.Reg8.lean ====
/-
  Region 8 of @main as a segment between two boundaries of the fold: entered from every unscoped buffer at the
  contents before it, left at the contents after it. Its arrays are split out of the unscoped buffers and put back at what
  the pipeline leaves: the input arrays as entered, the output array at its folded write-backs, every other buffer
  untouched. The generator register goes into the pipeline's invariant and comes back; nothing is owed; the kernel has no
  semaphore of its own.
-/
import proofs.«157524_j37503654429443_1_alg».proof.Proof.KI.Stage
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At the region's exit each of its arrays holds what the pipeline leaves: an input array its entry contents, the output
    array its folded write-backs. -/
theorem hF8 (c : Dev nD) : ∀ w : Fin cfg8.W, (pdats m 8 c).arrAt w cfg8.N = rd (W24 m) c (Pipeline.arrRef spec8 w)
  | ⟨0, _⟩ => (((dat8 (rd (W23 m)) c).arrAt_in 0 rfl _).trans (A_eq8 _ c 0)).trans (W24_of m c _ (by decide : Pipeline.arrRef spec8 0 ≠ main_v120)).symm
  | ⟨1, _⟩ => (((dat8 (rd (W23 m)) c).arrAt_in 1 rfl _).trans (A_eq8 _ c 1)).trans (W24_of m c _ (by decide : Pipeline.arrRef spec8 1 ≠ main_v120)).symm
  | ⟨2, _⟩ => (((dat8 (rd (W23 m)) c).arrAt_in 2 rfl _).trans (A_eq8 _ c 2)).trans (W24_of m c _ (by decide : Pipeline.arrRef spec8 2 ≠ main_v120)).symm
  | ⟨3, _⟩ => (((dat8 (rd (W23 m)) c).arrAt_in 3 rfl _).trans (A_eq8 _ c 3)).trans (W24_of m c _ (by decide : Pipeline.arrRef spec8 3 ≠ main_v120)).symm
  | ⟨4, _⟩ => (((dat8 (rd (W23 m)) c).arrAt_in 4 rfl _).trans (A_eq8 _ c 4)).trans (W24_of m c _ (by decide : Pipeline.arrRef spec8 4 ≠ main_v120)).symm
  | ⟨5, _⟩ => (((dat8 (rd (W23 m)) c).arrAt_in 5 rfl _).trans (A_eq8 _ c 5)).trans (W24_of m c _ (by decide : Pipeline.arrRef spec8 5 ≠ main_v120)).symm
  | ⟨6, _⟩ => (((dat8 (rd (W23 m)) c).arrAt_in 6 rfl _).trans (A_eq8 _ c 6)).trans (W24_of m c _ (by decide : Pipeline.arrRef spec8 6 ≠ main_v120)).symm
  | ⟨7, _⟩ => (O8_def m c).symm.trans (W24_self m c).symm

/-- Every buffer that is none of the region's arrays holds at the exit what it held at the entry. -/
theorem hrest8 (c : Dev nD) : ∀ b, b ∉ Finset.univ.image (Pipeline.arrRef spec8) → rd (W24 m) c b = rd (W23 m) c b :=
  fun b hb => W24_of m c b fun e => hb (Finset.mem_image.mpr ⟨7, Finset.mem_univ _, by subst e; first | rfl | decide⟩)

set_option maxHeartbeats 4000000 in
set_option backward.isDefEq.respectTransparency.types false in
/-- The region's segment record. -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (rd (W23 m)) c).loose
  hwaits := Pipeline.hwaits_of_owed_zero _ _ _ _ L lv 8 fun _ _ => rfl
  pre c := iprop(StableHlo.held (c : Thread nD τ) (Pipeline.ucRefs τ sig) (W23 m c) ∗ R c)
  post c := iprop(StableHlo.held (c : Thread nD τ) (Pipeline.ucRefs τ sig) (W24 m c) ∗ R c)
  X c := iprop(∃ r, prngReg c r)
  Y c := iprop(∃ r, prngReg c r)
  Z c := Pipeline.unscopedRest (Ix := Unit) (Name := ℕ) (U := UR sig nD τ) (Lvl := ℕ) spec8 c (rd (W23 m) c)
  hentry c := by
    rw [Pipeline.ownSems0_none]
    have hsplit := Pipeline.arrays_of_unscopedBufs (p := 8) (pcfgs (F := F)) adm (pdats m) launch8.win launch8.arr_whole c
      ((pdats m 8 c).share_full fun _ => rfl) (rd (W23 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (rd (W23 m) c) (rd (W24 m) c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The record is entered from the conditional run's valuation before the region and left at the one after it. -/
theorem hpre8 (c : Dev nD) : iprop(StableHlo.held (c : Thread nD τ) (Pipeline.ucRefs τ sig) (V23 m (outs m) c) ∗ R c) ⊢ (reg8 m).pre c := by
  rw [V23_eq]; exact .rfl
theorem hpost8 (c : Dev nD) : (reg8 m).post c ⊢ iprop(StableHlo.held (c : Thread nD τ) (Pipeline.ucRefs τ sig) (V24 m (outs m) c) ∗ R c) := by
  rw [V24_eq]; exact .rfl

end Cert.KernelIdeal.Hand

end
-- ==== Proof.KI.RunMain.lean ====
/-
  The run of the whole program: every weakly fair execution of @main terminates, nothing faulting; the ten argument arrays
  end as launched; the node features after the third layer end at what the last boundary of the fold holds for them, and
  so do the concatenated per-graph sums.
-/
import proofs.«157524_j37503654429443_1_alg».proof.Proof.KI.Reg0
import proofs.«157524_j37503654429443_1_alg».proof.Proof.KI.Reg1
import proofs.«157524_j37503654429443_1_alg».proof.Proof.KI.Reg2
import proofs.«157524_j37503654429443_1_alg».proof.Proof.KI.Reg3
import proofs.«157524_j37503654429443_1_alg».proof.Proof.KI.Reg4
import proofs.«157524_j37503654429443_1_alg».proof.Proof.KI.Reg5
import proofs.«157524_j37503654429443_1_alg».proof.Proof.KI.Reg6
import proofs.«157524_j37503654429443_1_alg».proof.Proof.KI.Reg7
import proofs.«157524_j37503654429443_1_alg».proof.Proof.KI.Reg8

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

variable (m : (ℓ : Loc nD τ sig) → Buf (Elt F) ℓ) (ρ : Dev nD → PrngReg)

theorem run_main : θ_run defs (onTc (τ := τ) (main (F := F))) ⟨m, fun _ => 0, ρ⟩ (fun r => ∀ c : Dev nD,
      r.2.mem ((c.tc : Thread nD τ).loc main_v120) = W25 m c (Proc.devRef .tc main_v120)
      ∧ r.2.mem ((c.tc : Thread nD τ).loc main_v124) = W25 m c (Proc.devRef .tc main_v124)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine (θ_run defs _ _).mono (fun r h c => ?_) (run_of_regions m ρ (outs m) (pdats m) (reg0 m) (hpre0 m) (hpost0 m) (reg1 m) (hpre1 m) (hpost1 m) (reg2 m) (hpre2 m) (hpost2 m) (reg3 m) (hpre3 m) (hpost3 m) (reg4 m) (hpre4 m) (hpost4 m) (reg5 m) (hpre5 m) (hpost5 m) (reg6 m) (hpre6 m) (hpost6 m) (reg7 m) (hpre7 m) (hpost7 m) (reg8 m) (hpre8 m) (hpost8 m))
  have hc := h c
  rw [V25_eq] at hc
  exact hc

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => (h c).2.2) (run_main m ρ)

end Cert.KernelIdeal.Hand

end
-- ==== Proof.KI.EdgeSpec.lean ====
/- The edge kernel's whole-array function: each entry of the output is the sum of the two inputs' entries at the same
   place, cut below at zero. On the extended reals, index by index over the [160000, 512] arrays. -/
import Idealize.ShloMosaic.PureOps.Ideal
import Idealize.ShloMosaic.Lib.ValueIdx
import proofs.«157524_j37503654429443_1_alg».proof.KernelIdeal

noncomputable section

namespace Cert.KernelIdeal.Hand

open Cert.KernelIdeal
open Idealize.ShloMosaic Idealize.ShloMosaic.ValueIdx

/-- `Gedge x y` at an index is `max (x + y) 0` of the two operands' entries at that index: the gathered rows plus the
    edge weights, then the rectifier. -/
def Gedge (x y : FVec Ideal S160000x512 .f32) : FVec Ideal S160000x512 .f32 :=
  fun i => max (x i + y i) 0

/-- `Gedge` read at any index. -/
theorem Gedge_apply (x y : FVec Ideal S160000x512 .f32) (i : S160000x512.Idx) : Gedge x y i = max (x i + y i) 0 := rfl

/-- `Gedge` read at row `r`, column `q`. -/
theorem Gedge_ix2 (x y : FVec Ideal S160000x512 .f32) (r : Fin 160000) (q : Fin 512) :
    Gedge x y (ix2 r q) = max (x (ix2 r q) + y (ix2 r q)) 0 := rfl

end Cert.KernelIdeal.Hand
-- ==== Proof.KI.Mlp1Spec.lean ====
/- The first dense layer of a graph-isomorphism block, as one function of whole arrays on the extended reals.
   For node features `z` and aggregated messages `aggr` (20000 nodes by 512 channels), a 512 by 512 weight
   matrix `w` (stored so that row `k` holds the weights out of input channel `k`) and a bias row `b`:
     out[r, c] = (∑ k, (z[r, k] + aggr[r, k]) * w[k, c]) + b[0, c].
   Roundings of the operands to a narrower float format are the identity on the extended reals, so none appears.
   Also here: the same function on one block of 2000 rows, the fact that a row block of the whole-array function
   is the block function of the row blocks, and a product of a 2000 by 512 with a 512 by 512 matrix into a zero
   accumulator read at an entry as the sum over the contracted channel. -/
import proofs.«157524_j37503654429443_1_alg».proof.KernelIdeal
import Idealize.ShloMosaic.PureOps.Ideal
import Idealize.ShloMosaic.PureOps.Ideal.Laws
import Idealize.ShloMosaic.Lib.ValueIdx

noncomputable section

open scoped BigOperators

namespace Cert.KernelIdeal.Hand

open Cert.KernelIdeal
open Idealize.ShloMosaic Idealize.ShloMosaic.ValueIdx

/-- The offsets of an access of a whole rank-2 buffer. -/
theorem zero_offsets : (![0, 0] : Fin 2 → Nat) = fun _ => 0 := funext fun a => by fin_cases a <;> rfl

/-- The layer on whole arrays, entry by entry: row `r` of the sum of the two feature arrays against column `c`
    of the weight matrix, plus the bias of channel `c`. -/
def Gmlp1 (z aggr : FVec Ideal S20000x512 .f32) (w : FVec Ideal S512x512 .f32) (b : FVec Ideal S1x512 .f32) :
    FVec Ideal S20000x512 .f32 := fun i =>
  (∑ k : Fin 512, (z (ix2 (n0 := 20000) (n1 := 512) (i 0) k) + aggr (ix2 (n0 := 20000) (n1 := 512) (i 0) k))
      * w (ix2 (n0 := 512) (n1 := 512) k (i 1)))
    + b (ix2 (n0 := 1) (n1 := 512) 0 (i 1))

/-- The same layer on one block of 2000 rows. -/
def mlp1Block (x0 x1 : FVec Ideal S2000x512 .f32) (w : FVec Ideal S512x512 .f32) (b : FVec Ideal S1x512 .f32) :
    FVec Ideal S2000x512 .f32 := fun j =>
  (∑ k : Fin 512, (x0 (ix2 (n0 := 2000) (n1 := 512) (j 0) k) + x1 (ix2 (n0 := 2000) (n1 := 512) (j 0) k))
      * w (ix2 (n0 := 512) (n1 := 512) k (j 1)))
    + b (ix2 (n0 := 1) (n1 := 512) 0 (j 1))

/-- An entry of the block function is the entry of the whole-array function whose row holds the same features
    and whose column is the same channel: the layer reads one row of the features, one column of the weights and
    one bias. -/
theorem mlp1Block_eq_Gmlp1 (z aggr : FVec Ideal S20000x512 .f32) (w : FVec Ideal S512x512 .f32) (b : FVec Ideal S1x512 .f32)
    (x0 x1 : FVec Ideal S2000x512 .f32) (x2 : FVec Ideal S512x512 .f32) (x3 : FVec Ideal S1x512 .f32)
    (j : S2000x512.Idx) (i : S20000x512.Idx)
    (h0 : ∀ k : Fin 512, x0 (ix2 (n0 := 2000) (n1 := 512) (j 0) k) = z (ix2 (n0 := 20000) (n1 := 512) (i 0) k))
    (h1 : ∀ k : Fin 512, x1 (ix2 (n0 := 2000) (n1 := 512) (j 0) k) = aggr (ix2 (n0 := 20000) (n1 := 512) (i 0) k))
    (h2 : ∀ k : Fin 512, x2 (ix2 (n0 := 512) (n1 := 512) k (j 1)) = w (ix2 (n0 := 512) (n1 := 512) k (i 1)))
    (h3 : x3 (ix2 (n0 := 1) (n1 := 512) 0 (j 1)) = b (ix2 (n0 := 1) (n1 := 512) 0 (i 1))) :
    mlp1Block x0 x1 x2 x3 j = Gmlp1 z aggr w b i := by
  unfold mlp1Block Gmlp1
  rw [h3]
  exact congrArg (· + b (ix2 (n0 := 1) (n1 := 512) 0 (i 1)))
    (Finset.sum_congr rfl fun k _ => by rw [h0 k, h1 k, h2 k])

section Matmul
variable [Facts₀]
open Facts₀

/-- The product of a 2000 by 512 matrix with a 512 by 512 matrix (the left operand's columns against the right
    operand's rows) into a zero accumulator, at entry (p, q): the sum over the contracted channel `k` of the
    products of entry (p, k) of the left operand and entry (k, q) of the right. -/
theorem matmul_2000x512_512x512_apply {φ₁ φ₂ : FTy} (A : FVec Ideal S2000x512 φ₁) (B : FVec Ideal S512x512 φ₂) (p : Fin 2000) (q : Fin 512) :
    matmul dot_S2000x512_S512x512_S2000x512_1_0_0_1_n_n none A B (constant (F := Ideal) S2000x512 .f32 0x00000000#32) (ix2 p q)
      = ∑ k : Fin 512, A (ix2 p k) * B (ix2 k q) := by
  show FloatOps.matmul dot_S2000x512_S512x512_S2000x512_1_0_0_1_n_n none A B (constant (F := Ideal) S2000x512 .f32 0x00000000#32) (ix2 p q) = _
  rw [Ideal.matmul_constant_zero_apply,
    ← Equiv.sum_comp (contrEquiv1 dot_S2000x512_S512x512_S2000x512_1_0_0_1_n_n 512 rfl rfl).symm]
  refine Finset.sum_congr rfl fun k _ => ?_
  have ck := contrEquiv1_symm_val dot_S2000x512_S512x512_S2000x512_1_0_0_1_n_n 512 rfl rfl k
  have l2 : dot_S2000x512_S512x512_S2000x512_1_0_0_1_n_n.lhsIdx (ix2 p q) ((contrEquiv1 _ 512 rfl rfl).symm k) = ix2 p k := by
    funext ax; apply Fin.ext
    match ax with
    | ⟨0, _⟩ => simp [DotDims.lhsIdx, dot_S2000x512_S512x512_S2000x512_1_0_0_1_n_n]; rfl
    | ⟨1, _⟩ => simp [DotDims.lhsIdx, dot_S2000x512_S512x512_S2000x512_1_0_0_1_n_n]; exact ck
  have r2 : dot_S2000x512_S512x512_S2000x512_1_0_0_1_n_n.rhsIdx (ix2 p q) ((contrEquiv1 _ 512 rfl rfl).symm k) = ix2 k q := by
    funext ax; apply Fin.ext
    match ax with
    | ⟨0, _⟩ => simp [DotDims.rhsIdx, dot_S2000x512_S512x512_S2000x512_1_0_0_1_n_n]; exact ck
    | ⟨1, _⟩ => simp [DotDims.rhsIdx, dot_S2000x512_S512x512_S2000x512_1_0_0_1_n_n]; rfl
  rw [l2, r2]

end Matmul

end Cert.KernelIdeal.Hand

end
-- ==== Proof.KI.Mlp2Spec.lean ====
/- The second dense layer of one block of a graph network, as ONE function of whole arrays on the extended reals.
   Given node features `h` (20000 rows of 512), a row of means `mu`, a row of variances `var`, a row of scales `gamma`, a
   row of shifts `beta`, a 512x512 weight `w` (already transposed: row = input feature, column = output feature) and a
   row of biases `b`, entry (r, c) of the result is
       max (∑ k, max ((h r k - mu k) * rsqrt (var k + ε) * gamma k + beta k) 0 * w k c + b c) 0
   with ε the single-precision number nearest 1e-5. There is no rounding anywhere: at the ideal values a change of
   float format is the identity, so the two roundings to half precision before the product do not appear. -/
import proofs.«157524_j37503654429443_1_alg».proof.KernelIdeal
import Idealize.ShloMosaic.PureOps.Ideal
import Idealize.ShloMosaic.Lib.ValueIdx

noncomputable section

open scoped BigOperators

namespace Cert.KernelIdeal.Hand

open Idealize.ShloMosaic Idealize.ShloMosaic.ValueIdx

/-- One entry of the normalised, scaled, shifted and rectified features. -/
def mlp2Act (h mu var gamma beta : EReal) : EReal :=
  max ((h - mu) * Ideal.rsqrt (var + Ideal.ofBits .f32 0x3727C5AC#32) * gamma + beta) 0

/-- Entry (r, c) of the layer's result, for features of any number `n` of rows: the rectified features of row `r`
    against column `c` of the weight, plus the bias, rectified. Only row `r` of the features is read. -/
def mlp2At {n : Nat} (h : FVec Ideal ⟨2, ![n, 512]⟩ .f32) (mu var gamma beta : FVec Ideal ⟨2, ![1, 512]⟩ .f32)
    (w : FVec Ideal ⟨2, ![512, 512]⟩ .f32) (b : FVec Ideal ⟨2, ![1, 512]⟩ .f32) (r : Fin n) (c : Fin 512) : EReal :=
  max ((∑ k : Fin 512, mlp2Act (h (ix2 r k)) (mu (ix2 (0 : Fin 1) k)) (var (ix2 (0 : Fin 1) k)) (gamma (ix2 (0 : Fin 1) k))
      (beta (ix2 (0 : Fin 1) k)) * w (ix2 k c)) + b (ix2 (0 : Fin 1) c)) 0

/-- The layer on whole arrays, the operands in the order the pipelined call takes them. -/
def Gmlp2 (h : FVec Ideal S20000x512 .f32) (mu var gamma beta : FVec Ideal S1x512 .f32) (w : FVec Ideal S512x512 .f32)
    (b : FVec Ideal S1x512 .f32) : FVec Ideal S20000x512 .f32 :=
  fun i => mlp2At (n := 20000) h mu var gamma beta w b (i 0) (i 1)

/-- An entry depends on its operands only through row `r` of the features, the five rows, and column `c` of the weight:
    two families of operands that agree there give the same entry, whatever their numbers of rows. -/
theorem mlp2At_congr {n n' : Nat} (h : FVec Ideal ⟨2, ![n, 512]⟩ .f32) (h' : FVec Ideal ⟨2, ![n', 512]⟩ .f32)
    (mu var gamma beta mu' var' gamma' beta' : FVec Ideal ⟨2, ![1, 512]⟩ .f32)
    (w w' : FVec Ideal ⟨2, ![512, 512]⟩ .f32) (b b' : FVec Ideal ⟨2, ![1, 512]⟩ .f32) (r : Fin n) (r' : Fin n') (c c' : Fin 512)
    (e0 : ∀ k : Fin 512, h (ix2 r k) = h' (ix2 r' k))
    (e1 : ∀ k : Fin 512, mu (ix2 (0 : Fin 1) k) = mu' (ix2 (0 : Fin 1) k))
    (e2 : ∀ k : Fin 512, var (ix2 (0 : Fin 1) k) = var' (ix2 (0 : Fin 1) k))
    (e3 : ∀ k : Fin 512, gamma (ix2 (0 : Fin 1) k) = gamma' (ix2 (0 : Fin 1) k))
    (e4 : ∀ k : Fin 512, beta (ix2 (0 : Fin 1) k) = beta' (ix2 (0 : Fin 1) k))
    (e5 : ∀ k : Fin 512, w (ix2 k c) = w' (ix2 k c'))
    (e6 : b (ix2 (0 : Fin 1) c) = b' (ix2 (0 : Fin 1) c')) :
    mlp2At h mu var gamma beta w b r c = mlp2At h' mu' var' gamma' beta' w' b' r' c' := by
  unfold mlp2At
  rw [e6]
  refine congrArg (fun s => max (s + b' (ix2 (0 : Fin 1) c')) 0) ?_
  exact Finset.sum_congr rfl fun k _ => by rw [e0 k, e1 k, e2 k, e3 k, e4 k, e5 k]

end Cert.KernelIdeal.Hand
-- ==== Proof.KI.Terms.lean ====
/- What the kernel program computes, as functions of arrays on the extended reals: one function for a layer of the network —
   the source nodes' rows gathered along the edges, the edge kernel (`Gedge`: sum with the edge's features, clipped below at
   zero), the messages summed at their target nodes, the first dense kernel (`Gmlp1`), the batch's own mean and variance of
   its result taken by the host, the second dense kernel (`Gmlp2`: normalization, activation, linear map, activation) —,
   one for a readout (the node features summed per graph), and the network's two results as their compositions. Every host
   operation is the program's own, in its order. -/
import proofs.«157524_j37503654429443_1_alg».proof.Proof.Gen.KernelIdeal
import proofs.«157524_j37503654429443_1_alg».proof.Proof.KI.EdgeSpec
import proofs.«157524_j37503654429443_1_alg».proof.Proof.KI.Mlp1Spec
import proofs.«157524_j37503654429443_1_alg».proof.Proof.KI.Mlp2Spec

noncomputable section

namespace Cert.KernelIdeal.Hand

open Cert.KernelIdeal Cert.KernelIdeal.Gen Idealize.ShloMosaic

/-! ## The edge table -/

/-- Row 0 / row 1 of the 2 × E edge table as a flat array of E node indices. -/
def srcOf (ei : IVec S2x160000 32) : IVec S160000 32 :=
  shapeCast S160000 (extractStridedSlice S1x160000 ![0, 0] ei slices_S2x160000_S1x160000_0_0) shapeCasts_S1x160000_S160000
@[inherit_doc srcOf]
def dstOf (ei : IVec S2x160000 32) : IVec S160000 32 :=
  shapeCast S160000 (extractStridedSlice S1x160000 ![1, 0] ei slices_S2x160000_S1x160000_1_0) shapeCasts_S1x160000_S160000

/-- A node index read from the end when negative, as a column of start indices. -/
def wrapIdx (src : IVec S160000 32) : IVec S160000x1 32 :=
  broadcastInDim S160000x1 ![0] bcast_S160000_S160000x1_0
    (select (cmpi .slt src (broadcastInDim S160000 ![] bcast_S_S160000 (constantI S_ 32 0#32)))
      (addi src (broadcastInDim S160000 ![] bcast_S_S160000 (constantI S_ 32 20000#32))) src)

/-! ## One layer -/

/-- The source node's features of every edge. -/
def gathered (z : FVec Ideal S20000x512 .f32) (src : IVec S160000 32) : FVec Ideal S160000x512 .f32 :=
  Host.gather gather_S20000x512_S160000x1_S160000x512_1_0_n_n_0_1_1512 z (wrapIdx src)

/-- The messages summed at their target nodes. -/
def summed (msg : FVec Ideal S160000x512 .f32) (dst : IVec S160000 32) : FVec Ideal S20000x512 .f32 :=
  Host.scatterAdd (F := Ideal) scatter_S20000x512_S160000x1_S160000x512_1_0_0_1
    (broadcastInDim S20000x512 ![] bcast_S_S20000x512 (constant (F := Ideal) S_ .f32 0x00000000#32))
    (broadcastInDim S160000x1 ![0] bcast_S160000_S160000x1_0 dst) msg

/-- A layer's weight matrix out of its slice of the stacked weights, transposed. -/
def wT (wl : FVec Ideal S1x512x512 .f32) : FVec Ideal S512x512 .f32 :=
  transpose S512x512 [1, 0] (shapeCast S512x512 wl shapeCasts_S1x512x512_S512x512) transposes_S512x512_S512x512_1_0

/-- A layer's slice of a stack of rows as a vector over the features, and a vector over the features as a one-row matrix. -/
def vecOf (bl : FVec Ideal S1x512 .f32) : FVec Ideal S512 .f32 := shapeCast S512 bl shapeCasts_S1x512_S512
@[inherit_doc vecOf]
def rowOf (v : FVec Ideal S512 .f32) : FVec Ideal S1x512 .f32 := shapeCast S1x512 v shapeCasts_S512_S1x512

/-- The mean of every feature over the nodes: the column sums divided by N. -/
def mean (h : FVec Ideal S20000x512 .f32) : FVec Ideal S512 .f32 :=
  Host.divf (F := Ideal) (Host.reduceAdd (F := Ideal) h (constant (F := Ideal) S_ .f32 0x00000000#32) reducesTo_S20000x512_S512_d0 h_S_)
    (broadcastInDim S512 ![] bcast_S_S512 (constant (F := Ideal) S_ .f32 0x469C4000#32))

/-- The centred features of the variance: `h` minus its column means (the column sums divided by N, as a row). -/
def centred (h : FVec Ideal S20000x512 .f32) : FVec Ideal S20000x512 .f32 :=
  subf h (broadcastInDim S20000x512 ![0, 1] bcast_S1x512_S20000x512_0_1
    (Host.divf (F := Ideal)
      (broadcastInDim S1x512 ![1] bcast_S512_S1x512_1
        (Host.reduceAdd (F := Ideal) h (constant (F := Ideal) S_ .f32 0x00000000#32) reducesTo_S20000x512_S512_d0 h_S_))
      (broadcastInDim S1x512 ![] bcast_S_S1x512 (constant (F := Ideal) S_ .f32 0x469C4000#32))))

/-- The divisor of the variance: N minus the (zero) correction, as a float scalar. -/
def varDen : FVec Ideal S_ .f32 :=
  subf (constant (F := Ideal) S_ .f32 0x469C4000#32) (sitofp .f32 (constantI S_ 32 0#32))

/-- The variance of every feature over the nodes: the column sums of the squared centred features divided by `varDen`
    where that is positive (a quiet NaN where it is not). -/
def var (h : FVec Ideal S20000x512 .f32) : FVec Ideal S512 .f32 :=
  select (broadcastInDim S512 ![] bcast_S_S512 (cmpf .ogt varDen (constant (F := Ideal) S_ .f32 0x00000000#32)))
    (Host.divf (F := Ideal)
      (Host.reduceAdd (F := Ideal) (mulf (centred h) (centred h)) (constant (F := Ideal) S_ .f32 0x00000000#32) reducesTo_S20000x512_S512_d0 h_S_)
      (broadcastInDim S512 ![] bcast_S_S512 varDen))
    (broadcastInDim S512 ![] bcast_S_S512 (id (constant (F := Ideal) S_ .f32 0x7FC00000#32)))

/-- The first dense kernel's result: the node features plus the summed messages through the first linear map. -/
def hidden (z : FVec Ideal S20000x512 .f32) (src dst : IVec S160000 32) (ew : FVec Ideal S160000x512 .f32)
    (w1l : FVec Ideal S1x512x512 .f32) (b1l : FVec Ideal S1x512 .f32) : FVec Ideal S20000x512 .f32 :=
  Gmlp1 z (summed (Gedge (gathered z src) ew) dst) (wT w1l) (rowOf (vecOf b1l))

/-- One layer, over the layer's slices of the stacked parameters. -/
def layerK (z : FVec Ideal S20000x512 .f32) (src dst : IVec S160000 32) (ew : FVec Ideal S160000x512 .f32)
    (w1l : FVec Ideal S1x512x512 .f32) (b1l gl bl : FVec Ideal S1x512 .f32) (w2l : FVec Ideal S1x512x512 .f32) (b2l : FVec Ideal S1x512 .f32) :
    FVec Ideal S20000x512 .f32 :=
  Gmlp2 (hidden z src dst ew w1l b1l) (rowOf (mean (hidden z src dst ew w1l b1l))) (rowOf (var (hidden z src dst ew w1l b1l)))
    (rowOf (vecOf gl)) (rowOf (vecOf bl)) (wT w2l) (rowOf (vecOf b2l))

/-! ## The readout -/

/-- The node features summed per graph: node `n` into row `batch n`. -/
def readout (z : FVec Ideal S20000x512 .f32) (batch : IVec S20000 32) : FVec Ideal S128x512 .f32 :=
  Host.scatterAdd (F := Ideal) scatter_S128x512_S20000x1_S20000x512_1_0_0_1
    (broadcastInDim S128x512 ![] bcast_S_S128x512 (constant (F := Ideal) S_ .f32 0x00000000#32))
    (broadcastInDim S20000x1 ![0] bcast_S20000_S20000x1_0 batch) z

/-- Three readouts side by side. -/
def cat3 (g0 g1 g2 : FVec Ideal S128x512 .f32) : FVec Ideal S128x1536 .f32 :=
  concatenate S128x1536 1 [⟨S128x512, g0⟩, ⟨S128x512, g1⟩, ⟨S128x512, g2⟩] concatenates_S128x512_S128x512_S128x512_S128x1536_d1

/-! ## The stacked parameters' slices -/

/-- Layer `l`'s slice of a stack of three matrices. -/
def mat0 (w : FVec Ideal S3x512x512 .f32) : FVec Ideal S1x512x512 .f32 := extractStridedSlice S1x512x512 ![0, 0, 0] w slices_S3x512x512_S1x512x512_0_0_0
@[inherit_doc mat0]
def mat1 (w : FVec Ideal S3x512x512 .f32) : FVec Ideal S1x512x512 .f32 := extractStridedSlice S1x512x512 ![1, 0, 0] w slices_S3x512x512_S1x512x512_1_0_0
@[inherit_doc mat0]
def mat2 (w : FVec Ideal S3x512x512 .f32) : FVec Ideal S1x512x512 .f32 := extractStridedSlice S1x512x512 ![2, 0, 0] w slices_S3x512x512_S1x512x512_2_0_0
/-- Layer `l`'s slice of a stack of three rows. -/
def row0 (b : FVec Ideal S3x512 .f32) : FVec Ideal S1x512 .f32 := extractStridedSlice S1x512 ![0, 0] b slices_S3x512_S1x512_0_0
@[inherit_doc row0]
def row1 (b : FVec Ideal S3x512 .f32) : FVec Ideal S1x512 .f32 := extractStridedSlice S1x512 ![1, 0] b slices_S3x512_S1x512_1_0
@[inherit_doc row0]
def row2 (b : FVec Ideal S3x512 .f32) : FVec Ideal S1x512 .f32 := extractStridedSlice S1x512 ![2, 0] b slices_S3x512_S1x512_2_0

/-! ## The network -/

section Net

variable (x : FVec Ideal S20000x512 .f32) (ei : IVec S2x160000 32) (ew : FVec Ideal S160000x512 .f32) (batch : IVec S20000 32)
  (w1 : FVec Ideal S3x512x512 .f32) (b1 gamma beta : FVec Ideal S3x512 .f32) (w2 : FVec Ideal S3x512x512 .f32) (b2 : FVec Ideal S3x512 .f32)

/-- The node features after the first layer. -/
def z1K : FVec Ideal S20000x512 .f32 :=
  layerK x (srcOf ei) (dstOf ei) ew (mat0 w1) (row0 b1) (row0 gamma) (row0 beta) (mat0 w2) (row0 b2)
/-- The node features after the second layer. -/
def z2K : FVec Ideal S20000x512 .f32 :=
  layerK (z1K x ei ew w1 b1 gamma beta w2 b2) (srcOf ei) (dstOf ei) ew (mat1 w1) (row1 b1) (row1 gamma) (row1 beta) (mat1 w2) (row1 b2)
/-- The node features after the third layer: the first result. -/
def resZK : FVec Ideal S20000x512 .f32 :=
  layerK (z2K x ei ew w1 b1 gamma beta w2 b2) (srcOf ei) (dstOf ei) ew (mat2 w1) (row2 b1) (row2 gamma) (row2 beta) (mat2 w2) (row2 b2)
/-- The three layers' readouts side by side: the second result. -/
def resGK : FVec Ideal S128x1536 .f32 :=
  cat3 (readout (z1K x ei ew w1 b1 gamma beta w2 b2) batch) (readout (z2K x ei ew w1 b1 gamma beta w2 b2) batch)
    (readout (resZK x ei ew w1 b1 gamma beta w2 b2) batch)

end Net

end Cert.KernelIdeal.Hand

end
-- ==== Proof.KI.EdgeValue0.lean ====
/- The value half of region 0 at the extended reals: the output array of the pallas_call
   `cc0__edge_add_relu_kernel`, after its 80 points have written their blocks back, is `Gedge` of the two input arrays
   as the region finds them. Point `t` reads rows `2000 t … 2000 t + 1999` of both inputs and writes the same rows of the
   output; the 80 row bands tile the 160000 rows. -/
import proofs.«157524_j37503654429443_1_alg».proof.Proof.KI.Edge0
import proofs.«157524_j37503654429443_1_alg».proof.Proof.KI.EdgeSpec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

-- the TensorCore's buffer contents when the region is entered
variable (V : (c : Dev nD) → (b : Ref sig .tc) → Buf (Elt Ideal) ((c : Thread nD τ).loc b))

/-- The body's one rectangle starts at the block's origin. -/
theorem edge_hz0 : (![0, 0] : Fin 2 → Nat) = fun _ => 0 := funext fun a => by fin_cases a <;> rfl

/-- The body's payload at an index of the block: the sum of the two loaded entries, cut below at zero (the zero
    word of the format is the real number zero). -/
theorem edge_pay0 (x0 x1 : Vec Ideal S2000x512 .f32) (j : S2000x512.Idx) :
    k0_pay1 (F := Ideal) x0 x1 j = max (x0 j + x1 j) 0 := by
  unfold k0_pay1
  simp only [shapeCast_self, addf_apply, maximumf_apply, broadcast_apply]
  show max (x0 j + x1 j) (Ideal.ofBits .f32 0x00000000#32) = _
  rw [Ideal.ofBits_zero_f32]

/-- The three windows' block indices at point `t`, decided over the grid: block row `t`, block column 0. -/
theorem edge_idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `Gedge` of the two input arrays: the three windows' blocks at `t` sit at
    the same rows and columns of their arrays, so entry `j` of the stored block is `Gedge` at the array index of `j`. -/
theorem edge_flushed0 (c : Dev nD) (t : Fin cfg0.N) :
    (dat0 (F := Ideal) V c).flushed 2 t
      = ((cfg0.win 2).blk t).view.read (Elt Ideal) (Gedge (V c (Pipeline.arrRef spec0 0)) (V c (Pipeline.arrRef spec0 1))) := by
  show (cfg0.win 2).cut (grid0.coords t) ((dat0 V c).after 2 t) = _
  rw [after0_2]
  unfold out0_2
  rw [View.canon_unit_zero edge_hz0]
  simp only [View.ld_unit_zero (S := S2000x512) edge_hz0]
  obtain ⟨e0, e1, e2, e3, e4, e5⟩ := edge_idx0 t
  funext j
  show k0_pay1 (F := Ideal) (iblk0 V c 0 t) (iblk0 V c 1 t) j
    = Gedge (V c (Pipeline.arrRef spec0 0)) (V c (Pipeline.arrRef spec0 1)) (((cfg0.win 2).blk t).view.emb j)
  refine (edge_pay0 (iblk0 V c 0 t) (iblk0 V c 1 t) j).trans ?_
  have h0 : ((cfg0.win 0).blk t).view.emb j = ((cfg0.win 2).blk t).view.emb j := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 512 + 1 * (j 1).val = win0_2.index t (1 : Fin 2) * 512 + 1 * (j 1).val; omega
  have h1 : ((cfg0.win 1).blk t).view.emb j = ((cfg0.win 2).blk t).view.emb j := by
    funext a; apply Fin.ext
    match a with
    | ⟨0, _⟩ => show win0_1.index t (0 : Fin 2) * 2000 + 1 * (j 0).val = win0_2.index t (0 : Fin 2) * 2000 + 1 * (j 0).val; omega
    | ⟨1, _⟩ => show win0_1.index t (1 : Fin 2) * 512 + 1 * (j 1).val = win0_2.index t (1 : Fin 2) * 512 + 1 * (j 1).val; omega
  -- each input block's entry `j` is its array's entry at the output block's index of `j`
  have b0 : iblk0 V c 0 t j = V c (Pipeline.arrRef spec0 0) (((cfg0.win 2).blk t).view.emb j) := by
    show V c (Pipeline.arrRef spec0 0) (((cfg0.win 0).blk t).view.emb j) = _
    rw [h0]
  have b1 : iblk0 V c 1 t j = V c (Pipeline.arrRef spec0 1) (((cfg0.win 2).blk t).view.emb j) := by
    show V c (Pipeline.arrRef spec0 1) (((cfg0.win 1).blk t).view.emb j) = _
    rw [h1]
  rw [Gedge_apply]
  exact congrArg₂ (fun a b : EReal => max (a + b) 0) b0 b1

/-- An index of the array is in point `t`'s block iff each coordinate is in the block's range on its axis. -/
theorem edge_mem_blk0 (t : Fin cfg0.N) (i : S160000x512.Idx) :
    i ∈ ((cfg0.win 2).blk t).view.set ↔ ∀ a : Fin 2, win0_2.index t a * S2000x512.size a ≤ (i a).val ∧ (i a).val < win0_2.index t a * S2000x512.size a + S2000x512.size a := by
  show i ∈ ((View.whole main_v11).slice (win0_2.rect t)).set ↔ _
  rw [View.set_slice_whole, Rect.mem_set_unit]
  exact Iff.rfl

/-- Every index of the output array is in some point's block: row `r` is in the band of point `r / 2000`. -/
theorem edge_cover0 (i : S160000x512.Idx) :
    ∃ t : Fin cfg0.N, (cfg0.win 2).flush t = true ∧ i ∈ ((cfg0.win 2).blk t).view.set := by
  have hi0 : (i 0).val < 160000 := (i 0).isLt
  have hi1 : (i 1).val < 512 := (i 1).isLt
  have ht : (i 0).val / 2000 < cfg0.N := by
    show (i 0).val / 2000 < grid0.N
    rw [N_0]; omega
  obtain ⟨-, -, -, -, e4, e5⟩ := edge_idx0 ⟨(i 0).val / 2000, ht⟩
  have e4' : win0_2.index ⟨(i 0).val / 2000, ht⟩ (0 : Fin 2) = (i 0).val / 2000 := e4
  refine ⟨⟨(i 0).val / 2000, ht⟩, flush0_2 _, ?_⟩
  rw [edge_mem_blk0]
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    rw [e4']; omega
  | ⟨1, _⟩ =>
    show win0_2.index ⟨(i 0).val / 2000, ht⟩ (1 : Fin 2) * 512 ≤ (i 1).val ∧ (i 1).val < win0_2.index ⟨(i 0).val / 2000, ht⟩ (1 : Fin 2) * 512 + 512
    rw [e5]; omega

/-- The output array after the region's last point: `Gedge` of the two input arrays as the region finds them. -/
theorem final0 (c : Dev nD) :
    (dat0 (F := Ideal) V c).arrAt 2 cfg0.N = Gedge (V c (Pipeline.arrRef spec0 0)) (V c (Pipeline.arrRef spec0 1)) :=
  (dat0 V c).arrAt_eq_of_cover 2 (Gedge (V c (Pipeline.arrRef spec0 0)) (V c (Pipeline.arrRef spec0 1)))
    (fun t _ => edge_flushed0 V c t) (edge_cover0)

end Cert.KernelIdeal.Hand
-- ==== Proof.KI.Mlp1Value1.lean ====
/- Region 1 of @main on the extended reals: the output array of the pipelined first dense layer, after the
   last grid point, is the layer's whole-array function `Gmlp1` of the four input arrays as the region finds them.
   Grid point `t` handles rows 2000 t … 2000 t + 1999: its blocks of the two feature arrays are those rows, its
   blocks of the weight matrix and the bias row are the whole arrays, and what it writes back is those rows of
   `Gmlp1`. The ten row blocks tile the 20000 rows. -/
import proofs.«157524_j37503654429443_1_alg».proof.Proof.KI.Mlp1_1
import proofs.«157524_j37503654429443_1_alg».proof.Proof.KI.Mlp1Spec
import Idealize.ShloMosaic.Lib.Pipeline.Value
import Idealize.ShloMosaic.Lib.ValueLayout
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The body's arithmetic -/

/-- The value the body stores is the layer on one block: the rounded operands are the operands, the product into
    a zero accumulator is the sum over the contracted channel, and the broadcast bias row is its entry of the
    column. -/
theorem pay1_eq (x0 x1 : Vec Ideal S2000x512 .f32) (x2 : Vec Ideal S512x512 .f32) (x3 : Vec Ideal S1x512 .f32) :
    k1_pay1 (F := Ideal) x0 x1 x2 x3 = mlp1Block x0 x1 x2 x3 := by
  funext j
  obtain ⟨p, q, rfl⟩ : ∃ (p : Fin 2000) (q : Fin 512), j = ix2 p q := ⟨j 0, j 1, eq_ix2 j⟩
  unfold k1_pay1
  simp only [shapeCast_self]
  refine (addf_apply _ _ (ix2 p q)).trans ?_
  rw [matmul_2000x512_512x512_apply, broadcastTo_1b_ab_apply]
  rfl

/-! ## The windows' block indices, over the grid -/

/-- At grid point `t` the two feature windows and the output window are on row block `t`; the weight matrix and
    the bias row stay on their one block. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-! ## The input blocks as entries of the arrays -/

/-- Row `p` of point `t`'s block of the first feature array is row `2000 t + p` of the array. -/
theorem iblk1_0_apply (c : Dev nD) (t : Fin cfg1.N) (p : Fin 2000) (k : Fin 512) (r : Fin 20000) (hr : r.val = t.val * 2000 + p.val) :
    (iblk1 V c 0 t : S2000x512.Idx → Elt Ideal .f32) (ix2 p k) = ((V c (Pipeline.arrRef spec1 0)) : S20000x512.Idx → Elt Ideal .f32) (ix2 r k) := by
  obtain ⟨e0, e1, -⟩ := idx_facts1 t
  unfold iblk1
  rw [View.read_apply]
  refine congrArg ((V c (Pipeline.arrRef spec1 0)) : S20000x512.Idx → Elt Ideal .f32) ?_
  funext a; apply Fin.ext
  match a with
  | ⟨0, _⟩ => show win1_0.index t (0 : Fin 2) * 2000 + 1 * p.val = r.val; rw [e0, hr]; omega
  | ⟨1, _⟩ => show win1_0.index t (1 : Fin 2) * 512 + 1 * k.val = k.val; rw [e1]; omega

/-- The same of the second feature array. -/
theorem iblk1_1_apply (c : Dev nD) (t : Fin cfg1.N) (p : Fin 2000) (k : Fin 512) (r : Fin 20000) (hr : r.val = t.val * 2000 + p.val) :
    (iblk1 V c 1 t : S2000x512.Idx → Elt Ideal .f32) (ix2 p k) = ((V c (Pipeline.arrRef spec1 1)) : S20000x512.Idx → Elt Ideal .f32) (ix2 r k) := by
  obtain ⟨-, -, e0, e1, -⟩ := idx_facts1 t
  unfold iblk1
  rw [View.read_apply]
  refine congrArg ((V c (Pipeline.arrRef spec1 1)) : S20000x512.Idx → Elt Ideal .f32) ?_
  funext a; apply Fin.ext
  match a with
  | ⟨0, _⟩ => show win1_1.index t (0 : Fin 2) * 2000 + 1 * p.val = r.val; rw [e0, hr]; omega
  | ⟨1, _⟩ => show win1_1.index t (1 : Fin 2) * 512 + 1 * k.val = k.val; rw [e1]; omega

/-- Every point's block of the weight matrix is the matrix. -/
theorem iblk1_2_apply (c : Dev nD) (t : Fin cfg1.N) (k q : Fin 512) :
    (iblk1 V c 2 t : S512x512.Idx → Elt Ideal .f32) (ix2 k q) = ((V c (Pipeline.arrRef spec1 2)) : S512x512.Idx → Elt Ideal .f32) (ix2 k q) := by
  obtain ⟨-, -, -, -, e0, e1, -⟩ := idx_facts1 t
  unfold iblk1
  rw [View.read_apply]
  refine congrArg ((V c (Pipeline.arrRef spec1 2)) : S512x512.Idx → Elt Ideal .f32) ?_
  funext a; apply Fin.ext
  match a with
  | ⟨0, _⟩ => show win1_2.index t (0 : Fin 2) * 512 + 1 * k.val = k.val; rw [e0]; omega
  | ⟨1, _⟩ => show win1_2.index t (1 : Fin 2) * 512 + 1 * q.val = q.val; rw [e1]; omega

/-- Every point's block of the bias row is the row. -/
theorem iblk1_3_apply (c : Dev nD) (t : Fin cfg1.N) (q : Fin 512) :
    (iblk1 V c 3 t : S1x512.Idx → Elt Ideal .f32) (ix2 (0 : Fin 1) q) = ((V c (Pipeline.arrRef spec1 3)) : S1x512.Idx → Elt Ideal .f32) (ix2 (0 : Fin 1) q) := by
  obtain ⟨-, -, -, -, -, -, e0, e1, -⟩ := idx_facts1 t
  unfold iblk1
  rw [View.read_apply]
  refine congrArg ((V c (Pipeline.arrRef spec1 3)) : S1x512.Idx → Elt Ideal .f32) ?_
  funext a; apply Fin.ext
  match a with
  | ⟨0, _⟩ => show win1_3.index t (0 : Fin 2) * 1 + 1 * 0 = 0; rw [e0]
  | ⟨1, _⟩ => show win1_3.index t (1 : Fin 2) * 512 + 1 * q.val = q.val; rw [e1]; omega

/-! ## What a point writes back -/

set_option maxHeartbeats 1000000 in
/-- What point `t` writes back is block `t` of `Gmlp1` of the arrays as the region finds them. -/
theorem flushed1_eq (c : Dev nD) (t : Fin cfg1.N) :
    (dat1 (F := Ideal) V c).flushed 4 t = ((cfg1.win 4).blk t).view.read (Elt Ideal)
      (Gmlp1 (V c (Pipeline.arrRef spec1 0)) (V c (Pipeline.arrRef spec1 1)) (V c (Pipeline.arrRef spec1 2)) (V c (Pipeline.arrRef spec1 3))) := by
  show (cfg1.win 4).cut (grid1.coords t) ((dat1 V c).after 4 t) = _
  rw [after1_4]
  unfold out1_4
  rw [View.canon_unit_zero zero_offsets]
  simp only [View.ld_unit_zero (S := S2000x512) zero_offsets, View.ld_unit_zero (S := S512x512) zero_offsets,
    View.ld_unit_zero (S := S1x512) zero_offsets]
  rw [pay1_eq]
  obtain ⟨-, -, -, -, -, -, -, -, e0, e1⟩ := idx_facts1 t
  funext j
  show mlp1Block (iblk1 V c 0 t) (iblk1 V c 1 t) (iblk1 V c 2 t) (iblk1 V c 3 t) j
    = Gmlp1 (V c (Pipeline.arrRef spec1 0)) (V c (Pipeline.arrRef spec1 1)) (V c (Pipeline.arrRef spec1 2)) (V c (Pipeline.arrRef spec1 3)) (((cfg1.win 4).blk t).view.emb j)
  have hr : ((((cfg1.win 4).blk t).view.emb j) 0).val = t.val * 2000 + (j 0).val := by
    show win1_4.index t (0 : Fin 2) * 2000 + 1 * (j 0).val = _; rw [e0]; omega
  have hc : (((cfg1.win 4).blk t).view.emb j) 1 = j 1 := by
    apply Fin.ext
    show win1_4.index t (1 : Fin 2) * 512 + 1 * (j 1).val = (j 1).val; rw [e1]; omega
  refine mlp1Block_eq_Gmlp1 _ _ _ _ _ _ _ _ j _ (fun k => ?_) (fun k => ?_) (fun k => ?_) ?_
  · exact iblk1_0_apply V c t (j 0) k _ hr
  · exact iblk1_1_apply V c t (j 0) k _ hr
  · rw [hc]; exact iblk1_2_apply V c t k (j 1)
  · rw [hc]; exact iblk1_3_apply V c t (j 1)

/-! ## The blocks tile the array -/

/-- An index of the output array is in point `t`'s block iff each coordinate is in the block's range. -/
theorem mem_blk1 (t : Fin cfg1.N) (i : S20000x512.Idx) :
    i ∈ ((cfg1.win 4).blk t).view.set ↔ ∀ a : Fin 2, win1_4.index t a * S2000x512.size a ≤ (i a).val ∧ (i a).val < win1_4.index t a * S2000x512.size a + S2000x512.size a := by
  show i ∈ ((View.whole main_v21).slice (win1_4.rect t)).set ↔ _
  rw [View.set_slice_whole, Rect.mem_set_unit]
  exact Iff.rfl

/-- The output array after the run: row `r` is written by point `r / 2000`, so every entry is `Gmlp1`'s. -/
theorem final1 (c : Dev nD) :
    (dat1 (F := Ideal) V c).arrAt 4 cfg1.N = Gmlp1 (V c (Pipeline.arrRef spec1 0)) (V c (Pipeline.arrRef spec1 1)) (V c (Pipeline.arrRef spec1 2)) (V c (Pipeline.arrRef spec1 3)) :=
  (dat1 (F := Ideal) V c).arrAt_eq_of_cover 4 _ (fun t _ => flushed1_eq V c t) fun i => by
    have hi0 : (i 0).val < 20000 := (i 0).isLt
    have hi1 : (i 1).val < 512 := (i 1).isLt
    have hN : grid1.N = 10 := N_1
    obtain ⟨t, ht⟩ : ∃ t : Fin cfg1.N, t.val = (i 0).val / 2000 :=
      ⟨⟨(i 0).val / 2000, by show _ < grid1.N; rw [hN]; omega⟩, rfl⟩
    obtain ⟨-, -, -, -, -, -, -, -, e0, e1⟩ := idx_facts1 t
    refine ⟨t, flush1_4 t, ?_⟩
    rw [mem_blk1]
    intro a
    match a with
    | ⟨0, _⟩ =>
      show win1_4.index t (0 : Fin 2) * 2000 ≤ (i 0).val ∧ (i 0).val < win1_4.index t (0 : Fin 2) * 2000 + 2000
      rw [e0, ht]; omega
    | ⟨1, _⟩ =>
      show win1_4.index t (1 : Fin 2) * 512 ≤ (i 1).val ∧ (i 1).val < win1_4.index t (1 : Fin 2) * 512 + 512
      rw [e1]; omega

end Cert.KernelIdeal.Hand

end
-- ==== Proof.KI.Mlp2Value2.lean ====
/- The value half of region 2 of @main, at the ideal values: after the pipelined call of the second dense layer, the
   output array holds the layer's function `Gmlp2` of the seven input arrays as the region finds them.
   The steps: the value the body stores, read at one entry of the block, is the layer's entry on the input blocks (a
   product into a zero accumulator is the sum over the summation index; changes of float format, casts to the same
   shape and the zero word are what they are on the extended reals); the features' block at point t is rows
   2000 t .. 2000 t + 1999 of the features and every other block is its whole array (the block indices, decided over
   the ten points); so what point t writes back is block t of `Gmlp2`; the ten blocks cover the array (row r is in
   block r / 2000); hence the array after the last point. -/
import proofs.«157524_j37503654429443_1_alg».proof.Proof.KI.Mlp2_2
import proofs.«157524_j37503654429443_1_alg».proof.Proof.KI.Mlp2Spec
import Idealize.ShloMosaic.Lib.Pipeline.Value
import Idealize.ShloMosaic.Lib.ValueLayout
import Idealize.ShloMosaic.PureOps.Ideal.Laws

set_option maxRecDepth 16384

noncomputable section

open scoped BigOperators

open Cert.KernelIdeal Cert.KernelIdeal.Gen

namespace Cert.KernelIdeal.Hand

open Idealize.ShloMosaic Idealize.ShloMosaic.TcCoe Idealize.SL.Sem Idealize.ShloMosaic.ValueIdx
open Idealize.ShloMosaic.Pipeline (Dat)

/-! ## The body's arithmetic at one entry of the block -/

/-- The zero offsets of a whole-buffer access, as a constant function. -/
theorem zoff2 : (![0, 0] : Fin 2 → Nat) = fun _ => 0 := funext fun a => by fin_cases a <;> rfl

/-- In the product of a 2000x512 block by the 512x512 weight, the left operand is read at (row of the entry, summation
    index) -/
theorem dotL2 (p : Fin 2000) (q k : Fin 512) :
    dot_S2000x512_S512x512_S2000x512_1_0_0_1_n_n.lhsIdx (ix2 p q)
      ((contrEquiv1 dot_S2000x512_S512x512_S2000x512_1_0_0_1_n_n 512 rfl rfl).symm k) = ix2 p k := by
  have c2 := contrEquiv1_symm_val dot_S2000x512_S512x512_S2000x512_1_0_0_1_n_n 512 rfl rfl k
  funext ax; apply Fin.ext
  match ax with
  | ⟨0, _⟩ => simp [DotDims.lhsIdx, dot_S2000x512_S512x512_S2000x512_1_0_0_1_n_n]; rfl
  | ⟨1, _⟩ => simp [DotDims.lhsIdx, dot_S2000x512_S512x512_S2000x512_1_0_0_1_n_n]; exact c2

/-- and the right operand at (summation index, column of the entry). -/
theorem dotR2 (p : Fin 2000) (q k : Fin 512) :
    dot_S2000x512_S512x512_S2000x512_1_0_0_1_n_n.rhsIdx (ix2 p q)
      ((contrEquiv1 dot_S2000x512_S512x512_S2000x512_1_0_0_1_n_n 512 rfl rfl).symm k) = ix2 k q := by
  have c2 := contrEquiv1_symm_val dot_S2000x512_S512x512_S2000x512_1_0_0_1_n_n 512 rfl rfl k
  funext ax; apply Fin.ext
  match ax with
  | ⟨0, _⟩ => simp [DotDims.rhsIdx, dot_S2000x512_S512x512_S2000x512_1_0_0_1_n_n]; exact c2
  | ⟨1, _⟩ => simp [DotDims.rhsIdx, dot_S2000x512_S512x512_S2000x512_1_0_0_1_n_n]; rfl

/-- The value the body stores, at entry (p, q) of the block, is the layer's entry (p, q) on the blocks: the features'
    block `x0`, the rows `x1 .. x4` and `x6`, the weight `x5`. The product into a zero accumulator is the sum over the
    summation index of the products of the entries; the changes of float format are the identity; a cast to the
    same shape is the identity; a row broadcast over the rows reads the row. -/
theorem pay2_at (x0 : FVec Ideal S2000x512 .f32) (x1 x2 x3 x4 : FVec Ideal S1x512 .f32) (x5 : FVec Ideal S512x512 .f32)
    (x6 : FVec Ideal S1x512 .f32) (p : Fin 2000) (q : Fin 512) :
    k2_pay1 (F := Ideal) x0 x2 x1 x3 x4 x5 x6 (ix2 p q) = mlp2At (n := 2000) x0 x1 x2 x3 x4 x5 x6 p q := by
  unfold k2_pay1 mlp2At
  simp only [shapeCast_self]
  show max (FloatOps.matmul dot_S2000x512_S512x512_S2000x512_1_0_0_1_n_n none _ _ (constant (F := Ideal) S2000x512 .f32 0x00000000#32) (ix2 p q)
      + broadcastTo S2000x512 x6 broadcasts_S1x512_S2000x512 (ix2 p q)) (Ideal.ofBits .f32 0x00000000#32) = _
  rw [Ideal.ofBits_zero_f32, Ideal.matmul_constant_zero_apply,
    ← Equiv.sum_comp (contrEquiv1 dot_S2000x512_S512x512_S2000x512_1_0_0_1_n_n 512 rfl rfl).symm]
  refine congrArg₂ max (congrArg₂ (· + ·) (Finset.sum_congr rfl fun k _ => ?_) (broadcastTo_1b_ab_apply x6 _ p q)) rfl
  rw [dotL2, dotR2]
  show max ((x0 (ix2 p k) - broadcastTo S2000x512 x1 broadcasts_S1x512_S2000x512 (ix2 p k))
        * broadcastTo S2000x512 (rsqrt (addf x2 (broadcast S1x512 (Scalar.ofBits .f32 0x3727C5AC#32)))) broadcasts_S1x512_S2000x512 (ix2 p k)
        * broadcastTo S2000x512 x3 broadcasts_S1x512_S2000x512 (ix2 p k)
        + broadcastTo S2000x512 x4 broadcasts_S1x512_S2000x512 (ix2 p k)) (Ideal.ofBits .f32 0x00000000#32) * x5 (ix2 k q) = _
  rw [Ideal.ofBits_zero_f32, broadcastTo_1b_ab_apply x1, broadcastTo_1b_ab_apply x3, broadcastTo_1b_ab_apply x4,
    broadcastTo_1b_ab_apply (rsqrt (addf x2 (broadcast S1x512 (Scalar.ofBits .f32 0x3727C5AC#32))))]
  rfl

variable (V : (c : Dev nD) → (b : Ref sig .tc) → Buf (Elt Ideal) ((c : Thread nD τ).loc b))

/-! ## The windows' block indices, decided over the ten grid points -/

/-- At point `t` the features' window and the output window are on block (t, 0); every other window is on block
    (0, 0), its whole array. -/
theorem idx2_facts : ∀ t : Fin cfg2.N,
    win2_0.index t (0 : Fin 2) = t.val
    ∧ win2_0.index t (1 : Fin 2) = 0
    ∧ win2_7.index t (0 : Fin 2) = t.val
    ∧ win2_7.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0 :=
  (by decide +kernel : ∀ t : Fin grid2.N, _)

/-! ## Each input block read as entries of its array -/

/-- Entry (p, k) of the features' block at point `t` is entry (2000 t + p, k) of the features. -/
theorem blk2_0 (c : Dev nD) (t : Fin cfg2.N) (p : Fin 2000) (k : Fin 512) (r : Fin 20000) (hr : r.val = t.val * 2000 + p.val) :
    (iblk2 V c 0 t : FVec Ideal S2000x512 .f32) (ix2 p k) = (V c (Pipeline.arrRef spec2 0) : FVec Ideal S20000x512 .f32) (ix2 r k) := by
  obtain ⟨f00, f01, f70, f71, f10, f11, f20, f21, f30, f31, f40, f41, f50, f51, f60, f61⟩ := idx2_facts t
  show V c (Pipeline.arrRef spec2 0) (((cfg2.win 0).blk t).view.emb (ix2 p k)) = _
  refine congrArg (V c (Pipeline.arrRef spec2 0)) (funext fun a => Fin.ext ?_)
  match a with
  | ⟨0, _⟩ => show win2_0.index t (0 : Fin 2) * 2000 + 1 * p.val = r.val; rw [f00, hr]; omega
  | ⟨1, _⟩ => show win2_0.index t (1 : Fin 2) * 512 + 1 * k.val = k.val; rw [f01]; omega

/-- Window 1's block at any point is its whole row. -/
theorem blk2_1 (c : Dev nD) (t : Fin cfg2.N) (k k' : Fin 512) (hk : k'.val = k.val) :
    (iblk2 V c 1 t : FVec Ideal S1x512 .f32) (ix2 (0 : Fin 1) k) = (V c (Pipeline.arrRef spec2 1) : FVec Ideal S1x512 .f32) (ix2 (0 : Fin 1) k') := by
  obtain ⟨f00, f01, f70, f71, f10, f11, f20, f21, f30, f31, f40, f41, f50, f51, f60, f61⟩ := idx2_facts t
  show V c (Pipeline.arrRef spec2 1) (((cfg2.win 1).blk t).view.emb (ix2 (0 : Fin 1) k)) = _
  refine congrArg (V c (Pipeline.arrRef spec2 1)) (funext fun a => Fin.ext ?_)
  match a with
  | ⟨0, _⟩ => show win2_1.index t (0 : Fin 2) * 1 + 1 * ((0 : Fin 1) : Nat) = ((0 : Fin 1) : Nat); rw [f10]; rfl
  | ⟨1, _⟩ => show win2_1.index t (1 : Fin 2) * 512 + 1 * k.val = k'.val; rw [f11, hk]; omega

/-- Window 2's block at any point is its whole row. -/
theorem blk2_2 (c : Dev nD) (t : Fin cfg2.N) (k k' : Fin 512) (hk : k'.val = k.val) :
    (iblk2 V c 2 t : FVec Ideal S1x512 .f32) (ix2 (0 : Fin 1) k) = (V c (Pipeline.arrRef spec2 2) : FVec Ideal S1x512 .f32) (ix2 (0 : Fin 1) k') := by
  obtain ⟨f00, f01, f70, f71, f10, f11, f20, f21, f30, f31, f40, f41, f50, f51, f60, f61⟩ := idx2_facts t
  show V c (Pipeline.arrRef spec2 2) (((cfg2.win 2).blk t).view.emb (ix2 (0 : Fin 1) k)) = _
  refine congrArg (V c (Pipeline.arrRef spec2 2)) (funext fun a => Fin.ext ?_)
  match a with
  | ⟨0, _⟩ => show win2_2.index t (0 : Fin 2) * 1 + 1 * ((0 : Fin 1) : Nat) = ((0 : Fin 1) : Nat); rw [f20]; rfl
  | ⟨1, _⟩ => show win2_2.index t (1 : Fin 2) * 512 + 1 * k.val = k'.val; rw [f21, hk]; omega

/-- Window 3's block at any point is its whole row. -/
theorem blk2_3 (c : Dev nD) (t : Fin cfg2.N) (k k' : Fin 512) (hk : k'.val = k.val) :
    (iblk2 V c 3 t : FVec Ideal S1x512 .f32) (ix2 (0 : Fin 1) k) = (V c (Pipeline.arrRef spec2 3) : FVec Ideal S1x512 .f32) (ix2 (0 : Fin 1) k') := by
  obtain ⟨f00, f01, f70, f71, f10, f11, f20, f21, f30, f31, f40, f41, f50, f51, f60, f61⟩ := idx2_facts t
  show V c (Pipeline.arrRef spec2 3) (((cfg2.win 3).blk t).view.emb (ix2 (0 : Fin 1) k)) = _
  refine congrArg (V c (Pipeline.arrRef spec2 3)) (funext fun a => Fin.ext ?_)
  match a with
  | ⟨0, _⟩ => show win2_3.index t (0 : Fin 2) * 1 + 1 * ((0 : Fin 1) : Nat) = ((0 : Fin 1) : Nat); rw [f30]; rfl
  | ⟨1, _⟩ => show win2_3.index t (1 : Fin 2) * 512 + 1 * k.val = k'.val; rw [f31, hk]; omega

/-- Window 4's block at any point is its whole row. -/
theorem blk2_4 (c : Dev nD) (t : Fin cfg2.N) (k k' : Fin 512) (hk : k'.val = k.val) :
    (iblk2 V c 4 t : FVec Ideal S1x512 .f32) (ix2 (0 : Fin 1) k) = (V c (Pipeline.arrRef spec2 4) : FVec Ideal S1x512 .f32) (ix2 (0 : Fin 1) k') := by
  obtain ⟨f00, f01, f70, f71, f10, f11, f20, f21, f30, f31, f40, f41, f50, f51, f60, f61⟩ := idx2_facts t
  show V c (Pipeline.arrRef spec2 4) (((cfg2.win 4).blk t).view.emb (ix2 (0 : Fin 1) k)) = _
  refine congrArg (V c (Pipeline.arrRef spec2 4)) (funext fun a => Fin.ext ?_)
  match a with
  | ⟨0, _⟩ => show win2_4.index t (0 : Fin 2) * 1 + 1 * ((0 : Fin 1) : Nat) = ((0 : Fin 1) : Nat); rw [f40]; rfl
  | ⟨1, _⟩ => show win2_4.index t (1 : Fin 2) * 512 + 1 * k.val = k'.val; rw [f41, hk]; omega

/-- Window 6's block at any point is its whole row. -/
theorem blk2_6 (c : Dev nD) (t : Fin cfg2.N) (k k' : Fin 512) (hk : k'.val = k.val) :
    (iblk2 V c 6 t : FVec Ideal S1x512 .f32) (ix2 (0 : Fin 1) k) = (V c (Pipeline.arrRef spec2 6) : FVec Ideal S1x512 .f32) (ix2 (0 : Fin 1) k') := by
  obtain ⟨f00, f01, f70, f71, f10, f11, f20, f21, f30, f31, f40, f41, f50, f51, f60, f61⟩ := idx2_facts t
  show V c (Pipeline.arrRef spec2 6) (((cfg2.win 6).blk t).view.emb (ix2 (0 : Fin 1) k)) = _
  refine congrArg (V c (Pipeline.arrRef spec2 6)) (funext fun a => Fin.ext ?_)
  match a with
  | ⟨0, _⟩ => show win2_6.index t (0 : Fin 2) * 1 + 1 * ((0 : Fin 1) : Nat) = ((0 : Fin 1) : Nat); rw [f60]; rfl
  | ⟨1, _⟩ => show win2_6.index t (1 : Fin 2) * 512 + 1 * k.val = k'.val; rw [f61, hk]; omega

/-- The weight's block at any point is the whole weight. -/
theorem blk2_5 (c : Dev nD) (t : Fin cfg2.N) (k q q' : Fin 512) (hq : q'.val = q.val) :
    (iblk2 V c 5 t : FVec Ideal S512x512 .f32) (ix2 k q) = (V c (Pipeline.arrRef spec2 5) : FVec Ideal S512x512 .f32) (ix2 k q') := by
  obtain ⟨f00, f01, f70, f71, f10, f11, f20, f21, f30, f31, f40, f41, f50, f51, f60, f61⟩ := idx2_facts t
  show V c (Pipeline.arrRef spec2 5) (((cfg2.win 5).blk t).view.emb (ix2 k q)) = _
  refine congrArg (V c (Pipeline.arrRef spec2 5)) (funext fun a => Fin.ext ?_)
  match a with
  | ⟨0, _⟩ => show win2_5.index t (0 : Fin 2) * 512 + 1 * k.val = k.val; rw [f50]; omega
  | ⟨1, _⟩ => show win2_5.index t (1 : Fin 2) * 512 + 1 * q.val = q'.val; rw [f51, hq]; omega

/-! ## What a point writes back, and the array after the last point -/

/-- What point `t` writes back to the output array is the value the body stores, computed on the input windows' blocks
    at that point (the one store is of the whole buffer, and each load reads a whole buffer). -/
theorem flushed2_pay (c : Dev nD) (t : Fin cfg2.N) :
    (dat2 (F := Ideal) V c).flushed 7 t = (cfg2.win 7).cut (grid2.coords t)
      (k2_pay1 (F := Ideal) (iblk2 V c 0 t) (iblk2 V c 2 t) (iblk2 V c 1 t) (iblk2 V c 3 t) (iblk2 V c 4 t) (iblk2 V c 5 t) (iblk2 V c 6 t)) := by
  show (cfg2.win 7).cut (grid2.coords t) ((dat2 (F := Ideal) V c).after 7 t) = _
  rw [after2_7]
  unfold out2_7
  rw [View.canon_unit_zero zoff2]
  simp only [View.ld_unit_zero (S := S2000x512) zoff2, View.ld_unit_zero (S := S1x512) zoff2, View.ld_unit_zero (S := S512x512) zoff2]

/-- Entry (p, q) of the value stored at point `t` is the layer's entry (r, q') on the whole arrays, for the row
    r = 2000 t + p and the column q' = q: the features' block reads rows 2000 t .. 2000 t + 1999, the other blocks are
    their whole arrays, and an entry of the layer depends on the features through one row only. -/
theorem entry2 (c : Dev nD) (t : Fin cfg2.N) (p : Fin 2000) (q : Fin 512) (r : Fin 20000) (q' : Fin 512)
    (hr : r.val = t.val * 2000 + p.val) (hq : q'.val = q.val) :
    k2_pay1 (F := Ideal) (iblk2 V c 0 t) (iblk2 V c 2 t) (iblk2 V c 1 t) (iblk2 V c 3 t) (iblk2 V c 4 t) (iblk2 V c 5 t) (iblk2 V c 6 t) (ix2 p q)
      = mlp2At (n := 20000) (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) r q' :=
  (pay2_at (iblk2 V c 0 t) (iblk2 V c 1 t) (iblk2 V c 2 t) (iblk2 V c 3 t) (iblk2 V c 4 t) (iblk2 V c 5 t) (iblk2 V c 6 t) p q).trans
    (mlp2At_congr (n := 2000) (n' := 20000) (iblk2 V c 0 t) (V c (Pipeline.arrRef spec2 0))
      (iblk2 V c 1 t) (iblk2 V c 2 t) (iblk2 V c 3 t) (iblk2 V c 4 t) (V c (Pipeline.arrRef spec2 1)) (V c (Pipeline.arrRef spec2 2)) (V c (Pipeline.arrRef spec2 3)) (V c (Pipeline.arrRef spec2 4))
      (iblk2 V c 5 t) (V c (Pipeline.arrRef spec2 5)) (iblk2 V c 6 t) (V c (Pipeline.arrRef spec2 6)) p r q q'
      (fun k => blk2_0 V c t p k r hr)
      (fun k => blk2_1 V c t k k rfl) (fun k => blk2_2 V c t k k rfl) (fun k => blk2_3 V c t k k rfl) (fun k => blk2_4 V c t k k rfl)
      (fun k => blk2_5 V c t k q q' hq) (blk2_6 V c t q q' hq))

set_option maxHeartbeats 800000 in
/-- So what point `t` writes back is block `t` of the layer's function of the arrays as the region finds them. -/
theorem flushed2_eq (c : Dev nD) (t : Fin cfg2.N) :
    (dat2 (F := Ideal) V c).flushed 7 t = ((cfg2.win 7).blk t).view.read (Elt Ideal) (Gmlp2 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6))) := by
  rw [flushed2_pay]
  funext j
  obtain ⟨p, q, rfl⟩ : ∃ (p : Fin 2000) (q : Fin 512), j = ix2 p q := ⟨j 0, j 1, eq_ix2 j⟩
  obtain ⟨-, -, f70, f71, -⟩ := idx2_facts t
  dsimp only [Pipeline.Window.cut]
  rw [View.read_apply]
  unfold Gmlp2
  have h0 : (((((View.whole main_v40).slice ((win2 7).rect t)).emb (ix2 p q) 0 : Fin 20000)) : Nat) = t.val * 2000 + p.val := by
    show win2_7.index t (0 : Fin 2) * 2000 + 1 * p.val = _; rw [f70]; omega
  have h1 : (((((View.whole main_v40).slice ((win2 7).rect t)).emb (ix2 p q) 1 : Fin 512)) : Nat) = q.val := by
    show win2_7.index t (1 : Fin 2) * 512 + 1 * q.val = _; rw [f71]; omega
  refine Eq.trans ?_ (cast_eq rfl _).symm
  exact entry2 V c t p q _ _ h0 h1

/-- An index of the output array is in point `t`'s block iff each coordinate is in the block's range on its axis. -/
theorem mem_blk2 (t : Fin cfg2.N) (i : S20000x512.Idx) :
    i ∈ ((cfg2.win 7).blk t).view.set ↔ ∀ a : Fin 2, win2_7.index t a * S2000x512.size a ≤ (i a).val ∧ (i a).val < win2_7.index t a * S2000x512.size a + S2000x512.size a := by
  show i ∈ ((View.whole main_v40).slice (win2_7.rect t)).set ↔ _
  rw [View.set_slice_whole, Rect.mem_set_unit]
  exact Iff.rfl

/-- Every index of the output array is in some point's block: row r is in the block of point r / 2000. -/
theorem cover2 (i : S20000x512.Idx) : ∃ t : Fin cfg2.N, (cfg2.win 7).flush t = true ∧ i ∈ ((cfg2.win 7).blk t).view.set := by
  have hi0 : (i 0).val < 20000 := (i 0).isLt
  have hi1 : (i 1).val < 512 := (i 1).isLt
  have hN : grid2.N = 10 := N_2
  have ht : (i 0).val / 2000 < cfg2.N := by show (i 0).val / 2000 < grid2.N; rw [hN]; omega
  obtain ⟨-, -, f70, f71, -⟩ := idx2_facts ⟨(i 0).val / 2000, ht⟩
  refine ⟨⟨(i 0).val / 2000, ht⟩, flush2_7 _, ?_⟩
  rw [mem_blk2]
  intro a
  match a with
  | ⟨0, _⟩ =>
    show win2_7.index ⟨(i 0).val / 2000, ht⟩ (0 : Fin 2) * 2000 ≤ (i 0).val ∧ (i 0).val < win2_7.index ⟨(i 0).val / 2000, ht⟩ (0 : Fin 2) * 2000 + 2000
    rw [f70]; show (i 0).val / 2000 * 2000 ≤ (i 0).val ∧ (i 0).val < (i 0).val / 2000 * 2000 + 2000; omega
  | ⟨1, _⟩ =>
    show win2_7.index ⟨(i 0).val / 2000, ht⟩ (1 : Fin 2) * 512 ≤ (i 1).val ∧ (i 1).val < win2_7.index ⟨(i 0).val / 2000, ht⟩ (1 : Fin 2) * 512 + 512
    rw [f71]; omega

/-- The output array after the last point is the layer's function of the seven input arrays as the region finds them. -/
theorem final2 (c : Dev nD) : (dat2 (F := Ideal) V c).arrAt 7 cfg2.N = Gmlp2 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) :=
  (dat2 (F := Ideal) V c).arrAt_eq_of_cover 7 (Gmlp2 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6))) (fun t _ => flushed2_eq V c t) (cover2)

end Cert.KernelIdeal.Hand
-- ==== Proof.KI.Read1.lean ====
/- The first layer of the network, read off the run's fold on the extended reals. The contents of core `c`'s buffers at
   the boundaries between the items of the first layer — the host stretch that splits the edge table and gathers the
   source nodes' features, the edge kernel, the host stretch that sums the messages at their targets and slices the
   first linear map's parameters, the first dense kernel, the host's mean and variance of its result, the host stretch
   that slices the second dense kernel's parameters, the second dense kernel — are each a term of the launch contents;
   composed, the node-feature array after the layer is `layerK` of the arguments, and the edge table's two rows and
   the argument arrays are as the next layer needs them. -/
import proofs.«157524_j37503654429443_1_alg».proof.Proof.KI.Stage
import proofs.«157524_j37503654429443_1_alg».proof.Proof.KI.Terms
import proofs.«157524_j37503654429443_1_alg».proof.Proof.KI.EdgeValue0
import proofs.«157524_j37503654429443_1_alg».proof.Proof.KI.Mlp1Value1
import proofs.«157524_j37503654429443_1_alg».proof.Proof.KI.Mlp2Value2
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe

variable (m : (ℓ : Loc nD τ sig) → Buf (Elt Ideal) ℓ) (c : Dev nD)

/-- An argument array of core `c`, as launched. -/
abbrev launched (b : Ref sig .tc) := m ((c : Thread nD τ).loc b)

/-! ## After the first host stretch: the edge table's two rows and the source nodes' features -/

/-- The source node of every edge. -/
theorem W1_src : W1 m c main_v1 = srcOf (launched m c main_arg1) := by
  rw [W1_def]; after_results; rfl

/-- The target node of every edge. -/
theorem W1_dst : W1 m c main_v3 = dstOf (launched m c main_arg1) := by
  rw [W1_def]; after_results; rfl

/-- The source nodes' features, edge by edge. -/
theorem W1_gathered : W1 m c main_v10 = gathered (launched m c main_arg0) (srcOf (launched m c main_arg1)) := by
  rw [W1_def]; after_results; rfl

/-! ## A buffer no item of the first layer writes still holds what the first host stretch left -/

theorem W8_of_W1 (r : Ref sig .tc) (h2 : r ≠ main_v11) (h3 : r ∉ hostOps1_W) (h4 : r ≠ main_v21) (h5 : r ∉ hostOps2_W)
    (h6 : r ∉ hostOps2_1_W) (h7 : r ∉ hostOps2_2_W) (h8 : r ≠ main_v40) : W8 m c r = W1 m c r := by
  rw [W8_of m c r h8, W7_of m c r h7, W6_of m c r h6, W5_of m c r h5, W4_of m c r h4, W3_of m c r h3, W2_of m c r h2]

theorem W7_of_W1 (r : Ref sig .tc) (h2 : r ≠ main_v11) (h3 : r ∉ hostOps1_W) (h4 : r ≠ main_v21) (h5 : r ∉ hostOps2_W)
    (h6 : r ∉ hostOps2_1_W) (h7 : r ∉ hostOps2_2_W) : W7 m c r = W1 m c r := by
  rw [W7_of m c r h7, W6_of m c r h6, W5_of m c r h5, W4_of m c r h4, W3_of m c r h3, W2_of m c r h2]

/-- An argument array the first layer's items never write holds its launch contents throughout. -/
theorem W1_arg (r : Ref sig .tc) (h1 : r ∉ hostOps0_W) : W1 m c r = launched m c r := W1_of m c r h1

/-! ## Region 0: the messages -/

/-- What the edge kernel leaves: the rectified sum of the gathered features and the edge features. -/
theorem O0_eq : O0 m c = Gedge (W1 m c main_v10) (W1 m c main_arg2) :=
  (O0_def m c).trans (final0 (rd (W1 m)) c)

theorem W2_msg : W2 m c main_v11
    = Gedge (gathered (launched m c main_arg0) (srcOf (launched m c main_arg1))) (launched m c main_arg2) := by
  rw [W2_self, O0_eq, W1_gathered, W1_arg m c main_arg2 (by decide)]

/-! ## The second host stretch: the messages summed at their targets, the first linear map's parameters -/

theorem W3_aggr : W3 m c main_v14 = summed (W2 m c main_v11) (W2 m c main_v3) := by
  rw [W3_def]; after_results; rfl

theorem W3_w1 : W3 m c main_v17 = wT (mat0 (W2 m c main_arg4)) := by
  rw [W3_def]; after_results; rfl

theorem W3_b1 : W3 m c main_v20 = rowOf (vecOf (row0 (W2 m c main_arg5))) := by
  rw [W3_def]; after_results; rfl

/-! ## Region 1: the first dense kernel -/

theorem O1_eq : O1 m c = Gmlp1 (W3 m c main_arg0) (W3 m c main_v14) (W3 m c main_v17) (W3 m c main_v20) :=
  (O1_def m c).trans (final1 (rd (W3 m)) c)

/-- The first dense kernel's result, over the launch contents. -/
abbrev hidden1 : FVec Ideal S20000x512 .f32 :=
  hidden (launched m c main_arg0) (srcOf (launched m c main_arg1)) (dstOf (launched m c main_arg1)) (launched m c main_arg2)
    (mat0 (launched m c main_arg4)) (row0 (launched m c main_arg5))

theorem W4_hidden : W4 m c main_v21 = hidden1 m c := by
  rw [W4_self, O1_eq, W3_aggr, W3_w1, W3_b1, W2_msg,
    W3_of m c main_arg0 (by decide), W2_of m c main_arg0 (by decide), W1_arg m c main_arg0 (by decide),
    W2_of m c main_v3 (by decide), W1_dst,
    W2_of m c main_arg4 (by decide), W1_arg m c main_arg4 (by decide),
    W2_of m c main_arg5 (by decide), W1_arg m c main_arg5 (by decide)]
  rfl

/-! ## The host's mean and variance of the first dense kernel's result -/

theorem W5_mean : W5 m c main_v24 = mean (W4 m c main_v21) := by
  rw [W5_def]; after_results; rfl

theorem W5_zero : W5 m c main_c_3 = constantI S_ 32 0#32 := by
  rw [W5_def]; after_results

theorem W5_hidden : W5 m c main_v21 = hidden1 m c := by
  rw [W5_of m c main_v21 (by decide), W4_hidden]

theorem W6_var : W6 m c main_v25 = var (hidden1 m c) := by
  rw [W6_def]; after_results_simp
  rw [W5_zero, W5_hidden]
  rfl

theorem W6_mean : W6 m c main_v24 = mean (hidden1 m c) := by
  rw [W6_of m c main_v24 (by decide), W5_mean, W4_hidden]

/-! ## The last host stretch before region 2: the second dense kernel's rows and weight -/

theorem W7_w2 : W7 m c main_v28 = wT (mat0 (W6 m c main_arg8)) := by
  rw [W7_def]; after_results; rfl
theorem W7_mu : W7 m c main_v35 = rowOf (W6 m c main_v24) := by
  rw [W7_def]; after_results; rfl
theorem W7_var : W7 m c main_v36 = rowOf (W6 m c main_v25) := by
  rw [W7_def]; after_results; rfl
theorem W7_gamma : W7 m c main_v37 = rowOf (vecOf (row0 (W6 m c main_arg6))) := by
  rw [W7_def]; after_results; rfl
theorem W7_beta : W7 m c main_v38 = rowOf (vecOf (row0 (W6 m c main_arg7))) := by
  rw [W7_def]; after_results; rfl
theorem W7_b2 : W7 m c main_v39 = rowOf (vecOf (row0 (W6 m c main_arg9))) := by
  rw [W7_def]; after_results; rfl

theorem W7_hidden : W7 m c main_v21 = hidden1 m c := by
  rw [W7_of m c main_v21 (by decide), W6_of m c main_v21 (by decide), W5_hidden]

/-- An argument array at region 2's entry. -/
theorem W6_arg (r : Ref sig .tc) (h1 : r ∉ hostOps0_W) (h2 : r ≠ main_v11) (h3 : r ∉ hostOps1_W) (h4 : r ≠ main_v21)
    (h5 : r ∉ hostOps2_W) (h6 : r ∉ hostOps2_1_W) : W6 m c r = launched m c r := by
  rw [W6_of m c r h6, W5_of m c r h5, W4_of m c r h4, W3_of m c r h3, W2_of m c r h2, W1_arg m c r h1]

/-! ## Region 2: the second dense kernel, and the layer -/

theorem O2_eq : O2 m c = Gmlp2 (W7 m c main_v21) (W7 m c main_v35) (W7 m c main_v36) (W7 m c main_v37) (W7 m c main_v38)
    (W7 m c main_v28) (W7 m c main_v39) :=
  (O2_def m c).trans (final2 (rd (W7 m)) c)

/-- The node features after the first layer. -/
theorem W8_layer : W8 m c main_v40
    = layerK (launched m c main_arg0) (srcOf (launched m c main_arg1)) (dstOf (launched m c main_arg1)) (launched m c main_arg2)
        (mat0 (launched m c main_arg4)) (row0 (launched m c main_arg5)) (row0 (launched m c main_arg6)) (row0 (launched m c main_arg7))
        (mat0 (launched m c main_arg8)) (row0 (launched m c main_arg9)) := by
  rw [W8_self, O2_eq, W7_hidden, W7_mu, W7_var, W7_gamma, W7_beta, W7_w2, W7_b2, W6_mean, W6_var,
    W6_arg m c main_arg6 (by decide) (by decide) (by decide) (by decide) (by decide) (by decide),
    W6_arg m c main_arg7 (by decide) (by decide) (by decide) (by decide) (by decide) (by decide),
    W6_arg m c main_arg8 (by decide) (by decide) (by decide) (by decide) (by decide) (by decide),
    W6_arg m c main_arg9 (by decide) (by decide) (by decide) (by decide) (by decide) (by decide)]
  rfl

/-! ## What the next layer still finds: the edge table's rows and the arguments -/

theorem W8_src : W8 m c main_v1 = srcOf (launched m c main_arg1) :=
  (W8_of_W1 m c main_v1 (by decide) (by decide) (by decide) (by decide) (by decide) (by decide) (by decide)).trans (W1_src m c)

theorem W8_dst : W8 m c main_v3 = dstOf (launched m c main_arg1) :=
  (W8_of_W1 m c main_v3 (by decide) (by decide) (by decide) (by decide) (by decide) (by decide) (by decide)).trans (W1_dst m c)

/-- Every item of the first layer leaves the argument arrays as launched. -/
theorem W8_arg (r : Ref sig .tc) (h1 : r ∉ hostOps0_W) (h2 : r ≠ main_v11) (h3 : r ∉ hostOps1_W) (h4 : r ≠ main_v21)
    (h5 : r ∉ hostOps2_W) (h6 : r ∉ hostOps2_1_W) (h7 : r ∉ hostOps2_2_W) (h8 : r ≠ main_v40) : W8 m c r = launched m c r :=
  (W8_of_W1 m c r h2 h3 h4 h5 h6 h7 h8).trans (W1_arg m c r h1)

theorem W8_arg0 : W8 m c main_arg0 = launched m c main_arg0 :=
  W8_arg m c main_arg0 (by decide) (by decide) (by decide) (by decide) (by decide) (by decide) (by decide) (by decide)
theorem W8_arg1 : W8 m c main_arg1 = launched m c main_arg1 :=
  W8_arg m c main_arg1 (by decide) (by decide) (by decide) (by decide) (by decide) (by decide) (by decide) (by decide)
theorem W8_arg2 : W8 m c main_arg2 = launched m c main_arg2 :=
  W8_arg m c main_arg2 (by decide) (by decide) (by decide) (by decide) (by decide) (by decide) (by decide) (by decide)
theorem W8_arg3 : W8 m c main_arg3 = launched m c main_arg3 :=
  W8_arg m c main_arg3 (by decide) (by decide) (by decide) (by decide) (by decide) (by decide) (by decide) (by decide)
theorem W8_arg4 : W8 m c main_arg4 = launched m c main_arg4 :=
  W8_arg m c main_arg4 (by decide) (by decide) (by decide) (by decide) (by decide) (by decide) (by decide) (by decide)
theorem W8_arg5 : W8 m c main_arg5 = launched m c main_arg5 :=
  W8_arg m c main_arg5 (by decide) (by decide) (by decide) (by decide) (by decide) (by decide) (by decide) (by decide)
theorem W8_arg6 : W8 m c main_arg6 = launched m c main_arg6 :=
  W8_arg m c main_arg6 (by decide) (by decide) (by decide) (by decide) (by decide) (by decide) (by decide) (by decide)
theorem W8_arg7 : W8 m c main_arg7 = launched m c main_arg7 :=
  W8_arg m c main_arg7 (by decide) (by decide) (by decide) (by decide) (by decide) (by decide) (by decide) (by decide)
theorem W8_arg8 : W8 m c main_arg8 = launched m c main_arg8 :=
  W8_arg m c main_arg8 (by decide) (by decide) (by decide) (by decide) (by decide) (by decide) (by decide) (by decide)
theorem W8_arg9 : W8 m c main_arg9 = launched m c main_arg9 :=
  W8_arg m c main_arg9 (by decide) (by decide) (by decide) (by decide) (by decide) (by decide) (by decide) (by decide)

end Cert.KernelIdeal.Hand

end
-- ==== Proof.KI.EdgeValue3.lean ====
/- The value half of region 3 at the extended reals: the output array of the pallas_call
   `cc3__edge_add_relu_kernel`, after its 80 points have written their blocks back, is `Gedge` of the two input arrays
   as the region finds them. Point `t` reads rows `2000 t … 2000 t + 1999` of both inputs and writes the same rows of the
   output; the 80 row bands tile the 160000 rows. -/
import proofs.«157524_j37503654429443_1_alg».proof.Proof.KI.Edge3
import proofs.«157524_j37503654429443_1_alg».proof.Proof.KI.EdgeSpec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

-- the TensorCore's buffer contents when the region is entered
variable (V : (c : Dev nD) → (b : Ref sig .tc) → Buf (Elt Ideal) ((c : Thread nD τ).loc b))

/-- The body's one rectangle starts at the block's origin. -/
theorem edge_hz3 : (![0, 0] : Fin 2 → Nat) = fun _ => 0 := funext fun a => by fin_cases a <;> rfl

/-- The body's payload at an index of the block: the sum of the two loaded entries, cut below at zero (the zero
    word of the format is the real number zero). -/
theorem edge_pay3 (x0 x1 : Vec Ideal S2000x512 .f32) (j : S2000x512.Idx) :
    k3_pay1 (F := Ideal) x0 x1 j = max (x0 j + x1 j) 0 := by
  unfold k3_pay1
  simp only [shapeCast_self, addf_apply, maximumf_apply, broadcast_apply]
  show max (x0 j + x1 j) (Ideal.ofBits .f32 0x00000000#32) = _
  rw [Ideal.ofBits_zero_f32]

/-- The three windows' block indices at point `t`, decided over the grid: block row `t`, block column 0. -/
theorem edge_idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- What point `t` writes back is block `t` of `Gedge` of the two input arrays: the three windows' blocks at `t` sit at
    the same rows and columns of their arrays, so entry `j` of the stored block is `Gedge` at the array index of `j`. -/
theorem edge_flushed3 (c : Dev nD) (t : Fin cfg3.N) :
    (dat3 (F := Ideal) V c).flushed 2 t
      = ((cfg3.win 2).blk t).view.read (Elt Ideal) (Gedge (V c (Pipeline.arrRef spec3 0)) (V c (Pipeline.arrRef spec3 1))) := by
  show (cfg3.win 2).cut (grid3.coords t) ((dat3 V c).after 2 t) = _
  rw [after3_2]
  unfold out3_2
  rw [View.canon_unit_zero edge_hz3]
  simp only [View.ld_unit_zero (S := S2000x512) edge_hz3]
  obtain ⟨e0, e1, e2, e3, e4, e5⟩ := edge_idx3 t
  funext j
  show k3_pay1 (F := Ideal) (iblk3 V c 0 t) (iblk3 V c 1 t) j
    = Gedge (V c (Pipeline.arrRef spec3 0)) (V c (Pipeline.arrRef spec3 1)) (((cfg3.win 2).blk t).view.emb j)
  refine (edge_pay3 (iblk3 V c 0 t) (iblk3 V c 1 t) j).trans ?_
  have h0 : ((cfg3.win 0).blk t).view.emb j = ((cfg3.win 2).blk t).view.emb j := by
    funext a; apply Fin.ext
    match a with
    | ⟨0, _⟩ => show win3_0.index t (0 : Fin 2) * 2000 + 1 * (j 0).val = win3_2.index t (0 : Fin 2) * 2000 + 1 * (j 0).val; omega
    | ⟨1, _⟩ => show win3_0.index t (1 : Fin 2) * 512 + 1 * (j 1).val = win3_2.index t (1 : Fin 2) * 512 + 1 * (j 1).val; omega
  have h1 : ((cfg3.win 1).blk t).view.emb j = ((cfg3.win 2).blk t).view.emb j := by
    funext a; apply Fin.ext
    match a with
    | ⟨0, _⟩ => show win3_1.index t (0 : Fin 2) * 2000 + 1 * (j 0).val = win3_2.index t (0 : Fin 2) * 2000 + 1 * (j 0).val; omega
    | ⟨1, _⟩ => show win3_1.index t (1 : Fin 2) * 512 + 1 * (j 1).val = win3_2.index t (1 : Fin 2) * 512 + 1 * (j 1).val; omega
  -- each input block's entry `j` is its array's entry at the output block's index of `j`
  have b0 : iblk3 V c 0 t j = V c (Pipeline.arrRef spec3 0) (((cfg3.win 2).blk t).view.emb j) := by
    show V c (Pipeline.arrRef spec3 0) (((cfg3.win 0).blk t).view.emb j) = _
    rw [h0]
  have b1 : iblk3 V c 1 t j = V c (Pipeline.arrRef spec3 1) (((cfg3.win 2).blk t).view.emb j) := by
    show V c (Pipeline.arrRef spec3 1) (((cfg3.win 1).blk t).view.emb j) = _
    rw [h1]
  rw [Gedge_apply]
  exact congrArg₂ (fun a b : EReal => max (a + b) 0) b0 b1

/-- An index of the array is in point `t`'s block iff each coordinate is in the block's range on its axis. -/
theorem edge_mem_blk3 (t : Fin cfg3.N) (i : S160000x512.Idx) :
    i ∈ ((cfg3.win 2).blk t).view.set ↔ ∀ a : Fin 2, win3_2.index t a * S2000x512.size a ≤ (i a).val ∧ (i a).val < win3_2.index t a * S2000x512.size a + S2000x512.size a := by
  show i ∈ ((View.whole main_v51).slice (win3_2.rect t)).set ↔ _
  rw [View.set_slice_whole, Rect.mem_set_unit]
  exact Iff.rfl

/-- Every index of the output array is in some point's block: row `r` is in the band of point `r / 2000`. -/
theorem edge_cover3 (i : S160000x512.Idx) :
    ∃ t : Fin cfg3.N, (cfg3.win 2).flush t = true ∧ i ∈ ((cfg3.win 2).blk t).view.set := by
  have hi0 : (i 0).val < 160000 := (i 0).isLt
  have hi1 : (i 1).val < 512 := (i 1).isLt
  have ht : (i 0).val / 2000 < cfg3.N := by
    show (i 0).val / 2000 < grid3.N
    rw [N_3]; omega
  obtain ⟨-, -, -, -, e4, e5⟩ := edge_idx3 ⟨(i 0).val / 2000, ht⟩
  have e4' : win3_2.index ⟨(i 0).val / 2000, ht⟩ (0 : Fin 2) = (i 0).val / 2000 := e4
  refine ⟨⟨(i 0).val / 2000, ht⟩, flush3_2 _, ?_⟩
  rw [edge_mem_blk3]
  intro a
  match a with
  | ⟨0, _⟩ =>
    show win3_2.index ⟨(i 0).val / 2000, ht⟩ (0 : Fin 2) * 2000 ≤ (i 0).val ∧ (i 0).val < win3_2.index ⟨(i 0).val / 2000, ht⟩ (0 : Fin 2) * 2000 + 2000
    rw [e4']; omega
  | ⟨1, _⟩ =>
    show win3_2.index ⟨(i 0).val / 2000, ht⟩ (1 : Fin 2) * 512 ≤ (i 1).val ∧ (i 1).val < win3_2.index ⟨(i 0).val / 2000, ht⟩ (1 : Fin 2) * 512 + 512
    rw [e5]; omega

/-- The output array after the region's last point: `Gedge` of the two input arrays as the region finds them. -/
theorem final3 (c : Dev nD) :
    (dat3 (F := Ideal) V c).arrAt 2 cfg3.N = Gedge (V c (Pipeline.arrRef spec3 0)) (V c (Pipeline.arrRef spec3 1)) :=
  (dat3 V c).arrAt_eq_of_cover 2 (Gedge (V c (Pipeline.arrRef spec3 0)) (V c (Pipeline.arrRef spec3 1)))
    (fun t _ => edge_flushed3 V c t) (edge_cover3)

end Cert.KernelIdeal.Hand
-- ==== Proof.KI.Mlp1Value4.lean ====
/- Region 4 of @main on the extended reals: the output array of the pipelined first dense layer, after the
   last grid point, is the layer's whole-array function `Gmlp1` of the four input arrays as the region finds them.
   Grid point `t` handles rows 2000 t … 2000 t + 1999: its blocks of the two feature arrays are those rows, its
   blocks of the weight matrix and the bias row are the whole arrays, and what it writes back is those rows of
   `Gmlp1`. The ten row blocks tile the 20000 rows. -/
import proofs.«157524_j37503654429443_1_alg».proof.Proof.KI.Mlp1_4
import proofs.«157524_j37503654429443_1_alg».proof.Proof.KI.Mlp1Spec
import Idealize.ShloMosaic.Lib.Pipeline.Value
import Idealize.ShloMosaic.Lib.ValueLayout
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The body's arithmetic -/

/-- The value the body stores is the layer on one block: the rounded operands are the operands, the product into
    a zero accumulator is the sum over the contracted channel, and the broadcast bias row is its entry of the
    column. -/
theorem pay4_eq (x0 x1 : Vec Ideal S2000x512 .f32) (x2 : Vec Ideal S512x512 .f32) (x3 : Vec Ideal S1x512 .f32) :
    k4_pay1 (F := Ideal) x0 x1 x2 x3 = mlp1Block x0 x1 x2 x3 := by
  funext j
  obtain ⟨p, q, rfl⟩ : ∃ (p : Fin 2000) (q : Fin 512), j = ix2 p q := ⟨j 0, j 1, eq_ix2 j⟩
  unfold k4_pay1
  simp only [shapeCast_self]
  refine (addf_apply _ _ (ix2 p q)).trans ?_
  rw [matmul_2000x512_512x512_apply, broadcastTo_1b_ab_apply]
  rfl

/-! ## The windows' block indices, over the grid -/

/-- At grid point `t` the two feature windows and the output window are on row block `t`; the weight matrix and
    the bias row stay on their one block. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-! ## The input blocks as entries of the arrays -/

/-- Row `p` of point `t`'s block of the first feature array is row `2000 t + p` of the array. -/
theorem iblk4_0_apply (c : Dev nD) (t : Fin cfg4.N) (p : Fin 2000) (k : Fin 512) (r : Fin 20000) (hr : r.val = t.val * 2000 + p.val) :
    (iblk4 V c 0 t : S2000x512.Idx → Elt Ideal .f32) (ix2 p k) = ((V c (Pipeline.arrRef spec4 0)) : S20000x512.Idx → Elt Ideal .f32) (ix2 r k) := by
  obtain ⟨e0, e1, -⟩ := idx_facts4 t
  unfold iblk4
  rw [View.read_apply]
  refine congrArg ((V c (Pipeline.arrRef spec4 0)) : S20000x512.Idx → Elt Ideal .f32) ?_
  funext a; apply Fin.ext
  match a with
  | ⟨0, _⟩ => show win4_0.index t (0 : Fin 2) * 2000 + 1 * p.val = r.val; rw [e0, hr]; omega
  | ⟨1, _⟩ => show win4_0.index t (1 : Fin 2) * 512 + 1 * k.val = k.val; rw [e1]; omega

/-- The same of the second feature array. -/
theorem iblk4_1_apply (c : Dev nD) (t : Fin cfg4.N) (p : Fin 2000) (k : Fin 512) (r : Fin 20000) (hr : r.val = t.val * 2000 + p.val) :
    (iblk4 V c 1 t : S2000x512.Idx → Elt Ideal .f32) (ix2 p k) = ((V c (Pipeline.arrRef spec4 1)) : S20000x512.Idx → Elt Ideal .f32) (ix2 r k) := by
  obtain ⟨-, -, e0, e1, -⟩ := idx_facts4 t
  unfold iblk4
  rw [View.read_apply]
  refine congrArg ((V c (Pipeline.arrRef spec4 1)) : S20000x512.Idx → Elt Ideal .f32) ?_
  funext a; apply Fin.ext
  match a with
  | ⟨0, _⟩ => show win4_1.index t (0 : Fin 2) * 2000 + 1 * p.val = r.val; rw [e0, hr]; omega
  | ⟨1, _⟩ => show win4_1.index t (1 : Fin 2) * 512 + 1 * k.val = k.val; rw [e1]; omega

/-- Every point's block of the weight matrix is the matrix. -/
theorem iblk4_2_apply (c : Dev nD) (t : Fin cfg4.N) (k q : Fin 512) :
    (iblk4 V c 2 t : S512x512.Idx → Elt Ideal .f32) (ix2 k q) = ((V c (Pipeline.arrRef spec4 2)) : S512x512.Idx → Elt Ideal .f32) (ix2 k q) := by
  obtain ⟨-, -, -, -, e0, e1, -⟩ := idx_facts4 t
  unfold iblk4
  rw [View.read_apply]
  refine congrArg ((V c (Pipeline.arrRef spec4 2)) : S512x512.Idx → Elt Ideal .f32) ?_
  funext a; apply Fin.ext
  match a with
  | ⟨0, _⟩ => show win4_2.index t (0 : Fin 2) * 512 + 1 * k.val = k.val; rw [e0]; omega
  | ⟨1, _⟩ => show win4_2.index t (1 : Fin 2) * 512 + 1 * q.val = q.val; rw [e1]; omega

/-- Every point's block of the bias row is the row. -/
theorem iblk4_3_apply (c : Dev nD) (t : Fin cfg4.N) (q : Fin 512) :
    (iblk4 V c 3 t : S1x512.Idx → Elt Ideal .f32) (ix2 (0 : Fin 1) q) = ((V c (Pipeline.arrRef spec4 3)) : S1x512.Idx → Elt Ideal .f32) (ix2 (0 : Fin 1) q) := by
  obtain ⟨-, -, -, -, -, -, e0, e1, -⟩ := idx_facts4 t
  unfold iblk4
  rw [View.read_apply]
  refine congrArg ((V c (Pipeline.arrRef spec4 3)) : S1x512.Idx → Elt Ideal .f32) ?_
  funext a; apply Fin.ext
  match a with
  | ⟨0, _⟩ => show win4_3.index t (0 : Fin 2) * 1 + 1 * 0 = 0; rw [e0]
  | ⟨1, _⟩ => show win4_3.index t (1 : Fin 2) * 512 + 1 * q.val = q.val; rw [e1]; omega

/-! ## What a point writes back -/

set_option maxHeartbeats 1000000 in
/-- What point `t` writes back is block `t` of `Gmlp1` of the arrays as the region finds them. -/
theorem flushed4_eq (c : Dev nD) (t : Fin cfg4.N) :
    (dat4 (F := Ideal) V c).flushed 4 t = ((cfg4.win 4).blk t).view.read (Elt Ideal)
      (Gmlp1 (V c (Pipeline.arrRef spec4 0)) (V c (Pipeline.arrRef spec4 1)) (V c (Pipeline.arrRef spec4 2)) (V c (Pipeline.arrRef spec4 3))) := by
  show (cfg4.win 4).cut (grid4.coords t) ((dat4 V c).after 4 t) = _
  rw [after4_4]
  unfold out4_4
  rw [View.canon_unit_zero zero_offsets]
  simp only [View.ld_unit_zero (S := S2000x512) zero_offsets, View.ld_unit_zero (S := S512x512) zero_offsets,
    View.ld_unit_zero (S := S1x512) zero_offsets]
  rw [pay4_eq]
  obtain ⟨-, -, -, -, -, -, -, -, e0, e1⟩ := idx_facts4 t
  funext j
  show mlp1Block (iblk4 V c 0 t) (iblk4 V c 1 t) (iblk4 V c 2 t) (iblk4 V c 3 t) j
    = Gmlp1 (V c (Pipeline.arrRef spec4 0)) (V c (Pipeline.arrRef spec4 1)) (V c (Pipeline.arrRef spec4 2)) (V c (Pipeline.arrRef spec4 3)) (((cfg4.win 4).blk t).view.emb j)
  have hr : ((((cfg4.win 4).blk t).view.emb j) 0).val = t.val * 2000 + (j 0).val := by
    show win4_4.index t (0 : Fin 2) * 2000 + 1 * (j 0).val = _; rw [e0]; omega
  have hc : (((cfg4.win 4).blk t).view.emb j) 1 = j 1 := by
    apply Fin.ext
    show win4_4.index t (1 : Fin 2) * 512 + 1 * (j 1).val = (j 1).val; rw [e1]; omega
  refine mlp1Block_eq_Gmlp1 _ _ _ _ _ _ _ _ j _ (fun k => ?_) (fun k => ?_) (fun k => ?_) ?_
  · exact iblk4_0_apply V c t (j 0) k _ hr
  · exact iblk4_1_apply V c t (j 0) k _ hr
  · rw [hc]; exact iblk4_2_apply V c t k (j 1)
  · rw [hc]; exact iblk4_3_apply V c t (j 1)

/-! ## The blocks tile the array -/

/-- An index of the output array is in point `t`'s block iff each coordinate is in the block's range. -/
theorem mem_blk4 (t : Fin cfg4.N) (i : S20000x512.Idx) :
    i ∈ ((cfg4.win 4).blk t).view.set ↔ ∀ a : Fin 2, win4_4.index t a * S2000x512.size a ≤ (i a).val ∧ (i a).val < win4_4.index t a * S2000x512.size a + S2000x512.size a := by
  show i ∈ ((View.whole main_v61).slice (win4_4.rect t)).set ↔ _
  rw [View.set_slice_whole, Rect.mem_set_unit]
  exact Iff.rfl

/-- The output array after the run: row `r` is written by point `r / 2000`, so every entry is `Gmlp1`'s. -/
theorem final4 (c : Dev nD) :
    (dat4 (F := Ideal) V c).arrAt 4 cfg4.N = Gmlp1 (V c (Pipeline.arrRef spec4 0)) (V c (Pipeline.arrRef spec4 1)) (V c (Pipeline.arrRef spec4 2)) (V c (Pipeline.arrRef spec4 3)) :=
  (dat4 (F := Ideal) V c).arrAt_eq_of_cover 4 _ (fun t _ => flushed4_eq V c t) fun i => by
    have hi0 : (i 0).val < 20000 := (i 0).isLt
    have hi1 : (i 1).val < 512 := (i 1).isLt
    have hN : grid4.N = 10 := N_4
    obtain ⟨t, ht⟩ : ∃ t : Fin cfg4.N, t.val = (i 0).val / 2000 :=
      ⟨⟨(i 0).val / 2000, by show _ < grid4.N; rw [hN]; omega⟩, rfl⟩
    obtain ⟨-, -, -, -, -, -, -, -, e0, e1⟩ := idx_facts4 t
    refine ⟨t, flush4_4 t, ?_⟩
    rw [mem_blk4]
    intro a
    match a with
    | ⟨0, _⟩ =>
      show win4_4.index t (0 : Fin 2) * 2000 ≤ (i 0).val ∧ (i 0).val < win4_4.index t (0 : Fin 2) * 2000 + 2000
      rw [e0, ht]; omega
    | ⟨1, _⟩ =>
      show win4_4.index t (1 : Fin 2) * 512 ≤ (i 1).val ∧ (i 1).val < win4_4.index t (1 : Fin 2) * 512 + 512
      rw [e1]; omega

end Cert.KernelIdeal.Hand

end
-- ==== Proof.KI.Mlp2Value5.lean ====
/- The value half of region 5 of @main, at the ideal values: after the pipelined call of the second dense layer, the
   output array holds the layer's function `Gmlp2` of the seven input arrays as the region finds them.
   The steps: the value the body stores, read at one entry of the block, is the layer's entry on the input blocks (a
   product into a zero accumulator is the sum over the summation index; changes of float format, casts to the same
   shape and the zero word are what they are on the extended reals); the features' block at point t is rows
   2000 t .. 2000 t + 1999 of the features and every other block is its whole array (the block indices, decided over
   the ten points); so what point t writes back is block t of `Gmlp2`; the ten blocks cover the array (row r is in
   block r / 2000); hence the array after the last point. -/
import proofs.«157524_j37503654429443_1_alg».proof.Proof.KI.Mlp2_5
import proofs.«157524_j37503654429443_1_alg».proof.Proof.KI.Mlp2Spec
import Idealize.ShloMosaic.Lib.Pipeline.Value
import Idealize.ShloMosaic.Lib.ValueLayout
import Idealize.ShloMosaic.PureOps.Ideal.Laws

set_option maxRecDepth 16384

noncomputable section

open scoped BigOperators

open Cert.KernelIdeal Cert.KernelIdeal.Gen

namespace Cert.KernelIdeal.Hand

open Idealize.ShloMosaic Idealize.ShloMosaic.TcCoe Idealize.SL.Sem Idealize.ShloMosaic.ValueIdx
open Idealize.ShloMosaic.Pipeline (Dat)

/-! ## The body's arithmetic at one entry of the block -/

/-- The zero offsets of a whole-buffer access, as a constant function. -/
theorem zoff5 : (![0, 0] : Fin 2 → Nat) = fun _ => 0 := funext fun a => by fin_cases a <;> rfl

/-- In the product of a 2000x512 block by the 512x512 weight, the left operand is read at (row of the entry, summation
    index) -/
theorem dotL5 (p : Fin 2000) (q k : Fin 512) :
    dot_S2000x512_S512x512_S2000x512_1_0_0_1_n_n.lhsIdx (ix2 p q)
      ((contrEquiv1 dot_S2000x512_S512x512_S2000x512_1_0_0_1_n_n 512 rfl rfl).symm k) = ix2 p k := by
  have c2 := contrEquiv1_symm_val dot_S2000x512_S512x512_S2000x512_1_0_0_1_n_n 512 rfl rfl k
  funext ax; apply Fin.ext
  match ax with
  | ⟨0, _⟩ => simp [DotDims.lhsIdx, dot_S2000x512_S512x512_S2000x512_1_0_0_1_n_n]; rfl
  | ⟨1, _⟩ => simp [DotDims.lhsIdx, dot_S2000x512_S512x512_S2000x512_1_0_0_1_n_n]; exact c2

/-- and the right operand at (summation index, column of the entry). -/
theorem dotR5 (p : Fin 2000) (q k : Fin 512) :
    dot_S2000x512_S512x512_S2000x512_1_0_0_1_n_n.rhsIdx (ix2 p q)
      ((contrEquiv1 dot_S2000x512_S512x512_S2000x512_1_0_0_1_n_n 512 rfl rfl).symm k) = ix2 k q := by
  have c2 := contrEquiv1_symm_val dot_S2000x512_S512x512_S2000x512_1_0_0_1_n_n 512 rfl rfl k
  funext ax; apply Fin.ext
  match ax with
  | ⟨0, _⟩ => simp [DotDims.rhsIdx, dot_S2000x512_S512x512_S2000x512_1_0_0_1_n_n]; exact c2
  | ⟨1, _⟩ => simp [DotDims.rhsIdx, dot_S2000x512_S512x512_S2000x512_1_0_0_1_n_n]; rfl

/-- The value the body stores, at entry (p, q) of the block, is the layer's entry (p, q) on the blocks: the features'
    block `x0`, the rows `x1 .. x4` and `x6`, the weight `x5`. The product into a zero accumulator is the sum over the
    summation index of the products of the entries; the changes of float format are the identity; a cast to the
    same shape is the identity; a row broadcast over the rows reads the row. -/
theorem pay5_at (x0 : FVec Ideal S2000x512 .f32) (x1 x2 x3 x4 : FVec Ideal S1x512 .f32) (x5 : FVec Ideal S512x512 .f32)
    (x6 : FVec Ideal S1x512 .f32) (p : Fin 2000) (q : Fin 512) :
    k5_pay1 (F := Ideal) x0 x2 x1 x3 x4 x5 x6 (ix2 p q) = mlp2At (n := 2000) x0 x1 x2 x3 x4 x5 x6 p q := by
  unfold k5_pay1 mlp2At
  simp only [shapeCast_self]
  show max (FloatOps.matmul dot_S2000x512_S512x512_S2000x512_1_0_0_1_n_n none _ _ (constant (F := Ideal) S2000x512 .f32 0x00000000#32) (ix2 p q)
      + broadcastTo S2000x512 x6 broadcasts_S1x512_S2000x512 (ix2 p q)) (Ideal.ofBits .f32 0x00000000#32) = _
  rw [Ideal.ofBits_zero_f32, Ideal.matmul_constant_zero_apply,
    ← Equiv.sum_comp (contrEquiv1 dot_S2000x512_S512x512_S2000x512_1_0_0_1_n_n 512 rfl rfl).symm]
  refine congrArg₂ max (congrArg₂ (· + ·) (Finset.sum_congr rfl fun k _ => ?_) (broadcastTo_1b_ab_apply x6 _ p q)) rfl
  rw [dotL5, dotR5]
  show max ((x0 (ix2 p k) - broadcastTo S2000x512 x1 broadcasts_S1x512_S2000x512 (ix2 p k))
        * broadcastTo S2000x512 (rsqrt (addf x2 (broadcast S1x512 (Scalar.ofBits .f32 0x3727C5AC#32)))) broadcasts_S1x512_S2000x512 (ix2 p k)
        * broadcastTo S2000x512 x3 broadcasts_S1x512_S2000x512 (ix2 p k)
        + broadcastTo S2000x512 x4 broadcasts_S1x512_S2000x512 (ix2 p k)) (Ideal.ofBits .f32 0x00000000#32) * x5 (ix2 k q) = _
  rw [Ideal.ofBits_zero_f32, broadcastTo_1b_ab_apply x1, broadcastTo_1b_ab_apply x3, broadcastTo_1b_ab_apply x4,
    broadcastTo_1b_ab_apply (rsqrt (addf x2 (broadcast S1x512 (Scalar.ofBits .f32 0x3727C5AC#32))))]
  rfl

variable (V : (c : Dev nD) → (b : Ref sig .tc) → Buf (Elt Ideal) ((c : Thread nD τ).loc b))

/-! ## The windows' block indices, decided over the ten grid points -/

/-- At point `t` the features' window and the output window are on block (t, 0); every other window is on block
    (0, 0), its whole array. -/
theorem idx5_facts : ∀ t : Fin cfg5.N,
    win5_0.index t (0 : Fin 2) = t.val
    ∧ win5_0.index t (1 : Fin 2) = 0
    ∧ win5_7.index t (0 : Fin 2) = t.val
    ∧ win5_7.index t (1 : Fin 2) = 0
    ∧ win5_1.index t (0 : Fin 2) = 0
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0
    ∧ win5_4.index t (0 : Fin 2) = 0
    ∧ win5_4.index t (1 : Fin 2) = 0
    ∧ win5_5.index t (0 : Fin 2) = 0
    ∧ win5_5.index t (1 : Fin 2) = 0
    ∧ win5_6.index t (0 : Fin 2) = 0
    ∧ win5_6.index t (1 : Fin 2) = 0 :=
  (by decide +kernel : ∀ t : Fin grid5.N, _)

/-! ## Each input block read as entries of its array -/

/-- Entry (p, k) of the features' block at point `t` is entry (2000 t + p, k) of the features. -/
theorem blk5_0 (c : Dev nD) (t : Fin cfg5.N) (p : Fin 2000) (k : Fin 512) (r : Fin 20000) (hr : r.val = t.val * 2000 + p.val) :
    (iblk5 V c 0 t : FVec Ideal S2000x512 .f32) (ix2 p k) = (V c (Pipeline.arrRef spec5 0) : FVec Ideal S20000x512 .f32) (ix2 r k) := by
  obtain ⟨f00, f01, f70, f71, f10, f11, f20, f21, f30, f31, f40, f41, f50, f51, f60, f61⟩ := idx5_facts t
  show V c (Pipeline.arrRef spec5 0) (((cfg5.win 0).blk t).view.emb (ix2 p k)) = _
  refine congrArg (V c (Pipeline.arrRef spec5 0)) (funext fun a => Fin.ext ?_)
  match a with
  | ⟨0, _⟩ => show win5_0.index t (0 : Fin 2) * 2000 + 1 * p.val = r.val; rw [f00, hr]; omega
  | ⟨1, _⟩ => show win5_0.index t (1 : Fin 2) * 512 + 1 * k.val = k.val; rw [f01]; omega

/-- Window 1's block at any point is its whole row. -/
theorem blk5_1 (c : Dev nD) (t : Fin cfg5.N) (k k' : Fin 512) (hk : k'.val = k.val) :
    (iblk5 V c 1 t : FVec Ideal S1x512 .f32) (ix2 (0 : Fin 1) k) = (V c (Pipeline.arrRef spec5 1) : FVec Ideal S1x512 .f32) (ix2 (0 : Fin 1) k') := by
  obtain ⟨f00, f01, f70, f71, f10, f11, f20, f21, f30, f31, f40, f41, f50, f51, f60, f61⟩ := idx5_facts t
  show V c (Pipeline.arrRef spec5 1) (((cfg5.win 1).blk t).view.emb (ix2 (0 : Fin 1) k)) = _
  refine congrArg (V c (Pipeline.arrRef spec5 1)) (funext fun a => Fin.ext ?_)
  match a with
  | ⟨0, _⟩ => show win5_1.index t (0 : Fin 2) * 1 + 1 * ((0 : Fin 1) : Nat) = ((0 : Fin 1) : Nat); rw [f10]; rfl
  | ⟨1, _⟩ => show win5_1.index t (1 : Fin 2) * 512 + 1 * k.val = k'.val; rw [f11, hk]; omega

/-- Window 2's block at any point is its whole row. -/
theorem blk5_2 (c : Dev nD) (t : Fin cfg5.N) (k k' : Fin 512) (hk : k'.val = k.val) :
    (iblk5 V c 2 t : FVec Ideal S1x512 .f32) (ix2 (0 : Fin 1) k) = (V c (Pipeline.arrRef spec5 2) : FVec Ideal S1x512 .f32) (ix2 (0 : Fin 1) k') := by
  obtain ⟨f00, f01, f70, f71, f10, f11, f20, f21, f30, f31, f40, f41, f50, f51, f60, f61⟩ := idx5_facts t
  show V c (Pipeline.arrRef spec5 2) (((cfg5.win 2).blk t).view.emb (ix2 (0 : Fin 1) k)) = _
  refine congrArg (V c (Pipeline.arrRef spec5 2)) (funext fun a => Fin.ext ?_)
  match a with
  | ⟨0, _⟩ => show win5_2.index t (0 : Fin 2) * 1 + 1 * ((0 : Fin 1) : Nat) = ((0 : Fin 1) : Nat); rw [f20]; rfl
  | ⟨1, _⟩ => show win5_2.index t (1 : Fin 2) * 512 + 1 * k.val = k'.val; rw [f21, hk]; omega

/-- Window 3's block at any point is its whole row. -/
theorem blk5_3 (c : Dev nD) (t : Fin cfg5.N) (k k' : Fin 512) (hk : k'.val = k.val) :
    (iblk5 V c 3 t : FVec Ideal S1x512 .f32) (ix2 (0 : Fin 1) k) = (V c (Pipeline.arrRef spec5 3) : FVec Ideal S1x512 .f32) (ix2 (0 : Fin 1) k') := by
  obtain ⟨f00, f01, f70, f71, f10, f11, f20, f21, f30, f31, f40, f41, f50, f51, f60, f61⟩ := idx5_facts t
  show V c (Pipeline.arrRef spec5 3) (((cfg5.win 3).blk t).view.emb (ix2 (0 : Fin 1) k)) = _
  refine congrArg (V c (Pipeline.arrRef spec5 3)) (funext fun a => Fin.ext ?_)
  match a with
  | ⟨0, _⟩ => show win5_3.index t (0 : Fin 2) * 1 + 1 * ((0 : Fin 1) : Nat) = ((0 : Fin 1) : Nat); rw [f30]; rfl
  | ⟨1, _⟩ => show win5_3.index t (1 : Fin 2) * 512 + 1 * k.val = k'.val; rw [f31, hk]; omega

/-- Window 4's block at any point is its whole row. -/
theorem blk5_4 (c : Dev nD) (t : Fin cfg5.N) (k k' : Fin 512) (hk : k'.val = k.val) :
    (iblk5 V c 4 t : FVec Ideal S1x512 .f32) (ix2 (0 : Fin 1) k) = (V c (Pipeline.arrRef spec5 4) : FVec Ideal S1x512 .f32) (ix2 (0 : Fin 1) k') := by
  obtain ⟨f00, f01, f70, f71, f10, f11, f20, f21, f30, f31, f40, f41, f50, f51, f60, f61⟩ := idx5_facts t
  show V c (Pipeline.arrRef spec5 4) (((cfg5.win 4).blk t).view.emb (ix2 (0 : Fin 1) k)) = _
  refine congrArg (V c (Pipeline.arrRef spec5 4)) (funext fun a => Fin.ext ?_)
  match a with
  | ⟨0, _⟩ => show win5_4.index t (0 : Fin 2) * 1 + 1 * ((0 : Fin 1) : Nat) = ((0 : Fin 1) : Nat); rw [f40]; rfl
  | ⟨1, _⟩ => show win5_4.index t (1 : Fin 2) * 512 + 1 * k.val = k'.val; rw [f41, hk]; omega

/-- Window 6's block at any point is its whole row. -/
theorem blk5_6 (c : Dev nD) (t : Fin cfg5.N) (k k' : Fin 512) (hk : k'.val = k.val) :
    (iblk5 V c 6 t : FVec Ideal S1x512 .f32) (ix2 (0 : Fin 1) k) = (V c (Pipeline.arrRef spec5 6) : FVec Ideal S1x512 .f32) (ix2 (0 : Fin 1) k') := by
  obtain ⟨f00, f01, f70, f71, f10, f11, f20, f21, f30, f31, f40, f41, f50, f51, f60, f61⟩ := idx5_facts t
  show V c (Pipeline.arrRef spec5 6) (((cfg5.win 6).blk t).view.emb (ix2 (0 : Fin 1) k)) = _
  refine congrArg (V c (Pipeline.arrRef spec5 6)) (funext fun a => Fin.ext ?_)
  match a with
  | ⟨0, _⟩ => show win5_6.index t (0 : Fin 2) * 1 + 1 * ((0 : Fin 1) : Nat) = ((0 : Fin 1) : Nat); rw [f60]; rfl
  | ⟨1, _⟩ => show win5_6.index t (1 : Fin 2) * 512 + 1 * k.val = k'.val; rw [f61, hk]; omega

/-- The weight's block at any point is the whole weight. -/
theorem blk5_5 (c : Dev nD) (t : Fin cfg5.N) (k q q' : Fin 512) (hq : q'.val = q.val) :
    (iblk5 V c 5 t : FVec Ideal S512x512 .f32) (ix2 k q) = (V c (Pipeline.arrRef spec5 5) : FVec Ideal S512x512 .f32) (ix2 k q') := by
  obtain ⟨f00, f01, f70, f71, f10, f11, f20, f21, f30, f31, f40, f41, f50, f51, f60, f61⟩ := idx5_facts t
  show V c (Pipeline.arrRef spec5 5) (((cfg5.win 5).blk t).view.emb (ix2 k q)) = _
  refine congrArg (V c (Pipeline.arrRef spec5 5)) (funext fun a => Fin.ext ?_)
  match a with
  | ⟨0, _⟩ => show win5_5.index t (0 : Fin 2) * 512 + 1 * k.val = k.val; rw [f50]; omega
  | ⟨1, _⟩ => show win5_5.index t (1 : Fin 2) * 512 + 1 * q.val = q'.val; rw [f51, hq]; omega

/-! ## What a point writes back, and the array after the last point -/

/-- What point `t` writes back to the output array is the value the body stores, computed on the input windows' blocks
    at that point (the one store is of the whole buffer, and each load reads a whole buffer). -/
theorem flushed5_pay (c : Dev nD) (t : Fin cfg5.N) :
    (dat5 (F := Ideal) V c).flushed 7 t = (cfg5.win 7).cut (grid5.coords t)
      (k5_pay1 (F := Ideal) (iblk5 V c 0 t) (iblk5 V c 2 t) (iblk5 V c 1 t) (iblk5 V c 3 t) (iblk5 V c 4 t) (iblk5 V c 5 t) (iblk5 V c 6 t)) := by
  show (cfg5.win 7).cut (grid5.coords t) ((dat5 (F := Ideal) V c).after 7 t) = _
  rw [after5_7]
  unfold out5_7
  rw [View.canon_unit_zero zoff5]
  simp only [View.ld_unit_zero (S := S2000x512) zoff5, View.ld_unit_zero (S := S1x512) zoff5, View.ld_unit_zero (S := S512x512) zoff5]

/-- Entry (p, q) of the value stored at point `t` is the layer's entry (r, q') on the whole arrays, for the row
    r = 2000 t + p and the column q' = q: the features' block reads rows 2000 t .. 2000 t + 1999, the other blocks are
    their whole arrays, and an entry of the layer depends on the features through one row only. -/
theorem entry5 (c : Dev nD) (t : Fin cfg5.N) (p : Fin 2000) (q : Fin 512) (r : Fin 20000) (q' : Fin 512)
    (hr : r.val = t.val * 2000 + p.val) (hq : q'.val = q.val) :
    k5_pay1 (F := Ideal) (iblk5 V c 0 t) (iblk5 V c 2 t) (iblk5 V c 1 t) (iblk5 V c 3 t) (iblk5 V c 4 t) (iblk5 V c 5 t) (iblk5 V c 6 t) (ix2 p q)
      = mlp2At (n := 20000) (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) r q' :=
  (pay5_at (iblk5 V c 0 t) (iblk5 V c 1 t) (iblk5 V c 2 t) (iblk5 V c 3 t) (iblk5 V c 4 t) (iblk5 V c 5 t) (iblk5 V c 6 t) p q).trans
    (mlp2At_congr (n := 2000) (n' := 20000) (iblk5 V c 0 t) (V c (Pipeline.arrRef spec5 0))
      (iblk5 V c 1 t) (iblk5 V c 2 t) (iblk5 V c 3 t) (iblk5 V c 4 t) (V c (Pipeline.arrRef spec5 1)) (V c (Pipeline.arrRef spec5 2)) (V c (Pipeline.arrRef spec5 3)) (V c (Pipeline.arrRef spec5 4))
      (iblk5 V c 5 t) (V c (Pipeline.arrRef spec5 5)) (iblk5 V c 6 t) (V c (Pipeline.arrRef spec5 6)) p r q q'
      (fun k => blk5_0 V c t p k r hr)
      (fun k => blk5_1 V c t k k rfl) (fun k => blk5_2 V c t k k rfl) (fun k => blk5_3 V c t k k rfl) (fun k => blk5_4 V c t k k rfl)
      (fun k => blk5_5 V c t k q q' hq) (blk5_6 V c t q q' hq))

set_option maxHeartbeats 800000 in
/-- So what point `t` writes back is block `t` of the layer's function of the arrays as the region finds them. -/
theorem flushed5_eq (c : Dev nD) (t : Fin cfg5.N) :
    (dat5 (F := Ideal) V c).flushed 7 t = ((cfg5.win 7).blk t).view.read (Elt Ideal) (Gmlp2 (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6))) := by
  rw [flushed5_pay]
  funext j
  obtain ⟨p, q, rfl⟩ : ∃ (p : Fin 2000) (q : Fin 512), j = ix2 p q := ⟨j 0, j 1, eq_ix2 j⟩
  obtain ⟨-, -, f70, f71, -⟩ := idx5_facts t
  dsimp only [Pipeline.Window.cut]
  rw [View.read_apply]
  unfold Gmlp2
  have h0 : (((((View.whole main_v80).slice ((win5 7).rect t)).emb (ix2 p q) 0 : Fin 20000)) : Nat) = t.val * 2000 + p.val := by
    show win5_7.index t (0 : Fin 2) * 2000 + 1 * p.val = _; rw [f70]; omega
  have h1 : (((((View.whole main_v80).slice ((win5 7).rect t)).emb (ix2 p q) 1 : Fin 512)) : Nat) = q.val := by
    show win5_7.index t (1 : Fin 2) * 512 + 1 * q.val = _; rw [f71]; omega
  refine Eq.trans ?_ (cast_eq rfl _).symm
  exact entry5 V c t p q _ _ h0 h1

/-- An index of the output array is in point `t`'s block iff each coordinate is in the block's range on its axis. -/
theorem mem_blk5 (t : Fin cfg5.N) (i : S20000x512.Idx) :
    i ∈ ((cfg5.win 7).blk t).view.set ↔ ∀ a : Fin 2, win5_7.index t a * S2000x512.size a ≤ (i a).val ∧ (i a).val < win5_7.index t a * S2000x512.size a + S2000x512.size a := by
  show i ∈ ((View.whole main_v80).slice (win5_7.rect t)).set ↔ _
  rw [View.set_slice_whole, Rect.mem_set_unit]
  exact Iff.rfl

/-- Every index of the output array is in some point's block: row r is in the block of point r / 2000. -/
theorem cover5 (i : S20000x512.Idx) : ∃ t : Fin cfg5.N, (cfg5.win 7).flush t = true ∧ i ∈ ((cfg5.win 7).blk t).view.set := by
  have hi0 : (i 0).val < 20000 := (i 0).isLt
  have hi1 : (i 1).val < 512 := (i 1).isLt
  have hN : grid5.N = 10 := N_5
  have ht : (i 0).val / 2000 < cfg5.N := by show (i 0).val / 2000 < grid5.N; rw [hN]; omega
  obtain ⟨-, -, f70, f71, -⟩ := idx5_facts ⟨(i 0).val / 2000, ht⟩
  refine ⟨⟨(i 0).val / 2000, ht⟩, flush5_7 _, ?_⟩
  rw [mem_blk5]
  intro a
  match a with
  | ⟨0, _⟩ =>
    show win5_7.index ⟨(i 0).val / 2000, ht⟩ (0 : Fin 2) * 2000 ≤ (i 0).val ∧ (i 0).val < win5_7.index ⟨(i 0).val / 2000, ht⟩ (0 : Fin 2) * 2000 + 2000
    rw [f70]; show (i 0).val / 2000 * 2000 ≤ (i 0).val ∧ (i 0).val < (i 0).val / 2000 * 2000 + 2000; omega
  | ⟨1, _⟩ =>
    show win5_7.index ⟨(i 0).val / 2000, ht⟩ (1 : Fin 2) * 512 ≤ (i 1).val ∧ (i 1).val < win5_7.index ⟨(i 0).val / 2000, ht⟩ (1 : Fin 2) * 512 + 512
    rw [f71]; omega

/-- The output array after the last point is the layer's function of the seven input arrays as the region finds them. -/
theorem final5 (c : Dev nD) : (dat5 (F := Ideal) V c).arrAt 7 cfg5.N = Gmlp2 (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) :=
  (dat5 (F := Ideal) V c).arrAt_eq_of_cover 7 (Gmlp2 (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6))) (fun t _ => flushed5_eq V c t) (cover5)

end Cert.KernelIdeal.Hand
-- ==== Proof.KI.Read2.lean ====
/- Layer 2 of the kernel program read back: from what layer 1 left — its node features, the edge table's two rows, the
   arguments — to the node features the layer's third kernel leaves, the first layer's readout, and the same buffers kept.
   Each host stretch is read at the buffers the next item takes, each kernel's output array is its whole-array function
   of the arrays it was entered with. -/
import proofs.«157524_j37503654429443_1_alg».proof.Proof.KI.Stage
import proofs.«157524_j37503654429443_1_alg».proof.Proof.KI.Terms
import proofs.«157524_j37503654429443_1_alg».proof.Proof.KI.EdgeValue3
import proofs.«157524_j37503654429443_1_alg».proof.Proof.KI.Mlp1Value4
import proofs.«157524_j37503654429443_1_alg».proof.Proof.KI.Mlp2Value5
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.ShloMosaic.StableHlo

variable (m : (ℓ : Loc nD τ sig) → Buf (Elt Ideal) ℓ) (c : Dev nD)

/-- An argument array of core `c` at launch. -/
abbrev argAt2 (b : Ref sig .tc) : Buf (Elt Ideal) ((c : Thread nD τ).loc b) := m ((c : Thread nD τ).loc b)

/-- The ten arguments. -/
abbrev argRefs2 : List (Ref sig .tc) := [main_arg0, main_arg1, main_arg2, main_arg3, main_arg4, main_arg5, main_arg6, main_arg7, main_arg8, main_arg9]

/-! ## What layer 1 left (the hypotheses), and the buffers layer 2 keeps -/

section Layer2

variable (z : FVec Ideal S20000x512 .f32)
  (hz : W8 m c main_v40 = z)
  (hs : W8 m c main_v1 = srcOf (argAt2 m c main_arg1))
  (hd : W8 m c main_v3 = dstOf (argAt2 m c main_arg1))
  (ha : ∀ r ∈ argRefs2, W8 m c r = argAt2 m c r)

/-- The buffers every item of the layer reads and none writes: the ten arguments and the edge table's two rows. -/
abbrev kept2 : List (Ref sig .tc) := [main_arg0, main_arg1, main_arg2, main_arg3, main_arg4, main_arg5, main_arg6, main_arg7, main_arg8, main_arg9, main_v1, main_v3]

theorem kept2_3 : ∀ r ∈ kept2, r ∉ hostOps3_W := by decide
theorem kept2_10 : ∀ r ∈ kept2, r ≠ main_v51 := by decide
theorem kept2_4 : ∀ r ∈ kept2, r ∉ hostOps4_W := by decide
theorem kept2_12 : ∀ r ∈ kept2, r ≠ main_v61 := by decide
theorem kept2_5 : ∀ r ∈ kept2, r ∉ hostOps5_W := by decide
theorem kept2_5_1 : ∀ r ∈ kept2, r ∉ hostOps5_1_W := by decide
theorem kept2_5_2 : ∀ r ∈ kept2, r ∉ hostOps5_2_W := by decide
theorem kept2_16 : ∀ r ∈ kept2, r ≠ main_v80 := by decide

/-- Those buffers hold at every boundary of the layer what they held when it began. -/
theorem keep9 (r : Ref sig .tc) (hr : r ∈ kept2) : W9 m c r = W8 m c r := W9_of m c r (kept2_3 r hr)
theorem keep10 (r : Ref sig .tc) (hr : r ∈ kept2) : W10 m c r = W8 m c r := (W10_of m c r (kept2_10 r hr)).trans (keep9 m c r hr)
theorem keep11 (r : Ref sig .tc) (hr : r ∈ kept2) : W11 m c r = W8 m c r := (W11_of m c r (kept2_4 r hr)).trans (keep10 m c r hr)
theorem keep12 (r : Ref sig .tc) (hr : r ∈ kept2) : W12 m c r = W8 m c r := (W12_of m c r (kept2_12 r hr)).trans (keep11 m c r hr)
theorem keep13 (r : Ref sig .tc) (hr : r ∈ kept2) : W13 m c r = W8 m c r := (W13_of m c r (kept2_5 r hr)).trans (keep12 m c r hr)
theorem keep14 (r : Ref sig .tc) (hr : r ∈ kept2) : W14 m c r = W8 m c r := (W14_of m c r (kept2_5_1 r hr)).trans (keep13 m c r hr)
theorem keep15 (r : Ref sig .tc) (hr : r ∈ kept2) : W15 m c r = W8 m c r := (W15_of m c r (kept2_5_2 r hr)).trans (keep14 m c r hr)
theorem keep16 (r : Ref sig .tc) (hr : r ∈ kept2) : W16 m c r = W8 m c r := (W16_of m c r (kept2_16 r hr)).trans (keep15 m c r hr)

/-- Layer 2's hidden features: the first dense kernel's result on the features layer 1 left. -/
abbrev hid2 : FVec Ideal S20000x512 .f32 := hidden z (srcOf (argAt2 m c main_arg1)) (dstOf (argAt2 m c main_arg1)) (argAt2 m c main_arg2) (mat1 (argAt2 m c main_arg4)) (row1 (argAt2 m c main_arg5))

/-! ### The first host stretch: layer 1's readout, and the source rows gathered along the edges -/

include hz ha in
/-- The first layer's readout: the node features layer 1 left, summed per graph. -/
theorem W9_v43 : W9 m c main_v43 = readout z (argAt2 m c main_arg3) := by
  rw [W9_def]
  after_results
  rw [hz, ha main_arg3 (by decide)]
  rfl

include hz hs in
/-- The source node's features of every edge. -/
theorem W9_v50 : W9 m c main_v50 = gathered z (srcOf (argAt2 m c main_arg1)) := by
  rw [W9_def]
  after_results
  rw [hz, hs]
  rfl

/-! ### The edge kernel -/

include hz hs ha in
/-- The edge kernel's output: the messages. -/
theorem W10_v51 : W10 m c main_v51 = Gedge (gathered z (srcOf (argAt2 m c main_arg1))) (argAt2 m c main_arg2) := by
  rw [W10_self, (O3_def m c).trans (final3 (rd (W9 m)) c)]
  show Gedge (W9 m c main_v50) (W9 m c main_arg2) = _
  rw [W9_v50 m c z hz hs, keep9 m c main_arg2 (by decide), ha main_arg2 (by decide)]

/-! ### The second host stretch: the messages summed at the targets, the first linear map's weight and bias -/

include hz hs hd ha in
/-- The messages summed at their target nodes. -/
theorem W11_v54 : W11 m c main_v54 = summed (Gedge (gathered z (srcOf (argAt2 m c main_arg1))) (argAt2 m c main_arg2)) (dstOf (argAt2 m c main_arg1)) := by
  rw [W11_def]
  after_results
  rw [W10_v51 m c z hz hs ha, keep10 m c main_v3 (by decide), hd]
  rfl

include ha in
/-- The first linear map's weight, transposed. -/
theorem W11_v57 : W11 m c main_v57 = wT (mat1 (argAt2 m c main_arg4)) := by
  rw [W11_def]
  after_results
  rw [keep10 m c main_arg4 (by decide), ha main_arg4 (by decide)]
  rfl

include ha in
/-- The first linear map's bias, as a one-row matrix. -/
theorem W11_v60 : W11 m c main_v60 = rowOf (vecOf (row1 (argAt2 m c main_arg5))) := by
  rw [W11_def]
  after_results
  rw [keep10 m c main_arg5 (by decide), ha main_arg5 (by decide)]
  rfl

include hz in
/-- The node features layer 1 left are still there. -/
theorem W11_v40 : W11 m c main_v40 = z := by
  rw [W11_of m c main_v40 (by decide), W10_of m c main_v40 (by decide), W9_of m c main_v40 (by decide)]
  exact hz

/-! ### The first dense kernel -/

include hz hs hd ha in
/-- The first dense kernel's output: the hidden features. -/
theorem W12_v61 : W12 m c main_v61 = hid2 m c z := by
  rw [W12_self, (O4_def m c).trans (final4 (rd (W11 m)) c)]
  show Gmlp1 (W11 m c main_v40) (W11 m c main_v54) (W11 m c main_v57) (W11 m c main_v60) = _
  rw [W11_v40 m c z hz, W11_v54 m c z hz hs hd ha, W11_v57 m c ha, W11_v60 m c ha]
  rfl

/-! ### The third host stretch: the batch's mean and variance of the hidden features, the second dense kernel's rows -/

include hz hs hd ha in
theorem W13_v61 : W13 m c main_v61 = hid2 m c z := by
  rw [W13_of m c main_v61 (by decide)]
  exact W12_v61 m c z hz hs hd ha

include hz hs hd ha in
/-- The mean of every hidden feature over the nodes. -/
theorem W13_v64 : W13 m c main_v64 = mean (hid2 m c z) := by
  rw [W13_def]
  after_results
  rw [W12_v61 m c z hz hs hd ha]
  rfl

/-- The variance's correction: zero. -/
theorem W13_c10 : W13 m c main_c_10 = (constantI S_ 32 0#32 : IVec S_ 32) := by
  rw [W13_def]
  after_results

include hz hs hd ha in
/-- The variance of every hidden feature over the nodes. -/
theorem W14_v65 : W14 m c main_v65 = var (hid2 m c z) := by
  rw [W14_def]
  after_results_simp
  rw [W13_v61 m c z hz hs hd ha, W13_c10 m c]
  rfl

include hz hs hd ha in
theorem W14_v64 : W14 m c main_v64 = mean (hid2 m c z) := by
  rw [W14_of m c main_v64 (by decide)]
  exact W13_v64 m c z hz hs hd ha

include hz hs hd ha in
theorem W14_v61 : W14 m c main_v61 = hid2 m c z := by
  rw [W14_of m c main_v61 (by decide)]
  exact W13_v61 m c z hz hs hd ha

include hz hs hd ha in
theorem W15_v61 : W15 m c main_v61 = hid2 m c z := by
  rw [W15_of m c main_v61 (by decide)]
  exact W14_v61 m c z hz hs hd ha

include hz hs hd ha in
/-- The mean as a one-row matrix. -/
theorem W15_v75 : W15 m c main_v75 = rowOf (mean (hid2 m c z)) := by
  rw [W15_def]
  after_results
  rw [W14_v64 m c z hz hs hd ha]
  rfl

include hz hs hd ha in
/-- The variance as a one-row matrix. -/
theorem W15_v76 : W15 m c main_v76 = rowOf (var (hid2 m c z)) := by
  rw [W15_def]
  after_results
  rw [W14_v65 m c z hz hs hd ha]
  rfl

include ha in
/-- The normalization's scale, as a one-row matrix. -/
theorem W15_v77 : W15 m c main_v77 = rowOf (vecOf (row1 (argAt2 m c main_arg6))) := by
  rw [W15_def]
  after_results
  rw [keep14 m c main_arg6 (by decide), ha main_arg6 (by decide)]
  rfl

include ha in
/-- The normalization's shift, as a one-row matrix. -/
theorem W15_v78 : W15 m c main_v78 = rowOf (vecOf (row1 (argAt2 m c main_arg7))) := by
  rw [W15_def]
  after_results
  rw [keep14 m c main_arg7 (by decide), ha main_arg7 (by decide)]
  rfl

include ha in
/-- The second linear map's weight, transposed. -/
theorem W15_v68 : W15 m c main_v68 = wT (mat1 (argAt2 m c main_arg8)) := by
  rw [W15_def]
  after_results
  rw [keep14 m c main_arg8 (by decide), ha main_arg8 (by decide)]
  rfl

include ha in
/-- The second linear map's bias, as a one-row matrix. -/
theorem W15_v79 : W15 m c main_v79 = rowOf (vecOf (row1 (argAt2 m c main_arg9))) := by
  rw [W15_def]
  after_results
  rw [keep14 m c main_arg9 (by decide), ha main_arg9 (by decide)]
  rfl

/-! ### The second dense kernel -/

include hz hs hd ha in
/-- The second dense kernel's output: the node features layer 2 leaves. -/
theorem W16_v80 : W16 m c main_v80
    = layerK z (srcOf (argAt2 m c main_arg1)) (dstOf (argAt2 m c main_arg1)) (argAt2 m c main_arg2) (mat1 (argAt2 m c main_arg4)) (row1 (argAt2 m c main_arg5)) (row1 (argAt2 m c main_arg6)) (row1 (argAt2 m c main_arg7)) (mat1 (argAt2 m c main_arg8)) (row1 (argAt2 m c main_arg9)) := by
  rw [W16_self, (O5_def m c).trans (final5 (rd (W15 m)) c)]
  show Gmlp2 (W15 m c main_v61) (W15 m c main_v75) (W15 m c main_v76) (W15 m c main_v77) (W15 m c main_v78) (W15 m c main_v68)
    (W15 m c main_v79) = _
  rw [W15_v61 m c z hz hs hd ha, W15_v75 m c z hz hs hd ha, W15_v76 m c z hz hs hd ha, W15_v77 m c ha, W15_v78 m c ha, W15_v68 m c ha, W15_v79 m c ha]
  rfl

/-! ### What the layer keeps -/

include hz ha in
/-- The first layer's readout is still there when the layer ends. -/
theorem W16_v43 : W16 m c main_v43 = readout z (argAt2 m c main_arg3) := by
  rw [W16_of m c main_v43 (by decide), W15_of m c main_v43 (by decide), W14_of m c main_v43 (by decide),
    W13_of m c main_v43 (by decide), W12_of m c main_v43 (by decide), W11_of m c main_v43 (by decide),
    W10_of m c main_v43 (by decide)]
  exact W9_v43 m c z hz ha

include hs in
theorem W16_v1 : W16 m c main_v1 = srcOf (argAt2 m c main_arg1) := (keep16 m c main_v1 (by decide)).trans hs
include hd in
theorem W16_v3 : W16 m c main_v3 = dstOf (argAt2 m c main_arg1) := (keep16 m c main_v3 (by decide)).trans hd
include ha in
theorem W16_arg (r : Ref sig .tc) (hr : r ∈ argRefs2) : W16 m c r = argAt2 m c r :=
  (keep16 m c r (List.mem_append_left _ hr)).trans (ha r hr)

end Layer2

end Cert.KernelIdeal.Hand

end
-- ==== Proof.KI.EdgeValue6.lean ====
/- The value half of region 6 at the extended reals: the output array of the pallas_call
   `cc6__edge_add_relu_kernel`, after its 80 points have written their blocks back, is `Gedge` of the two input arrays
   as the region finds them. Point `t` reads rows `2000 t … 2000 t + 1999` of both inputs and writes the same rows of the
   output; the 80 row bands tile the 160000 rows. -/
import proofs.«157524_j37503654429443_1_alg».proof.Proof.KI.Edge6
import proofs.«157524_j37503654429443_1_alg».proof.Proof.KI.EdgeSpec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

-- the TensorCore's buffer contents when the region is entered
variable (V : (c : Dev nD) → (b : Ref sig .tc) → Buf (Elt Ideal) ((c : Thread nD τ).loc b))

/-- The body's one rectangle starts at the block's origin. -/
theorem edge_hz6 : (![0, 0] : Fin 2 → Nat) = fun _ => 0 := funext fun a => by fin_cases a <;> rfl

/-- The body's payload at an index of the block: the sum of the two loaded entries, cut below at zero (the zero
    word of the format is the real number zero). -/
theorem edge_pay6 (x0 x1 : Vec Ideal S2000x512 .f32) (j : S2000x512.Idx) :
    k6_pay1 (F := Ideal) x0 x1 j = max (x0 j + x1 j) 0 := by
  unfold k6_pay1
  simp only [shapeCast_self, addf_apply, maximumf_apply, broadcast_apply]
  show max (x0 j + x1 j) (Ideal.ofBits .f32 0x00000000#32) = _
  rw [Ideal.ofBits_zero_f32]

/-- The three windows' block indices at point `t`, decided over the grid: block row `t`, block column 0. -/
theorem edge_idx6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0 :=
  (by decide +kernel : ∀ t : Fin grid6.N, _)

/-- What point `t` writes back is block `t` of `Gedge` of the two input arrays: the three windows' blocks at `t` sit at
    the same rows and columns of their arrays, so entry `j` of the stored block is `Gedge` at the array index of `j`. -/
theorem edge_flushed6 (c : Dev nD) (t : Fin cfg6.N) :
    (dat6 (F := Ideal) V c).flushed 2 t
      = ((cfg6.win 2).blk t).view.read (Elt Ideal) (Gedge (V c (Pipeline.arrRef spec6 0)) (V c (Pipeline.arrRef spec6 1))) := by
  show (cfg6.win 2).cut (grid6.coords t) ((dat6 V c).after 2 t) = _
  rw [after6_2]
  unfold out6_2
  rw [View.canon_unit_zero edge_hz6]
  simp only [View.ld_unit_zero (S := S2000x512) edge_hz6]
  obtain ⟨e0, e1, e2, e3, e4, e5⟩ := edge_idx6 t
  funext j
  show k6_pay1 (F := Ideal) (iblk6 V c 0 t) (iblk6 V c 1 t) j
    = Gedge (V c (Pipeline.arrRef spec6 0)) (V c (Pipeline.arrRef spec6 1)) (((cfg6.win 2).blk t).view.emb j)
  refine (edge_pay6 (iblk6 V c 0 t) (iblk6 V c 1 t) j).trans ?_
  have h0 : ((cfg6.win 0).blk t).view.emb j = ((cfg6.win 2).blk t).view.emb j := by
    funext a; apply Fin.ext
    match a with
    | ⟨0, _⟩ => show win6_0.index t (0 : Fin 2) * 2000 + 1 * (j 0).val = win6_2.index t (0 : Fin 2) * 2000 + 1 * (j 0).val; omega
    | ⟨1, _⟩ => show win6_0.index t (1 : Fin 2) * 512 + 1 * (j 1).val = win6_2.index t (1 : Fin 2) * 512 + 1 * (j 1).val; omega
  have h1 : ((cfg6.win 1).blk t).view.emb j = ((cfg6.win 2).blk t).view.emb j := by
    funext a; apply Fin.ext
    match a with
    | ⟨0, _⟩ => show win6_1.index t (0 : Fin 2) * 2000 + 1 * (j 0).val = win6_2.index t (0 : Fin 2) * 2000 + 1 * (j 0).val; omega
    | ⟨1, _⟩ => show win6_1.index t (1 : Fin 2) * 512 + 1 * (j 1).val = win6_2.index t (1 : Fin 2) * 512 + 1 * (j 1).val; omega
  -- each input block's entry `j` is its array's entry at the output block's index of `j`
  have b0 : iblk6 V c 0 t j = V c (Pipeline.arrRef spec6 0) (((cfg6.win 2).blk t).view.emb j) := by
    show V c (Pipeline.arrRef spec6 0) (((cfg6.win 0).blk t).view.emb j) = _
    rw [h0]
  have b1 : iblk6 V c 1 t j = V c (Pipeline.arrRef spec6 1) (((cfg6.win 2).blk t).view.emb j) := by
    show V c (Pipeline.arrRef spec6 1) (((cfg6.win 1).blk t).view.emb j) = _
    rw [h1]
  rw [Gedge_apply]
  exact congrArg₂ (fun a b : EReal => max (a + b) 0) b0 b1

/-- An index of the array is in point `t`'s block iff each coordinate is in the block's range on its axis. -/
theorem edge_mem_blk6 (t : Fin cfg6.N) (i : S160000x512.Idx) :
    i ∈ ((cfg6.win 2).blk t).view.set ↔ ∀ a : Fin 2, win6_2.index t a * S2000x512.size a ≤ (i a).val ∧ (i a).val < win6_2.index t a * S2000x512.size a + S2000x512.size a := by
  show i ∈ ((View.whole main_v91).slice (win6_2.rect t)).set ↔ _
  rw [View.set_slice_whole, Rect.mem_set_unit]
  exact Iff.rfl

/-- Every index of the output array is in some point's block: row `r` is in the band of point `r / 2000`. -/
theorem edge_cover6 (i : S160000x512.Idx) :
    ∃ t : Fin cfg6.N, (cfg6.win 2).flush t = true ∧ i ∈ ((cfg6.win 2).blk t).view.set := by
  have hi0 : (i 0).val < 160000 := (i 0).isLt
  have hi1 : (i 1).val < 512 := (i 1).isLt
  have ht : (i 0).val / 2000 < cfg6.N := by
    show (i 0).val / 2000 < grid6.N
    rw [N_6]; omega
  obtain ⟨-, -, -, -, e4, e5⟩ := edge_idx6 ⟨(i 0).val / 2000, ht⟩
  have e4' : win6_2.index ⟨(i 0).val / 2000, ht⟩ (0 : Fin 2) = (i 0).val / 2000 := e4
  refine ⟨⟨(i 0).val / 2000, ht⟩, flush6_2 _, ?_⟩
  rw [edge_mem_blk6]
  intro a
  match a with
  | ⟨0, _⟩ =>
    show win6_2.index ⟨(i 0).val / 2000, ht⟩ (0 : Fin 2) * 2000 ≤ (i 0).val ∧ (i 0).val < win6_2.index ⟨(i 0).val / 2000, ht⟩ (0 : Fin 2) * 2000 + 2000
    rw [e4']; omega
  | ⟨1, _⟩ =>
    show win6_2.index ⟨(i 0).val / 2000, ht⟩ (1 : Fin 2) * 512 ≤ (i 1).val ∧ (i 1).val < win6_2.index ⟨(i 0).val / 2000, ht⟩ (1 : Fin 2) * 512 + 512
    rw [e5]; omega

/-- The output array after the region's last point: `Gedge` of the two input arrays as the region finds them. -/
theorem final6 (c : Dev nD) :
    (dat6 (F := Ideal) V c).arrAt 2 cfg6.N = Gedge (V c (Pipeline.arrRef spec6 0)) (V c (Pipeline.arrRef spec6 1)) :=
  (dat6 V c).arrAt_eq_of_cover 2 (Gedge (V c (Pipeline.arrRef spec6 0)) (V c (Pipeline.arrRef spec6 1)))
    (fun t _ => edge_flushed6 V c t) (edge_cover6)

end Cert.KernelIdeal.Hand
-- ==== Proof.KI.Mlp1Value7.lean ====
/- Region 7 of @main on the extended reals: the output array of the pipelined first dense layer, after the
   last grid point, is the layer's whole-array function `Gmlp1` of the four input arrays as the region finds them.
   Grid point `t` handles rows 2000 t … 2000 t + 1999: its blocks of the two feature arrays are those rows, its
   blocks of the weight matrix and the bias row are the whole arrays, and what it writes back is those rows of
   `Gmlp1`. The ten row blocks tile the 20000 rows. -/
import proofs.«157524_j37503654429443_1_alg».proof.Proof.KI.Mlp1_7
import proofs.«157524_j37503654429443_1_alg».proof.Proof.KI.Mlp1Spec
import Idealize.ShloMosaic.Lib.Pipeline.Value
import Idealize.ShloMosaic.Lib.ValueLayout
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The body's arithmetic -/

/-- The value the body stores is the layer on one block: the rounded operands are the operands, the product into
    a zero accumulator is the sum over the contracted channel, and the broadcast bias row is its entry of the
    column. -/
theorem pay7_eq (x0 x1 : Vec Ideal S2000x512 .f32) (x2 : Vec Ideal S512x512 .f32) (x3 : Vec Ideal S1x512 .f32) :
    k7_pay1 (F := Ideal) x0 x1 x2 x3 = mlp1Block x0 x1 x2 x3 := by
  funext j
  obtain ⟨p, q, rfl⟩ : ∃ (p : Fin 2000) (q : Fin 512), j = ix2 p q := ⟨j 0, j 1, eq_ix2 j⟩
  unfold k7_pay1
  simp only [shapeCast_self]
  refine (addf_apply _ _ (ix2 p q)).trans ?_
  rw [matmul_2000x512_512x512_apply, broadcastTo_1b_ab_apply]
  rfl

/-! ## The windows' block indices, over the grid -/

/-- At grid point `t` the two feature windows and the output window are on row block `t`; the weight matrix and
    the bias row stay on their one block. -/
theorem idx_facts7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0 :=
  (by decide +kernel : ∀ t : Fin grid7.N, _)

/-! ## The input blocks as entries of the arrays -/

/-- Row `p` of point `t`'s block of the first feature array is row `2000 t + p` of the array. -/
theorem iblk7_0_apply (c : Dev nD) (t : Fin cfg7.N) (p : Fin 2000) (k : Fin 512) (r : Fin 20000) (hr : r.val = t.val * 2000 + p.val) :
    (iblk7 V c 0 t : S2000x512.Idx → Elt Ideal .f32) (ix2 p k) = ((V c (Pipeline.arrRef spec7 0)) : S20000x512.Idx → Elt Ideal .f32) (ix2 r k) := by
  obtain ⟨e0, e1, -⟩ := idx_facts7 t
  unfold iblk7
  rw [View.read_apply]
  refine congrArg ((V c (Pipeline.arrRef spec7 0)) : S20000x512.Idx → Elt Ideal .f32) ?_
  funext a; apply Fin.ext
  match a with
  | ⟨0, _⟩ => show win7_0.index t (0 : Fin 2) * 2000 + 1 * p.val = r.val; rw [e0, hr]; omega
  | ⟨1, _⟩ => show win7_0.index t (1 : Fin 2) * 512 + 1 * k.val = k.val; rw [e1]; omega

/-- The same of the second feature array. -/
theorem iblk7_1_apply (c : Dev nD) (t : Fin cfg7.N) (p : Fin 2000) (k : Fin 512) (r : Fin 20000) (hr : r.val = t.val * 2000 + p.val) :
    (iblk7 V c 1 t : S2000x512.Idx → Elt Ideal .f32) (ix2 p k) = ((V c (Pipeline.arrRef spec7 1)) : S20000x512.Idx → Elt Ideal .f32) (ix2 r k) := by
  obtain ⟨-, -, e0, e1, -⟩ := idx_facts7 t
  unfold iblk7
  rw [View.read_apply]
  refine congrArg ((V c (Pipeline.arrRef spec7 1)) : S20000x512.Idx → Elt Ideal .f32) ?_
  funext a; apply Fin.ext
  match a with
  | ⟨0, _⟩ => show win7_1.index t (0 : Fin 2) * 2000 + 1 * p.val = r.val; rw [e0, hr]; omega
  | ⟨1, _⟩ => show win7_1.index t (1 : Fin 2) * 512 + 1 * k.val = k.val; rw [e1]; omega

/-- Every point's block of the weight matrix is the matrix. -/
theorem iblk7_2_apply (c : Dev nD) (t : Fin cfg7.N) (k q : Fin 512) :
    (iblk7 V c 2 t : S512x512.Idx → Elt Ideal .f32) (ix2 k q) = ((V c (Pipeline.arrRef spec7 2)) : S512x512.Idx → Elt Ideal .f32) (ix2 k q) := by
  obtain ⟨-, -, -, -, e0, e1, -⟩ := idx_facts7 t
  unfold iblk7
  rw [View.read_apply]
  refine congrArg ((V c (Pipeline.arrRef spec7 2)) : S512x512.Idx → Elt Ideal .f32) ?_
  funext a; apply Fin.ext
  match a with
  | ⟨0, _⟩ => show win7_2.index t (0 : Fin 2) * 512 + 1 * k.val = k.val; rw [e0]; omega
  | ⟨1, _⟩ => show win7_2.index t (1 : Fin 2) * 512 + 1 * q.val = q.val; rw [e1]; omega

/-- Every point's block of the bias row is the row. -/
theorem iblk7_3_apply (c : Dev nD) (t : Fin cfg7.N) (q : Fin 512) :
    (iblk7 V c 3 t : S1x512.Idx → Elt Ideal .f32) (ix2 (0 : Fin 1) q) = ((V c (Pipeline.arrRef spec7 3)) : S1x512.Idx → Elt Ideal .f32) (ix2 (0 : Fin 1) q) := by
  obtain ⟨-, -, -, -, -, -, e0, e1, -⟩ := idx_facts7 t
  unfold iblk7
  rw [View.read_apply]
  refine congrArg ((V c (Pipeline.arrRef spec7 3)) : S1x512.Idx → Elt Ideal .f32) ?_
  funext a; apply Fin.ext
  match a with
  | ⟨0, _⟩ => show win7_3.index t (0 : Fin 2) * 1 + 1 * 0 = 0; rw [e0]
  | ⟨1, _⟩ => show win7_3.index t (1 : Fin 2) * 512 + 1 * q.val = q.val; rw [e1]; omega

/-! ## What a point writes back -/

set_option maxHeartbeats 1000000 in
/-- What point `t` writes back is block `t` of `Gmlp1` of the arrays as the region finds them. -/
theorem flushed7_eq (c : Dev nD) (t : Fin cfg7.N) :
    (dat7 (F := Ideal) V c).flushed 4 t = ((cfg7.win 4).blk t).view.read (Elt Ideal)
      (Gmlp1 (V c (Pipeline.arrRef spec7 0)) (V c (Pipeline.arrRef spec7 1)) (V c (Pipeline.arrRef spec7 2)) (V c (Pipeline.arrRef spec7 3))) := by
  show (cfg7.win 4).cut (grid7.coords t) ((dat7 V c).after 4 t) = _
  rw [after7_4]
  unfold out7_4
  rw [View.canon_unit_zero zero_offsets]
  simp only [View.ld_unit_zero (S := S2000x512) zero_offsets, View.ld_unit_zero (S := S512x512) zero_offsets,
    View.ld_unit_zero (S := S1x512) zero_offsets]
  rw [pay7_eq]
  obtain ⟨-, -, -, -, -, -, -, -, e0, e1⟩ := idx_facts7 t
  funext j
  show mlp1Block (iblk7 V c 0 t) (iblk7 V c 1 t) (iblk7 V c 2 t) (iblk7 V c 3 t) j
    = Gmlp1 (V c (Pipeline.arrRef spec7 0)) (V c (Pipeline.arrRef spec7 1)) (V c (Pipeline.arrRef spec7 2)) (V c (Pipeline.arrRef spec7 3)) (((cfg7.win 4).blk t).view.emb j)
  have hr : ((((cfg7.win 4).blk t).view.emb j) 0).val = t.val * 2000 + (j 0).val := by
    show win7_4.index t (0 : Fin 2) * 2000 + 1 * (j 0).val = _; rw [e0]; omega
  have hc : (((cfg7.win 4).blk t).view.emb j) 1 = j 1 := by
    apply Fin.ext
    show win7_4.index t (1 : Fin 2) * 512 + 1 * (j 1).val = (j 1).val; rw [e1]; omega
  refine mlp1Block_eq_Gmlp1 _ _ _ _ _ _ _ _ j _ (fun k => ?_) (fun k => ?_) (fun k => ?_) ?_
  · exact iblk7_0_apply V c t (j 0) k _ hr
  · exact iblk7_1_apply V c t (j 0) k _ hr
  · rw [hc]; exact iblk7_2_apply V c t k (j 1)
  · rw [hc]; exact iblk7_3_apply V c t (j 1)

/-! ## The blocks tile the array -/

/-- An index of the output array is in point `t`'s block iff each coordinate is in the block's range. -/
theorem mem_blk7 (t : Fin cfg7.N) (i : S20000x512.Idx) :
    i ∈ ((cfg7.win 4).blk t).view.set ↔ ∀ a : Fin 2, win7_4.index t a * S2000x512.size a ≤ (i a).val ∧ (i a).val < win7_4.index t a * S2000x512.size a + S2000x512.size a := by
  show i ∈ ((View.whole main_v101).slice (win7_4.rect t)).set ↔ _
  rw [View.set_slice_whole, Rect.mem_set_unit]
  exact Iff.rfl

/-- The output array after the run: row `r` is written by point `r / 2000`, so every entry is `Gmlp1`'s. -/
theorem final7 (c : Dev nD) :
    (dat7 (F := Ideal) V c).arrAt 4 cfg7.N = Gmlp1 (V c (Pipeline.arrRef spec7 0)) (V c (Pipeline.arrRef spec7 1)) (V c (Pipeline.arrRef spec7 2)) (V c (Pipeline.arrRef spec7 3)) :=
  (dat7 (F := Ideal) V c).arrAt_eq_of_cover 4 _ (fun t _ => flushed7_eq V c t) fun i => by
    have hi0 : (i 0).val < 20000 := (i 0).isLt
    have hi1 : (i 1).val < 512 := (i 1).isLt
    have hN : grid7.N = 10 := N_7
    obtain ⟨t, ht⟩ : ∃ t : Fin cfg7.N, t.val = (i 0).val / 2000 :=
      ⟨⟨(i 0).val / 2000, by show _ < grid7.N; rw [hN]; omega⟩, rfl⟩
    obtain ⟨-, -, -, -, -, -, -, -, e0, e1⟩ := idx_facts7 t
    refine ⟨t, flush7_4 t, ?_⟩
    rw [mem_blk7]
    intro a
    match a with
    | ⟨0, _⟩ =>
      show win7_4.index t (0 : Fin 2) * 2000 ≤ (i 0).val ∧ (i 0).val < win7_4.index t (0 : Fin 2) * 2000 + 2000
      rw [e0, ht]; omega
    | ⟨1, _⟩ =>
      show win7_4.index t (1 : Fin 2) * 512 ≤ (i 1).val ∧ (i 1).val < win7_4.index t (1 : Fin 2) * 512 + 512
      rw [e1]; omega

end Cert.KernelIdeal.Hand

end
-- ==== Proof.KI.Mlp2Value8.lean ====
/- The value half of region 8 of @main, at the ideal values: after the pipelined call of the second dense layer, the
   output array holds the layer's function `Gmlp2` of the seven input arrays as the region finds them.
   The steps: the value the body stores, read at one entry of the block, is the layer's entry on the input blocks (a
   product into a zero accumulator is the sum over the summation index; changes of float format, casts to the same
   shape and the zero word are what they are on the extended reals); the features' block at point t is rows
   2000 t .. 2000 t + 1999 of the features and every other block is its whole array (the block indices, decided over
   the ten points); so what point t writes back is block t of `Gmlp2`; the ten blocks cover the array (row r is in
   block r / 2000); hence the array after the last point. -/
import proofs.«157524_j37503654429443_1_alg».proof.Proof.KI.Mlp2_8
import proofs.«157524_j37503654429443_1_alg».proof.Proof.KI.Mlp2Spec
import Idealize.ShloMosaic.Lib.Pipeline.Value
import Idealize.ShloMosaic.Lib.ValueLayout
import Idealize.ShloMosaic.PureOps.Ideal.Laws

set_option maxRecDepth 16384

noncomputable section

open scoped BigOperators

open Cert.KernelIdeal Cert.KernelIdeal.Gen

namespace Cert.KernelIdeal.Hand

open Idealize.ShloMosaic Idealize.ShloMosaic.TcCoe Idealize.SL.Sem Idealize.ShloMosaic.ValueIdx
open Idealize.ShloMosaic.Pipeline (Dat)

/-! ## The body's arithmetic at one entry of the block -/

/-- The zero offsets of a whole-buffer access, as a constant function. -/
theorem zoff8 : (![0, 0] : Fin 2 → Nat) = fun _ => 0 := funext fun a => by fin_cases a <;> rfl

/-- In the product of a 2000x512 block by the 512x512 weight, the left operand is read at (row of the entry, summation
    index) -/
theorem dotL8 (p : Fin 2000) (q k : Fin 512) :
    dot_S2000x512_S512x512_S2000x512_1_0_0_1_n_n.lhsIdx (ix2 p q)
      ((contrEquiv1 dot_S2000x512_S512x512_S2000x512_1_0_0_1_n_n 512 rfl rfl).symm k) = ix2 p k := by
  have c2 := contrEquiv1_symm_val dot_S2000x512_S512x512_S2000x512_1_0_0_1_n_n 512 rfl rfl k
  funext ax; apply Fin.ext
  match ax with
  | ⟨0, _⟩ => simp [DotDims.lhsIdx, dot_S2000x512_S512x512_S2000x512_1_0_0_1_n_n]; rfl
  | ⟨1, _⟩ => simp [DotDims.lhsIdx, dot_S2000x512_S512x512_S2000x512_1_0_0_1_n_n]; exact c2

/-- and the right operand at (summation index, column of the entry). -/
theorem dotR8 (p : Fin 2000) (q k : Fin 512) :
    dot_S2000x512_S512x512_S2000x512_1_0_0_1_n_n.rhsIdx (ix2 p q)
      ((contrEquiv1 dot_S2000x512_S512x512_S2000x512_1_0_0_1_n_n 512 rfl rfl).symm k) = ix2 k q := by
  have c2 := contrEquiv1_symm_val dot_S2000x512_S512x512_S2000x512_1_0_0_1_n_n 512 rfl rfl k
  funext ax; apply Fin.ext
  match ax with
  | ⟨0, _⟩ => simp [DotDims.rhsIdx, dot_S2000x512_S512x512_S2000x512_1_0_0_1_n_n]; exact c2
  | ⟨1, _⟩ => simp [DotDims.rhsIdx, dot_S2000x512_S512x512_S2000x512_1_0_0_1_n_n]; rfl

/-- The value the body stores, at entry (p, q) of the block, is the layer's entry (p, q) on the blocks: the features'
    block `x0`, the rows `x1 .. x4` and `x6`, the weight `x5`. The product into a zero accumulator is the sum over the
    summation index of the products of the entries; the changes of float format are the identity; a cast to the
    same shape is the identity; a row broadcast over the rows reads the row. -/
theorem pay8_at (x0 : FVec Ideal S2000x512 .f32) (x1 x2 x3 x4 : FVec Ideal S1x512 .f32) (x5 : FVec Ideal S512x512 .f32)
    (x6 : FVec Ideal S1x512 .f32) (p : Fin 2000) (q : Fin 512) :
    k8_pay1 (F := Ideal) x0 x2 x1 x3 x4 x5 x6 (ix2 p q) = mlp2At (n := 2000) x0 x1 x2 x3 x4 x5 x6 p q := by
  unfold k8_pay1 mlp2At
  simp only [shapeCast_self]
  show max (FloatOps.matmul dot_S2000x512_S512x512_S2000x512_1_0_0_1_n_n none _ _ (constant (F := Ideal) S2000x512 .f32 0x00000000#32) (ix2 p q)
      + broadcastTo S2000x512 x6 broadcasts_S1x512_S2000x512 (ix2 p q)) (Ideal.ofBits .f32 0x00000000#32) = _
  rw [Ideal.ofBits_zero_f32, Ideal.matmul_constant_zero_apply,
    ← Equiv.sum_comp (contrEquiv1 dot_S2000x512_S512x512_S2000x512_1_0_0_1_n_n 512 rfl rfl).symm]
  refine congrArg₂ max (congrArg₂ (· + ·) (Finset.sum_congr rfl fun k _ => ?_) (broadcastTo_1b_ab_apply x6 _ p q)) rfl
  rw [dotL8, dotR8]
  show max ((x0 (ix2 p k) - broadcastTo S2000x512 x1 broadcasts_S1x512_S2000x512 (ix2 p k))
        * broadcastTo S2000x512 (rsqrt (addf x2 (broadcast S1x512 (Scalar.ofBits .f32 0x3727C5AC#32)))) broadcasts_S1x512_S2000x512 (ix2 p k)
        * broadcastTo S2000x512 x3 broadcasts_S1x512_S2000x512 (ix2 p k)
        + broadcastTo S2000x512 x4 broadcasts_S1x512_S2000x512 (ix2 p k)) (Ideal.ofBits .f32 0x00000000#32) * x5 (ix2 k q) = _
  rw [Ideal.ofBits_zero_f32, broadcastTo_1b_ab_apply x1, broadcastTo_1b_ab_apply x3, broadcastTo_1b_ab_apply x4,
    broadcastTo_1b_ab_apply (rsqrt (addf x2 (broadcast S1x512 (Scalar.ofBits .f32 0x3727C5AC#32))))]
  rfl

variable (V : (c : Dev nD) → (b : Ref sig .tc) → Buf (Elt Ideal) ((c : Thread nD τ).loc b))

/-! ## The windows' block indices, decided over the ten grid points -/

/-- At point `t` the features' window and the output window are on block (t, 0); every other window is on block
    (0, 0), its whole array. -/
theorem idx8_facts : ∀ t : Fin cfg8.N,
    win8_0.index t (0 : Fin 2) = t.val
    ∧ win8_0.index t (1 : Fin 2) = 0
    ∧ win8_7.index t (0 : Fin 2) = t.val
    ∧ win8_7.index t (1 : Fin 2) = 0
    ∧ win8_1.index t (0 : Fin 2) = 0
    ∧ win8_1.index t (1 : Fin 2) = 0
    ∧ win8_2.index t (0 : Fin 2) = 0
    ∧ win8_2.index t (1 : Fin 2) = 0
    ∧ win8_3.index t (0 : Fin 2) = 0
    ∧ win8_3.index t (1 : Fin 2) = 0
    ∧ win8_4.index t (0 : Fin 2) = 0
    ∧ win8_4.index t (1 : Fin 2) = 0
    ∧ win8_5.index t (0 : Fin 2) = 0
    ∧ win8_5.index t (1 : Fin 2) = 0
    ∧ win8_6.index t (0 : Fin 2) = 0
    ∧ win8_6.index t (1 : Fin 2) = 0 :=
  (by decide +kernel : ∀ t : Fin grid8.N, _)

/-! ## Each input block read as entries of its array -/

/-- Entry (p, k) of the features' block at point `t` is entry (2000 t + p, k) of the features. -/
theorem blk8_0 (c : Dev nD) (t : Fin cfg8.N) (p : Fin 2000) (k : Fin 512) (r : Fin 20000) (hr : r.val = t.val * 2000 + p.val) :
    (iblk8 V c 0 t : FVec Ideal S2000x512 .f32) (ix2 p k) = (V c (Pipeline.arrRef spec8 0) : FVec Ideal S20000x512 .f32) (ix2 r k) := by
  obtain ⟨f00, f01, f70, f71, f10, f11, f20, f21, f30, f31, f40, f41, f50, f51, f60, f61⟩ := idx8_facts t
  show V c (Pipeline.arrRef spec8 0) (((cfg8.win 0).blk t).view.emb (ix2 p k)) = _
  refine congrArg (V c (Pipeline.arrRef spec8 0)) (funext fun a => Fin.ext ?_)
  match a with
  | ⟨0, _⟩ => show win8_0.index t (0 : Fin 2) * 2000 + 1 * p.val = r.val; rw [f00, hr]; omega
  | ⟨1, _⟩ => show win8_0.index t (1 : Fin 2) * 512 + 1 * k.val = k.val; rw [f01]; omega

/-- Window 1's block at any point is its whole row. -/
theorem blk8_1 (c : Dev nD) (t : Fin cfg8.N) (k k' : Fin 512) (hk : k'.val = k.val) :
    (iblk8 V c 1 t : FVec Ideal S1x512 .f32) (ix2 (0 : Fin 1) k) = (V c (Pipeline.arrRef spec8 1) : FVec Ideal S1x512 .f32) (ix2 (0 : Fin 1) k') := by
  obtain ⟨f00, f01, f70, f71, f10, f11, f20, f21, f30, f31, f40, f41, f50, f51, f60, f61⟩ := idx8_facts t
  show V c (Pipeline.arrRef spec8 1) (((cfg8.win 1).blk t).view.emb (ix2 (0 : Fin 1) k)) = _
  refine congrArg (V c (Pipeline.arrRef spec8 1)) (funext fun a => Fin.ext ?_)
  match a with
  | ⟨0, _⟩ => show win8_1.index t (0 : Fin 2) * 1 + 1 * ((0 : Fin 1) : Nat) = ((0 : Fin 1) : Nat); rw [f10]; rfl
  | ⟨1, _⟩ => show win8_1.index t (1 : Fin 2) * 512 + 1 * k.val = k'.val; rw [f11, hk]; omega

/-- Window 2's block at any point is its whole row. -/
theorem blk8_2 (c : Dev nD) (t : Fin cfg8.N) (k k' : Fin 512) (hk : k'.val = k.val) :
    (iblk8 V c 2 t : FVec Ideal S1x512 .f32) (ix2 (0 : Fin 1) k) = (V c (Pipeline.arrRef spec8 2) : FVec Ideal S1x512 .f32) (ix2 (0 : Fin 1) k') := by
  obtain ⟨f00, f01, f70, f71, f10, f11, f20, f21, f30, f31, f40, f41, f50, f51, f60, f61⟩ := idx8_facts t
  show V c (Pipeline.arrRef spec8 2) (((cfg8.win 2).blk t).view.emb (ix2 (0 : Fin 1) k)) = _
  refine congrArg (V c (Pipeline.arrRef spec8 2)) (funext fun a => Fin.ext ?_)
  match a with
  | ⟨0, _⟩ => show win8_2.index t (0 : Fin 2) * 1 + 1 * ((0 : Fin 1) : Nat) = ((0 : Fin 1) : Nat); rw [f20]; rfl
  | ⟨1, _⟩ => show win8_2.index t (1 : Fin 2) * 512 + 1 * k.val = k'.val; rw [f21, hk]; omega

/-- Window 3's block at any point is its whole row. -/
theorem blk8_3 (c : Dev nD) (t : Fin cfg8.N) (k k' : Fin 512) (hk : k'.val = k.val) :
    (iblk8 V c 3 t : FVec Ideal S1x512 .f32) (ix2 (0 : Fin 1) k) = (V c (Pipeline.arrRef spec8 3) : FVec Ideal S1x512 .f32) (ix2 (0 : Fin 1) k') := by
  obtain ⟨f00, f01, f70, f71, f10, f11, f20, f21, f30, f31, f40, f41, f50, f51, f60, f61⟩ := idx8_facts t
  show V c (Pipeline.arrRef spec8 3) (((cfg8.win 3).blk t).view.emb (ix2 (0 : Fin 1) k)) = _
  refine congrArg (V c (Pipeline.arrRef spec8 3)) (funext fun a => Fin.ext ?_)
  match a with
  | ⟨0, _⟩ => show win8_3.index t (0 : Fin 2) * 1 + 1 * ((0 : Fin 1) : Nat) = ((0 : Fin 1) : Nat); rw [f30]; rfl
  | ⟨1, _⟩ => show win8_3.index t (1 : Fin 2) * 512 + 1 * k.val = k'.val; rw [f31, hk]; omega

/-- Window 4's block at any point is its whole row. -/
theorem blk8_4 (c : Dev nD) (t : Fin cfg8.N) (k k' : Fin 512) (hk : k'.val = k.val) :
    (iblk8 V c 4 t : FVec Ideal S1x512 .f32) (ix2 (0 : Fin 1) k) = (V c (Pipeline.arrRef spec8 4) : FVec Ideal S1x512 .f32) (ix2 (0 : Fin 1) k') := by
  obtain ⟨f00, f01, f70, f71, f10, f11, f20, f21, f30, f31, f40, f41, f50, f51, f60, f61⟩ := idx8_facts t
  show V c (Pipeline.arrRef spec8 4) (((cfg8.win 4).blk t).view.emb (ix2 (0 : Fin 1) k)) = _
  refine congrArg (V c (Pipeline.arrRef spec8 4)) (funext fun a => Fin.ext ?_)
  match a with
  | ⟨0, _⟩ => show win8_4.index t (0 : Fin 2) * 1 + 1 * ((0 : Fin 1) : Nat) = ((0 : Fin 1) : Nat); rw [f40]; rfl
  | ⟨1, _⟩ => show win8_4.index t (1 : Fin 2) * 512 + 1 * k.val = k'.val; rw [f41, hk]; omega

/-- Window 6's block at any point is its whole row. -/
theorem blk8_6 (c : Dev nD) (t : Fin cfg8.N) (k k' : Fin 512) (hk : k'.val = k.val) :
    (iblk8 V c 6 t : FVec Ideal S1x512 .f32) (ix2 (0 : Fin 1) k) = (V c (Pipeline.arrRef spec8 6) : FVec Ideal S1x512 .f32) (ix2 (0 : Fin 1) k') := by
  obtain ⟨f00, f01, f70, f71, f10, f11, f20, f21, f30, f31, f40, f41, f50, f51, f60, f61⟩ := idx8_facts t
  show V c (Pipeline.arrRef spec8 6) (((cfg8.win 6).blk t).view.emb (ix2 (0 : Fin 1) k)) = _
  refine congrArg (V c (Pipeline.arrRef spec8 6)) (funext fun a => Fin.ext ?_)
  match a with
  | ⟨0, _⟩ => show win8_6.index t (0 : Fin 2) * 1 + 1 * ((0 : Fin 1) : Nat) = ((0 : Fin 1) : Nat); rw [f60]; rfl
  | ⟨1, _⟩ => show win8_6.index t (1 : Fin 2) * 512 + 1 * k.val = k'.val; rw [f61, hk]; omega

/-- The weight's block at any point is the whole weight. -/
theorem blk8_5 (c : Dev nD) (t : Fin cfg8.N) (k q q' : Fin 512) (hq : q'.val = q.val) :
    (iblk8 V c 5 t : FVec Ideal S512x512 .f32) (ix2 k q) = (V c (Pipeline.arrRef spec8 5) : FVec Ideal S512x512 .f32) (ix2 k q') := by
  obtain ⟨f00, f01, f70, f71, f10, f11, f20, f21, f30, f31, f40, f41, f50, f51, f60, f61⟩ := idx8_facts t
  show V c (Pipeline.arrRef spec8 5) (((cfg8.win 5).blk t).view.emb (ix2 k q)) = _
  refine congrArg (V c (Pipeline.arrRef spec8 5)) (funext fun a => Fin.ext ?_)
  match a with
  | ⟨0, _⟩ => show win8_5.index t (0 : Fin 2) * 512 + 1 * k.val = k.val; rw [f50]; omega
  | ⟨1, _⟩ => show win8_5.index t (1 : Fin 2) * 512 + 1 * q.val = q'.val; rw [f51, hq]; omega

/-! ## What a point writes back, and the array after the last point -/

/-- What point `t` writes back to the output array is the value the body stores, computed on the input windows' blocks
    at that point (the one store is of the whole buffer, and each load reads a whole buffer). -/
theorem flushed8_pay (c : Dev nD) (t : Fin cfg8.N) :
    (dat8 (F := Ideal) V c).flushed 7 t = (cfg8.win 7).cut (grid8.coords t)
      (k8_pay1 (F := Ideal) (iblk8 V c 0 t) (iblk8 V c 2 t) (iblk8 V c 1 t) (iblk8 V c 3 t) (iblk8 V c 4 t) (iblk8 V c 5 t) (iblk8 V c 6 t)) := by
  show (cfg8.win 7).cut (grid8.coords t) ((dat8 (F := Ideal) V c).after 7 t) = _
  rw [after8_7]
  unfold out8_7
  rw [View.canon_unit_zero zoff8]
  simp only [View.ld_unit_zero (S := S2000x512) zoff8, View.ld_unit_zero (S := S1x512) zoff8, View.ld_unit_zero (S := S512x512) zoff8]

/-- Entry (p, q) of the value stored at point `t` is the layer's entry (r, q') on the whole arrays, for the row
    r = 2000 t + p and the column q' = q: the features' block reads rows 2000 t .. 2000 t + 1999, the other blocks are
    their whole arrays, and an entry of the layer depends on the features through one row only. -/
theorem entry8 (c : Dev nD) (t : Fin cfg8.N) (p : Fin 2000) (q : Fin 512) (r : Fin 20000) (q' : Fin 512)
    (hr : r.val = t.val * 2000 + p.val) (hq : q'.val = q.val) :
    k8_pay1 (F := Ideal) (iblk8 V c 0 t) (iblk8 V c 2 t) (iblk8 V c 1 t) (iblk8 V c 3 t) (iblk8 V c 4 t) (iblk8 V c 5 t) (iblk8 V c 6 t) (ix2 p q)
      = mlp2At (n := 20000) (V c (Pipeline.arrRef spec8 0)) (V c (Pipeline.arrRef spec8 1)) (V c (Pipeline.arrRef spec8 2)) (V c (Pipeline.arrRef spec8 3)) (V c (Pipeline.arrRef spec8 4)) (V c (Pipeline.arrRef spec8 5)) (V c (Pipeline.arrRef spec8 6)) r q' :=
  (pay8_at (iblk8 V c 0 t) (iblk8 V c 1 t) (iblk8 V c 2 t) (iblk8 V c 3 t) (iblk8 V c 4 t) (iblk8 V c 5 t) (iblk8 V c 6 t) p q).trans
    (mlp2At_congr (n := 2000) (n' := 20000) (iblk8 V c 0 t) (V c (Pipeline.arrRef spec8 0))
      (iblk8 V c 1 t) (iblk8 V c 2 t) (iblk8 V c 3 t) (iblk8 V c 4 t) (V c (Pipeline.arrRef spec8 1)) (V c (Pipeline.arrRef spec8 2)) (V c (Pipeline.arrRef spec8 3)) (V c (Pipeline.arrRef spec8 4))
      (iblk8 V c 5 t) (V c (Pipeline.arrRef spec8 5)) (iblk8 V c 6 t) (V c (Pipeline.arrRef spec8 6)) p r q q'
      (fun k => blk8_0 V c t p k r hr)
      (fun k => blk8_1 V c t k k rfl) (fun k => blk8_2 V c t k k rfl) (fun k => blk8_3 V c t k k rfl) (fun k => blk8_4 V c t k k rfl)
      (fun k => blk8_5 V c t k q q' hq) (blk8_6 V c t q q' hq))

set_option maxHeartbeats 800000 in
/-- So what point `t` writes back is block `t` of the layer's function of the arrays as the region finds them. -/
theorem flushed8_eq (c : Dev nD) (t : Fin cfg8.N) :
    (dat8 (F := Ideal) V c).flushed 7 t = ((cfg8.win 7).blk t).view.read (Elt Ideal) (Gmlp2 (V c (Pipeline.arrRef spec8 0)) (V c (Pipeline.arrRef spec8 1)) (V c (Pipeline.arrRef spec8 2)) (V c (Pipeline.arrRef spec8 3)) (V c (Pipeline.arrRef spec8 4)) (V c (Pipeline.arrRef spec8 5)) (V c (Pipeline.arrRef spec8 6))) := by
  rw [flushed8_pay]
  funext j
  obtain ⟨p, q, rfl⟩ : ∃ (p : Fin 2000) (q : Fin 512), j = ix2 p q := ⟨j 0, j 1, eq_ix2 j⟩
  obtain ⟨-, -, f70, f71, -⟩ := idx8_facts t
  dsimp only [Pipeline.Window.cut]
  rw [View.read_apply]
  unfold Gmlp2
  have h0 : (((((View.whole main_v120).slice ((win8 7).rect t)).emb (ix2 p q) 0 : Fin 20000)) : Nat) = t.val * 2000 + p.val := by
    show win8_7.index t (0 : Fin 2) * 2000 + 1 * p.val = _; rw [f70]; omega
  have h1 : (((((View.whole main_v120).slice ((win8 7).rect t)).emb (ix2 p q) 1 : Fin 512)) : Nat) = q.val := by
    show win8_7.index t (1 : Fin 2) * 512 + 1 * q.val = _; rw [f71]; omega
  refine Eq.trans ?_ (cast_eq rfl _).symm
  exact entry8 V c t p q _ _ h0 h1

/-- An index of the output array is in point `t`'s block iff each coordinate is in the block's range on its axis. -/
theorem mem_blk8 (t : Fin cfg8.N) (i : S20000x512.Idx) :
    i ∈ ((cfg8.win 7).blk t).view.set ↔ ∀ a : Fin 2, win8_7.index t a * S2000x512.size a ≤ (i a).val ∧ (i a).val < win8_7.index t a * S2000x512.size a + S2000x512.size a := by
  show i ∈ ((View.whole main_v120).slice (win8_7.rect t)).set ↔ _
  rw [View.set_slice_whole, Rect.mem_set_unit]
  exact Iff.rfl

/-- Every index of the output array is in some point's block: row r is in the block of point r / 2000. -/
theorem cover8 (i : S20000x512.Idx) : ∃ t : Fin cfg8.N, (cfg8.win 7).flush t = true ∧ i ∈ ((cfg8.win 7).blk t).view.set := by
  have hi0 : (i 0).val < 20000 := (i 0).isLt
  have hi1 : (i 1).val < 512 := (i 1).isLt
  have hN : grid8.N = 10 := N_8
  have ht : (i 0).val / 2000 < cfg8.N := by show (i 0).val / 2000 < grid8.N; rw [hN]; omega
  obtain ⟨-, -, f70, f71, -⟩ := idx8_facts ⟨(i 0).val / 2000, ht⟩
  refine ⟨⟨(i 0).val / 2000, ht⟩, flush8_7 _, ?_⟩
  rw [mem_blk8]
  intro a
  match a with
  | ⟨0, _⟩ =>
    show win8_7.index ⟨(i 0).val / 2000, ht⟩ (0 : Fin 2) * 2000 ≤ (i 0).val ∧ (i 0).val < win8_7.index ⟨(i 0).val / 2000, ht⟩ (0 : Fin 2) * 2000 + 2000
    rw [f70]; show (i 0).val / 2000 * 2000 ≤ (i 0).val ∧ (i 0).val < (i 0).val / 2000 * 2000 + 2000; omega
  | ⟨1, _⟩ =>
    show win8_7.index ⟨(i 0).val / 2000, ht⟩ (1 : Fin 2) * 512 ≤ (i 1).val ∧ (i 1).val < win8_7.index ⟨(i 0).val / 2000, ht⟩ (1 : Fin 2) * 512 + 512
    rw [f71]; omega

/-- The output array after the last point is the layer's function of the seven input arrays as the region finds them. -/
theorem final8 (c : Dev nD) : (dat8 (F := Ideal) V c).arrAt 7 cfg8.N = Gmlp2 (V c (Pipeline.arrRef spec8 0)) (V c (Pipeline.arrRef spec8 1)) (V c (Pipeline.arrRef spec8 2)) (V c (Pipeline.arrRef spec8 3)) (V c (Pipeline.arrRef spec8 4)) (V c (Pipeline.arrRef spec8 5)) (V c (Pipeline.arrRef spec8 6)) :=
  (dat8 (F := Ideal) V c).arrAt_eq_of_cover 7 (Gmlp2 (V c (Pipeline.arrRef spec8 0)) (V c (Pipeline.arrRef spec8 1)) (V c (Pipeline.arrRef spec8 2)) (V c (Pipeline.arrRef spec8 3)) (V c (Pipeline.arrRef spec8 4)) (V c (Pipeline.arrRef spec8 5)) (V c (Pipeline.arrRef spec8 6))) (fun t _ => flushed8_eq V c t) (cover8)

end Cert.KernelIdeal.Hand
-- ==== Proof.KI.Read3.lean ====
/- The third layer of the network, read off the run's fold on the extended reals. Given what the second layer left —
   its node features `z`, the edge table's two rows, the ten arguments, and the first layer's readout `g1` — the contents
   of core `c`'s buffers at each boundary of the third layer are terms of those: the host stretch that sums `z` per graph
   (the second readout) and gathers the source nodes' rows of `z` along the edges; the edge kernel; the host stretch that
   sums the messages at their targets and slices the first linear map's parameters; the first dense kernel; the host's
   mean and variance of its result; the host stretch that slices the second dense kernel's parameters; the second dense
   kernel. Composed, the node features after the layer are `layerK` of `z` and the third slices of the parameters; the
   second readout, the first readout, the edge table's rows and the arguments are kept. -/
import proofs.«157524_j37503654429443_1_alg».proof.Proof.KI.Stage
import proofs.«157524_j37503654429443_1_alg».proof.Proof.KI.Terms
import proofs.«157524_j37503654429443_1_alg».proof.Proof.KI.EdgeValue6
import proofs.«157524_j37503654429443_1_alg».proof.Proof.KI.Mlp1Value7
import proofs.«157524_j37503654429443_1_alg».proof.Proof.KI.Mlp2Value8
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.ShloMosaic.StableHlo

variable (m : (ℓ : Loc nD τ sig) → Buf (Elt Ideal) ℓ) (c : Dev nD)

/-- An argument array of core `c` at launch. -/
abbrev argAt3 (b : Ref sig .tc) : Buf (Elt Ideal) ((c : Thread nD τ).loc b) := m ((c : Thread nD τ).loc b)

/-- The ten arguments. -/
abbrev argRefs3 : List (Ref sig .tc) := [main_arg0, main_arg1, main_arg2, main_arg3, main_arg4, main_arg5, main_arg6, main_arg7, main_arg8, main_arg9]

section Layer3

/-! ## What the second layer left (the hypotheses), and the buffers the third layer keeps -/

variable (z : FVec Ideal S20000x512 .f32) (g1 : FVec Ideal S128x512 .f32)
  (hz : W16 m c main_v80 = z)
  (hs : W16 m c main_v1 = srcOf (argAt3 m c main_arg1))
  (hd : W16 m c main_v3 = dstOf (argAt3 m c main_arg1))
  (ha : ∀ r ∈ argRefs3, W16 m c r = argAt3 m c r)
  (hg : W16 m c main_v43 = g1)

/-- The buffers every item of the layer may read and none writes: the ten arguments, the edge table's two rows, and the
    first layer's readout. -/
abbrev kept3 : List (Ref sig .tc) := [main_arg0, main_arg1, main_arg2, main_arg3, main_arg4, main_arg5, main_arg6, main_arg7, main_arg8, main_arg9, main_v1, main_v3, main_v43]

theorem kept3_6 : ∀ r ∈ kept3, r ∉ hostOps6_W := by decide
theorem kept3_18 : ∀ r ∈ kept3, r ≠ main_v91 := by decide
theorem kept3_7 : ∀ r ∈ kept3, r ∉ hostOps7_W := by decide
theorem kept3_20 : ∀ r ∈ kept3, r ≠ main_v101 := by decide
theorem kept3_8 : ∀ r ∈ kept3, r ∉ hostOps8_W := by decide
theorem kept3_8_1 : ∀ r ∈ kept3, r ∉ hostOps8_1_W := by decide
theorem kept3_8_2 : ∀ r ∈ kept3, r ∉ hostOps8_2_W := by decide
theorem kept3_24 : ∀ r ∈ kept3, r ≠ main_v120 := by decide

/-- Those buffers hold at every boundary of the layer what they held when it began. -/
theorem keep17 (r : Ref sig .tc) (hr : r ∈ kept3) : W17 m c r = W16 m c r := W17_of m c r (kept3_6 r hr)
theorem keep18 (r : Ref sig .tc) (hr : r ∈ kept3) : W18 m c r = W16 m c r := (W18_of m c r (kept3_18 r hr)).trans (keep17 m c r hr)
theorem keep19 (r : Ref sig .tc) (hr : r ∈ kept3) : W19 m c r = W16 m c r := (W19_of m c r (kept3_7 r hr)).trans (keep18 m c r hr)
theorem keep20 (r : Ref sig .tc) (hr : r ∈ kept3) : W20 m c r = W16 m c r := (W20_of m c r (kept3_20 r hr)).trans (keep19 m c r hr)
theorem keep21 (r : Ref sig .tc) (hr : r ∈ kept3) : W21 m c r = W16 m c r := (W21_of m c r (kept3_8 r hr)).trans (keep20 m c r hr)
theorem keep22 (r : Ref sig .tc) (hr : r ∈ kept3) : W22 m c r = W16 m c r := (W22_of m c r (kept3_8_1 r hr)).trans (keep21 m c r hr)
theorem keep23 (r : Ref sig .tc) (hr : r ∈ kept3) : W23 m c r = W16 m c r := (W23_of m c r (kept3_8_2 r hr)).trans (keep22 m c r hr)
theorem keep24 (r : Ref sig .tc) (hr : r ∈ kept3) : W24 m c r = W16 m c r := (W24_of m c r (kept3_24 r hr)).trans (keep23 m c r hr)

/-- The third layer's hidden features: the first dense kernel's result on the features the second layer left. -/
abbrev hid3 : FVec Ideal S20000x512 .f32 := hidden z (srcOf (argAt3 m c main_arg1)) (dstOf (argAt3 m c main_arg1)) (argAt3 m c main_arg2) (mat2 (argAt3 m c main_arg4)) (row2 (argAt3 m c main_arg5))

/-! ## The first host stretch: the second layer's readout, and the source rows gathered along the edges -/

include hz ha in
/-- The second readout: the node features the second layer left, summed per graph. -/
theorem W17_v83 : W17 m c main_v83 = readout z (argAt3 m c main_arg3) := by
  rw [W17_def]
  after_results
  rw [hz, ha main_arg3 (by decide)]
  rfl

include hz hs in
/-- The source node's features of every edge. -/
theorem W17_v90 : W17 m c main_v90 = gathered z (srcOf (argAt3 m c main_arg1)) := by
  rw [W17_def]
  after_results
  rw [hz, hs]
  rfl

/-! ## The edge kernel -/

include hz hs ha in
/-- The edge kernel's output: the messages. -/
theorem W18_v91 : W18 m c main_v91 = Gedge (gathered z (srcOf (argAt3 m c main_arg1))) (argAt3 m c main_arg2) := by
  rw [W18_self, (O6_def m c).trans (final6 (rd (W17 m)) c)]
  show Gedge (W17 m c main_v90) (W17 m c main_arg2) = _
  rw [W17_v90 m c z hz hs, keep17 m c main_arg2 (by decide), ha main_arg2 (by decide)]

/-! ## The second host stretch: the messages summed at the targets, the first linear map's weight and bias -/

include hz hs hd ha in
/-- The messages summed at their target nodes. -/
theorem W19_v94 : W19 m c main_v94 = summed (Gedge (gathered z (srcOf (argAt3 m c main_arg1))) (argAt3 m c main_arg2)) (dstOf (argAt3 m c main_arg1)) := by
  rw [W19_def]
  after_results
  rw [W18_v91 m c z hz hs ha, keep18 m c main_v3 (by decide), hd]
  rfl

include ha in
/-- The first linear map's weight, transposed. -/
theorem W19_v97 : W19 m c main_v97 = wT (mat2 (argAt3 m c main_arg4)) := by
  rw [W19_def]
  after_results
  rw [keep18 m c main_arg4 (by decide), ha main_arg4 (by decide)]
  rfl

include ha in
/-- The first linear map's bias, as a one-row matrix. -/
theorem W19_v100 : W19 m c main_v100 = rowOf (vecOf (row2 (argAt3 m c main_arg5))) := by
  rw [W19_def]
  after_results
  rw [keep18 m c main_arg5 (by decide), ha main_arg5 (by decide)]
  rfl

include hz in
/-- The node features the second layer left are still there. -/
theorem W19_v80 : W19 m c main_v80 = z := by
  rw [W19_of m c main_v80 (by decide), W18_of m c main_v80 (by decide), W17_of m c main_v80 (by decide)]
  exact hz

/-! ## The first dense kernel -/

include hz hs hd ha in
/-- The first dense kernel's output: the hidden features. -/
theorem W20_v101 : W20 m c main_v101 = hid3 m c z := by
  rw [W20_self, (O7_def m c).trans (final7 (rd (W19 m)) c)]
  show Gmlp1 (W19 m c main_v80) (W19 m c main_v94) (W19 m c main_v97) (W19 m c main_v100) = _
  rw [W19_v80 m c z hz, W19_v94 m c z hz hs hd ha, W19_v97 m c ha, W19_v100 m c ha]
  rfl

/-! ## The host's mean and variance of the hidden features, and the second dense kernel's rows -/

include hz hs hd ha in
theorem W21_v101 : W21 m c main_v101 = hid3 m c z := by
  rw [W21_of m c main_v101 (by decide)]
  exact W20_v101 m c z hz hs hd ha

include hz hs hd ha in
/-- The mean of every hidden feature over the nodes. -/
theorem W21_v104 : W21 m c main_v104 = mean (hid3 m c z) := by
  rw [W21_def]
  after_results
  rw [W20_v101 m c z hz hs hd ha]
  rfl

/-- The variance's correction: zero. -/
theorem W21_c17 : W21 m c main_c_17 = (constantI S_ 32 0#32 : IVec S_ 32) := by
  rw [W21_def]
  after_results

include hz hs hd ha in
/-- The variance of every hidden feature over the nodes. -/
theorem W22_v105 : W22 m c main_v105 = var (hid3 m c z) := by
  rw [W22_def]
  after_results_simp
  rw [W21_v101 m c z hz hs hd ha, W21_c17 m c]
  rfl

include hz hs hd ha in
theorem W22_v104 : W22 m c main_v104 = mean (hid3 m c z) := by
  rw [W22_of m c main_v104 (by decide)]
  exact W21_v104 m c z hz hs hd ha

include hz hs hd ha in
theorem W22_v101 : W22 m c main_v101 = hid3 m c z := by
  rw [W22_of m c main_v101 (by decide)]
  exact W21_v101 m c z hz hs hd ha

include hz hs hd ha in
theorem W23_v101 : W23 m c main_v101 = hid3 m c z := by
  rw [W23_of m c main_v101 (by decide)]
  exact W22_v101 m c z hz hs hd ha

include hz hs hd ha in
/-- The mean as a one-row matrix. -/
theorem W23_v115 : W23 m c main_v115 = rowOf (mean (hid3 m c z)) := by
  rw [W23_def]
  after_results
  rw [W22_v104 m c z hz hs hd ha]
  rfl

include hz hs hd ha in
/-- The variance as a one-row matrix. -/
theorem W23_v116 : W23 m c main_v116 = rowOf (var (hid3 m c z)) := by
  rw [W23_def]
  after_results
  rw [W22_v105 m c z hz hs hd ha]
  rfl

include ha in
/-- The normalization's scale, as a one-row matrix. -/
theorem W23_v117 : W23 m c main_v117 = rowOf (vecOf (row2 (argAt3 m c main_arg6))) := by
  rw [W23_def]
  after_results
  rw [keep22 m c main_arg6 (by decide), ha main_arg6 (by decide)]
  rfl

include ha in
/-- The normalization's shift, as a one-row matrix. -/
theorem W23_v118 : W23 m c main_v118 = rowOf (vecOf (row2 (argAt3 m c main_arg7))) := by
  rw [W23_def]
  after_results
  rw [keep22 m c main_arg7 (by decide), ha main_arg7 (by decide)]
  rfl

include ha in
/-- The second linear map's weight, transposed. -/
theorem W23_v108 : W23 m c main_v108 = wT (mat2 (argAt3 m c main_arg8)) := by
  rw [W23_def]
  after_results
  rw [keep22 m c main_arg8 (by decide), ha main_arg8 (by decide)]
  rfl

include ha in
/-- The second linear map's bias, as a one-row matrix. -/
theorem W23_v119 : W23 m c main_v119 = rowOf (vecOf (row2 (argAt3 m c main_arg9))) := by
  rw [W23_def]
  after_results
  rw [keep22 m c main_arg9 (by decide), ha main_arg9 (by decide)]
  rfl

/-! ## The second dense kernel, and the layer -/

include hz hs hd ha in
/-- The second dense kernel's output: the node features the third layer leaves. -/
theorem W24_v120 : W24 m c main_v120
    = layerK z (srcOf (argAt3 m c main_arg1)) (dstOf (argAt3 m c main_arg1)) (argAt3 m c main_arg2) (mat2 (argAt3 m c main_arg4)) (row2 (argAt3 m c main_arg5)) (row2 (argAt3 m c main_arg6)) (row2 (argAt3 m c main_arg7)) (mat2 (argAt3 m c main_arg8)) (row2 (argAt3 m c main_arg9)) := by
  rw [W24_self, (O8_def m c).trans (final8 (rd (W23 m)) c)]
  show Gmlp2 (W23 m c main_v101) (W23 m c main_v115) (W23 m c main_v116) (W23 m c main_v117) (W23 m c main_v118) (W23 m c main_v108)
    (W23 m c main_v119) = _
  rw [W23_v101 m c z hz hs hd ha, W23_v115 m c z hz hs hd ha, W23_v116 m c z hz hs hd ha, W23_v117 m c ha, W23_v118 m c ha, W23_v108 m c ha, W23_v119 m c ha]
  rfl

/-! ## What the layer keeps -/

include hz ha in
/-- The second readout is still there when the layer ends. -/
theorem W24_v83 : W24 m c main_v83 = readout z (argAt3 m c main_arg3) := by
  rw [W24_of m c main_v83 (by decide), W23_of m c main_v83 (by decide), W22_of m c main_v83 (by decide),
    W21_of m c main_v83 (by decide), W20_of m c main_v83 (by decide), W19_of m c main_v83 (by decide),
    W18_of m c main_v83 (by decide)]
  exact W17_v83 m c z hz ha

include hg in
/-- The first readout is still there when the layer ends. -/
theorem W24_v43 : W24 m c main_v43 = g1 := (keep24 m c main_v43 (by decide)).trans hg

include hs in
theorem W24_v1 : W24 m c main_v1 = srcOf (argAt3 m c main_arg1) := (keep24 m c main_v1 (by decide)).trans hs
include hd in
theorem W24_v3 : W24 m c main_v3 = dstOf (argAt3 m c main_arg1) := (keep24 m c main_v3 (by decide)).trans hd
include ha in
theorem W24_arg (r : Ref sig .tc) (hr : r ∈ argRefs3) : W24 m c r = argAt3 m c r :=
  (keep24 m c r (List.mem_append_left _ hr)).trans (ha r hr)

end Layer3

end Cert.KernelIdeal.Hand

end
-- ==== Proof.KI.Read4.lean ====
/- The last host stretch of the network, read off the run's fold on the extended reals: the readout of the third
   layer's node features (the features summed per graph), and the three layers' readouts side by side. The stretch
   writes neither the node features nor any argument array, so those are as it found them. Stated for whatever the
   earlier items left in the buffers it reads. -/
import proofs.«157524_j37503654429443_1_alg».proof.Proof.KI.Stage
import proofs.«157524_j37503654429443_1_alg».proof.Proof.KI.Terms
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe

variable (m : (ℓ : Loc nD τ sig) → Buf (Elt Ideal) ℓ) (c : Dev nD)

/-! ## A three-operand operation read at its result buffer -/

/-- The result of an operation over a literal family of three buffers, with each operand's contents read at its own
    buffer (rather than through the family at a bound position). -/
theorem nary3_result {Val : EltTy → Type} {x a b y : Ref sig .tc}
    (f : ((k : Fin 3) → ((![x, a, b] : Fin 3 → Ref sig .tc) k).ty.Contents Val) → y.ty.Contents Val) (hxs hy)
    (F : Valuation τ sig Val) :
    (StableHlo.nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

/-! ## The last host stretch: the third readout, and the three readouts side by side -/

section Last

variable (g1 g2 : FVec Ideal S128x512 .f32) (z : FVec Ideal S20000x512 .f32)

/-- The node features after the third layer are not written by the last stretch. -/
theorem W25_z (hz : W24 m c main_v120 = z) : W25 m c main_v120 = z :=
  (W25_of m c main_v120 (by decide)).trans hz

/-- The second result: the first two readouts as found, beside the readout of the third layer's node features. -/
theorem W25_g (h43 : W24 m c main_v43 = g1) (h83 : W24 m c main_v83 = g2) (hz : W24 m c main_v120 = z)
    (h3 : W24 m c main_arg3 = m ((c : Thread nD τ).loc main_arg3)) :
    W25 m c main_v124 = cat3 g1 g2 (readout z (m ((c : Thread nD τ).loc main_arg3))) := by
  rw [W25_def]
  simp only [StableHlo.after_cons, StableHlo.after_nil]
  rw [nary3_result]
  repeat (first
    | rw [StableHlo.nullary_result] | rw [StableHlo.unary_result] | rw [StableHlo.ternary_result]
    | (rw [StableHlo.nullary_result_ne]; rotate_left; decide)
    | (rw [StableHlo.unary_result_ne]; rotate_left; decide)
    | (rw [StableHlo.ternary_result_ne]; rotate_left; decide))
  rw [h43, h83, hz, h3]
  rfl

end Last

/-! ## The argument arrays are not written by the last stretch -/

theorem W25_arg (r : Ref sig .tc) (h : r ∉ hostOps9_W) : W25 m c r = W24 m c r := W25_of m c r h

theorem W25_arg0 : W25 m c main_arg0 = W24 m c main_arg0 := W25_of m c main_arg0 (by decide)
theorem W25_arg1 : W25 m c main_arg1 = W24 m c main_arg1 := W25_of m c main_arg1 (by decide)
theorem W25_arg2 : W25 m c main_arg2 = W24 m c main_arg2 := W25_of m c main_arg2 (by decide)
theorem W25_arg3 : W25 m c main_arg3 = W24 m c main_arg3 := W25_of m c main_arg3 (by decide)
theorem W25_arg4 : W25 m c main_arg4 = W24 m c main_arg4 := W25_of m c main_arg4 (by decide)
theorem W25_arg5 : W25 m c main_arg5 = W24 m c main_arg5 := W25_of m c main_arg5 (by decide)
theorem W25_arg6 : W25 m c main_arg6 = W24 m c main_arg6 := W25_of m c main_arg6 (by decide)
theorem W25_arg7 : W25 m c main_arg7 = W24 m c main_arg7 := W25_of m c main_arg7 (by decide)
theorem W25_arg8 : W25 m c main_arg8 = W24 m c main_arg8 := W25_of m c main_arg8 (by decide)
theorem W25_arg9 : W25 m c main_arg9 = W24 m c main_arg9 := W25_of m c main_arg9 (by decide)

end Cert.KernelIdeal.Hand

end
-- ==== Proof.KI.Value.lean ====
/- The kernel program's run on the extended reals, with its two results named: joining the run of the whole program
   with the three layers' readings of the fold. After layer one the node features are `z1K` of the arguments, after
   layer two `z2K`, after layer three `resZK`; each layer's per-graph sums are kept to the end, where the last host
   stretch sets them side by side: `resGK`. The edge table's two rows and the ten arguments are what every layer
   found them. -/
import proofs.«157524_j37503654429443_1_alg».proof.Proof.KI.RunMain
import proofs.«157524_j37503654429443_1_alg».proof.Proof.KI.Read1
import proofs.«157524_j37503654429443_1_alg».proof.Proof.KI.Read2
import proofs.«157524_j37503654429443_1_alg».proof.Proof.KI.Read3
import proofs.«157524_j37503654429443_1_alg».proof.Proof.KI.Read4

set_option maxRecDepth 16384

noncomputable section

namespace Cert.KernelIdeal.Hand

open Idealize.ShloMosaic Idealize.ShloMosaic.TcCoe Idealize.SL.Sem
open Cert.KernelIdeal Cert.KernelIdeal.Gen

section Reads

variable (m : (ℓ : Loc nD τ sig) → Buf (Elt Ideal) ℓ) (c : Dev nD)

/-- An argument array of core `c`, as launched. -/
abbrev argV (b : Ref sig .tc) : Buf (Elt Ideal) ((c : Thread nD τ).loc b) := m ((c : Thread nD τ).loc b)

/-! ## The first layer -/

/-- After the first layer the node features are `z1K` of the arguments. -/
theorem after1 : W8 m c main_v40 = z1K (argV m c main_arg0) (argV m c main_arg1) (argV m c main_arg2) (argV m c main_arg4) (argV m c main_arg5) (argV m c main_arg6) (argV m c main_arg7) (argV m c main_arg8) (argV m c main_arg9) := by
  unfold z1K
  exact W8_layer m c

/-- Every item of the first layer leaves the ten argument arrays as launched. -/
theorem args_after1 : ∀ r ∈ argRefs2, W8 m c r = argAt2 m c r := by
  intro r hr
  simp only [argRefs2, List.mem_cons, List.not_mem_nil, or_false] at hr
  rcases hr with rfl | rfl | rfl | rfl | rfl | rfl | rfl | rfl | rfl | rfl
  · exact W8_arg0 m c
  · exact W8_arg1 m c
  · exact W8_arg2 m c
  · exact W8_arg3 m c
  · exact W8_arg4 m c
  · exact W8_arg5 m c
  · exact W8_arg6 m c
  · exact W8_arg7 m c
  · exact W8_arg8 m c
  · exact W8_arg9 m c

/-! ## The second layer -/

/-- After the second layer the node features are `z2K` of the arguments. -/
theorem after2 : W16 m c main_v80 = z2K (argV m c main_arg0) (argV m c main_arg1) (argV m c main_arg2) (argV m c main_arg4) (argV m c main_arg5) (argV m c main_arg6) (argV m c main_arg7) (argV m c main_arg8) (argV m c main_arg9) := by
  unfold z2K
  exact W16_v80 m c _ (after1 m c) (W8_src m c) (W8_dst m c) (args_after1 m c)

/-- The first layer's per-graph sums, still held when the second layer ends. -/
theorem readout1 : W16 m c main_v43 = readout (z1K (argV m c main_arg0) (argV m c main_arg1) (argV m c main_arg2) (argV m c main_arg4) (argV m c main_arg5) (argV m c main_arg6) (argV m c main_arg7) (argV m c main_arg8) (argV m c main_arg9)) (argV m c main_arg3) :=
  W16_v43 m c _ (after1 m c) (args_after1 m c)

/-- The edge table's rows and the arguments after the second layer. -/
theorem src_after2 : W16 m c main_v1 = srcOf (argV m c main_arg1) := W16_v1 m c (W8_src m c)
@[inherit_doc src_after2]
theorem dst_after2 : W16 m c main_v3 = dstOf (argV m c main_arg1) := W16_v3 m c (W8_dst m c)
@[inherit_doc src_after2]
theorem args_after2 : ∀ r ∈ argRefs2, W16 m c r = argAt2 m c r := fun r hr => W16_arg m c (args_after1 m c) r hr

/-! ## The third layer and the last host stretch -/

/-- After the third layer the node features are `resZK` of the arguments. -/
theorem after3 : W24 m c main_v120 = resZK (argV m c main_arg0) (argV m c main_arg1) (argV m c main_arg2) (argV m c main_arg4) (argV m c main_arg5) (argV m c main_arg6) (argV m c main_arg7) (argV m c main_arg8) (argV m c main_arg9) := by
  unfold resZK
  exact W24_v120 m c _ (after2 m c) (src_after2 m c) (dst_after2 m c) (args_after2 m c)

/-- The second layer's per-graph sums, and the first layer's, when the third layer ends. -/
theorem readout2 : W24 m c main_v83 = readout (z2K (argV m c main_arg0) (argV m c main_arg1) (argV m c main_arg2) (argV m c main_arg4) (argV m c main_arg5) (argV m c main_arg6) (argV m c main_arg7) (argV m c main_arg8) (argV m c main_arg9)) (argV m c main_arg3) :=
  W24_v83 m c _ (after2 m c) (args_after2 m c)
@[inherit_doc readout2]
theorem readout1_kept : W24 m c main_v43 = readout (z1K (argV m c main_arg0) (argV m c main_arg1) (argV m c main_arg2) (argV m c main_arg4) (argV m c main_arg5) (argV m c main_arg6) (argV m c main_arg7) (argV m c main_arg8) (argV m c main_arg9)) (argV m c main_arg3) :=
  W24_v43 m c _ (readout1 m c)

/-- The first result at the end of the run: the last host stretch does not write the node features. -/
theorem resZ_read : W25 m c main_v120 = resZK (argV m c main_arg0) (argV m c main_arg1) (argV m c main_arg2) (argV m c main_arg4) (argV m c main_arg5) (argV m c main_arg6) (argV m c main_arg7) (argV m c main_arg8) (argV m c main_arg9) :=
  W25_z m c _ (after3 m c)

/-- The second result at the end of the run: the three layers' per-graph sums side by side. -/
theorem resG_read : W25 m c main_v124 = resGK (argV m c main_arg0) (argV m c main_arg1) (argV m c main_arg2) (argV m c main_arg3) (argV m c main_arg4) (argV m c main_arg5) (argV m c main_arg6) (argV m c main_arg7) (argV m c main_arg8) (argV m c main_arg9) := by
  unfold resGK
  exact W25_g m c _ _ _ (readout1_kept m c) (readout2 m c) (after3 m c) (W24_arg m c (args_after2 m c) main_arg3 (by decide))

end Reads

/-! ## The run -/

/-- Every weakly fair execution of the program terminates with the node features after three layers in its first
    result, the three layers' per-graph sums side by side in its second, and the ten arguments as launched. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v120) = resZK (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v124) = resGK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (resZ_read m c), (h c).2.1.trans (resG_read m c), (h c).2.2⟩)
    (run_main (F := Ideal) m ρ)

end Cert.KernelIdeal.Hand
-- ==== Proof.Ref.Lists.lean ====
/- @main of the reference as lists of its host operations, cut where the three layers and the three readouts begin and end (and where the printed text is cut): every called function's operations are listed at the call, over that call's buffers. -/
import proofs.«157524_j37503654429443_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The two rows of the edge table, each as a flat index array: the sources and the targets of the edges. (4 operations, the callees' operations listed at their calls over the calls' buffer records.) -/
abbrev opsPre : List (HloOp τ sig (Elt F)) :=
  [ StableHlo.unary main_arg1 main_v0 ((extractStridedSlice S1x160000 ![0, 0] · slices_S2x160000_S1x160000_0_0) : (⟨S2x160000, .i32⟩ : BufTy).Contents (Elt F) → (⟨S1x160000, .i32⟩ : BufTy).Contents (Elt F)),
    StableHlo.reshape main_v0 main_v1 rfl shapeCasts_S1x160000_S160000,
    StableHlo.unary main_arg1 main_v2 ((extractStridedSlice S1x160000 ![1, 0] · slices_S2x160000_S1x160000_1_0) : (⟨S2x160000, .i32⟩ : BufTy).Contents (Elt F) → (⟨S1x160000, .i32⟩ : BufTy).Contents (Elt F)),
    StableHlo.reshape main_v2 main_v3 rfl shapeCasts_S1x160000_S160000 ]

/-- Layer 1, first stretch: the messages gathered along the edges, summed at their targets, the first linear map, the batch statistics, the normalization and the second linear map's weight. (81 operations, the callees' operations listed at their calls over the calls' buffer records.) -/
abbrev opsL0a : List (HloOp τ sig (Elt F)) :=
  [ StableHlo.nullary main_c (constantI S_ 32 0#32),
    StableHlo.unary main_c main_v4 (broadcastInDim S160000 ![] bcast_S_S160000 : (⟨S_, .i32⟩ : BufTy).Contents (Elt F) → (⟨S160000, .i32⟩ : BufTy).Contents (Elt F)),
    StableHlo.binary main_v1 main_v4 main_v5 (cmpi .slt : (⟨S160000, .i32⟩ : BufTy).Contents (Elt F) → (⟨S160000, .i32⟩ : BufTy).Contents (Elt F) → (⟨S160000, .i1⟩ : BufTy).Contents (Elt F)),
    StableHlo.nullary main_c_0 (constantI S_ 32 20000#32),
    StableHlo.unary main_c_0 main_v6 (broadcastInDim S160000 ![] bcast_S_S160000 : (⟨S_, .i32⟩ : BufTy).Contents (Elt F) → (⟨S160000, .i32⟩ : BufTy).Contents (Elt F)),
    StableHlo.binary main_v1 main_v6 main_v7 (addi : (⟨S160000, .i32⟩ : BufTy).Contents (Elt F) → (⟨S160000, .i32⟩ : BufTy).Contents (Elt F) → (⟨S160000, .i32⟩ : BufTy).Contents (Elt F)),
    StableHlo.ternary main_v5 main_v7 main_v1 main_v8 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.unary main_v8 main_v9 (broadcastInDim S160000x1 ![0] bcast_S160000_S160000x1_0 : (⟨S160000, .i32⟩ : BufTy).Contents (Elt F) → (⟨S160000x1, .i32⟩ : BufTy).Contents (Elt F)),
    StableHlo.binary main_arg0 main_v9 main_v10 ((fun x i => Host.gather gather_S20000x512_S160000x1_S160000x512_1_0_n_n_0_1_1512 x i) : (⟨S20000x512, .f32⟩ : BufTy).Contents (Elt F) → (⟨S160000x1, .i32⟩ : BufTy).Contents (Elt F) → (⟨S160000x512, .f32⟩ : BufTy).Contents (Elt F)),
    StableHlo.binary main_v10 main_arg2 main_v11 (addf : (⟨S160000x512, .f32⟩ : BufTy).Contents (Elt F) → (⟨S160000x512, .f32⟩ : BufTy).Contents (Elt F) → (⟨S160000x512, .f32⟩ : BufTy).Contents (Elt F)),
    StableHlo.TRef.nullary main_call0.cst (constant S_ .f32 0x00000000#32),
    StableHlo.TRef.unary main_call0.cst main_call0.v0 (broadcastInDim S160000x512 ![] bcast_S_S160000x512),
    StableHlo.TRef.binary (.of main_v11 : StableHlo.TRef sig ⟨S160000x512, .f32⟩) main_call0.v0 main_call0.v1 maximumf,
    StableHlo.nullary main_cst (constant S_ .f32 0x00000000#32),
    StableHlo.unary main_cst main_v13 (broadcastInDim S20000x512 ![] bcast_S_S20000x512 : (⟨S_, .f32⟩ : BufTy).Contents (Elt F) → (⟨S20000x512, .f32⟩ : BufTy).Contents (Elt F)),
    StableHlo.unary main_v3 main_v14 (broadcastInDim S160000x1 ![0] bcast_S160000_S160000x1_0 : (⟨S160000, .i32⟩ : BufTy).Contents (Elt F) → (⟨S160000x1, .i32⟩ : BufTy).Contents (Elt F)),
    StableHlo.ternary main_v13 main_v14 main_v12 main_v15 ((fun x i u => Host.scatterAdd scatter_S20000x512_S160000x1_S160000x512_1_0_0_1 x i u) : (⟨S20000x512, .f32⟩ : BufTy).Contents (Elt F) → (⟨S160000x1, .i32⟩ : BufTy).Contents (Elt F) → (⟨S160000x512, .f32⟩ : BufTy).Contents (Elt F) → (⟨S20000x512, .f32⟩ : BufTy).Contents (Elt F)),
    StableHlo.binary main_arg0 main_v15 main_v16 (addf : (⟨S20000x512, .f32⟩ : BufTy).Contents (Elt F) → (⟨S20000x512, .f32⟩ : BufTy).Contents (Elt F) → (⟨S20000x512, .f32⟩ : BufTy).Contents (Elt F)),
    StableHlo.unary main_arg4 main_v17 ((extractStridedSlice S1x512x512 ![0, 0, 0] · slices_S3x512x512_S1x512x512_0_0_0) : (⟨S3x512x512, .f32⟩ : BufTy).Contents (Elt F) → (⟨S1x512x512, .f32⟩ : BufTy).Contents (Elt F)),
    StableHlo.reshape main_v17 main_v18 rfl shapeCasts_S1x512x512_S512x512,
    StableHlo.unary main_v18 main_v19 ((transpose S512x512 [1, 0] · transposes_S512x512_S512x512_1_0) : (⟨S512x512, .f32⟩ : BufTy).Contents (Elt F) → (⟨S512x512, .f32⟩ : BufTy).Contents (Elt F)),
    StableHlo.binary main_v16 main_v19 main_v20 ((fun l r => Host.dotGeneral dot_S20000x512_S512x512_S20000x512_1_0_0_1_n_n none l r) : (⟨S20000x512, .f32⟩ : BufTy).Contents (Elt F) → (⟨S512x512, .f32⟩ : BufTy).Contents (Elt F) → (⟨S20000x512, .f32⟩ : BufTy).Contents (Elt F)),
    StableHlo.unary main_arg5 main_v21 ((extractStridedSlice S1x512 ![0, 0] · slices_S3x512_S1x512_0_0) : (⟨S3x512, .f32⟩ : BufTy).Contents (Elt F) → (⟨S1x512, .f32⟩ : BufTy).Contents (Elt F)),
    StableHlo.reshape main_v21 main_v22 rfl shapeCasts_S1x512_S512,
    StableHlo.unary main_v22 main_v23 (broadcastInDim S1x512 ![1] bcast_S512_S1x512_1 : (⟨S512, .f32⟩ : BufTy).Contents (Elt F) → (⟨S1x512, .f32⟩ : BufTy).Contents (Elt F)),
    StableHlo.unary main_v23 main_v24 (broadcastInDim S20000x512 ![0, 1] bcast_S1x512_S20000x512_0_1 : (⟨S1x512, .f32⟩ : BufTy).Contents (Elt F) → (⟨S20000x512, .f32⟩ : BufTy).Contents (Elt F)),
    StableHlo.binary main_v20 main_v24 main_v25 (addf : (⟨S20000x512, .f32⟩ : BufTy).Contents (Elt F) → (⟨S20000x512, .f32⟩ : BufTy).Contents (Elt F) → (⟨S20000x512, .f32⟩ : BufTy).Contents (Elt F)),
    StableHlo.nullary main_cst_1 (constant S_ .f32 0x00000000#32),
    StableHlo.binary main_v25 main_cst_1 main_v26 ((fun x v => Host.reduceAdd x v reducesTo_S20000x512_S512_d0 h_S_) : (⟨S20000x512, .f32⟩ : BufTy).Contents (Elt F) → (⟨S_, .f32⟩ : BufTy).Contents (Elt F) → (⟨S512, .f32⟩ : BufTy).Contents (Elt F)),
    StableHlo.nullary main_cst_2 (constant S_ .f32 0x469C4000#32),
    StableHlo.unary main_cst_2 main_v27 (broadcastInDim S512 ![] bcast_S_S512 : (⟨S_, .f32⟩ : BufTy).Contents (Elt F) → (⟨S512, .f32⟩ : BufTy).Contents (Elt F)),
    StableHlo.binary main_v26 main_v27 main_v28 (Host.divf : (⟨S512, .f32⟩ : BufTy).Contents (Elt F) → (⟨S512, .f32⟩ : BufTy).Contents (Elt F) → (⟨S512, .f32⟩ : BufTy).Contents (Elt F)),
    StableHlo.nullary main_c_3 (constantI S_ 32 0#32),
    StableHlo.TRef.nullary main_call1.cst (constant S_ .f32 0x00000000#32),
    StableHlo.TRef.binary (.of main_v25 : StableHlo.TRef sig ⟨S20000x512, .f32⟩) main_call1.cst main_call1.v0 (fun x v => Host.reduceAdd x v reducesTo_S20000x512_S512_d0 h_S_),
    StableHlo.TRef.unary main_call1.v0 main_call1.v1 (broadcastInDim S1x512 ![1] bcast_S512_S1x512_1),
    StableHlo.TRef.nullary main_call1.cst_0 (constant S_ .f32 0x469C4000#32),
    StableHlo.TRef.unary main_call1.cst_0 main_call1.v2 (broadcastInDim S1x512 ![] bcast_S_S1x512),
    StableHlo.TRef.binary main_call1.v1 main_call1.v2 main_call1.v3 Host.divf,
    StableHlo.TRef.unary main_call1.v3 main_call1.v4 (broadcastInDim S20000x512 ![0, 1] bcast_S1x512_S20000x512_0_1),
    StableHlo.TRef.binary (.of main_v25 : StableHlo.TRef sig ⟨S20000x512, .f32⟩) main_call1.v4 main_call1.v5 subf,
    StableHlo.TRef.binary main_call1.v5 main_call1.v5 main_call1.v6 mulf,
    StableHlo.TRef.unary (.of main_c_3 : StableHlo.TRef sig ⟨S_, .i32⟩) main_call1.v7 (sitofp .f32),
    StableHlo.TRef.nullary main_call1.cst_1 (constant S_ .f32 0x469C4000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S20000x512_S512_d0 h_S_),
    StableHlo.TRef.unary main_call1.v8 main_call1.v10 (broadcastInDim S512 ![] bcast_S_S512),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S512 ![] bcast_S_S512),
    StableHlo.TRef.ternary main_call1.v12 main_call1.v11 main_call1.call0.v1 main_call1.call0.v2 (fun p a b => select (broadcastInDim S512 ![] bcast_S_S512 p) a b),
    StableHlo.unary main_v28 main_v30 (broadcastInDim S1x512 ![1] bcast_S512_S1x512_1 : (⟨S512, .f32⟩ : BufTy).Contents (Elt F) → (⟨S1x512, .f32⟩ : BufTy).Contents (Elt F)),
    StableHlo.unary main_v30 main_v31 (broadcastInDim S20000x512 ![0, 1] bcast_S1x512_S20000x512_0_1 : (⟨S1x512, .f32⟩ : BufTy).Contents (Elt F) → (⟨S20000x512, .f32⟩ : BufTy).Contents (Elt F)),
    StableHlo.binary main_v25 main_v31 main_v32 (subf : (⟨S20000x512, .f32⟩ : BufTy).Contents (Elt F) → (⟨S20000x512, .f32⟩ : BufTy).Contents (Elt F) → (⟨S20000x512, .f32⟩ : BufTy).Contents (Elt F)),
    StableHlo.nullary main_cst_4 (constant S_ .f32 0x3727C5AC#32),
    StableHlo.unary main_cst_4 main_v33 (broadcastInDim S512 ![] bcast_S_S512 : (⟨S_, .f32⟩ : BufTy).Contents (Elt F) → (⟨S512, .f32⟩ : BufTy).Contents (Elt F)),
    StableHlo.binary main_v29 main_v33 main_v34 (addf : (⟨S512, .f32⟩ : BufTy).Contents (Elt F) → (⟨S512, .f32⟩ : BufTy).Contents (Elt F) → (⟨S512, .f32⟩ : BufTy).Contents (Elt F)),
    StableHlo.unary main_v34 main_v35 (Host.rsqrt : (⟨S512, .f32⟩ : BufTy).Contents (Elt F) → (⟨S512, .f32⟩ : BufTy).Contents (Elt F)),
    StableHlo.unary main_v35 main_v36 (broadcastInDim S1x512 ![1] bcast_S512_S1x512_1 : (⟨S512, .f32⟩ : BufTy).Contents (Elt F) → (⟨S1x512, .f32⟩ : BufTy).Contents (Elt F)),
    StableHlo.unary main_v36 main_v37 (broadcastInDim S20000x512 ![0, 1] bcast_S1x512_S20000x512_0_1 : (⟨S1x512, .f32⟩ : BufTy).Contents (Elt F) → (⟨S20000x512, .f32⟩ : BufTy).Contents (Elt F)),
    StableHlo.binary main_v32 main_v37 main_v38 (mulf : (⟨S20000x512, .f32⟩ : BufTy).Contents (Elt F) → (⟨S20000x512, .f32⟩ : BufTy).Contents (Elt F) → (⟨S20000x512, .f32⟩ : BufTy).Contents (Elt F)),
    StableHlo.unary main_arg6 main_v39 ((extractStridedSlice S1x512 ![0, 0] · slices_S3x512_S1x512_0_0) : (⟨S3x512, .f32⟩ : BufTy).Contents (Elt F) → (⟨S1x512, .f32⟩ : BufTy).Contents (Elt F)),
    StableHlo.reshape main_v39 main_v40 rfl shapeCasts_S1x512_S512,
    StableHlo.unary main_v40 main_v41 (broadcastInDim S1x512 ![1] bcast_S512_S1x512_1 : (⟨S512, .f32⟩ : BufTy).Contents (Elt F) → (⟨S1x512, .f32⟩ : BufTy).Contents (Elt F)),
    StableHlo.unary main_v41 main_v42 (broadcastInDim S20000x512 ![0, 1] bcast_S1x512_S20000x512_0_1 : (⟨S1x512, .f32⟩ : BufTy).Contents (Elt F) → (⟨S20000x512, .f32⟩ : BufTy).Contents (Elt F)),
    StableHlo.binary main_v38 main_v42 main_v43 (mulf : (⟨S20000x512, .f32⟩ : BufTy).Contents (Elt F) → (⟨S20000x512, .f32⟩ : BufTy).Contents (Elt F) → (⟨S20000x512, .f32⟩ : BufTy).Contents (Elt F)),
    StableHlo.unary main_arg7 main_v44 ((extractStridedSlice S1x512 ![0, 0] · slices_S3x512_S1x512_0_0) : (⟨S3x512, .f32⟩ : BufTy).Contents (Elt F) → (⟨S1x512, .f32⟩ : BufTy).Contents (Elt F)),
    StableHlo.reshape main_v44 main_v45 rfl shapeCasts_S1x512_S512,
    StableHlo.unary main_v45 main_v46 (broadcastInDim S1x512 ![1] bcast_S512_S1x512_1 : (⟨S512, .f32⟩ : BufTy).Contents (Elt F) → (⟨S1x512, .f32⟩ : BufTy).Contents (Elt F)),
    StableHlo.unary main_v46 main_v47 (broadcastInDim S20000x512 ![0, 1] bcast_S1x512_S20000x512_0_1 : (⟨S1x512, .f32⟩ : BufTy).Contents (Elt F) → (⟨S20000x512, .f32⟩ : BufTy).Contents (Elt F)),
    StableHlo.binary main_v43 main_v47 main_v48 (addf : (⟨S20000x512, .f32⟩ : BufTy).Contents (Elt F) → (⟨S20000x512, .f32⟩ : BufTy).Contents (Elt F) → (⟨S20000x512, .f32⟩ : BufTy).Contents (Elt F)),
    StableHlo.TRef.nullary main_call2.cst (constant S_ .f32 0x00000000#32),
    StableHlo.TRef.unary main_call2.cst main_call2.v0 (broadcastInDim S20000x512 ![] bcast_S_S20000x512),
    StableHlo.TRef.binary (.of main_v48 : StableHlo.TRef sig ⟨S20000x512, .f32⟩) main_call2.v0 main_call2.v1 maximumf,
    StableHlo.unary main_arg8 main_v50 ((extractStridedSlice S1x512x512 ![0, 0, 0] · slices_S3x512x512_S1x512x512_0_0_0) : (⟨S3x512x512, .f32⟩ : BufTy).Contents (Elt F) → (⟨S1x512x512, .f32⟩ : BufTy).Contents (Elt F)),
    StableHlo.reshape main_v50 main_v51 rfl shapeCasts_S1x512x512_S512x512,
    StableHlo.unary main_v51 main_v52 ((transpose S512x512 [1, 0] · transposes_S512x512_S512x512_1_0) : (⟨S512x512, .f32⟩ : BufTy).Contents (Elt F) → (⟨S512x512, .f32⟩ : BufTy).Contents (Elt F)) ]

/-- Layer 1, second stretch: the second linear map and the outer activation. (9 operations, the callees' operations listed at their calls over the calls' buffer records.) -/
abbrev opsL0b : List (HloOp τ sig (Elt F)) :=
  [ StableHlo.binary main_v49 main_v52 main_v53 ((fun l r => Host.dotGeneral dot_S20000x512_S512x512_S20000x512_1_0_0_1_n_n none l r) : (⟨S20000x512, .f32⟩ : BufTy).Contents (Elt F) → (⟨S512x512, .f32⟩ : BufTy).Contents (Elt F) → (⟨S20000x512, .f32⟩ : BufTy).Contents (Elt F)),
    StableHlo.unary main_arg9 main_v54 ((extractStridedSlice S1x512 ![0, 0] · slices_S3x512_S1x512_0_0) : (⟨S3x512, .f32⟩ : BufTy).Contents (Elt F) → (⟨S1x512, .f32⟩ : BufTy).Contents (Elt F)),
    StableHlo.reshape main_v54 main_v55 rfl shapeCasts_S1x512_S512,
    StableHlo.unary main_v55 main_v56 (broadcastInDim S1x512 ![1] bcast_S512_S1x512_1 : (⟨S512, .f32⟩ : BufTy).Contents (Elt F) → (⟨S1x512, .f32⟩ : BufTy).Contents (Elt F)),
    StableHlo.unary main_v56 main_v57 (broadcastInDim S20000x512 ![0, 1] bcast_S1x512_S20000x512_0_1 : (⟨S1x512, .f32⟩ : BufTy).Contents (Elt F) → (⟨S20000x512, .f32⟩ : BufTy).Contents (Elt F)),
    StableHlo.binary main_v53 main_v57 main_v58 (addf : (⟨S20000x512, .f32⟩ : BufTy).Contents (Elt F) → (⟨S20000x512, .f32⟩ : BufTy).Contents (Elt F) → (⟨S20000x512, .f32⟩ : BufTy).Contents (Elt F)),
    StableHlo.TRef.nullary main_call3.cst (constant S_ .f32 0x00000000#32),
    StableHlo.TRef.unary main_call3.cst main_call3.v0 (broadcastInDim S20000x512 ![] bcast_S_S20000x512),
    StableHlo.TRef.binary (.of main_v58 : StableHlo.TRef sig ⟨S20000x512, .f32⟩) main_call3.v0 main_call3.v1 maximumf ]

/-- Readout 1: the node features of layer 1 summed per graph. (4 operations, the callees' operations listed at their calls over the calls' buffer records.) -/
abbrev opsR0 : List (HloOp τ sig (Elt F)) :=
  [ StableHlo.nullary main_cst_5 (constant S_ .f32 0x00000000#32),
    StableHlo.unary main_cst_5 main_v60 (broadcastInDim S128x512 ![] bcast_S_S128x512 : (⟨S_, .f32⟩ : BufTy).Contents (Elt F) → (⟨S128x512, .f32⟩ : BufTy).Contents (Elt F)),
    StableHlo.unary main_arg3 main_v61 (broadcastInDim S20000x1 ![0] bcast_S20000_S20000x1_0 : (⟨S20000, .i32⟩ : BufTy).Contents (Elt F) → (⟨S20000x1, .i32⟩ : BufTy).Contents (Elt F)),
    StableHlo.ternary main_v60 main_v61 main_v59 main_v62 ((fun x i u => Host.scatterAdd scatter_S128x512_S20000x1_S20000x512_1_0_0_1 x i u) : (⟨S128x512, .f32⟩ : BufTy).Contents (Elt F) → (⟨S20000x1, .i32⟩ : BufTy).Contents (Elt F) → (⟨S20000x512, .f32⟩ : BufTy).Contents (Elt F) → (⟨S128x512, .f32⟩ : BufTy).Contents (Elt F)) ]

/-- Layer 2, first stretch: from the edge messages to the shift's row of the normalization. (72 operations, the callees' operations listed at their calls over the calls' buffer records.) -/
abbrev opsL1a : List (HloOp τ sig (Elt F)) :=
  [ StableHlo.nullary main_c_6 (constantI S_ 32 0#32),
    StableHlo.unary main_c_6 main_v63 (broadcastInDim S160000 ![] bcast_S_S160000 : (⟨S_, .i32⟩ : BufTy).Contents (Elt F) → (⟨S160000, .i32⟩ : BufTy).Contents (Elt F)),
    StableHlo.binary main_v1 main_v63 main_v64 (cmpi .slt : (⟨S160000, .i32⟩ : BufTy).Contents (Elt F) → (⟨S160000, .i32⟩ : BufTy).Contents (Elt F) → (⟨S160000, .i1⟩ : BufTy).Contents (Elt F)),
    StableHlo.nullary main_c_7 (constantI S_ 32 20000#32),
    StableHlo.unary main_c_7 main_v65 (broadcastInDim S160000 ![] bcast_S_S160000 : (⟨S_, .i32⟩ : BufTy).Contents (Elt F) → (⟨S160000, .i32⟩ : BufTy).Contents (Elt F)),
    StableHlo.binary main_v1 main_v65 main_v66 (addi : (⟨S160000, .i32⟩ : BufTy).Contents (Elt F) → (⟨S160000, .i32⟩ : BufTy).Contents (Elt F) → (⟨S160000, .i32⟩ : BufTy).Contents (Elt F)),
    StableHlo.ternary main_v64 main_v66 main_v1 main_v67 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.unary main_v67 main_v68 (broadcastInDim S160000x1 ![0] bcast_S160000_S160000x1_0 : (⟨S160000, .i32⟩ : BufTy).Contents (Elt F) → (⟨S160000x1, .i32⟩ : BufTy).Contents (Elt F)),
    StableHlo.binary main_v59 main_v68 main_v69 ((fun x i => Host.gather gather_S20000x512_S160000x1_S160000x512_1_0_n_n_0_1_1512 x i) : (⟨S20000x512, .f32⟩ : BufTy).Contents (Elt F) → (⟨S160000x1, .i32⟩ : BufTy).Contents (Elt F) → (⟨S160000x512, .f32⟩ : BufTy).Contents (Elt F)),
    StableHlo.binary main_v69 main_arg2 main_v70 (addf : (⟨S160000x512, .f32⟩ : BufTy).Contents (Elt F) → (⟨S160000x512, .f32⟩ : BufTy).Contents (Elt F) → (⟨S160000x512, .f32⟩ : BufTy).Contents (Elt F)),
    StableHlo.TRef.nullary main_call4.cst (constant S_ .f32 0x00000000#32),
    StableHlo.TRef.unary main_call4.cst main_call4.v0 (broadcastInDim S160000x512 ![] bcast_S_S160000x512),
    StableHlo.TRef.binary (.of main_v70 : StableHlo.TRef sig ⟨S160000x512, .f32⟩) main_call4.v0 main_call4.v1 maximumf,
    StableHlo.nullary main_cst_8 (constant S_ .f32 0x00000000#32),
    StableHlo.unary main_cst_8 main_v72 (broadcastInDim S20000x512 ![] bcast_S_S20000x512 : (⟨S_, .f32⟩ : BufTy).Contents (Elt F) → (⟨S20000x512, .f32⟩ : BufTy).Contents (Elt F)),
    StableHlo.unary main_v3 main_v73 (broadcastInDim S160000x1 ![0] bcast_S160000_S160000x1_0 : (⟨S160000, .i32⟩ : BufTy).Contents (Elt F) → (⟨S160000x1, .i32⟩ : BufTy).Contents (Elt F)),
    StableHlo.ternary main_v72 main_v73 main_v71 main_v74 ((fun x i u => Host.scatterAdd scatter_S20000x512_S160000x1_S160000x512_1_0_0_1 x i u) : (⟨S20000x512, .f32⟩ : BufTy).Contents (Elt F) → (⟨S160000x1, .i32⟩ : BufTy).Contents (Elt F) → (⟨S160000x512, .f32⟩ : BufTy).Contents (Elt F) → (⟨S20000x512, .f32⟩ : BufTy).Contents (Elt F)),
    StableHlo.binary main_v59 main_v74 main_v75 (addf : (⟨S20000x512, .f32⟩ : BufTy).Contents (Elt F) → (⟨S20000x512, .f32⟩ : BufTy).Contents (Elt F) → (⟨S20000x512, .f32⟩ : BufTy).Contents (Elt F)),
    StableHlo.unary main_arg4 main_v76 ((extractStridedSlice S1x512x512 ![1, 0, 0] · slices_S3x512x512_S1x512x512_1_0_0) : (⟨S3x512x512, .f32⟩ : BufTy).Contents (Elt F) → (⟨S1x512x512, .f32⟩ : BufTy).Contents (Elt F)),
    StableHlo.reshape main_v76 main_v77 rfl shapeCasts_S1x512x512_S512x512,
    StableHlo.unary main_v77 main_v78 ((transpose S512x512 [1, 0] · transposes_S512x512_S512x512_1_0) : (⟨S512x512, .f32⟩ : BufTy).Contents (Elt F) → (⟨S512x512, .f32⟩ : BufTy).Contents (Elt F)),
    StableHlo.binary main_v75 main_v78 main_v79 ((fun l r => Host.dotGeneral dot_S20000x512_S512x512_S20000x512_1_0_0_1_n_n none l r) : (⟨S20000x512, .f32⟩ : BufTy).Contents (Elt F) → (⟨S512x512, .f32⟩ : BufTy).Contents (Elt F) → (⟨S20000x512, .f32⟩ : BufTy).Contents (Elt F)),
    StableHlo.unary main_arg5 main_v80 ((extractStridedSlice S1x512 ![1, 0] · slices_S3x512_S1x512_1_0) : (⟨S3x512, .f32⟩ : BufTy).Contents (Elt F) → (⟨S1x512, .f32⟩ : BufTy).Contents (Elt F)),
    StableHlo.reshape main_v80 main_v81 rfl shapeCasts_S1x512_S512,
    StableHlo.unary main_v81 main_v82 (broadcastInDim S1x512 ![1] bcast_S512_S1x512_1 : (⟨S512, .f32⟩ : BufTy).Contents (Elt F) → (⟨S1x512, .f32⟩ : BufTy).Contents (Elt F)),
    StableHlo.unary main_v82 main_v83 (broadcastInDim S20000x512 ![0, 1] bcast_S1x512_S20000x512_0_1 : (⟨S1x512, .f32⟩ : BufTy).Contents (Elt F) → (⟨S20000x512, .f32⟩ : BufTy).Contents (Elt F)),
    StableHlo.binary main_v79 main_v83 main_v84 (addf : (⟨S20000x512, .f32⟩ : BufTy).Contents (Elt F) → (⟨S20000x512, .f32⟩ : BufTy).Contents (Elt F) → (⟨S20000x512, .f32⟩ : BufTy).Contents (Elt F)),
    StableHlo.nullary main_cst_9 (constant S_ .f32 0x00000000#32),
    StableHlo.binary main_v84 main_cst_9 main_v85 ((fun x v => Host.reduceAdd x v reducesTo_S20000x512_S512_d0 h_S_) : (⟨S20000x512, .f32⟩ : BufTy).Contents (Elt F) → (⟨S_, .f32⟩ : BufTy).Contents (Elt F) → (⟨S512, .f32⟩ : BufTy).Contents (Elt F)),
    StableHlo.nullary main_cst_10 (constant S_ .f32 0x469C4000#32),
    StableHlo.unary main_cst_10 main_v86 (broadcastInDim S512 ![] bcast_S_S512 : (⟨S_, .f32⟩ : BufTy).Contents (Elt F) → (⟨S512, .f32⟩ : BufTy).Contents (Elt F)),
    StableHlo.binary main_v85 main_v86 main_v87 (Host.divf : (⟨S512, .f32⟩ : BufTy).Contents (Elt F) → (⟨S512, .f32⟩ : BufTy).Contents (Elt F) → (⟨S512, .f32⟩ : BufTy).Contents (Elt F)),
    StableHlo.nullary main_c_11 (constantI S_ 32 0#32),
    StableHlo.TRef.nullary main_call5.cst (constant S_ .f32 0x00000000#32),
    StableHlo.TRef.binary (.of main_v84 : StableHlo.TRef sig ⟨S20000x512, .f32⟩) main_call5.cst main_call5.v0 (fun x v => Host.reduceAdd x v reducesTo_S20000x512_S512_d0 h_S_),
    StableHlo.TRef.unary main_call5.v0 main_call5.v1 (broadcastInDim S1x512 ![1] bcast_S512_S1x512_1),
    StableHlo.TRef.nullary main_call5.cst_0 (constant S_ .f32 0x469C4000#32),
    StableHlo.TRef.unary main_call5.cst_0 main_call5.v2 (broadcastInDim S1x512 ![] bcast_S_S1x512),
    StableHlo.TRef.binary main_call5.v1 main_call5.v2 main_call5.v3 Host.divf,
    StableHlo.TRef.unary main_call5.v3 main_call5.v4 (broadcastInDim S20000x512 ![0, 1] bcast_S1x512_S20000x512_0_1),
    StableHlo.TRef.binary (.of main_v84 : StableHlo.TRef sig ⟨S20000x512, .f32⟩) main_call5.v4 main_call5.v5 subf,
    StableHlo.TRef.binary main_call5.v5 main_call5.v5 main_call5.v6 mulf,
    StableHlo.TRef.unary (.of main_c_11 : StableHlo.TRef sig ⟨S_, .i32⟩) main_call5.v7 (sitofp .f32),
    StableHlo.TRef.nullary main_call5.cst_1 (constant S_ .f32 0x469C4000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S20000x512_S512_d0 h_S_),
    StableHlo.TRef.unary main_call5.v8 main_call5.v10 (broadcastInDim S512 ![] bcast_S_S512),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S512 ![] bcast_S_S512),
    StableHlo.TRef.ternary main_call5.v12 main_call5.v11 main_call5.call0.v1 main_call5.call0.v2 (fun p a b => select (broadcastInDim S512 ![] bcast_S_S512 p) a b),
    StableHlo.unary main_v87 main_v89 (broadcastInDim S1x512 ![1] bcast_S512_S1x512_1 : (⟨S512, .f32⟩ : BufTy).Contents (Elt F) → (⟨S1x512, .f32⟩ : BufTy).Contents (Elt F)),
    StableHlo.unary main_v89 main_v90 (broadcastInDim S20000x512 ![0, 1] bcast_S1x512_S20000x512_0_1 : (⟨S1x512, .f32⟩ : BufTy).Contents (Elt F) → (⟨S20000x512, .f32⟩ : BufTy).Contents (Elt F)),
    StableHlo.binary main_v84 main_v90 main_v91 (subf : (⟨S20000x512, .f32⟩ : BufTy).Contents (Elt F) → (⟨S20000x512, .f32⟩ : BufTy).Contents (Elt F) → (⟨S20000x512, .f32⟩ : BufTy).Contents (Elt F)),
    StableHlo.nullary main_cst_12 (constant S_ .f32 0x3727C5AC#32),
    StableHlo.unary main_cst_12 main_v92 (broadcastInDim S512 ![] bcast_S_S512 : (⟨S_, .f32⟩ : BufTy).Contents (Elt F) → (⟨S512, .f32⟩ : BufTy).Contents (Elt F)),
    StableHlo.binary main_v88 main_v92 main_v93 (addf : (⟨S512, .f32⟩ : BufTy).Contents (Elt F) → (⟨S512, .f32⟩ : BufTy).Contents (Elt F) → (⟨S512, .f32⟩ : BufTy).Contents (Elt F)),
    StableHlo.unary main_v93 main_v94 (Host.rsqrt : (⟨S512, .f32⟩ : BufTy).Contents (Elt F) → (⟨S512, .f32⟩ : BufTy).Contents (Elt F)),
    StableHlo.unary main_v94 main_v95 (broadcastInDim S1x512 ![1] bcast_S512_S1x512_1 : (⟨S512, .f32⟩ : BufTy).Contents (Elt F) → (⟨S1x512, .f32⟩ : BufTy).Contents (Elt F)),
    StableHlo.unary main_v95 main_v96 (broadcastInDim S20000x512 ![0, 1] bcast_S1x512_S20000x512_0_1 : (⟨S1x512, .f32⟩ : BufTy).Contents (Elt F) → (⟨S20000x512, .f32⟩ : BufTy).Contents (Elt F)),
    StableHlo.binary main_v91 main_v96 main_v97 (mulf : (⟨S20000x512, .f32⟩ : BufTy).Contents (Elt F) → (⟨S20000x512, .f32⟩ : BufTy).Contents (Elt F) → (⟨S20000x512, .f32⟩ : BufTy).Contents (Elt F)),
    StableHlo.unary main_arg6 main_v98 ((extractStridedSlice S1x512 ![1, 0] · slices_S3x512_S1x512_1_0) : (⟨S3x512, .f32⟩ : BufTy).Contents (Elt F) → (⟨S1x512, .f32⟩ : BufTy).Contents (Elt F)),
    StableHlo.reshape main_v98 main_v99 rfl shapeCasts_S1x512_S512,
    StableHlo.unary main_v99 main_v100 (broadcastInDim S1x512 ![1] bcast_S512_S1x512_1 : (⟨S512, .f32⟩ : BufTy).Contents (Elt F) → (⟨S1x512, .f32⟩ : BufTy).Contents (Elt F)),
    StableHlo.unary main_v100 main_v101 (broadcastInDim S20000x512 ![0, 1] bcast_S1x512_S20000x512_0_1 : (⟨S1x512, .f32⟩ : BufTy).Contents (Elt F) → (⟨S20000x512, .f32⟩ : BufTy).Contents (Elt F)),
    StableHlo.binary main_v97 main_v101 main_v102 (mulf : (⟨S20000x512, .f32⟩ : BufTy).Contents (Elt F) → (⟨S20000x512, .f32⟩ : BufTy).Contents (Elt F) → (⟨S20000x512, .f32⟩ : BufTy).Contents (Elt F)),
    StableHlo.unary main_arg7 main_v103 ((extractStridedSlice S1x512 ![1, 0] · slices_S3x512_S1x512_1_0) : (⟨S3x512, .f32⟩ : BufTy).Contents (Elt F) → (⟨S1x512, .f32⟩ : BufTy).Contents (Elt F)),
    StableHlo.reshape main_v103 main_v104 rfl shapeCasts_S1x512_S512 ]

/-- Layer 2, second stretch: the shift, the inner activation, the second linear map and the outer activation. (18 operations, the callees' operations listed at their calls over the calls' buffer records.) -/
abbrev opsL1b : List (HloOp τ sig (Elt F)) :=
  [ StableHlo.unary main_v104 main_v105 (broadcastInDim S1x512 ![1] bcast_S512_S1x512_1 : (⟨S512, .f32⟩ : BufTy).Contents (Elt F) → (⟨S1x512, .f32⟩ : BufTy).Contents (Elt F)),
    StableHlo.unary main_v105 main_v106 (broadcastInDim S20000x512 ![0, 1] bcast_S1x512_S20000x512_0_1 : (⟨S1x512, .f32⟩ : BufTy).Contents (Elt F) → (⟨S20000x512, .f32⟩ : BufTy).Contents (Elt F)),
    StableHlo.binary main_v102 main_v106 main_v107 (addf : (⟨S20000x512, .f32⟩ : BufTy).Contents (Elt F) → (⟨S20000x512, .f32⟩ : BufTy).Contents (Elt F) → (⟨S20000x512, .f32⟩ : BufTy).Contents (Elt F)),
    StableHlo.TRef.nullary main_call6.cst (constant S_ .f32 0x00000000#32),
    StableHlo.TRef.unary main_call6.cst main_call6.v0 (broadcastInDim S20000x512 ![] bcast_S_S20000x512),
    StableHlo.TRef.binary (.of main_v107 : StableHlo.TRef sig ⟨S20000x512, .f32⟩) main_call6.v0 main_call6.v1 maximumf,
    StableHlo.unary main_arg8 main_v109 ((extractStridedSlice S1x512x512 ![1, 0, 0] · slices_S3x512x512_S1x512x512_1_0_0) : (⟨S3x512x512, .f32⟩ : BufTy).Contents (Elt F) → (⟨S1x512x512, .f32⟩ : BufTy).Contents (Elt F)),
    StableHlo.reshape main_v109 main_v110 rfl shapeCasts_S1x512x512_S512x512,
    StableHlo.unary main_v110 main_v111 ((transpose S512x512 [1, 0] · transposes_S512x512_S512x512_1_0) : (⟨S512x512, .f32⟩ : BufTy).Contents (Elt F) → (⟨S512x512, .f32⟩ : BufTy).Contents (Elt F)),
    StableHlo.binary main_v108 main_v111 main_v112 ((fun l r => Host.dotGeneral dot_S20000x512_S512x512_S20000x512_1_0_0_1_n_n none l r) : (⟨S20000x512, .f32⟩ : BufTy).Contents (Elt F) → (⟨S512x512, .f32⟩ : BufTy).Contents (Elt F) → (⟨S20000x512, .f32⟩ : BufTy).Contents (Elt F)),
    StableHlo.unary main_arg9 main_v113 ((extractStridedSlice S1x512 ![1, 0] · slices_S3x512_S1x512_1_0) : (⟨S3x512, .f32⟩ : BufTy).Contents (Elt F) → (⟨S1x512, .f32⟩ : BufTy).Contents (Elt F)),
    StableHlo.reshape main_v113 main_v114 rfl shapeCasts_S1x512_S512,
    StableHlo.unary main_v114 main_v115 (broadcastInDim S1x512 ![1] bcast_S512_S1x512_1 : (⟨S512, .f32⟩ : BufTy).Contents (Elt F) → (⟨S1x512, .f32⟩ : BufTy).Contents (Elt F)),
    StableHlo.unary main_v115 main_v116 (broadcastInDim S20000x512 ![0, 1] bcast_S1x512_S20000x512_0_1 : (⟨S1x512, .f32⟩ : BufTy).Contents (Elt F) → (⟨S20000x512, .f32⟩ : BufTy).Contents (Elt F)),
    StableHlo.binary main_v112 main_v116 main_v117 (addf : (⟨S20000x512, .f32⟩ : BufTy).Contents (Elt F) → (⟨S20000x512, .f32⟩ : BufTy).Contents (Elt F) → (⟨S20000x512, .f32⟩ : BufTy).Contents (Elt F)),
    StableHlo.TRef.nullary main_call7.cst (constant S_ .f32 0x00000000#32),
    StableHlo.TRef.unary main_call7.cst main_call7.v0 (broadcastInDim S20000x512 ![] bcast_S_S20000x512),
    StableHlo.TRef.binary (.of main_v117 : StableHlo.TRef sig ⟨S20000x512, .f32⟩) main_call7.v0 main_call7.v1 maximumf ]

/-- Readout 2: the node features of layer 2 summed per graph. (4 operations, the callees' operations listed at their calls over the calls' buffer records.) -/
abbrev opsR1 : List (HloOp τ sig (Elt F)) :=
  [ StableHlo.nullary main_cst_13 (constant S_ .f32 0x00000000#32),
    StableHlo.unary main_cst_13 main_v119 (broadcastInDim S128x512 ![] bcast_S_S128x512 : (⟨S_, .f32⟩ : BufTy).Contents (Elt F) → (⟨S128x512, .f32⟩ : BufTy).Contents (Elt F)),
    StableHlo.unary main_arg3 main_v120 (broadcastInDim S20000x1 ![0] bcast_S20000_S20000x1_0 : (⟨S20000, .i32⟩ : BufTy).Contents (Elt F) → (⟨S20000x1, .i32⟩ : BufTy).Contents (Elt F)),
    StableHlo.ternary main_v119 main_v120 main_v118 main_v121 ((fun x i u => Host.scatterAdd scatter_S128x512_S20000x1_S20000x512_1_0_0_1 x i u) : (⟨S128x512, .f32⟩ : BufTy).Contents (Elt F) → (⟨S20000x1, .i32⟩ : BufTy).Contents (Elt F) → (⟨S20000x512, .f32⟩ : BufTy).Contents (Elt F) → (⟨S128x512, .f32⟩ : BufTy).Contents (Elt F)) ]

/-- Layer 3, first stretch: from the edge messages to the normalized features. (65 operations, the callees' operations listed at their calls over the calls' buffer records.) -/
abbrev opsL2a : List (HloOp τ sig (Elt F)) :=
  [ StableHlo.nullary main_c_14 (constantI S_ 32 0#32),
    StableHlo.unary main_c_14 main_v122 (broadcastInDim S160000 ![] bcast_S_S160000 : (⟨S_, .i32⟩ : BufTy).Contents (Elt F) → (⟨S160000, .i32⟩ : BufTy).Contents (Elt F)),
    StableHlo.binary main_v1 main_v122 main_v123 (cmpi .slt : (⟨S160000, .i32⟩ : BufTy).Contents (Elt F) → (⟨S160000, .i32⟩ : BufTy).Contents (Elt F) → (⟨S160000, .i1⟩ : BufTy).Contents (Elt F)),
    StableHlo.nullary main_c_15 (constantI S_ 32 20000#32),
    StableHlo.unary main_c_15 main_v124 (broadcastInDim S160000 ![] bcast_S_S160000 : (⟨S_, .i32⟩ : BufTy).Contents (Elt F) → (⟨S160000, .i32⟩ : BufTy).Contents (Elt F)),
    StableHlo.binary main_v1 main_v124 main_v125 (addi : (⟨S160000, .i32⟩ : BufTy).Contents (Elt F) → (⟨S160000, .i32⟩ : BufTy).Contents (Elt F) → (⟨S160000, .i32⟩ : BufTy).Contents (Elt F)),
    StableHlo.ternary main_v123 main_v125 main_v1 main_v126 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.unary main_v126 main_v127 (broadcastInDim S160000x1 ![0] bcast_S160000_S160000x1_0 : (⟨S160000, .i32⟩ : BufTy).Contents (Elt F) → (⟨S160000x1, .i32⟩ : BufTy).Contents (Elt F)),
    StableHlo.binary main_v118 main_v127 main_v128 ((fun x i => Host.gather gather_S20000x512_S160000x1_S160000x512_1_0_n_n_0_1_1512 x i) : (⟨S20000x512, .f32⟩ : BufTy).Contents (Elt F) → (⟨S160000x1, .i32⟩ : BufTy).Contents (Elt F) → (⟨S160000x512, .f32⟩ : BufTy).Contents (Elt F)),
    StableHlo.binary main_v128 main_arg2 main_v129 (addf : (⟨S160000x512, .f32⟩ : BufTy).Contents (Elt F) → (⟨S160000x512, .f32⟩ : BufTy).Contents (Elt F) → (⟨S160000x512, .f32⟩ : BufTy).Contents (Elt F)),
    StableHlo.TRef.nullary main_call8.cst (constant S_ .f32 0x00000000#32),
    StableHlo.TRef.unary main_call8.cst main_call8.v0 (broadcastInDim S160000x512 ![] bcast_S_S160000x512),
    StableHlo.TRef.binary (.of main_v129 : StableHlo.TRef sig ⟨S160000x512, .f32⟩) main_call8.v0 main_call8.v1 maximumf,
    StableHlo.nullary main_cst_16 (constant S_ .f32 0x00000000#32),
    StableHlo.unary main_cst_16 main_v131 (broadcastInDim S20000x512 ![] bcast_S_S20000x512 : (⟨S_, .f32⟩ : BufTy).Contents (Elt F) → (⟨S20000x512, .f32⟩ : BufTy).Contents (Elt F)),
    StableHlo.unary main_v3 main_v132 (broadcastInDim S160000x1 ![0] bcast_S160000_S160000x1_0 : (⟨S160000, .i32⟩ : BufTy).Contents (Elt F) → (⟨S160000x1, .i32⟩ : BufTy).Contents (Elt F)),
    StableHlo.ternary main_v131 main_v132 main_v130 main_v133 ((fun x i u => Host.scatterAdd scatter_S20000x512_S160000x1_S160000x512_1_0_0_1 x i u) : (⟨S20000x512, .f32⟩ : BufTy).Contents (Elt F) → (⟨S160000x1, .i32⟩ : BufTy).Contents (Elt F) → (⟨S160000x512, .f32⟩ : BufTy).Contents (Elt F) → (⟨S20000x512, .f32⟩ : BufTy).Contents (Elt F)),
    StableHlo.binary main_v118 main_v133 main_v134 (addf : (⟨S20000x512, .f32⟩ : BufTy).Contents (Elt F) → (⟨S20000x512, .f32⟩ : BufTy).Contents (Elt F) → (⟨S20000x512, .f32⟩ : BufTy).Contents (Elt F)),
    StableHlo.unary main_arg4 main_v135 ((extractStridedSlice S1x512x512 ![2, 0, 0] · slices_S3x512x512_S1x512x512_2_0_0) : (⟨S3x512x512, .f32⟩ : BufTy).Contents (Elt F) → (⟨S1x512x512, .f32⟩ : BufTy).Contents (Elt F)),
    StableHlo.reshape main_v135 main_v136 rfl shapeCasts_S1x512x512_S512x512,
    StableHlo.unary main_v136 main_v137 ((transpose S512x512 [1, 0] · transposes_S512x512_S512x512_1_0) : (⟨S512x512, .f32⟩ : BufTy).Contents (Elt F) → (⟨S512x512, .f32⟩ : BufTy).Contents (Elt F)),
    StableHlo.binary main_v134 main_v137 main_v138 ((fun l r => Host.dotGeneral dot_S20000x512_S512x512_S20000x512_1_0_0_1_n_n none l r) : (⟨S20000x512, .f32⟩ : BufTy).Contents (Elt F) → (⟨S512x512, .f32⟩ : BufTy).Contents (Elt F) → (⟨S20000x512, .f32⟩ : BufTy).Contents (Elt F)),
    StableHlo.unary main_arg5 main_v139 ((extractStridedSlice S1x512 ![2, 0] · slices_S3x512_S1x512_2_0) : (⟨S3x512, .f32⟩ : BufTy).Contents (Elt F) → (⟨S1x512, .f32⟩ : BufTy).Contents (Elt F)),
    StableHlo.reshape main_v139 main_v140 rfl shapeCasts_S1x512_S512,
    StableHlo.unary main_v140 main_v141 (broadcastInDim S1x512 ![1] bcast_S512_S1x512_1 : (⟨S512, .f32⟩ : BufTy).Contents (Elt F) → (⟨S1x512, .f32⟩ : BufTy).Contents (Elt F)),
    StableHlo.unary main_v141 main_v142 (broadcastInDim S20000x512 ![0, 1] bcast_S1x512_S20000x512_0_1 : (⟨S1x512, .f32⟩ : BufTy).Contents (Elt F) → (⟨S20000x512, .f32⟩ : BufTy).Contents (Elt F)),
    StableHlo.binary main_v138 main_v142 main_v143 (addf : (⟨S20000x512, .f32⟩ : BufTy).Contents (Elt F) → (⟨S20000x512, .f32⟩ : BufTy).Contents (Elt F) → (⟨S20000x512, .f32⟩ : BufTy).Contents (Elt F)),
    StableHlo.nullary main_cst_17 (constant S_ .f32 0x00000000#32),
    StableHlo.binary main_v143 main_cst_17 main_v144 ((fun x v => Host.reduceAdd x v reducesTo_S20000x512_S512_d0 h_S_) : (⟨S20000x512, .f32⟩ : BufTy).Contents (Elt F) → (⟨S_, .f32⟩ : BufTy).Contents (Elt F) → (⟨S512, .f32⟩ : BufTy).Contents (Elt F)),
    StableHlo.nullary main_cst_18 (constant S_ .f32 0x469C4000#32),
    StableHlo.unary main_cst_18 main_v145 (broadcastInDim S512 ![] bcast_S_S512 : (⟨S_, .f32⟩ : BufTy).Contents (Elt F) → (⟨S512, .f32⟩ : BufTy).Contents (Elt F)),
    StableHlo.binary main_v144 main_v145 main_v146 (Host.divf : (⟨S512, .f32⟩ : BufTy).Contents (Elt F) → (⟨S512, .f32⟩ : BufTy).Contents (Elt F) → (⟨S512, .f32⟩ : BufTy).Contents (Elt F)),
    StableHlo.nullary main_c_19 (constantI S_ 32 0#32),
    StableHlo.TRef.nullary main_call9.cst (constant S_ .f32 0x00000000#32),
    StableHlo.TRef.binary (.of main_v143 : StableHlo.TRef sig ⟨S20000x512, .f32⟩) main_call9.cst main_call9.v0 (fun x v => Host.reduceAdd x v reducesTo_S20000x512_S512_d0 h_S_),
    StableHlo.TRef.unary main_call9.v0 main_call9.v1 (broadcastInDim S1x512 ![1] bcast_S512_S1x512_1),
    StableHlo.TRef.nullary main_call9.cst_0 (constant S_ .f32 0x469C4000#32),
    StableHlo.TRef.unary main_call9.cst_0 main_call9.v2 (broadcastInDim S1x512 ![] bcast_S_S1x512),
    StableHlo.TRef.binary main_call9.v1 main_call9.v2 main_call9.v3 Host.divf,
    StableHlo.TRef.unary main_call9.v3 main_call9.v4 (broadcastInDim S20000x512 ![0, 1] bcast_S1x512_S20000x512_0_1),
    StableHlo.TRef.binary (.of main_v143 : StableHlo.TRef sig ⟨S20000x512, .f32⟩) main_call9.v4 main_call9.v5 subf,
    StableHlo.TRef.binary main_call9.v5 main_call9.v5 main_call9.v6 mulf,
    StableHlo.TRef.unary (.of main_c_19 : StableHlo.TRef sig ⟨S_, .i32⟩) main_call9.v7 (sitofp .f32),
    StableHlo.TRef.nullary main_call9.cst_1 (constant S_ .f32 0x469C4000#32),
    StableHlo.TRef.binary main_call9.cst_1 main_call9.v7 main_call9.v8 subf,
    StableHlo.TRef.nullary main_call9.cst_2 (constant S_ .f32 0x00000000#32),
    StableHlo.TRef.binary main_call9.v6 main_call9.cst_2 main_call9.v9 (fun x v => Host.reduceAdd x v reducesTo_S20000x512_S512_d0 h_S_),
    StableHlo.TRef.unary main_call9.v8 main_call9.v10 (broadcastInDim S512 ![] bcast_S_S512),
    StableHlo.TRef.binary main_call9.v9 main_call9.v10 main_call9.v11 Host.divf,
    StableHlo.TRef.nullary main_call9.cst_3 (constant S_ .f32 0x00000000#32),
    StableHlo.TRef.binary main_call9.v8 main_call9.cst_3 main_call9.v12 (cmpf .ogt),
    StableHlo.TRef.nullary main_call9.cst_4 (constant S_ .f32 0x7FC00000#32),
    StableHlo.TRef.unary main_call9.cst_4 main_call9.call0.v0 id,
    StableHlo.TRef.unary main_call9.call0.v0 main_call9.call0.v1 (broadcastInDim S512 ![] bcast_S_S512),
    StableHlo.TRef.ternary main_call9.v12 main_call9.v11 main_call9.call0.v1 main_call9.call0.v2 (fun p a b => select (broadcastInDim S512 ![] bcast_S_S512 p) a b),
    StableHlo.unary main_v146 main_v148 (broadcastInDim S1x512 ![1] bcast_S512_S1x512_1 : (⟨S512, .f32⟩ : BufTy).Contents (Elt F) → (⟨S1x512, .f32⟩ : BufTy).Contents (Elt F)),
    StableHlo.unary main_v148 main_v149 (broadcastInDim S20000x512 ![0, 1] bcast_S1x512_S20000x512_0_1 : (⟨S1x512, .f32⟩ : BufTy).Contents (Elt F) → (⟨S20000x512, .f32⟩ : BufTy).Contents (Elt F)),
    StableHlo.binary main_v143 main_v149 main_v150 (subf : (⟨S20000x512, .f32⟩ : BufTy).Contents (Elt F) → (⟨S20000x512, .f32⟩ : BufTy).Contents (Elt F) → (⟨S20000x512, .f32⟩ : BufTy).Contents (Elt F)),
    StableHlo.nullary main_cst_20 (constant S_ .f32 0x3727C5AC#32),
    StableHlo.unary main_cst_20 main_v151 (broadcastInDim S512 ![] bcast_S_S512 : (⟨S_, .f32⟩ : BufTy).Contents (Elt F) → (⟨S512, .f32⟩ : BufTy).Contents (Elt F)),
    StableHlo.binary main_v147 main_v151 main_v152 (addf : (⟨S512, .f32⟩ : BufTy).Contents (Elt F) → (⟨S512, .f32⟩ : BufTy).Contents (Elt F) → (⟨S512, .f32⟩ : BufTy).Contents (Elt F)),
    StableHlo.unary main_v152 main_v153 (Host.rsqrt : (⟨S512, .f32⟩ : BufTy).Contents (Elt F) → (⟨S512, .f32⟩ : BufTy).Contents (Elt F)),
    StableHlo.unary main_v153 main_v154 (broadcastInDim S1x512 ![1] bcast_S512_S1x512_1 : (⟨S512, .f32⟩ : BufTy).Contents (Elt F) → (⟨S1x512, .f32⟩ : BufTy).Contents (Elt F)),
    StableHlo.unary main_v154 main_v155 (broadcastInDim S20000x512 ![0, 1] bcast_S1x512_S20000x512_0_1 : (⟨S1x512, .f32⟩ : BufTy).Contents (Elt F) → (⟨S20000x512, .f32⟩ : BufTy).Contents (Elt F)),
    StableHlo.binary main_v150 main_v155 main_v156 (mulf : (⟨S20000x512, .f32⟩ : BufTy).Contents (Elt F) → (⟨S20000x512, .f32⟩ : BufTy).Contents (Elt F) → (⟨S20000x512, .f32⟩ : BufTy).Contents (Elt F)) ]

/-- Layer 3, second stretch: the scale and shift, the inner activation, the second linear map and the outer activation. (25 operations, the callees' operations listed at their calls over the calls' buffer records.) -/
abbrev opsL2b : List (HloOp τ sig (Elt F)) :=
  [ StableHlo.unary main_arg6 main_v157 ((extractStridedSlice S1x512 ![2, 0] · slices_S3x512_S1x512_2_0) : (⟨S3x512, .f32⟩ : BufTy).Contents (Elt F) → (⟨S1x512, .f32⟩ : BufTy).Contents (Elt F)),
    StableHlo.reshape main_v157 main_v158 rfl shapeCasts_S1x512_S512,
    StableHlo.unary main_v158 main_v159 (broadcastInDim S1x512 ![1] bcast_S512_S1x512_1 : (⟨S512, .f32⟩ : BufTy).Contents (Elt F) → (⟨S1x512, .f32⟩ : BufTy).Contents (Elt F)),
    StableHlo.unary main_v159 main_v160 (broadcastInDim S20000x512 ![0, 1] bcast_S1x512_S20000x512_0_1 : (⟨S1x512, .f32⟩ : BufTy).Contents (Elt F) → (⟨S20000x512, .f32⟩ : BufTy).Contents (Elt F)),
    StableHlo.binary main_v156 main_v160 main_v161 (mulf : (⟨S20000x512, .f32⟩ : BufTy).Contents (Elt F) → (⟨S20000x512, .f32⟩ : BufTy).Contents (Elt F) → (⟨S20000x512, .f32⟩ : BufTy).Contents (Elt F)),
    StableHlo.unary main_arg7 main_v162 ((extractStridedSlice S1x512 ![2, 0] · slices_S3x512_S1x512_2_0) : (⟨S3x512, .f32⟩ : BufTy).Contents (Elt F) → (⟨S1x512, .f32⟩ : BufTy).Contents (Elt F)),
    StableHlo.reshape main_v162 main_v163 rfl shapeCasts_S1x512_S512,
    StableHlo.unary main_v163 main_v164 (broadcastInDim S1x512 ![1] bcast_S512_S1x512_1 : (⟨S512, .f32⟩ : BufTy).Contents (Elt F) → (⟨S1x512, .f32⟩ : BufTy).Contents (Elt F)),
    StableHlo.unary main_v164 main_v165 (broadcastInDim S20000x512 ![0, 1] bcast_S1x512_S20000x512_0_1 : (⟨S1x512, .f32⟩ : BufTy).Contents (Elt F) → (⟨S20000x512, .f32⟩ : BufTy).Contents (Elt F)),
    StableHlo.binary main_v161 main_v165 main_v166 (addf : (⟨S20000x512, .f32⟩ : BufTy).Contents (Elt F) → (⟨S20000x512, .f32⟩ : BufTy).Contents (Elt F) → (⟨S20000x512, .f32⟩ : BufTy).Contents (Elt F)),
    StableHlo.TRef.nullary main_call10.cst (constant S_ .f32 0x00000000#32),
    StableHlo.TRef.unary main_call10.cst main_call10.v0 (broadcastInDim S20000x512 ![] bcast_S_S20000x512),
    StableHlo.TRef.binary (.of main_v166 : StableHlo.TRef sig ⟨S20000x512, .f32⟩) main_call10.v0 main_call10.v1 maximumf,
    StableHlo.unary main_arg8 main_v168 ((extractStridedSlice S1x512x512 ![2, 0, 0] · slices_S3x512x512_S1x512x512_2_0_0) : (⟨S3x512x512, .f32⟩ : BufTy).Contents (Elt F) → (⟨S1x512x512, .f32⟩ : BufTy).Contents (Elt F)),
    StableHlo.reshape main_v168 main_v169 rfl shapeCasts_S1x512x512_S512x512,
    StableHlo.unary main_v169 main_v170 ((transpose S512x512 [1, 0] · transposes_S512x512_S512x512_1_0) : (⟨S512x512, .f32⟩ : BufTy).Contents (Elt F) → (⟨S512x512, .f32⟩ : BufTy).Contents (Elt F)),
    StableHlo.binary main_v167 main_v170 main_v171 ((fun l r => Host.dotGeneral dot_S20000x512_S512x512_S20000x512_1_0_0_1_n_n none l r) : (⟨S20000x512, .f32⟩ : BufTy).Contents (Elt F) → (⟨S512x512, .f32⟩ : BufTy).Contents (Elt F) → (⟨S20000x512, .f32⟩ : BufTy).Contents (Elt F)),
    StableHlo.unary main_arg9 main_v172 ((extractStridedSlice S1x512 ![2, 0] · slices_S3x512_S1x512_2_0) : (⟨S3x512, .f32⟩ : BufTy).Contents (Elt F) → (⟨S1x512, .f32⟩ : BufTy).Contents (Elt F)),
    StableHlo.reshape main_v172 main_v173 rfl shapeCasts_S1x512_S512,
    StableHlo.unary main_v173 main_v174 (broadcastInDim S1x512 ![1] bcast_S512_S1x512_1 : (⟨S512, .f32⟩ : BufTy).Contents (Elt F) → (⟨S1x512, .f32⟩ : BufTy).Contents (Elt F)),
    StableHlo.unary main_v174 main_v175 (broadcastInDim S20000x512 ![0, 1] bcast_S1x512_S20000x512_0_1 : (⟨S1x512, .f32⟩ : BufTy).Contents (Elt F) → (⟨S20000x512, .f32⟩ : BufTy).Contents (Elt F)),
    StableHlo.binary main_v171 main_v175 main_v176 (addf : (⟨S20000x512, .f32⟩ : BufTy).Contents (Elt F) → (⟨S20000x512, .f32⟩ : BufTy).Contents (Elt F) → (⟨S20000x512, .f32⟩ : BufTy).Contents (Elt F)),
    StableHlo.TRef.nullary main_call11.cst (constant S_ .f32 0x00000000#32),
    StableHlo.TRef.unary main_call11.cst main_call11.v0 (broadcastInDim S20000x512 ![] bcast_S_S20000x512),
    StableHlo.TRef.binary (.of main_v176 : StableHlo.TRef sig ⟨S20000x512, .f32⟩) main_call11.v0 main_call11.v1 maximumf ]

/-- Readout 3: the node features of layer 3 summed per graph. (4 operations, the callees' operations listed at their calls over the calls' buffer records.) -/
abbrev opsR2 : List (HloOp τ sig (Elt F)) :=
  [ StableHlo.nullary main_cst_21 (constant S_ .f32 0x00000000#32),
    StableHlo.unary main_cst_21 main_v178 (broadcastInDim S128x512 ![] bcast_S_S128x512 : (⟨S_, .f32⟩ : BufTy).Contents (Elt F) → (⟨S128x512, .f32⟩ : BufTy).Contents (Elt F)),
    StableHlo.unary main_arg3 main_v179 (broadcastInDim S20000x1 ![0] bcast_S20000_S20000x1_0 : (⟨S20000, .i32⟩ : BufTy).Contents (Elt F) → (⟨S20000x1, .i32⟩ : BufTy).Contents (Elt F)),
    StableHlo.ternary main_v178 main_v179 main_v177 main_v180 ((fun x i u => Host.scatterAdd scatter_S128x512_S20000x1_S20000x512_1_0_0_1 x i u) : (⟨S128x512, .f32⟩ : BufTy).Contents (Elt F) → (⟨S20000x1, .i32⟩ : BufTy).Contents (Elt F) → (⟨S20000x512, .f32⟩ : BufTy).Contents (Elt F) → (⟨S128x512, .f32⟩ : BufTy).Contents (Elt F)) ]

/-- The three readouts side by side. (1 operation, the callees' operations listed at their calls over the calls' buffer records.) -/
abbrev opsCat : List (HloOp τ sig (Elt F)) :=
  [ StableHlo.nary ![main_v62, main_v121, main_v180] main_v181 (fun u => concatenate S128x1536 1 [⟨S128x512, u 0⟩, ⟨S128x512, u 1⟩, ⟨S128x512, u 2⟩] concatenates_S128x512_S128x512_S128x512_S128x1536_d1) ]

end Cert.ReferenceIdeal.Hand

end
-- ==== Proof.Ref.Part0.lean ====
/- Window 1 of the printed @main is the straight line of its operations: the called functions' definitions unfolded at their calls, the sequencing reassociated. -/
import proofs.«157524_j37503654429443_1_alg».proof.Proof.Ref.Lists

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- the chain of binds is as deep as the window has statements
set_option maxRecDepth 4096 in
set_option maxHeartbeats 4000000 in
/-- Window 1 runs its operations in order. -/
theorem main_part0_eq (c : Dev nD) : main_part0 (F := F) c = seq (opsPre ++ opsL0a) := by
  simp only [main_part0, fn_relu.body, fn_relu_0.body, fn_var.body, fn_where.body, opsPre, opsL0a, List.cons_append, List.nil_append,
    seq, bind_assoc, pure_bind]
  rfl

end Cert.ReferenceIdeal.Hand

end
-- ==== Proof.Ref.Part1.lean ====
/- Window 2 of the printed @main is the straight line of its operations: the called functions' definitions unfolded at their calls, the sequencing reassociated. -/
import proofs.«157524_j37503654429443_1_alg».proof.Proof.Ref.Lists

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- the chain of binds is as deep as the window has statements
set_option maxRecDepth 4096 in
set_option maxHeartbeats 4000000 in
/-- Window 2 runs its operations in order. -/
theorem main_part1_eq (c : Dev nD) : main_part1 (F := F) c = seq (opsL0b ++ opsR0 ++ opsL1a) := by
  simp only [main_part1, fn_relu.body, fn_relu_0.body, fn_var.body, fn_where.body, opsL0b, opsR0, opsL1a, List.cons_append, List.nil_append,
    seq, bind_assoc, pure_bind]
  rfl

end Cert.ReferenceIdeal.Hand

end
-- ==== Proof.Ref.Part2.lean ====
/- Window 3 of the printed @main is the straight line of its operations: the called functions' definitions unfolded at their calls, the sequencing reassociated. -/
import proofs.«157524_j37503654429443_1_alg».proof.Proof.Ref.Lists

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- the chain of binds is as deep as the window has statements
set_option maxRecDepth 4096 in
set_option maxHeartbeats 4000000 in
/-- Window 3 runs its operations in order. -/
theorem main_part2_eq (c : Dev nD) : main_part2 (F := F) c = seq (opsL1b ++ opsR1 ++ opsL2a) := by
  simp only [main_part2, fn_relu.body, fn_relu_0.body, fn_var.body, fn_where.body, opsL1b, opsR1, opsL2a, List.cons_append, List.nil_append,
    seq, bind_assoc, pure_bind]
  rfl

end Cert.ReferenceIdeal.Hand

end
-- ==== Proof.Ref.Part3.lean ====
/- Window 4 of the printed @main is the straight line of its operations: the called functions' definitions unfolded at their calls, the sequencing reassociated. -/
import proofs.«157524_j37503654429443_1_alg».proof.Proof.Ref.Lists

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- the chain of binds is as deep as the window has statements
set_option maxRecDepth 4096 in
set_option maxHeartbeats 4000000 in
/-- Window 4 runs its operations in order. -/
theorem main_part3_eq (c : Dev nD) : main_part3 (F := F) c = seq (opsL2b ++ opsR2 ++ opsCat) := by
  simp only [main_part3, fn_relu.body, fn_relu_0.body, fn_var.body, fn_where.body, opsL2b, opsR2, opsCat, List.cons_append, List.nil_append,
    seq, bind_assoc, pure_bind]

end Cert.ReferenceIdeal.Hand

end
-- ==== Proof.Ref.Side.lean ====
/- The side conditions of the run, list by list: every operation touches TensorCore references only and determines its results; the buffers each list writes, and that a buffer outside them keeps its contents through the list. -/
import proofs.«157524_j37503654429443_1_alg».proof.Proof.Ref.Lists

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- An operation whose written buffer is `y` writes inside any list of references holding `y`. -/
theorem writes_in {op : HloOp τ sig (Elt F)} (y : Ref sig .tc) {L : List (Ref sig .tc)}
    (h : op.writes = {Proc.devRef .tc y}) (hy : y ∈ L) :
    op.writes ⊆ (L.map (Proc.devRef (τ := τ) .tc)).toFinset := by
  rw [h, Finset.singleton_subset_iff, List.mem_toFinset]; exact List.mem_map_of_mem hy

/-- The buffers `opsPre` writes, in order. -/
abbrev opsPre_W : List (Ref sig .tc) := [main_v0, main_v1, main_v2, main_v3]
theorem opsPre_sub : ∀ op ∈ (opsPre : List (HloOp τ sig (Elt F))), op.bufs ⊆ tcRefs τ sig :=
  List.forall_iff_forall_mem.1 (show (opsPre : List (HloOp τ sig (Elt F))).Forall _ from ⟨unary_bufs_sub .., reshape_bufs_sub .., unary_bufs_sub .., reshape_bufs_sub ..⟩)
theorem opsPre_fresh : ∀ op ∈ (opsPre : List (HloOp τ sig (Elt F))), op.fresh = ∅ :=
  List.forall_iff_forall_mem.1 (show (opsPre : List (HloOp τ sig (Elt F))).Forall _ from ⟨rfl, rfl, rfl, rfl⟩)
set_option maxRecDepth 4096 in
theorem opsPre_writes : (opsPre : List (HloOp τ sig (Elt F))).Forall fun op => op.writes ⊆ (opsPre_W.map (Proc.devRef (τ := τ) .tc)).toFinset :=
  ⟨writes_in main_v0 rfl (by decide), writes_in main_v1 rfl (by decide), writes_in main_v2 rfl (by decide), writes_in main_v3 rfl (by decide)⟩
/-- A buffer `opsPre` does not write keeps its contents through it. -/
theorem opsPre_keep (W : Valuation τ sig (Elt F)) (r : Ref sig .tc) (h : r ∉ opsPre_W) :
    after opsPre W (Proc.devRef .tc r) = W (Proc.devRef .tc r) :=
  after_of_writes_sub opsPre W opsPre_writes h

/-- The buffers `opsL0a` writes, in order. -/
abbrev opsL0a_W : List (Ref sig .tc) := [main_c, main_v4, main_v5, main_c_0, main_v6, main_v7, main_v8, main_v9, main_v10, main_v11, main_call0_cst, main_call0_v0, main_v12, main_cst, main_v13, main_v14, main_v15, main_v16, main_v17, main_v18, main_v19, main_v20, main_v21, main_v22, main_v23, main_v24, main_v25, main_cst_1, main_v26, main_cst_2, main_v27, main_v28, main_c_3, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v29, main_v30, main_v31, main_v32, main_cst_4, main_v33, main_v34, main_v35, main_v36, main_v37, main_v38, main_v39, main_v40, main_v41, main_v42, main_v43, main_v44, main_v45, main_v46, main_v47, main_v48, main_call2_cst, main_call2_v0, main_v49, main_v50, main_v51, main_v52]
theorem opsL0a_sub : ∀ op ∈ (opsL0a : List (HloOp τ sig (Elt F))), op.bufs ⊆ tcRefs τ sig :=
  List.forall_iff_forall_mem.1 (show (opsL0a : List (HloOp τ sig (Elt F))).Forall _ from ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub ..⟩)
theorem opsL0a_fresh : ∀ op ∈ (opsL0a : List (HloOp τ sig (Elt F))), op.fresh = ∅ :=
  List.forall_iff_forall_mem.1 (show (opsL0a : List (HloOp τ sig (Elt F))).Forall _ from ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)
set_option maxRecDepth 4096 in
theorem opsL0a_writes : (opsL0a : List (HloOp τ sig (Elt F))).Forall fun op => op.writes ⊆ (opsL0a_W.map (Proc.devRef (τ := τ) .tc)).toFinset :=
  ⟨writes_in main_c rfl (by decide), writes_in main_v4 rfl (by decide), writes_in main_v5 rfl (by decide), writes_in main_c_0 rfl (by decide), writes_in main_v6 rfl (by decide), writes_in main_v7 rfl (by decide), writes_in main_v8 rfl (by decide), writes_in main_v9 rfl (by decide), writes_in main_v10 rfl (by decide), writes_in main_v11 rfl (by decide), writes_in main_call0_cst rfl (by decide), writes_in main_call0_v0 rfl (by decide), writes_in main_v12 rfl (by decide), writes_in main_cst rfl (by decide), writes_in main_v13 rfl (by decide), writes_in main_v14 rfl (by decide), writes_in main_v15 rfl (by decide), writes_in main_v16 rfl (by decide), writes_in main_v17 rfl (by decide), writes_in main_v18 rfl (by decide), writes_in main_v19 rfl (by decide), writes_in main_v20 rfl (by decide), writes_in main_v21 rfl (by decide), writes_in main_v22 rfl (by decide), writes_in main_v23 rfl (by decide), writes_in main_v24 rfl (by decide), writes_in main_v25 rfl (by decide), writes_in main_cst_1 rfl (by decide), writes_in main_v26 rfl (by decide), writes_in main_cst_2 rfl (by decide), writes_in main_v27 rfl (by decide), writes_in main_v28 rfl (by decide), writes_in main_c_3 rfl (by decide), writes_in main_call1_cst rfl (by decide), writes_in main_call1_v0 rfl (by decide), writes_in main_call1_v1 rfl (by decide), writes_in main_call1_cst_0 rfl (by decide), writes_in main_call1_v2 rfl (by decide), writes_in main_call1_v3 rfl (by decide), writes_in main_call1_v4 rfl (by decide), writes_in main_call1_v5 rfl (by decide), writes_in main_call1_v6 rfl (by decide), writes_in main_call1_v7 rfl (by decide), writes_in main_call1_cst_1 rfl (by decide), writes_in main_call1_v8 rfl (by decide), writes_in main_call1_cst_2 rfl (by decide), writes_in main_call1_v9 rfl (by decide), writes_in main_call1_v10 rfl (by decide), writes_in main_call1_v11 rfl (by decide), writes_in main_call1_cst_3 rfl (by decide), writes_in main_call1_v12 rfl (by decide), writes_in main_call1_cst_4 rfl (by decide), writes_in main_call1_call0_v0 rfl (by decide), writes_in main_call1_call0_v1 rfl (by decide), writes_in main_v29 rfl (by decide), writes_in main_v30 rfl (by decide), writes_in main_v31 rfl (by decide), writes_in main_v32 rfl (by decide), writes_in main_cst_4 rfl (by decide), writes_in main_v33 rfl (by decide), writes_in main_v34 rfl (by decide), writes_in main_v35 rfl (by decide), writes_in main_v36 rfl (by decide), writes_in main_v37 rfl (by decide), writes_in main_v38 rfl (by decide), writes_in main_v39 rfl (by decide), writes_in main_v40 rfl (by decide), writes_in main_v41 rfl (by decide), writes_in main_v42 rfl (by decide), writes_in main_v43 rfl (by decide), writes_in main_v44 rfl (by decide), writes_in main_v45 rfl (by decide), writes_in main_v46 rfl (by decide), writes_in main_v47 rfl (by decide), writes_in main_v48 rfl (by decide), writes_in main_call2_cst rfl (by decide), writes_in main_call2_v0 rfl (by decide), writes_in main_v49 rfl (by decide), writes_in main_v50 rfl (by decide), writes_in main_v51 rfl (by decide), writes_in main_v52 rfl (by decide)⟩
/-- A buffer `opsL0a` does not write keeps its contents through it. -/
theorem opsL0a_keep (W : Valuation τ sig (Elt F)) (r : Ref sig .tc) (h : r ∉ opsL0a_W) :
    after opsL0a W (Proc.devRef .tc r) = W (Proc.devRef .tc r) :=
  after_of_writes_sub opsL0a W opsL0a_writes h

/-- The buffers `opsL0b` writes, in order. -/
abbrev opsL0b_W : List (Ref sig .tc) := [main_v53, main_v54, main_v55, main_v56, main_v57, main_v58, main_call3_cst, main_call3_v0, main_v59]
theorem opsL0b_sub : ∀ op ∈ (opsL0b : List (HloOp τ sig (Elt F))), op.bufs ⊆ tcRefs τ sig :=
  List.forall_iff_forall_mem.1 (show (opsL0b : List (HloOp τ sig (Elt F))).Forall _ from ⟨binary_bufs_sub .., unary_bufs_sub .., reshape_bufs_sub .., unary_bufs_sub .., unary_bufs_sub .., binary_bufs_sub .., nullary_bufs_sub .., unary_bufs_sub .., binary_bufs_sub ..⟩)
theorem opsL0b_fresh : ∀ op ∈ (opsL0b : List (HloOp τ sig (Elt F))), op.fresh = ∅ :=
  List.forall_iff_forall_mem.1 (show (opsL0b : List (HloOp τ sig (Elt F))).Forall _ from ⟨rfl, rfl, rfl, rfl, rfl, rfl, rfl, rfl, rfl⟩)
set_option maxRecDepth 4096 in
theorem opsL0b_writes : (opsL0b : List (HloOp τ sig (Elt F))).Forall fun op => op.writes ⊆ (opsL0b_W.map (Proc.devRef (τ := τ) .tc)).toFinset :=
  ⟨writes_in main_v53 rfl (by decide), writes_in main_v54 rfl (by decide), writes_in main_v55 rfl (by decide), writes_in main_v56 rfl (by decide), writes_in main_v57 rfl (by decide), writes_in main_v58 rfl (by decide), writes_in main_call3_cst rfl (by decide), writes_in main_call3_v0 rfl (by decide), writes_in main_v59 rfl (by decide)⟩
/-- A buffer `opsL0b` does not write keeps its contents through it. -/
theorem opsL0b_keep (W : Valuation τ sig (Elt F)) (r : Ref sig .tc) (h : r ∉ opsL0b_W) :
    after opsL0b W (Proc.devRef .tc r) = W (Proc.devRef .tc r) :=
  after_of_writes_sub opsL0b W opsL0b_writes h

/-- The buffers `opsR0` writes, in order. -/
abbrev opsR0_W : List (Ref sig .tc) := [main_cst_5, main_v60, main_v61, main_v62]
theorem opsR0_sub : ∀ op ∈ (opsR0 : List (HloOp τ sig (Elt F))), op.bufs ⊆ tcRefs τ sig :=
  List.forall_iff_forall_mem.1 (show (opsR0 : List (HloOp τ sig (Elt F))).Forall _ from ⟨nullary_bufs_sub .., unary_bufs_sub .., unary_bufs_sub .., ternary_bufs_sub ..⟩)
theorem opsR0_fresh : ∀ op ∈ (opsR0 : List (HloOp τ sig (Elt F))), op.fresh = ∅ :=
  List.forall_iff_forall_mem.1 (show (opsR0 : List (HloOp τ sig (Elt F))).Forall _ from ⟨rfl, rfl, rfl, rfl⟩)
set_option maxRecDepth 4096 in
theorem opsR0_writes : (opsR0 : List (HloOp τ sig (Elt F))).Forall fun op => op.writes ⊆ (opsR0_W.map (Proc.devRef (τ := τ) .tc)).toFinset :=
  ⟨writes_in main_cst_5 rfl (by decide), writes_in main_v60 rfl (by decide), writes_in main_v61 rfl (by decide), writes_in main_v62 rfl (by decide)⟩
/-- A buffer `opsR0` does not write keeps its contents through it. -/
theorem opsR0_keep (W : Valuation τ sig (Elt F)) (r : Ref sig .tc) (h : r ∉ opsR0_W) :
    after opsR0 W (Proc.devRef .tc r) = W (Proc.devRef .tc r) :=
  after_of_writes_sub opsR0 W opsR0_writes h

/-- The buffers `opsL1a` writes, in order. -/
abbrev opsL1a_W : List (Ref sig .tc) := [main_c_6, main_v63, main_v64, main_c_7, main_v65, main_v66, main_v67, main_v68, main_v69, main_v70, main_call4_cst, main_call4_v0, main_v71, main_cst_8, main_v72, main_v73, main_v74, main_v75, main_v76, main_v77, main_v78, main_v79, main_v80, main_v81, main_v82, main_v83, main_v84, main_cst_9, main_v85, main_cst_10, main_v86, main_v87, main_c_11, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v88, main_v89, main_v90, main_v91, main_cst_12, main_v92, main_v93, main_v94, main_v95, main_v96, main_v97, main_v98, main_v99, main_v100, main_v101, main_v102, main_v103, main_v104]
theorem opsL1a_sub : ∀ op ∈ (opsL1a : List (HloOp τ sig (Elt F))), op.bufs ⊆ tcRefs τ sig :=
  List.forall_iff_forall_mem.1 (show (opsL1a : List (HloOp τ sig (Elt F))).Forall _ from ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub ..⟩)
theorem opsL1a_fresh : ∀ op ∈ (opsL1a : List (HloOp τ sig (Elt F))), op.fresh = ∅ :=
  List.forall_iff_forall_mem.1 (show (opsL1a : List (HloOp τ sig (Elt F))).Forall _ from ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)
set_option maxRecDepth 4096 in
theorem opsL1a_writes : (opsL1a : List (HloOp τ sig (Elt F))).Forall fun op => op.writes ⊆ (opsL1a_W.map (Proc.devRef (τ := τ) .tc)).toFinset :=
  ⟨writes_in main_c_6 rfl (by decide), writes_in main_v63 rfl (by decide), writes_in main_v64 rfl (by decide), writes_in main_c_7 rfl (by decide), writes_in main_v65 rfl (by decide), writes_in main_v66 rfl (by decide), writes_in main_v67 rfl (by decide), writes_in main_v68 rfl (by decide), writes_in main_v69 rfl (by decide), writes_in main_v70 rfl (by decide), writes_in main_call4_cst rfl (by decide), writes_in main_call4_v0 rfl (by decide), writes_in main_v71 rfl (by decide), writes_in main_cst_8 rfl (by decide), writes_in main_v72 rfl (by decide), writes_in main_v73 rfl (by decide), writes_in main_v74 rfl (by decide), writes_in main_v75 rfl (by decide), writes_in main_v76 rfl (by decide), writes_in main_v77 rfl (by decide), writes_in main_v78 rfl (by decide), writes_in main_v79 rfl (by decide), writes_in main_v80 rfl (by decide), writes_in main_v81 rfl (by decide), writes_in main_v82 rfl (by decide), writes_in main_v83 rfl (by decide), writes_in main_v84 rfl (by decide), writes_in main_cst_9 rfl (by decide), writes_in main_v85 rfl (by decide), writes_in main_cst_10 rfl (by decide), writes_in main_v86 rfl (by decide), writes_in main_v87 rfl (by decide), writes_in main_c_11 rfl (by decide), writes_in main_call5_cst rfl (by decide), writes_in main_call5_v0 rfl (by decide), writes_in main_call5_v1 rfl (by decide), writes_in main_call5_cst_0 rfl (by decide), writes_in main_call5_v2 rfl (by decide), writes_in main_call5_v3 rfl (by decide), writes_in main_call5_v4 rfl (by decide), writes_in main_call5_v5 rfl (by decide), writes_in main_call5_v6 rfl (by decide), writes_in main_call5_v7 rfl (by decide), writes_in main_call5_cst_1 rfl (by decide), writes_in main_call5_v8 rfl (by decide), writes_in main_call5_cst_2 rfl (by decide), writes_in main_call5_v9 rfl (by decide), writes_in main_call5_v10 rfl (by decide), writes_in main_call5_v11 rfl (by decide), writes_in main_call5_cst_3 rfl (by decide), writes_in main_call5_v12 rfl (by decide), writes_in main_call5_cst_4 rfl (by decide), writes_in main_call5_call0_v0 rfl (by decide), writes_in main_call5_call0_v1 rfl (by decide), writes_in main_v88 rfl (by decide), writes_in main_v89 rfl (by decide), writes_in main_v90 rfl (by decide), writes_in main_v91 rfl (by decide), writes_in main_cst_12 rfl (by decide), writes_in main_v92 rfl (by decide), writes_in main_v93 rfl (by decide), writes_in main_v94 rfl (by decide), writes_in main_v95 rfl (by decide), writes_in main_v96 rfl (by decide), writes_in main_v97 rfl (by decide), writes_in main_v98 rfl (by decide), writes_in main_v99 rfl (by decide), writes_in main_v100 rfl (by decide), writes_in main_v101 rfl (by decide), writes_in main_v102 rfl (by decide), writes_in main_v103 rfl (by decide), writes_in main_v104 rfl (by decide)⟩
/-- A buffer `opsL1a` does not write keeps its contents through it. -/
theorem opsL1a_keep (W : Valuation τ sig (Elt F)) (r : Ref sig .tc) (h : r ∉ opsL1a_W) :
    after opsL1a W (Proc.devRef .tc r) = W (Proc.devRef .tc r) :=
  after_of_writes_sub opsL1a W opsL1a_writes h

/-- The buffers `opsL1b` writes, in order. -/
abbrev opsL1b_W : List (Ref sig .tc) := [main_v105, main_v106, main_v107, main_call6_cst, main_call6_v0, main_v108, main_v109, main_v110, main_v111, main_v112, main_v113, main_v114, main_v115, main_v116, main_v117, main_call7_cst, main_call7_v0, main_v118]
theorem opsL1b_sub : ∀ op ∈ (opsL1b : List (HloOp τ sig (Elt F))), op.bufs ⊆ tcRefs τ sig :=
  List.forall_iff_forall_mem.1 (show (opsL1b : List (HloOp τ sig (Elt F))).Forall _ from ⟨unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub ..⟩)
theorem opsL1b_fresh : ∀ op ∈ (opsL1b : List (HloOp τ sig (Elt F))), op.fresh = ∅ :=
  List.forall_iff_forall_mem.1 (show (opsL1b : List (HloOp τ sig (Elt F))).Forall _ from ⟨rfl, rfl, rfl, rfl, rfl, rfl, rfl, rfl, rfl, rfl, rfl, rfl, rfl, rfl, rfl, rfl, rfl, rfl⟩)
set_option maxRecDepth 4096 in
theorem opsL1b_writes : (opsL1b : List (HloOp τ sig (Elt F))).Forall fun op => op.writes ⊆ (opsL1b_W.map (Proc.devRef (τ := τ) .tc)).toFinset :=
  ⟨writes_in main_v105 rfl (by decide), writes_in main_v106 rfl (by decide), writes_in main_v107 rfl (by decide), writes_in main_call6_cst rfl (by decide), writes_in main_call6_v0 rfl (by decide), writes_in main_v108 rfl (by decide), writes_in main_v109 rfl (by decide), writes_in main_v110 rfl (by decide), writes_in main_v111 rfl (by decide), writes_in main_v112 rfl (by decide), writes_in main_v113 rfl (by decide), writes_in main_v114 rfl (by decide), writes_in main_v115 rfl (by decide), writes_in main_v116 rfl (by decide), writes_in main_v117 rfl (by decide), writes_in main_call7_cst rfl (by decide), writes_in main_call7_v0 rfl (by decide), writes_in main_v118 rfl (by decide)⟩
/-- A buffer `opsL1b` does not write keeps its contents through it. -/
theorem opsL1b_keep (W : Valuation τ sig (Elt F)) (r : Ref sig .tc) (h : r ∉ opsL1b_W) :
    after opsL1b W (Proc.devRef .tc r) = W (Proc.devRef .tc r) :=
  after_of_writes_sub opsL1b W opsL1b_writes h

/-- The buffers `opsR1` writes, in order. -/
abbrev opsR1_W : List (Ref sig .tc) := [main_cst_13, main_v119, main_v120, main_v121]
theorem opsR1_sub : ∀ op ∈ (opsR1 : List (HloOp τ sig (Elt F))), op.bufs ⊆ tcRefs τ sig :=
  List.forall_iff_forall_mem.1 (show (opsR1 : List (HloOp τ sig (Elt F))).Forall _ from ⟨nullary_bufs_sub .., unary_bufs_sub .., unary_bufs_sub .., ternary_bufs_sub ..⟩)
theorem opsR1_fresh : ∀ op ∈ (opsR1 : List (HloOp τ sig (Elt F))), op.fresh = ∅ :=
  List.forall_iff_forall_mem.1 (show (opsR1 : List (HloOp τ sig (Elt F))).Forall _ from ⟨rfl, rfl, rfl, rfl⟩)
set_option maxRecDepth 4096 in
theorem opsR1_writes : (opsR1 : List (HloOp τ sig (Elt F))).Forall fun op => op.writes ⊆ (opsR1_W.map (Proc.devRef (τ := τ) .tc)).toFinset :=
  ⟨writes_in main_cst_13 rfl (by decide), writes_in main_v119 rfl (by decide), writes_in main_v120 rfl (by decide), writes_in main_v121 rfl (by decide)⟩
/-- A buffer `opsR1` does not write keeps its contents through it. -/
theorem opsR1_keep (W : Valuation τ sig (Elt F)) (r : Ref sig .tc) (h : r ∉ opsR1_W) :
    after opsR1 W (Proc.devRef .tc r) = W (Proc.devRef .tc r) :=
  after_of_writes_sub opsR1 W opsR1_writes h

/-- The buffers `opsL2a` writes, in order. -/
abbrev opsL2a_W : List (Ref sig .tc) := [main_c_14, main_v122, main_v123, main_c_15, main_v124, main_v125, main_v126, main_v127, main_v128, main_v129, main_call8_cst, main_call8_v0, main_v130, main_cst_16, main_v131, main_v132, main_v133, main_v134, main_v135, main_v136, main_v137, main_v138, main_v139, main_v140, main_v141, main_v142, main_v143, main_cst_17, main_v144, main_cst_18, main_v145, main_v146, main_c_19, main_call9_cst, main_call9_v0, main_call9_v1, main_call9_cst_0, main_call9_v2, main_call9_v3, main_call9_v4, main_call9_v5, main_call9_v6, main_call9_v7, main_call9_cst_1, main_call9_v8, main_call9_cst_2, main_call9_v9, main_call9_v10, main_call9_v11, main_call9_cst_3, main_call9_v12, main_call9_cst_4, main_call9_call0_v0, main_call9_call0_v1, main_v147, main_v148, main_v149, main_v150, main_cst_20, main_v151, main_v152, main_v153, main_v154, main_v155, main_v156]
theorem opsL2a_sub : ∀ op ∈ (opsL2a : List (HloOp τ sig (Elt F))), op.bufs ⊆ tcRefs τ sig :=
  List.forall_iff_forall_mem.1 (show (opsL2a : List (HloOp τ sig (Elt F))).Forall _ from ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub ..⟩)
theorem opsL2a_fresh : ∀ op ∈ (opsL2a : List (HloOp τ sig (Elt F))), op.fresh = ∅ :=
  List.forall_iff_forall_mem.1 (show (opsL2a : List (HloOp τ sig (Elt F))).Forall _ from ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)
set_option maxRecDepth 4096 in
theorem opsL2a_writes : (opsL2a : List (HloOp τ sig (Elt F))).Forall fun op => op.writes ⊆ (opsL2a_W.map (Proc.devRef (τ := τ) .tc)).toFinset :=
  ⟨writes_in main_c_14 rfl (by decide), writes_in main_v122 rfl (by decide), writes_in main_v123 rfl (by decide), writes_in main_c_15 rfl (by decide), writes_in main_v124 rfl (by decide), writes_in main_v125 rfl (by decide), writes_in main_v126 rfl (by decide), writes_in main_v127 rfl (by decide), writes_in main_v128 rfl (by decide), writes_in main_v129 rfl (by decide), writes_in main_call8_cst rfl (by decide), writes_in main_call8_v0 rfl (by decide), writes_in main_v130 rfl (by decide), writes_in main_cst_16 rfl (by decide), writes_in main_v131 rfl (by decide), writes_in main_v132 rfl (by decide), writes_in main_v133 rfl (by decide), writes_in main_v134 rfl (by decide), writes_in main_v135 rfl (by decide), writes_in main_v136 rfl (by decide), writes_in main_v137 rfl (by decide), writes_in main_v138 rfl (by decide), writes_in main_v139 rfl (by decide), writes_in main_v140 rfl (by decide), writes_in main_v141 rfl (by decide), writes_in main_v142 rfl (by decide), writes_in main_v143 rfl (by decide), writes_in main_cst_17 rfl (by decide), writes_in main_v144 rfl (by decide), writes_in main_cst_18 rfl (by decide), writes_in main_v145 rfl (by decide), writes_in main_v146 rfl (by decide), writes_in main_c_19 rfl (by decide), writes_in main_call9_cst rfl (by decide), writes_in main_call9_v0 rfl (by decide), writes_in main_call9_v1 rfl (by decide), writes_in main_call9_cst_0 rfl (by decide), writes_in main_call9_v2 rfl (by decide), writes_in main_call9_v3 rfl (by decide), writes_in main_call9_v4 rfl (by decide), writes_in main_call9_v5 rfl (by decide), writes_in main_call9_v6 rfl (by decide), writes_in main_call9_v7 rfl (by decide), writes_in main_call9_cst_1 rfl (by decide), writes_in main_call9_v8 rfl (by decide), writes_in main_call9_cst_2 rfl (by decide), writes_in main_call9_v9 rfl (by decide), writes_in main_call9_v10 rfl (by decide), writes_in main_call9_v11 rfl (by decide), writes_in main_call9_cst_3 rfl (by decide), writes_in main_call9_v12 rfl (by decide), writes_in main_call9_cst_4 rfl (by decide), writes_in main_call9_call0_v0 rfl (by decide), writes_in main_call9_call0_v1 rfl (by decide), writes_in main_v147 rfl (by decide), writes_in main_v148 rfl (by decide), writes_in main_v149 rfl (by decide), writes_in main_v150 rfl (by decide), writes_in main_cst_20 rfl (by decide), writes_in main_v151 rfl (by decide), writes_in main_v152 rfl (by decide), writes_in main_v153 rfl (by decide), writes_in main_v154 rfl (by decide), writes_in main_v155 rfl (by decide), writes_in main_v156 rfl (by decide)⟩
/-- A buffer `opsL2a` does not write keeps its contents through it. -/
theorem opsL2a_keep (W : Valuation τ sig (Elt F)) (r : Ref sig .tc) (h : r ∉ opsL2a_W) :
    after opsL2a W (Proc.devRef .tc r) = W (Proc.devRef .tc r) :=
  after_of_writes_sub opsL2a W opsL2a_writes h

/-- The buffers `opsL2b` writes, in order. -/
abbrev opsL2b_W : List (Ref sig .tc) := [main_v157, main_v158, main_v159, main_v160, main_v161, main_v162, main_v163, main_v164, main_v165, main_v166, main_call10_cst, main_call10_v0, main_v167, main_v168, main_v169, main_v170, main_v171, main_v172, main_v173, main_v174, main_v175, main_v176, main_call11_cst, main_call11_v0, main_v177]
theorem opsL2b_sub : ∀ op ∈ (opsL2b : List (HloOp τ sig (Elt F))), op.bufs ⊆ tcRefs τ sig :=
  List.forall_iff_forall_mem.1 (show (opsL2b : List (HloOp τ sig (Elt F))).Forall _ from ⟨unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub ..⟩)
theorem opsL2b_fresh : ∀ op ∈ (opsL2b : List (HloOp τ sig (Elt F))), op.fresh = ∅ :=
  List.forall_iff_forall_mem.1 (show (opsL2b : List (HloOp τ sig (Elt F))).Forall _ from ⟨rfl, rfl, rfl, rfl, rfl, rfl, rfl, rfl, rfl, rfl, rfl, rfl, rfl, rfl, rfl, rfl, rfl, rfl, rfl, rfl, rfl, rfl, rfl, rfl, rfl⟩)
set_option maxRecDepth 4096 in
theorem opsL2b_writes : (opsL2b : List (HloOp τ sig (Elt F))).Forall fun op => op.writes ⊆ (opsL2b_W.map (Proc.devRef (τ := τ) .tc)).toFinset :=
  ⟨writes_in main_v157 rfl (by decide), writes_in main_v158 rfl (by decide), writes_in main_v159 rfl (by decide), writes_in main_v160 rfl (by decide), writes_in main_v161 rfl (by decide), writes_in main_v162 rfl (by decide), writes_in main_v163 rfl (by decide), writes_in main_v164 rfl (by decide), writes_in main_v165 rfl (by decide), writes_in main_v166 rfl (by decide), writes_in main_call10_cst rfl (by decide), writes_in main_call10_v0 rfl (by decide), writes_in main_v167 rfl (by decide), writes_in main_v168 rfl (by decide), writes_in main_v169 rfl (by decide), writes_in main_v170 rfl (by decide), writes_in main_v171 rfl (by decide), writes_in main_v172 rfl (by decide), writes_in main_v173 rfl (by decide), writes_in main_v174 rfl (by decide), writes_in main_v175 rfl (by decide), writes_in main_v176 rfl (by decide), writes_in main_call11_cst rfl (by decide), writes_in main_call11_v0 rfl (by decide), writes_in main_v177 rfl (by decide)⟩
/-- A buffer `opsL2b` does not write keeps its contents through it. -/
theorem opsL2b_keep (W : Valuation τ sig (Elt F)) (r : Ref sig .tc) (h : r ∉ opsL2b_W) :
    after opsL2b W (Proc.devRef .tc r) = W (Proc.devRef .tc r) :=
  after_of_writes_sub opsL2b W opsL2b_writes h

/-- The buffers `opsR2` writes, in order. -/
abbrev opsR2_W : List (Ref sig .tc) := [main_cst_21, main_v178, main_v179, main_v180]
theorem opsR2_sub : ∀ op ∈ (opsR2 : List (HloOp τ sig (Elt F))), op.bufs ⊆ tcRefs τ sig :=
  List.forall_iff_forall_mem.1 (show (opsR2 : List (HloOp τ sig (Elt F))).Forall _ from ⟨nullary_bufs_sub .., unary_bufs_sub .., unary_bufs_sub .., ternary_bufs_sub ..⟩)
theorem opsR2_fresh : ∀ op ∈ (opsR2 : List (HloOp τ sig (Elt F))), op.fresh = ∅ :=
  List.forall_iff_forall_mem.1 (show (opsR2 : List (HloOp τ sig (Elt F))).Forall _ from ⟨rfl, rfl, rfl, rfl⟩)
set_option maxRecDepth 4096 in
theorem opsR2_writes : (opsR2 : List (HloOp τ sig (Elt F))).Forall fun op => op.writes ⊆ (opsR2_W.map (Proc.devRef (τ := τ) .tc)).toFinset :=
  ⟨writes_in main_cst_21 rfl (by decide), writes_in main_v178 rfl (by decide), writes_in main_v179 rfl (by decide), writes_in main_v180 rfl (by decide)⟩
/-- A buffer `opsR2` does not write keeps its contents through it. -/
theorem opsR2_keep (W : Valuation τ sig (Elt F)) (r : Ref sig .tc) (h : r ∉ opsR2_W) :
    after opsR2 W (Proc.devRef .tc r) = W (Proc.devRef .tc r) :=
  after_of_writes_sub opsR2 W opsR2_writes h

/-- The buffers `opsCat` writes, in order. -/
abbrev opsCat_W : List (Ref sig .tc) := [main_v181]
theorem opsCat_sub : ∀ op ∈ (opsCat : List (HloOp τ sig (Elt F))), op.bufs ⊆ tcRefs τ sig :=
  List.forall_iff_forall_mem.1 (show (opsCat : List (HloOp τ sig (Elt F))).Forall _ from nary_bufs_sub ..)
theorem opsCat_fresh : ∀ op ∈ (opsCat : List (HloOp τ sig (Elt F))), op.fresh = ∅ :=
  List.forall_iff_forall_mem.1 (show (opsCat : List (HloOp τ sig (Elt F))).Forall _ from rfl)
set_option maxRecDepth 4096 in
theorem opsCat_writes : (opsCat : List (HloOp τ sig (Elt F))).Forall fun op => op.writes ⊆ (opsCat_W.map (Proc.devRef (τ := τ) .tc)).toFinset :=
  writes_in main_v181 rfl (by decide)
/-- A buffer `opsCat` does not write keeps its contents through it. -/
theorem opsCat_keep (W : Valuation τ sig (Elt F)) (r : Ref sig .tc) (h : r ∉ opsCat_W) :
    after opsCat W (Proc.devRef .tc r) = W (Proc.devRef .tc r) :=
  after_of_writes_sub opsCat W opsCat_writes h

end Cert.ReferenceIdeal.Hand

end
-- ==== Proof.Ref.Terms.lean ====
/- What the reference computes, as functions of arrays: one function for a layer of the network (the messages along the
   edges, their sum at the targets, the first linear map, the batch normalization with the batch's own statistics, the
   second linear map, each activation a maximum with zero), one for a readout (the node features summed per graph),
   the network's two results as their compositions. Every operation is the reference's own, in its order. -/
import proofs.«157524_j37503654429443_1_alg».proof.Proof.Gen.ReferenceIdeal

noncomputable section

namespace Cert.ReferenceIdeal.Hand

open Cert.ReferenceIdeal Cert.ReferenceIdeal.Gen Idealize.ShloMosaic

variable {F : FTy → Type} [FloatOps F]

/-! ## The edge table -/

/-- Row `r` of the 2 × E edge table as a flat array of E node indices. -/
def srcOf (ei : IVec S2x160000 32) : IVec S160000 32 :=
  shapeCast S160000 (extractStridedSlice S1x160000 ![0, 0] ei slices_S2x160000_S1x160000_0_0) shapeCasts_S1x160000_S160000
@[inherit_doc srcOf]
def dstOf (ei : IVec S2x160000 32) : IVec S160000 32 :=
  shapeCast S160000 (extractStridedSlice S1x160000 ![1, 0] ei slices_S2x160000_S1x160000_1_0) shapeCasts_S1x160000_S160000

/-- A node index read from the end when negative (`i < 0 ↦ i + N`), as a column of start indices. -/
def wrapIdx (src : IVec S160000 32) : IVec S160000x1 32 :=
  broadcastInDim S160000x1 ![0] bcast_S160000_S160000x1_0
    (select (cmpi .slt src (broadcastInDim S160000 ![] bcast_S_S160000 (constantI S_ 32 0#32)))
      (addi src (broadcastInDim S160000 ![] bcast_S_S160000 (constantI S_ 32 20000#32))) src)

/-! ## One layer -/

/-- The message of every edge: the source node's features plus the edge's, clipped below at zero. -/
def msg (z : FVec F S20000x512 .f32) (src : IVec S160000 32) (ew : FVec F S160000x512 .f32) : FVec F S160000x512 .f32 :=
  maximumf (addf (Host.gather gather_S20000x512_S160000x1_S160000x512_1_0_n_n_0_1_1512 z (wrapIdx src)) ew)
    (broadcastInDim S160000x512 ![] bcast_S_S160000x512 (constant S_ .f32 0x00000000#32))

/-- The messages summed at their target nodes. -/
def aggr (z : FVec F S20000x512 .f32) (src dst : IVec S160000 32) (ew : FVec F S160000x512 .f32) : FVec F S20000x512 .f32 :=
  Host.scatterAdd scatter_S20000x512_S160000x1_S160000x512_1_0_0_1
    (broadcastInDim S20000x512 ![] bcast_S_S20000x512 (constant S_ .f32 0x00000000#32))
    (broadcastInDim S160000x1 ![0] bcast_S160000_S160000x1_0 dst) (msg z src ew)

/-- A layer's weight matrix out of its slice of the stacked weights, transposed. -/
def wT (wl : FVec F S1x512x512 .f32) : FVec F S512x512 .f32 :=
  transpose S512x512 [1, 0] (shapeCast S512x512 wl shapeCasts_S1x512x512_S512x512) transposes_S512x512_S512x512_1_0

/-- A layer's row vector out of its slice of the stacked rows, repeated down the nodes. -/
def rowB (bl : FVec F S1x512 .f32) : FVec F S20000x512 .f32 :=
  broadcastInDim S20000x512 ![0, 1] bcast_S1x512_S20000x512_0_1
    (broadcastInDim S1x512 ![1] bcast_S512_S1x512_1 (shapeCast S512 bl shapeCasts_S1x512_S512))

/-- A vector over the features repeated down the nodes. -/
def colB (v : FVec F S512 .f32) : FVec F S20000x512 .f32 :=
  broadcastInDim S20000x512 ![0, 1] bcast_S1x512_S20000x512_0_1 (broadcastInDim S1x512 ![1] bcast_S512_S1x512_1 v)

/-- A linear map: `x · wᵀ + b`. -/
def lin (x : FVec F S20000x512 .f32) (wl : FVec F S1x512x512 .f32) (bl : FVec F S1x512 .f32) : FVec F S20000x512 .f32 :=
  addf (Host.dotGeneral dot_S20000x512_S512x512_S20000x512_1_0_0_1_n_n none x (wT wl)) (rowB bl)

/-- The maximum with zero, element by element. -/
def relu (x : FVec F S20000x512 .f32) : FVec F S20000x512 .f32 :=
  maximumf x (broadcastInDim S20000x512 ![] bcast_S_S20000x512 (constant S_ .f32 0x00000000#32))

/-- The mean of every feature over the nodes: the column sums divided by N. -/
def mean (h : FVec F S20000x512 .f32) : FVec F S512 .f32 :=
  Host.divf (Host.reduceAdd h (constant S_ .f32 0x00000000#32) reducesTo_S20000x512_S512_d0 h_S_)
    (broadcastInDim S512 ![] bcast_S_S512 (constant S_ .f32 0x469C4000#32))

/-- The centred features of the variance: `h` minus its column means (the column sums divided by N, as a row). -/
def centred (h : FVec F S20000x512 .f32) : FVec F S20000x512 .f32 :=
  subf h (broadcastInDim S20000x512 ![0, 1] bcast_S1x512_S20000x512_0_1
    (Host.divf
      (broadcastInDim S1x512 ![1] bcast_S512_S1x512_1
        (Host.reduceAdd h (constant S_ .f32 0x00000000#32) reducesTo_S20000x512_S512_d0 h_S_))
      (broadcastInDim S1x512 ![] bcast_S_S1x512 (constant S_ .f32 0x469C4000#32))))

/-- The divisor of the variance: N minus the (zero) correction, as a float scalar. -/
def varDen : FVec F S_ .f32 :=
  subf (constant S_ .f32 0x469C4000#32) (sitofp .f32 (constantI S_ 32 0#32))

/-- The variance of every feature over the nodes: the column sums of the squared centred features divided by
    `varDen` where that is positive (a quiet NaN where it is not). -/
def var (h : FVec F S20000x512 .f32) : FVec F S512 .f32 :=
  select (broadcastInDim S512 ![] bcast_S_S512 (cmpf .ogt (varDen (F := F)) (constant S_ .f32 0x00000000#32)))
    (Host.divf
      (Host.reduceAdd (mulf (centred h) (centred h)) (constant S_ .f32 0x00000000#32) reducesTo_S20000x512_S512_d0 h_S_)
      (broadcastInDim S512 ![] bcast_S_S512 (varDen (F := F))))
    (broadcastInDim S512 ![] bcast_S_S512 (id (constant S_ .f32 0x7FC00000#32)))

/-- Batch normalization with the batch's own statistics:
    `(h − mean) · rsqrt(var + ε) · γ + β`. -/
def bn (h : FVec F S20000x512 .f32) (gl bl : FVec F S1x512 .f32) : FVec F S20000x512 .f32 :=
  addf
    (mulf
      (mulf (subf h (colB (mean h)))
        (colB (Host.rsqrt (addf (var h) (broadcastInDim S512 ![] bcast_S_S512 (constant S_ .f32 0x3727C5AC#32))))))
      (rowB gl))
    (rowB bl)

/-- One layer: `relu (lin₂ (relu (bn (lin₁ (z + aggr z)))))`, over the layer's slices of the stacked parameters. -/
def layer (z : FVec F S20000x512 .f32) (src dst : IVec S160000 32) (ew : FVec F S160000x512 .f32)
    (w1l : FVec F S1x512x512 .f32) (b1l gl bl : FVec F S1x512 .f32) (w2l : FVec F S1x512x512 .f32) (b2l : FVec F S1x512 .f32) :
    FVec F S20000x512 .f32 :=
  relu (lin (relu (bn (lin (addf z (aggr z src dst ew)) w1l b1l) gl bl)) w2l b2l)

/-! ## The readout -/

/-- The node features summed per graph: node `n` into row `batch n`. -/
def readout (z : FVec F S20000x512 .f32) (batch : IVec S20000 32) : FVec F S128x512 .f32 :=
  Host.scatterAdd scatter_S128x512_S20000x1_S20000x512_1_0_0_1
    (broadcastInDim S128x512 ![] bcast_S_S128x512 (constant S_ .f32 0x00000000#32))
    (broadcastInDim S20000x1 ![0] bcast_S20000_S20000x1_0 batch) z

/-- Three readouts side by side. -/
def cat3 (g0 g1 g2 : FVec F S128x512 .f32) : FVec F S128x1536 .f32 :=
  concatenate S128x1536 1 [⟨S128x512, g0⟩, ⟨S128x512, g1⟩, ⟨S128x512, g2⟩] concatenates_S128x512_S128x512_S128x512_S128x1536_d1

/-! ## The stacked parameters' slices -/

/-- Layer `l`'s slice of a stack of three matrices. -/
def mat0 (w : FVec F S3x512x512 .f32) : FVec F S1x512x512 .f32 := extractStridedSlice S1x512x512 ![0, 0, 0] w slices_S3x512x512_S1x512x512_0_0_0
@[inherit_doc mat0]
def mat1 (w : FVec F S3x512x512 .f32) : FVec F S1x512x512 .f32 := extractStridedSlice S1x512x512 ![1, 0, 0] w slices_S3x512x512_S1x512x512_1_0_0
@[inherit_doc mat0]
def mat2 (w : FVec F S3x512x512 .f32) : FVec F S1x512x512 .f32 := extractStridedSlice S1x512x512 ![2, 0, 0] w slices_S3x512x512_S1x512x512_2_0_0
/-- Layer `l`'s slice of a stack of three rows. -/
def row0 (b : FVec F S3x512 .f32) : FVec F S1x512 .f32 := extractStridedSlice S1x512 ![0, 0] b slices_S3x512_S1x512_0_0
@[inherit_doc row0]
def row1 (b : FVec F S3x512 .f32) : FVec F S1x512 .f32 := extractStridedSlice S1x512 ![1, 0] b slices_S3x512_S1x512_1_0
@[inherit_doc row0]
def row2 (b : FVec F S3x512 .f32) : FVec F S1x512 .f32 := extractStridedSlice S1x512 ![2, 0] b slices_S3x512_S1x512_2_0

/-! ## The network -/

section Net

variable (x : FVec F S20000x512 .f32) (ei : IVec S2x160000 32) (ew : FVec F S160000x512 .f32) (batch : IVec S20000 32)
  (w1 : FVec F S3x512x512 .f32) (b1 gamma beta : FVec F S3x512 .f32) (w2 : FVec F S3x512x512 .f32) (b2 : FVec F S3x512 .f32)

/-- The node features after the first layer. -/
def z1 : FVec F S20000x512 .f32 :=
  layer x (srcOf ei) (dstOf ei) ew (mat0 w1) (row0 b1) (row0 gamma) (row0 beta) (mat0 w2) (row0 b2)
/-- The node features after the second layer. -/
def z2 : FVec F S20000x512 .f32 :=
  layer (z1 x ei ew w1 b1 gamma beta w2 b2) (srcOf ei) (dstOf ei) ew (mat1 w1) (row1 b1) (row1 gamma) (row1 beta) (mat1 w2) (row1 b2)
/-- The node features after the third layer: the first result. -/
def resZ : FVec F S20000x512 .f32 :=
  layer (z2 x ei ew w1 b1 gamma beta w2 b2) (srcOf ei) (dstOf ei) ew (mat2 w1) (row2 b1) (row2 gamma) (row2 beta) (mat2 w2) (row2 b2)
/-- The three layers' readouts side by side: the second result. -/
def resG : FVec F S128x1536 .f32 :=
  cat3 (readout (z1 x ei ew w1 b1 gamma beta w2 b2) batch) (readout (z2 x ei ew w1 b1 gamma beta w2 b2) batch)
    (readout (resZ x ei ew w1 b1 gamma beta w2 b2) batch)

end Net

end Cert.ReferenceIdeal.Hand

end
-- ==== Proof.Ref.Val0.lean ====
/- The first layer's operations, and the edge table's, read back: from ANY contents of the buffers, what each result buffer holds after them. -/
import proofs.«157524_j37503654429443_1_alg».proof.Proof.Ref.Lists
import proofs.«157524_j37503654429443_1_alg».proof.Proof.Ref.Terms

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The edge table's operations leave the sources' buffer at row 0 of the table, flattened. -/
theorem pre_src (W : Valuation τ sig (Elt F)) : after opsPre W (Proc.devRef .tc main_v1) = srcOf (W (Proc.devRef .tc main_arg1)) := by
  simp only [opsPre]
  after_results_simp
  rfl
/-- … and the targets' buffer at row 1. -/
theorem pre_dst (W : Valuation τ sig (Elt F)) : after opsPre W (Proc.devRef .tc main_v3) = dstOf (W (Proc.devRef .tc main_arg1)) := by
  simp only [opsPre]
  after_results_simp
  rfl

attribute [local irreducible] Host.gather Host.scatterAdd Host.reduceAdd in
set_option maxRecDepth 16384 in
set_option maxHeartbeats 8000000 in
/-- Layer 1's operations leave its result buffer at `layer` of what they find in the input buffers: each operation's
    result read off at its own buffer, every other buffer as it was. -/
theorem layer0_val (W : Valuation τ sig (Elt F)) :
    after opsL0b (after opsL0a W) (Proc.devRef .tc main_v59)
      = layer (W (Proc.devRef .tc main_arg0)) (W (Proc.devRef .tc main_v1)) (W (Proc.devRef .tc main_v3)) (W (Proc.devRef .tc main_arg2))
          (mat0 (W (Proc.devRef .tc main_arg4))) (row0 (W (Proc.devRef .tc main_arg5))) (row0 (W (Proc.devRef .tc main_arg6)))
          (row0 (W (Proc.devRef .tc main_arg7))) (mat0 (W (Proc.devRef .tc main_arg8))) (row0 (W (Proc.devRef .tc main_arg9))) := by
  simp only [opsL0a, opsL0b]
  after_results_simp
  rfl

attribute [local irreducible] Host.scatterAdd in
/-- Readout 1's operations leave its result buffer at `readout` of the layer's result and the batch vector. -/
theorem readout0_val (W : Valuation τ sig (Elt F)) :
    after opsR0 W (Proc.devRef .tc main_v62) = readout (W (Proc.devRef .tc main_v59)) (W (Proc.devRef .tc main_arg3)) := by
  simp only [opsR0]
  after_results_simp
  rfl

end Cert.ReferenceIdeal.Hand

end
-- ==== Proof.Ref.Val1.lean ====
/- The second layer's operations read back: from ANY contents of the buffers, what each result buffer holds after them. -/
import proofs.«157524_j37503654429443_1_alg».proof.Proof.Ref.Lists
import proofs.«157524_j37503654429443_1_alg».proof.Proof.Ref.Terms

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.gather Host.scatterAdd Host.reduceAdd in
set_option maxRecDepth 16384 in
set_option maxHeartbeats 8000000 in
/-- Layer 2's operations leave its result buffer at `layer` of what they find in the input buffers: each operation's
    result read off at its own buffer, every other buffer as it was. -/
theorem layer1_val (W : Valuation τ sig (Elt F)) :
    after opsL1b (after opsL1a W) (Proc.devRef .tc main_v118)
      = layer (W (Proc.devRef .tc main_v59)) (W (Proc.devRef .tc main_v1)) (W (Proc.devRef .tc main_v3)) (W (Proc.devRef .tc main_arg2))
          (mat1 (W (Proc.devRef .tc main_arg4))) (row1 (W (Proc.devRef .tc main_arg5))) (row1 (W (Proc.devRef .tc main_arg6)))
          (row1 (W (Proc.devRef .tc main_arg7))) (mat1 (W (Proc.devRef .tc main_arg8))) (row1 (W (Proc.devRef .tc main_arg9))) := by
  simp only [opsL1a, opsL1b]
  after_results_simp
  rfl

attribute [local irreducible] Host.scatterAdd in
/-- Readout 2's operations leave its result buffer at `readout` of the layer's result and the batch vector. -/
theorem readout1_val (W : Valuation τ sig (Elt F)) :
    after opsR1 W (Proc.devRef .tc main_v121) = readout (W (Proc.devRef .tc main_v118)) (W (Proc.devRef .tc main_arg3)) := by
  simp only [opsR1]
  after_results_simp
  rfl

end Cert.ReferenceIdeal.Hand

end
-- ==== Proof.Ref.Val2.lean ====
/- The third layer's operations and the final concatenation read back: from ANY contents of the buffers, what each result buffer holds after them. -/
import proofs.«157524_j37503654429443_1_alg».proof.Proof.Ref.Lists
import proofs.«157524_j37503654429443_1_alg».proof.Proof.Ref.Terms

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.gather Host.scatterAdd Host.reduceAdd in
set_option maxRecDepth 16384 in
set_option maxHeartbeats 8000000 in
/-- Layer 3's operations leave its result buffer at `layer` of what they find in the input buffers: each operation's
    result read off at its own buffer, every other buffer as it was. -/
theorem layer2_val (W : Valuation τ sig (Elt F)) :
    after opsL2b (after opsL2a W) (Proc.devRef .tc main_v177)
      = layer (W (Proc.devRef .tc main_v118)) (W (Proc.devRef .tc main_v1)) (W (Proc.devRef .tc main_v3)) (W (Proc.devRef .tc main_arg2))
          (mat2 (W (Proc.devRef .tc main_arg4))) (row2 (W (Proc.devRef .tc main_arg5))) (row2 (W (Proc.devRef .tc main_arg6)))
          (row2 (W (Proc.devRef .tc main_arg7))) (mat2 (W (Proc.devRef .tc main_arg8))) (row2 (W (Proc.devRef .tc main_arg9))) := by
  simp only [opsL2a, opsL2b]
  after_results_simp
  rfl

attribute [local irreducible] Host.scatterAdd in
/-- Readout 3's operations leave its result buffer at `readout` of the layer's result and the batch vector. -/
theorem readout2_val (W : Valuation τ sig (Elt F)) :
    after opsR2 W (Proc.devRef .tc main_v180) = readout (W (Proc.devRef .tc main_v177)) (W (Proc.devRef .tc main_arg3)) := by
  simp only [opsR2]
  after_results_simp
  rfl

/-- The last operation leaves its result buffer at the three readouts' buffers side by side. -/
theorem cat_val (W : Valuation τ sig (Elt F)) :
    after opsCat W (Proc.devRef .tc main_v181) = cat3 (W (Proc.devRef .tc main_v62)) (W (Proc.devRef .tc main_v121)) (W (Proc.devRef .tc main_v180)) := by
  simp only [opsCat]
  after_results_simp
  rfl

end Cert.ReferenceIdeal.Hand

end
-- ==== Proof.Ref.Run.lean ====
/- The reference's run: @main is the straight line of its 287 host operations, so every weakly fair execution terminates with the two result buffers at the three layers' composition and the three readouts side by side, as functions of the ten arguments' contents at launch, and the arguments unchanged. -/
import proofs.«157524_j37503654429443_1_alg».proof.Proof.Ref.Part0
import proofs.«157524_j37503654429443_1_alg».proof.Proof.Ref.Part1
import proofs.«157524_j37503654429443_1_alg».proof.Proof.Ref.Part2
import proofs.«157524_j37503654429443_1_alg».proof.Proof.Ref.Part3
import proofs.«157524_j37503654429443_1_alg».proof.Proof.Ref.Side
import proofs.«157524_j37503654429443_1_alg».proof.Proof.Ref.Val0
import proofs.«157524_j37503654429443_1_alg».proof.Proof.Ref.Val1
import proofs.«157524_j37503654429443_1_alg».proof.Proof.Ref.Val2

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 287 operations, in order. -/
abbrev ops : List (HloOp τ sig (Elt F)) :=
  opsPre ++ (opsL0a ++ (opsL0b ++ (opsR0 ++ (opsL1a ++ (opsL1b ++ (opsR1 ++ (opsL2a ++ (opsL2b ++ (opsR2 ++ opsCat)))))))))

/-- @main is that straight line: its four printed windows in order, each the line of its own operations. -/
theorem main_eq (c : Dev nD) : main (F := F) c = seq ops := by
  show (main_part0 (F := F) c >>= fun _ => main_part1 (F := F) c >>= fun _ => main_part2 (F := F) c >>= fun _ => main_part3 (F := F) c) = _
  rw [main_part0_eq, main_part1_eq, main_part2_eq, main_part3_eq]
  simp only [ops, seq_append, bind_assoc]

set_option maxRecDepth 8192 in
theorem scopedRefs_eq : (Finset.univ.filter fun b : Ref sig .tc => b.isScoped) = ∅ := by decide
theorem scopedSems_eq : (Finset.univ.filter fun sm : SemLoc sig => sm.isScoped .tc) = ∅ := by decide

theorem ops_sub : ∀ op ∈ (ops : List (HloOp τ sig (Elt F))), op.bufs ⊆ tcRefs τ sig := by
  simp only [ops, List.forall_mem_append]
  exact ⟨opsPre_sub, opsL0a_sub, opsL0b_sub, opsR0_sub, opsL1a_sub, opsL1b_sub, opsR1_sub, opsL2a_sub, opsL2b_sub, opsR2_sub, opsCat_sub⟩
theorem ops_fresh : ∀ op ∈ (ops : List (HloOp τ sig (Elt F))), op.fresh = ∅ := by
  simp only [ops, List.forall_mem_append]
  exact ⟨opsPre_fresh, opsL0a_fresh, opsL0b_fresh, opsR0_fresh, opsL1a_fresh, opsL1b_fresh, opsR1_fresh, opsL2a_fresh, opsL2b_fresh, opsR2_fresh, opsCat_fresh⟩

/-! ## The contents, stage by stage -/

/-- Two lists run one after the other: the second from what the first leaves. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The buffers every stage reads and none writes after the first: the ten arguments, and the edge table's two rows. -/
abbrev envRefs : List (Ref sig .tc) := [main_arg0, main_arg1, main_arg2, main_arg3, main_arg4, main_arg5, main_arg6, main_arg7, main_arg8, main_arg9, main_v1, main_v3]

/-- Contents `W` that still hold `V`'s arguments, and the edge table's two rows flattened. -/
structure Env (V W : Valuation τ sig (Elt F)) : Prop where
  a0 : W (Proc.devRef .tc main_arg0) = V (Proc.devRef .tc main_arg0)
  a1 : W (Proc.devRef .tc main_arg1) = V (Proc.devRef .tc main_arg1)
  a2 : W (Proc.devRef .tc main_arg2) = V (Proc.devRef .tc main_arg2)
  a3 : W (Proc.devRef .tc main_arg3) = V (Proc.devRef .tc main_arg3)
  a4 : W (Proc.devRef .tc main_arg4) = V (Proc.devRef .tc main_arg4)
  a5 : W (Proc.devRef .tc main_arg5) = V (Proc.devRef .tc main_arg5)
  a6 : W (Proc.devRef .tc main_arg6) = V (Proc.devRef .tc main_arg6)
  a7 : W (Proc.devRef .tc main_arg7) = V (Proc.devRef .tc main_arg7)
  a8 : W (Proc.devRef .tc main_arg8) = V (Proc.devRef .tc main_arg8)
  a9 : W (Proc.devRef .tc main_arg9) = V (Proc.devRef .tc main_arg9)
  src : W (Proc.devRef .tc main_v1) = srcOf (V (Proc.devRef .tc main_arg1))
  dst : W (Proc.devRef .tc main_v3) = dstOf (V (Proc.devRef .tc main_arg1))

/-- A stage that keeps those buffers keeps the property. -/
theorem Env.of_keep {V W W' : Valuation τ sig (Elt F)} (h : Env V W)
    (k : ∀ r ∈ envRefs, W' (Proc.devRef .tc r) = W (Proc.devRef .tc r)) : Env V W' :=
  ⟨(k main_arg0 (by decide)).trans h.a0, (k main_arg1 (by decide)).trans h.a1, (k main_arg2 (by decide)).trans h.a2, (k main_arg3 (by decide)).trans h.a3, (k main_arg4 (by decide)).trans h.a4, (k main_arg5 (by decide)).trans h.a5, (k main_arg6 (by decide)).trans h.a6, (k main_arg7 (by decide)).trans h.a7, (k main_arg8 (by decide)).trans h.a8, (k main_arg9 (by decide)).trans h.a9,
    (k main_v1 (by decide)).trans h.src, (k main_v3 (by decide)).trans h.dst⟩

theorem nin_opsL0a : ∀ r ∈ envRefs, r ∉ opsL0a_W := by decide
theorem nin_opsL0b : ∀ r ∈ envRefs, r ∉ opsL0b_W := by decide
theorem nin_opsR0 : ∀ r ∈ envRefs, r ∉ opsR0_W := by decide
theorem nin_opsL1a : ∀ r ∈ envRefs, r ∉ opsL1a_W := by decide
theorem nin_opsL1b : ∀ r ∈ envRefs, r ∉ opsL1b_W := by decide
theorem nin_opsR1 : ∀ r ∈ envRefs, r ∉ opsR1_W := by decide
theorem nin_opsL2a : ∀ r ∈ envRefs, r ∉ opsL2a_W := by decide
theorem nin_opsL2b : ∀ r ∈ envRefs, r ∉ opsL2b_W := by decide
theorem nin_opsR2 : ∀ r ∈ envRefs, r ∉ opsR2_W := by decide
theorem nin_opsCat : ∀ r ∈ envRefs, r ∉ opsCat_W := by decide
theorem nin_pre : ∀ r ∈ [main_arg0, main_arg1, main_arg2, main_arg3, main_arg4, main_arg5, main_arg6, main_arg7, main_arg8, main_arg9], r ∉ opsPre_W := by decide

/-- After the edge table's operations. -/
theorem Env.pre (V : Valuation τ sig (Elt F)) : Env V (after opsPre V) :=
  ⟨opsPre_keep V main_arg0 (nin_pre _ (by decide)), opsPre_keep V main_arg1 (nin_pre _ (by decide)), opsPre_keep V main_arg2 (nin_pre _ (by decide)), opsPre_keep V main_arg3 (nin_pre _ (by decide)), opsPre_keep V main_arg4 (nin_pre _ (by decide)), opsPre_keep V main_arg5 (nin_pre _ (by decide)), opsPre_keep V main_arg6 (nin_pre _ (by decide)), opsPre_keep V main_arg7 (nin_pre _ (by decide)), opsPre_keep V main_arg8 (nin_pre _ (by decide)), opsPre_keep V main_arg9 (nin_pre _ (by decide)),
    pre_src V, pre_dst V⟩

/-- A buffer layer 1 does not write keeps its contents through both its stretches. -/
theorem L0_keep (W : Valuation τ sig (Elt F)) (r : Ref sig .tc) (ha : r ∉ opsL0a_W) (hb : r ∉ opsL0b_W) :
    after opsL0b (after opsL0a W) (Proc.devRef .tc r) = W (Proc.devRef .tc r) :=
  (opsL0b_keep _ r hb).trans (opsL0a_keep W r ha)
/-- A buffer layer 2 does not write keeps its contents through both its stretches. -/
theorem L1_keep (W : Valuation τ sig (Elt F)) (r : Ref sig .tc) (ha : r ∉ opsL1a_W) (hb : r ∉ opsL1b_W) :
    after opsL1b (after opsL1a W) (Proc.devRef .tc r) = W (Proc.devRef .tc r) :=
  (opsL1b_keep _ r hb).trans (opsL1a_keep W r ha)
/-- A buffer layer 3 does not write keeps its contents through both its stretches. -/
theorem L2_keep (W : Valuation τ sig (Elt F)) (r : Ref sig .tc) (ha : r ∉ opsL2a_W) (hb : r ∉ opsL2b_W) :
    after opsL2b (after opsL2a W) (Proc.devRef .tc r) = W (Proc.devRef .tc r) :=
  (opsL2b_keep _ r hb).trans (opsL2a_keep W r ha)

/-- What the whole line leaves: the first result at the three layers' composition, the second at the three readouts side
    by side, the arguments as they were. -/
theorem after_ops (V : Valuation τ sig (Elt F)) :
    after ops V (Proc.devRef .tc main_v177) = resZ (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9))
    ∧ after ops V (Proc.devRef .tc main_v181) = resG (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))
    ∧ Env V (after ops V) := by
  simp only [ops, after_app]
  -- the edge table
  have e1 : Env V (after opsPre V) := Env.pre V
  generalize after opsPre V = W1 at e1 ⊢
  -- layer 1
  have e2 : Env V (after opsL0b (after opsL0a W1)) :=
    e1.of_keep fun r hr => L0_keep W1 r (nin_opsL0a r hr) (nin_opsL0b r hr)
  have hz1 : after opsL0b (after opsL0a W1) (Proc.devRef .tc main_v59) = z1 (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
    rw [layer0_val, e1.a0, e1.src, e1.dst, e1.a2, e1.a4, e1.a5, e1.a6, e1.a7, e1.a8, e1.a9]; rfl
  generalize after opsL0b (after opsL0a W1) = W2 at e2 hz1 ⊢
  -- readout 1
  have e3 : Env V (after opsR0 W2) := e2.of_keep fun r hr => opsR0_keep W2 r (nin_opsR0 r hr)
  have hz1' : after opsR0 W2 (Proc.devRef .tc main_v59) = z1 (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
    (opsR0_keep W2 main_v59 (by decide)).trans hz1
  have hg0 : after opsR0 W2 (Proc.devRef .tc main_v62) = readout (z1 (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9))) (V (Proc.devRef .tc main_arg3)) := by
    rw [readout0_val, hz1, e2.a3]
  generalize after opsR0 W2 = W3 at e3 hz1' hg0 ⊢
  -- layer 2
  have e4 : Env V (after opsL1b (after opsL1a W3)) :=
    e3.of_keep fun r hr => L1_keep W3 r (nin_opsL1a r hr) (nin_opsL1b r hr)
  have hz2 : after opsL1b (after opsL1a W3) (Proc.devRef .tc main_v118) = z2 (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
    rw [layer1_val, hz1', e3.src, e3.dst, e3.a2, e3.a4, e3.a5, e3.a6, e3.a7, e3.a8, e3.a9]; rfl
  have hg0' : after opsL1b (after opsL1a W3) (Proc.devRef .tc main_v62) = readout (z1 (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9))) (V (Proc.devRef .tc main_arg3)) :=
    (L1_keep W3 main_v62 (by decide) (by decide)).trans hg0
  generalize after opsL1b (after opsL1a W3) = W4 at e4 hz2 hg0' ⊢
  -- readout 2
  have e5 : Env V (after opsR1 W4) := e4.of_keep fun r hr => opsR1_keep W4 r (nin_opsR1 r hr)
  have hz2' : after opsR1 W4 (Proc.devRef .tc main_v118) = z2 (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
    (opsR1_keep W4 main_v118 (by decide)).trans hz2
  have hg0'' : after opsR1 W4 (Proc.devRef .tc main_v62) = readout (z1 (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9))) (V (Proc.devRef .tc main_arg3)) :=
    (opsR1_keep W4 main_v62 (by decide)).trans hg0'
  have hg1 : after opsR1 W4 (Proc.devRef .tc main_v121) = readout (z2 (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9))) (V (Proc.devRef .tc main_arg3)) := by
    rw [readout1_val, hz2, e4.a3]
  generalize after opsR1 W4 = W5 at e5 hz2' hg0'' hg1 ⊢
  -- layer 3
  have e6 : Env V (after opsL2b (after opsL2a W5)) :=
    e5.of_keep fun r hr => L2_keep W5 r (nin_opsL2a r hr) (nin_opsL2b r hr)
  have hz3 : after opsL2b (after opsL2a W5) (Proc.devRef .tc main_v177) = resZ (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
    rw [layer2_val, hz2', e5.src, e5.dst, e5.a2, e5.a4, e5.a5, e5.a6, e5.a7, e5.a8, e5.a9]; rfl
  have hg0₃ : after opsL2b (after opsL2a W5) (Proc.devRef .tc main_v62) = readout (z1 (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9))) (V (Proc.devRef .tc main_arg3)) :=
    (L2_keep W5 main_v62 (by decide) (by decide)).trans hg0''
  have hg1₃ : after opsL2b (after opsL2a W5) (Proc.devRef .tc main_v121) = readout (z2 (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9))) (V (Proc.devRef .tc main_arg3)) :=
    (L2_keep W5 main_v121 (by decide) (by decide)).trans hg1
  generalize after opsL2b (after opsL2a W5) = W6 at e6 hz3 hg0₃ hg1₃ ⊢
  -- readout 3
  have e7 : Env V (after opsR2 W6) := e6.of_keep fun r hr => opsR2_keep W6 r (nin_opsR2 r hr)
  have hz3' : after opsR2 W6 (Proc.devRef .tc main_v177) = resZ (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
    (opsR2_keep W6 main_v177 (by decide)).trans hz3
  have hg0₄ : after opsR2 W6 (Proc.devRef .tc main_v62) = readout (z1 (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9))) (V (Proc.devRef .tc main_arg3)) :=
    (opsR2_keep W6 main_v62 (by decide)).trans hg0₃
  have hg1₄ : after opsR2 W6 (Proc.devRef .tc main_v121) = readout (z2 (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9))) (V (Proc.devRef .tc main_arg3)) :=
    (opsR2_keep W6 main_v121 (by decide)).trans hg1₃
  have hg2 : after opsR2 W6 (Proc.devRef .tc main_v180) = readout (resZ (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9))) (V (Proc.devRef .tc main_arg3)) := by
    rw [readout2_val, hz3, e6.a3]
  generalize after opsR2 W6 = W7 at e7 hz3' hg0₄ hg1₄ hg2 ⊢
  -- the concatenation
  refine ⟨(opsCat_keep W7 main_v177 (by decide)).trans hz3', ?_, e7.of_keep fun r hr => opsCat_keep W7 r (nin_opsCat r hr)⟩
  rw [cat_val, hg0₄, hg1₄, hg2]; rfl

/-! ## The run -/

/-- On every device, for any float values, from any memory with zero counters: every weakly fair execution of @main
    terminates with the first result at the three layers' composition of the arguments, the second at the three readouts
    side by side, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v177)
        = resZ (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v181)
        = resG (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
      have A := after_ops (F := F) (launchContents m c)
      ⟨(h c main_v177).trans A.1, (h c main_v181).trans A.2.1,
        (h c main_arg0).trans A.2.2.a0, (h c main_arg1).trans A.2.2.a1, (h c main_arg2).trans A.2.2.a2, (h c main_arg3).trans A.2.2.a3, (h c main_arg4).trans A.2.2.a4, (h c main_arg5).trans A.2.2.a5, (h c main_arg6).trans A.2.2.a6, (h c main_arg7).trans A.2.2.a7, (h c main_arg8).trans A.2.2.a8,
        (h c main_arg9).trans A.2.2.a9⟩)
    (run_seq scopedRefs_eq scopedSems_eq defs main (fun _ => ops) main_eq (fun _ => List.forall_iff_forall_mem.2 ops_sub) m ρ
      (fun _ => ops_fresh))

end Cert.ReferenceIdeal.Hand

end
-- ==== Proof.Bridge.Common.lean ====
/- The vocabulary the two programs share. Their shapes, slices, gathers and scatters are the same terms printed twice, so
   the edge table's two rows and the wrapped node indices agree on the nose; and the zero word, broadcast from a scalar
   to any shape, is the number zero at every index. -/
import proofs.«157524_j37503654429443_1_alg».proof.Proof.KI.Terms
import proofs.«157524_j37503654429443_1_alg».proof.Proof.Ref.Terms
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Bridge

open Idealize.ShloMosaic Idealize.ShloMosaic.ValueIdx
open Cert.KernelIdeal (S_ S512 S1x512 S512x512 S1x512x512 S3x512 S3x512x512 S20000 S20000x1 S20000x512 S160000 S160000x1 S160000x512 S2x160000 S128x512 S128x1536)

/-! ## The same operations under two names -/

/-- The sources, the targets and the wrapped node indices of the edges are the same arrays in both programs. -/
theorem srcOf_eq (ei : IVec S2x160000 32) : Cert.KernelIdeal.Hand.srcOf ei = Cert.ReferenceIdeal.Hand.srcOf ei := rfl
@[inherit_doc srcOf_eq]
theorem dstOf_eq (ei : IVec S2x160000 32) : Cert.KernelIdeal.Hand.dstOf ei = Cert.ReferenceIdeal.Hand.dstOf ei := rfl
@[inherit_doc srcOf_eq]
theorem wrapIdx_eq (src : IVec S160000 32) : Cert.KernelIdeal.Hand.wrapIdx src = Cert.ReferenceIdeal.Hand.wrapIdx src := rfl

/-- The zero word broadcast from a scalar, read at any index, is the number zero. -/
theorem bcast_zero {t : Shape} (h : (⟨0, ![]⟩ : Shape).BroadcastsInDim t ![]) (j : t.Idx) :
    broadcastInDim t ![] h (constant (F := Ideal) (⟨0, ![]⟩ : Shape) .f32 0x00000000#32) j = (0 : EReal) := by
  show Ideal.ofBits .f32 0x00000000#32 = 0
  exact Ideal.ofBits_zero_f32

end Cert.Bridge
-- ==== Proof.Bridge.Edge.lean ====
/- The edge function is the reference's message: for every edge and channel, the source node's feature plus the edge's
   feature, cut below at zero. -/
import proofs.«157524_j37503654429443_1_alg».proof.Proof.Bridge.Common

noncomputable section

open scoped BigOperators

namespace Cert.Bridge

open Idealize.ShloMosaic Idealize.ShloMosaic.ValueIdx
open Cert.KernelIdeal (S_ S512 S1x512 S512x512 S1x512x512 S3x512 S3x512x512 S20000 S20000x1 S20000x512 S160000 S160000x1 S160000x512 S2x160000 S128x512 S128x1536)

/-- Entry by entry: the gathered row plus the edge's features, cut below at zero — the reference takes the maximum with
    a broadcast zero word, which is the number zero; the gathers are the same operation on the same wrapped indices. -/
theorem edge_eq (z : FVec Ideal S20000x512 .f32) (src : IVec S160000 32) (ew : FVec Ideal S160000x512 .f32) :
    Cert.KernelIdeal.Hand.Gedge (Cert.KernelIdeal.Hand.gathered z src) ew = Cert.ReferenceIdeal.Hand.msg (F := Ideal) z src ew := by
  funext i
  rw [Cert.KernelIdeal.Hand.Gedge_apply]
  unfold Cert.ReferenceIdeal.Hand.msg Cert.KernelIdeal.Hand.gathered
  rw [maximumf_apply, addf_apply, bcast_zero]
  rfl

end Cert.Bridge
-- ==== Proof.Bridge.Read.lean ====
/- Reading the shared layout operations at an index, on the extended reals: a vector over the 512 channels as a one-row
   matrix and back, a row or a vector repeated down the 20000 nodes, the maximum with zero, and the host's product of the
   node features with a weight matrix as a sum over the contracted channel. Also: the weight matrix of a layer and the
   batch's mean and variance are the same operations in both programs. -/
import proofs.«157524_j37503654429443_1_alg».proof.Proof.Bridge.Common

noncomputable section

open scoped BigOperators

namespace Cert.Bridge

open Idealize.ShloMosaic Idealize.ShloMosaic.ValueIdx
open Cert.KernelIdeal (S_ S512 S1x512 S512x512 S1x512x512 S3x512 S3x512x512 S20000 S20000x1 S20000x512 S160000 S160000x1 S160000x512 S2x160000 S128x512 S128x1536)

/-! ## Definitions written twice -/

/-- A layer's weight matrix, and the batch's mean and variance, are the same operations in both programs. -/
theorem wT_eq (wl : FVec Ideal S1x512x512 .f32) : Cert.KernelIdeal.Hand.wT wl = Cert.ReferenceIdeal.Hand.wT (F := Ideal) wl := rfl
@[inherit_doc wT_eq]
theorem mean_eq (h : FVec Ideal S20000x512 .f32) : Cert.KernelIdeal.Hand.mean h = Cert.ReferenceIdeal.Hand.mean (F := Ideal) h := rfl
@[inherit_doc wT_eq]
theorem var_eq (h : FVec Ideal S20000x512 .f32) : Cert.KernelIdeal.Hand.var h = Cert.ReferenceIdeal.Hand.var (F := Ideal) h := rfl

/-! ## Rows and vectors read at an index -/

/-- A vector over the channels as a one-row matrix: entry `(0, c)` is entry `c`. -/
theorem rowOf_apply (v : FVec Ideal S512 .f32) (c : Fin 512) : Cert.KernelIdeal.Hand.rowOf v (ix2 (0 : Fin 1) c) = v (ix1 c) := by
  unfold Cert.KernelIdeal.Hand.rowOf
  exact shapeCast_a_1a_apply v _ 0 c

/-- A one-row matrix as a vector over the channels: entry `c` is entry `(0, c)`. -/
theorem vecOf_apply (bl : FVec Ideal S1x512 .f32) (c : Fin 512) : Cert.KernelIdeal.Hand.vecOf bl (ix1 c) = bl (ix2 (0 : Fin 1) c) := by
  unfold Cert.KernelIdeal.Hand.vecOf
  exact shapeCast_1a_a_apply bl _ c

/-- Both in one: a one-row matrix taken as a vector and back reads as itself. -/
theorem rowOf_vecOf_apply (bl : FVec Ideal S1x512 .f32) (c : Fin 512) :
    Cert.KernelIdeal.Hand.rowOf (Cert.KernelIdeal.Hand.vecOf bl) (ix2 (0 : Fin 1) c) = bl (ix2 (0 : Fin 1) c) := by
  rw [rowOf_apply, vecOf_apply]

/-- A vector over the channels repeated down the nodes: entry `(r, c)` is entry `c`. -/
theorem colB_apply (v : FVec Ideal S512 .f32) (r : Fin 20000) (c : Fin 512) : Cert.ReferenceIdeal.Hand.colB (F := Ideal) v (ix2 r c) = v (ix1 c) := by
  unfold Cert.ReferenceIdeal.Hand.colB
  rw [broadcastInDim_apply _ _ _ (ix2 r c) (ix2 (0 : Fin 1) c) (fun a => by match a with | ⟨0, _⟩ => rfl | ⟨1, _⟩ => rfl),
    broadcastInDim_apply _ _ _ (ix2 (0 : Fin 1) c) (ix1 c) (fun a => by match a with | ⟨0, _⟩ => rfl)]

/-- A one-row matrix repeated down the nodes: entry `(r, c)` is entry `(0, c)`. -/
theorem rowB_apply (bl : FVec Ideal S1x512 .f32) (r : Fin 20000) (c : Fin 512) :
    Cert.ReferenceIdeal.Hand.rowB (F := Ideal) bl (ix2 r c) = bl (ix2 (0 : Fin 1) c) := by
  unfold Cert.ReferenceIdeal.Hand.rowB
  rw [broadcastInDim_apply _ _ _ (ix2 r c) (ix2 (0 : Fin 1) c) (fun a => by match a with | ⟨0, _⟩ => rfl | ⟨1, _⟩ => rfl),
    broadcastInDim_apply _ _ _ (ix2 (0 : Fin 1) c) (ix1 c) (fun a => by match a with | ⟨0, _⟩ => rfl)]
  exact shapeCast_1a_a_apply bl _ c

/-! ## The maximum with zero, and the host's product, read at an index -/

/-- The reference's activation at an entry: the maximum of the entry and the number zero. -/
theorem relu_apply (x : FVec Ideal S20000x512 .f32) (i : S20000x512.Idx) : Cert.ReferenceIdeal.Hand.relu (F := Ideal) x i = max (x i) 0 := by
  unfold Cert.ReferenceIdeal.Hand.relu
  rw [maximumf_apply, bcast_zero]

/-- The host's product of node features with a weight matrix at entry `(r, c)`: the sum over the contracted channel
    `k` of entry `(r, k)` of the features times entry `(k, c)` of the weights. -/
theorem dot_apply (A : FVec Ideal S20000x512 .f32) (B : FVec Ideal S512x512 .f32) (r : Fin 20000) (c : Fin 512) :
    Host.dotGeneral Cert.ReferenceIdeal.dot_S20000x512_S512x512_S20000x512_1_0_0_1_n_n none A B (ix2 r c) = ∑ k : Fin 512, A (ix2 r k) * B (ix2 k c) := by
  simp only [Host.dotGeneral]
  rw [Ideal.dotGeneral_apply, ← Equiv.sum_comp (contrEquiv1 Cert.ReferenceIdeal.dot_S20000x512_S512x512_S20000x512_1_0_0_1_n_n 512 rfl rfl).symm]
  refine Finset.sum_congr rfl fun k _ => ?_
  have ck := contrEquiv1_symm_val Cert.ReferenceIdeal.dot_S20000x512_S512x512_S20000x512_1_0_0_1_n_n 512 rfl rfl k
  have l2 : (Cert.ReferenceIdeal.dot_S20000x512_S512x512_S20000x512_1_0_0_1_n_n).lhsIdx (ix2 r c) ((contrEquiv1 _ 512 rfl rfl).symm k) = ix2 r k := by
    funext ax; apply Fin.ext
    match ax with
    | ⟨0, _⟩ => simp [DotDims.lhsIdx, Cert.ReferenceIdeal.dot_S20000x512_S512x512_S20000x512_1_0_0_1_n_n]; rfl
    | ⟨1, _⟩ => simp [DotDims.lhsIdx, Cert.ReferenceIdeal.dot_S20000x512_S512x512_S20000x512_1_0_0_1_n_n]; exact ck
  have r2 : (Cert.ReferenceIdeal.dot_S20000x512_S512x512_S20000x512_1_0_0_1_n_n).rhsIdx (ix2 r c) ((contrEquiv1 _ 512 rfl rfl).symm k) = ix2 k c := by
    funext ax; apply Fin.ext
    match ax with
    | ⟨0, _⟩ => simp [DotDims.rhsIdx, Cert.ReferenceIdeal.dot_S20000x512_S512x512_S20000x512_1_0_0_1_n_n]; exact ck
    | ⟨1, _⟩ => simp [DotDims.rhsIdx, Cert.ReferenceIdeal.dot_S20000x512_S512x512_S20000x512_1_0_0_1_n_n]; rfl
  rw [l2, r2]

end Cert.Bridge
-- ==== Proof.Bridge.Mlp1.lean ====
/- The first dense function is the reference's first linear map: the node features plus the summed messages, times the
   layer's transposed weights, plus the layer's bias row. -/
import proofs.«157524_j37503654429443_1_alg».proof.Proof.Bridge.Read

noncomputable section

open scoped BigOperators

namespace Cert.Bridge

open Idealize.ShloMosaic Idealize.ShloMosaic.ValueIdx
open Cert.KernelIdeal (S_ S512 S1x512 S512x512 S1x512x512 S3x512 S3x512x512 S20000 S20000x1 S20000x512 S160000 S160000x1 S160000x512 S2x160000 S128x512 S128x1536)

/-- Entry `(r, c)`: the sum over the channel `k` of (feature plus summed message) at `(r, k)` times the weight at
    `(k, c)`, plus the bias of channel `c` — the reference's product of the summed features with the same transposed
    weights, plus the bias row repeated down the nodes. -/
theorem mlp1_eq (x a : FVec Ideal S20000x512 .f32) (w1l : FVec Ideal S1x512x512 .f32) (b1l : FVec Ideal S1x512 .f32) :
    Cert.KernelIdeal.Hand.Gmlp1 x a (Cert.KernelIdeal.Hand.wT w1l) (Cert.KernelIdeal.Hand.rowOf (Cert.KernelIdeal.Hand.vecOf b1l)) = Cert.ReferenceIdeal.Hand.lin (F := Ideal) (addf x a) w1l b1l := by
  funext i
  obtain ⟨r, c, rfl⟩ : ∃ (r : Fin 20000) (c : Fin 512), i = ix2 r c := ⟨i 0, i 1, eq_ix2 i⟩
  show (∑ k : Fin 512, (x (ix2 r k) + a (ix2 r k)) * Cert.KernelIdeal.Hand.wT w1l (ix2 k c)) + Cert.KernelIdeal.Hand.rowOf (Cert.KernelIdeal.Hand.vecOf b1l) (ix2 (0 : Fin 1) c)
    = Cert.ReferenceIdeal.Hand.lin (F := Ideal) (addf x a) w1l b1l (ix2 r c)
  unfold Cert.ReferenceIdeal.Hand.lin
  rw [addf_apply, dot_apply, rowB_apply, rowOf_vecOf_apply, wT_eq]
  rfl

end Cert.Bridge
-- ==== Proof.Bridge.Mlp2.lean ====
/- The second dense function is the rest of the reference's layer: batch normalization with the batch's own mean and
   variance, the activation, the second linear map, the activation. The reciprocal square root is one function on the
   extended reals whichever program names it; both sides do the same operations in the same order, so nothing is used
   beyond reading each operation at an entry. -/
import proofs.«157524_j37503654429443_1_alg».proof.Proof.Bridge.Read

noncomputable section

open scoped BigOperators

namespace Cert.Bridge

open Idealize.ShloMosaic Idealize.ShloMosaic.ValueIdx
open Cert.KernelIdeal (S_ S512 S1x512 S512x512 S1x512x512 S3x512 S3x512x512 S20000 S20000x1 S20000x512 S160000 S160000x1 S160000x512 S2x160000 S128x512 S128x1536)

/-- Entry `(r, c)`: normalize row `r` with the batch's mean and variance, scale, shift, cut below at zero, take the
    product with column `c` of the weights, add the bias, cut below at zero — the reference's chain read at the same
    entry, operation by operation, in the same order. -/
theorem mlp2_eq (h : FVec Ideal S20000x512 .f32) (gl bl : FVec Ideal S1x512 .f32) (w2l : FVec Ideal S1x512x512 .f32) (b2l : FVec Ideal S1x512 .f32) :
    Cert.KernelIdeal.Hand.Gmlp2 h (Cert.KernelIdeal.Hand.rowOf (Cert.KernelIdeal.Hand.mean h)) (Cert.KernelIdeal.Hand.rowOf (Cert.KernelIdeal.Hand.var h)) (Cert.KernelIdeal.Hand.rowOf (Cert.KernelIdeal.Hand.vecOf gl)) (Cert.KernelIdeal.Hand.rowOf (Cert.KernelIdeal.Hand.vecOf bl))
        (Cert.KernelIdeal.Hand.wT w2l) (Cert.KernelIdeal.Hand.rowOf (Cert.KernelIdeal.Hand.vecOf b2l))
      = Cert.ReferenceIdeal.Hand.relu (F := Ideal) (Cert.ReferenceIdeal.Hand.lin (Cert.ReferenceIdeal.Hand.relu (Cert.ReferenceIdeal.Hand.bn h gl bl)) w2l b2l) := by
  funext i
  obtain ⟨r, c, rfl⟩ : ∃ (r : Fin 20000) (c : Fin 512), i = ix2 r c := ⟨i 0, i 1, eq_ix2 i⟩
  show max ((∑ k : Fin 512, Cert.KernelIdeal.Hand.mlp2Act (h (ix2 r k)) (Cert.KernelIdeal.Hand.rowOf (Cert.KernelIdeal.Hand.mean h) (ix2 (0 : Fin 1) k)) (Cert.KernelIdeal.Hand.rowOf (Cert.KernelIdeal.Hand.var h) (ix2 (0 : Fin 1) k))
        (Cert.KernelIdeal.Hand.rowOf (Cert.KernelIdeal.Hand.vecOf gl) (ix2 (0 : Fin 1) k)) (Cert.KernelIdeal.Hand.rowOf (Cert.KernelIdeal.Hand.vecOf bl) (ix2 (0 : Fin 1) k)) * Cert.KernelIdeal.Hand.wT w2l (ix2 k c))
      + Cert.KernelIdeal.Hand.rowOf (Cert.KernelIdeal.Hand.vecOf b2l) (ix2 (0 : Fin 1) c)) 0
    = Cert.ReferenceIdeal.Hand.relu (F := Ideal) (Cert.ReferenceIdeal.Hand.lin (Cert.ReferenceIdeal.Hand.relu (Cert.ReferenceIdeal.Hand.bn h gl bl)) w2l b2l) (ix2 r c)
  rw [relu_apply]
  unfold Cert.ReferenceIdeal.Hand.lin
  rw [addf_apply, dot_apply, rowB_apply, rowOf_vecOf_apply, wT_eq]
  refine congrArg (fun s => max (s + b2l (ix2 (0 : Fin 1) c)) 0) (Finset.sum_congr rfl fun k _ => ?_)
  refine congrArg (· * Cert.ReferenceIdeal.Hand.wT (F := Ideal) w2l (ix2 k c)) ?_
  rw [relu_apply, rowOf_apply, rowOf_apply, rowOf_vecOf_apply, rowOf_vecOf_apply, mean_eq, var_eq]
  unfold Cert.KernelIdeal.Hand.mlp2Act Cert.ReferenceIdeal.Hand.bn
  rw [addf_apply, mulf_apply, mulf_apply, subf_apply, colB_apply, colB_apply, rowB_apply, rowB_apply]
  rfl

end Cert.Bridge
-- ==== Proof.Bridge.Net.lean ====
/- A layer of the kernel program is a layer of the reference, and so are the network's two results: the node features
   after three layers, and the three layers' per-graph sums side by side. -/
import proofs.«157524_j37503654429443_1_alg».proof.Proof.Bridge.Edge
import proofs.«157524_j37503654429443_1_alg».proof.Proof.Bridge.Mlp1
import proofs.«157524_j37503654429443_1_alg».proof.Proof.Bridge.Mlp2

noncomputable section

open scoped BigOperators

namespace Cert.Bridge

open Idealize.ShloMosaic Idealize.ShloMosaic.ValueIdx
open Cert.KernelIdeal (S_ S512 S1x512 S512x512 S1x512x512 S3x512 S3x512x512 S20000 S20000x1 S20000x512 S160000 S160000x1 S160000x512 S2x160000 S128x512 S128x1536)

/-! ## More definitions written twice -/

/-- The slices of the stacked parameters, the readout and the concatenation are the same operations in both programs. -/
theorem mat0_eq (w : FVec Ideal S3x512x512 .f32) : Cert.KernelIdeal.Hand.mat0 w = Cert.ReferenceIdeal.Hand.mat0 (F := Ideal) w := rfl
@[inherit_doc mat0_eq]
theorem mat1_eq (w : FVec Ideal S3x512x512 .f32) : Cert.KernelIdeal.Hand.mat1 w = Cert.ReferenceIdeal.Hand.mat1 (F := Ideal) w := rfl
@[inherit_doc mat0_eq]
theorem mat2_eq (w : FVec Ideal S3x512x512 .f32) : Cert.KernelIdeal.Hand.mat2 w = Cert.ReferenceIdeal.Hand.mat2 (F := Ideal) w := rfl
@[inherit_doc mat0_eq]
theorem row0_eq (b : FVec Ideal S3x512 .f32) : Cert.KernelIdeal.Hand.row0 b = Cert.ReferenceIdeal.Hand.row0 (F := Ideal) b := rfl
@[inherit_doc mat0_eq]
theorem row1_eq (b : FVec Ideal S3x512 .f32) : Cert.KernelIdeal.Hand.row1 b = Cert.ReferenceIdeal.Hand.row1 (F := Ideal) b := rfl
@[inherit_doc mat0_eq]
theorem row2_eq (b : FVec Ideal S3x512 .f32) : Cert.KernelIdeal.Hand.row2 b = Cert.ReferenceIdeal.Hand.row2 (F := Ideal) b := rfl
@[inherit_doc mat0_eq]
theorem readout_eq (z : FVec Ideal S20000x512 .f32) (batch : IVec S20000 32) : Cert.KernelIdeal.Hand.readout z batch = Cert.ReferenceIdeal.Hand.readout (F := Ideal) z batch := rfl
@[inherit_doc mat0_eq]
theorem cat3_eq (g0 g1 g2 : FVec Ideal S128x512 .f32) : Cert.KernelIdeal.Hand.cat3 g0 g1 g2 = Cert.ReferenceIdeal.Hand.cat3 (F := Ideal) g0 g1 g2 := rfl

/-- The reference's messages summed at their target nodes: the same scatter of the same messages. -/
theorem summed_msg_eq (z : FVec Ideal S20000x512 .f32) (src dst : IVec S160000 32) (ew : FVec Ideal S160000x512 .f32) :
    Cert.KernelIdeal.Hand.summed (Cert.ReferenceIdeal.Hand.msg (F := Ideal) z src ew) dst = Cert.ReferenceIdeal.Hand.aggr (F := Ideal) z src dst ew := rfl

/-! ## One layer -/

/-- The first dense function of the node features and the summed edge function is the reference's first linear map of
    the features plus the summed messages. -/
theorem hidden_eq (z : FVec Ideal S20000x512 .f32) (src dst : IVec S160000 32) (ew : FVec Ideal S160000x512 .f32)
    (w1l : FVec Ideal S1x512x512 .f32) (b1l : FVec Ideal S1x512 .f32) :
    Cert.KernelIdeal.Hand.hidden z src dst ew w1l b1l = Cert.ReferenceIdeal.Hand.lin (F := Ideal) (addf z (Cert.ReferenceIdeal.Hand.aggr z src dst ew)) w1l b1l := by
  unfold Cert.KernelIdeal.Hand.hidden
  rw [mlp1_eq, edge_eq, summed_msg_eq]

/-- A layer of the kernel program is a layer of the reference. -/
theorem layer_eq (z : FVec Ideal S20000x512 .f32) (src dst : IVec S160000 32) (ew : FVec Ideal S160000x512 .f32)
    (w1l : FVec Ideal S1x512x512 .f32) (b1l gl bl : FVec Ideal S1x512 .f32) (w2l : FVec Ideal S1x512x512 .f32) (b2l : FVec Ideal S1x512 .f32) :
    Cert.KernelIdeal.Hand.layerK z src dst ew w1l b1l gl bl w2l b2l = Cert.ReferenceIdeal.Hand.layer (F := Ideal) z src dst ew w1l b1l gl bl w2l b2l := by
  unfold Cert.KernelIdeal.Hand.layerK Cert.ReferenceIdeal.Hand.layer
  rw [hidden_eq, mlp2_eq]

/-! ## The network -/

section Net

variable (x : FVec Ideal S20000x512 .f32) (ei : IVec S2x160000 32) (ew : FVec Ideal S160000x512 .f32) (batch : IVec S20000 32)
  (w1 : FVec Ideal S3x512x512 .f32) (b1 gamma beta : FVec Ideal S3x512 .f32) (w2 : FVec Ideal S3x512x512 .f32) (b2 : FVec Ideal S3x512 .f32)

/-- The node features after the first layer. -/
theorem z1_eq : Cert.KernelIdeal.Hand.z1K x ei ew w1 b1 gamma beta w2 b2 = Cert.ReferenceIdeal.Hand.z1 (F := Ideal) x ei ew w1 b1 gamma beta w2 b2 := by
  unfold Cert.KernelIdeal.Hand.z1K Cert.ReferenceIdeal.Hand.z1
  rw [layer_eq]
  simp only [srcOf_eq, dstOf_eq, mat0_eq, row0_eq]

/-- The node features after the second layer. -/
theorem z2_eq : Cert.KernelIdeal.Hand.z2K x ei ew w1 b1 gamma beta w2 b2 = Cert.ReferenceIdeal.Hand.z2 (F := Ideal) x ei ew w1 b1 gamma beta w2 b2 := by
  unfold Cert.KernelIdeal.Hand.z2K Cert.ReferenceIdeal.Hand.z2
  rw [layer_eq, z1_eq]
  simp only [srcOf_eq, dstOf_eq, mat1_eq, row1_eq]

include batch in
/-- The first result: the node features after the third layer. -/
theorem resZ_eq : Cert.KernelIdeal.Hand.resZK x ei ew w1 b1 gamma beta w2 b2 = Cert.ReferenceIdeal.Hand.resZ (F := Ideal) x ei ew w1 b1 gamma beta w2 b2 := by
  unfold Cert.KernelIdeal.Hand.resZK Cert.ReferenceIdeal.Hand.resZ
  rw [layer_eq, z2_eq]
  simp only [srcOf_eq, dstOf_eq, mat2_eq, row2_eq]

/-- The second result: the three layers' readouts side by side. -/
theorem resG_eq : Cert.KernelIdeal.Hand.resGK x ei ew batch w1 b1 gamma beta w2 b2 = Cert.ReferenceIdeal.Hand.resG (F := Ideal) x ei ew batch w1 b1 gamma beta w2 b2 := by
  unfold Cert.KernelIdeal.Hand.resGK Cert.ReferenceIdeal.Hand.resG
  rw [resZ_eq x ei ew batch, z2_eq, z1_eq, cat3_eq, readout_eq, readout_eq, readout_eq]

end Net

end Cert.Bridge
-- ==== Proof.Bridge.lean ====
/- The bridge between the two programs on the extended reals: `Cert.Bridge.layer_eq`, `Cert.Bridge.resZ_eq`,
   `Cert.Bridge.resG_eq`. -/
import proofs.«157524_j37503654429443_1_alg».proof.Proof.Bridge.Net
-- ==== Proof.lean ====
/- The proof of `Cert.Claim`: a three-layer graph network — per layer, messages along the edges (the source node's features plus
   the edge's, clipped below at zero), their sum at the target nodes, a linear map, a batch normalization with the batch's own
   mean and variance, a second linear map, each activation a maximum with zero; after every layer the node features summed per
   graph — computed by nine pipelined kernels among host operations, against the same network written with host operations only.

   FRAMES. Each of the kernel program's nine regions is a grid of points whose body loads its windows' blocks whole, computes,
   and stores the output block whole; its run gives the region's record, and the records chain through the host stretches to the
   program's run (the word-level program and its idealization share this text). The reference is a straight line of host operations.

   VALUES, on the extended reals. A region's output array is ONE function of its operand arrays (`Gedge`, `Gmlp1`, `Gmlp2`): block `t`
   of the function is what point `t` writes back, and the blocks cover the array. Read through the host stretches, the kernel
   program's two results are the three layers' composition `resZK` and the three readouts side by side `resGK`; the reference's are
   `resZ` and `resG`. The two agree operation by operation: a change of float format is the identity, the matrix product into a
   zero accumulator is the host's contraction (the same sum over the 512 input channels), the kernels' reciprocal square root is
   the host's, and the host operations around the regions (gather, the two scatter-adds, mean, variance, slices, the concatenate)
   are the same on both sides. No law of arithmetic is used beyond reading arrays at an index, so the inputs' finiteness is never
   opened. The idealization rewrote nothing, so `preserves` asks nothing. -/
import proofs.«157524_j37503654429443_1_alg».proof.Defs
import proofs.«157524_j37503654429443_1_alg».proof.Proof.Gen.Kernel
import proofs.«157524_j37503654429443_1_alg».proof.Proof.Gen.KernelIdeal
import proofs.«157524_j37503654429443_1_alg».proof.Proof.Gen.ReferenceIdeal
import proofs.«157524_j37503654429443_1_alg».proof.Proof.Gen.Pre_finite_inputs
import proofs.«157524_j37503654429443_1_alg».proof.Proof.K.RunMain
import proofs.«157524_j37503654429443_1_alg».proof.Proof.KI.Value
import proofs.«157524_j37503654429443_1_alg».proof.Proof.Ref.Run
import proofs.«157524_j37503654429443_1_alg».proof.Proof.Bridge
import Idealize.ShloMosaic.Adequacy
import Idealize.ShloMosaic.Init

noncomputable section

namespace Cert.Proof

open Idealize.ShloMosaic Idealize.SL.Sem

/-- The word-level kernel program runs to the end and leaves its arguments as launched. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference's run with the results dropped. -/
theorem frame_ri : Cert.frame_ReferenceIdeal := fun m ρ _ =>
  (θ_run Cert.ReferenceIdeal.defs _ _).mono (fun _ h c => (h c).2.2) (Cert.ReferenceIdeal.Hand.run (F := Ideal) m ρ)

/-- From memories agreeing on the arguments both programs run to the end with the node features after the third layer and the
    three readouts side by side: the kernel program's by its run and the bridge, the reference's by its run at the agreed arguments. -/
theorem algebraic : Cert.algebraic_KernelIdeal_ReferenceIdeal := by
  intro m ρ m' ρ' _ hagree
  refine ⟨fun c => Cert.ReferenceIdeal.Hand.resZ (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.ReferenceIdeal.Hand.resG (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun r h c => ?_) (Cert.KernelIdeal.Hand.run_value m ρ)
    exact ⟨(h c).1.trans (Cert.Bridge.resZ_eq _ _ _ (m ((c.tc : Thread Cert.KernelIdeal.nD Cert.KernelIdeal.τ).loc Cert.KernelIdeal.main_arg3)) _ _ _ _ _ _),
      (h c).2.1.trans (Cert.Bridge.resG_eq _ _ _ _ _ _ _ _ _ _), (h c).2.2⟩
  · refine (θ_run Cert.ReferenceIdeal.defs _ _).mono (fun r h c => ?_) (Cert.ReferenceIdeal.Hand.run (F := Ideal) m' ρ')
    obtain ⟨e0, e1, e2, e3, e4, e5, e6, e7, e8, e9⟩ := hagree c
    refine ⟨(h c).1.trans ?_, (h c).2.1.trans ?_, (h c).2.2⟩
    · rw [e0, e1, e2, e4, e5, e6, e7, e8, e9]
    · rw [e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
